-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v237)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S2 : Shape := ⟨1, ![2]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S2 : S_.BroadcastsInDim S2 (![] : Fin 0 → Fin S2.rank)
  reducesTo_S2_S_d0 : S2.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S2 .f32) (main_arg14 : FVec F S64x40 .f32) (main_arg15 : FVec F S40 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S64x40 .f32 := Host.absf main_arg14
  let main_cst_22 : FVec F S_ .f32 := constant S_ .f32 0x7F800000#32
  let main_v60 : FVec F S64x40 .f32 := broadcastInDim S64x40 ![] bcast_S_S64x40 main_cst_22
  let main_v61 : IVec S64x40 1 := cmpf .olt main_v59 main_v60
  let main_c_23 : IVec S_ 1 := constantI S_ 1 1#1
  let main_v62 : IVec S_ 1 := (fun x v => Host.reduce IntOp.andi x v reducesTo_S64x40_S_d0_1 h_S_) main_v61 main_c_23
  let main_v63 : IVec S_ 1 := andi main_v58 main_v62
  let main_v64 : FVec F S40 .f32 := Host.absf main_arg15
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_v63 main_v67

def fn_part2 {F : FTy → Type} [FloatOps F] (main_arg9 : FVec F S64x64 .f32) (main_arg10 : FVec F S64x64 .f32) (main_arg11 : FVec F S64x64 .f32) (main_arg12 : FVec F S2 .f32) (main_arg13 : FVec F S2 .f32) (main_arg14 : FVec F S64x40 .f32) (main_arg15 : FVec F S40 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_arg13 main_arg14 main_arg15 main_v48 main_v49 main_v50

def fn_part1 {F : FTy → Type} [FloatOps F] (main_arg6 : FVec F S64x64 .f32) (main_arg7 : FVec F S64x64 .f32) (main_arg8 : FVec F S64x64 .f32) (main_arg9 : FVec F S64x64 .f32) (main_arg10 : FVec F S64x64 .f32) (main_arg11 : FVec F S64x64 .f32) (main_arg12 : FVec F S2 .f32) (main_arg13 : FVec F S2 .f32) (main_arg14 : FVec F S64x40 .f32) (main_arg15 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : IVec S100000 32) (main_arg3 : FVec F S64x64 .f32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) (main_arg10 : FVec F S64x64 .f32) (main_arg11 : FVec F S64x64 .f32) (main_arg12 : FVec F S2 .f32) (main_arg13 : FVec F S2 .f32) (main_arg14 : FVec F S64x40 .f32) (main_arg15 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S2 : Shape := ⟨1, ![2]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S100000x128 : Shape := ⟨2, ![100000, 128]⟩
abbrev S100000x1 : Shape := ⟨2, ![100000, 1]⟩
abbrev S5000x64 : Shape := ⟨2, ![5000, 64]⟩
abbrev S5000x1 : Shape := ⟨2, ![5000, 1]⟩
abbrev S1 : Shape := ⟨1, ![1]⟩
abbrev S1x1 : Shape := ⟨2, ![1, 1]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 327
  | .vmem => 55
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S2, .f32⟩
  | 13 => ⟨S2, .f32⟩
  | 14 => ⟨S64x40, .f32⟩
  | 15 => ⟨S40, .f32⟩
  | 16 => ⟨S1x1600000, .i32⟩
  | 17 => ⟨S1600000, .i32⟩
  | 18 => ⟨S1x1600000, .i32⟩
  | 19 => ⟨S1600000, .i32⟩
  | 20 => ⟨S100000, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .i1⟩
  | 34 => ⟨S_, .f32⟩
  | 35 => ⟨S_, .f32⟩
  | 36 => ⟨S1600000, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .i1⟩
  | 48 => ⟨S100000, .f32⟩
  | 49 => ⟨S_, .f32⟩
  | 50 => ⟨S_, .f32⟩
  | 51 => ⟨S100000, .f32⟩
  | 52 => ⟨S100000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S100000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S1600000, .i1⟩
  | 84 => ⟨S_, .f32⟩
  | 85 => ⟨S_, .f32⟩
  | 86 => ⟨S1600000, .f32⟩
  | 87 => ⟨S1600000, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S_, .f32⟩
  | 96 => ⟨S100000, .f32⟩
  | 97 => ⟨S100000, .i1⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S100000, .f32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .i1⟩
  | 6 => ⟨S_, .f32⟩
  | 7 => ⟨S_, .f32⟩
  | 8 => ⟨S1600000, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .i1⟩
  | 56 => ⟨S_, .f32⟩
  | 57 => ⟨S_, .f32⟩
  | 58 => ⟨S1600000, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .i1⟩
  | 70 => ⟨S100000, .f32⟩
  | 71 => ⟨S_, .f32⟩
  | 72 => ⟨S_, .f32⟩
  | 73 => ⟨S100000, .f32⟩
  | 74 => ⟨S100000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S1600000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S1600000, .f32⟩
  | 95 => ⟨S100000, .f32⟩
  | 96 => ⟨S100000x64, .bf16⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .bf16⟩
  | 106 => ⟨S1600000x64, .f32⟩
  | 107 => ⟨S1600000x1, .f32⟩
  | 108 => ⟨S1600000x64, .f32⟩
  | 109 => ⟨S1600000x64, .f32⟩
  | 110 => ⟨S1600000x1, .f32⟩
  | 111 => ⟨S1600000x64, .f32⟩
  | 112 => ⟨S1600000x64, .f32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000x64, .f32⟩
  | 119 => ⟨S100000x64, .f32⟩
  | 120 => ⟨S100000x1, .f32⟩
  | 121 => ⟨S100000x64, .f32⟩
  | 122 => ⟨S100000x1, .f32⟩
  | 123 => ⟨S100000x64, .f32⟩
  | 124 => ⟨S100000x128, .f32⟩
  | 125 => ⟨S100000x128, .bf16⟩
  | 126 => ⟨S_, .i32⟩
  | 127 => ⟨S1600000, .i32⟩
  | _ => ⟨S100000x64, .f32⟩

abbrev hbmTy0_2 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .bf16⟩
  | 7 => ⟨S1600000x128, .f32⟩
  | 8 => ⟨S1600000x64, .f32⟩
  | 9 => ⟨S1600000x64, .f32⟩
  | 10 => ⟨S1600000x1, .f32⟩
  | 11 => ⟨S1600000x64, .f32⟩
  | 12 => ⟨S1600000x64, .f32⟩
  | 13 => ⟨S1600000x1, .f32⟩
  | 14 => ⟨S1600000x64, .f32⟩
  | 15 => ⟨S1600000x64, .f32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S100000x64, .f32⟩
  | 22 => ⟨S100000x64, .f32⟩
  | 23 => ⟨S100000x1, .f32⟩
  | 24 => ⟨S100000x64, .f32⟩
  | 25 => ⟨S100000x1, .f32⟩
  | 26 => ⟨S100000x64, .f32⟩
  | 27 => ⟨S_, .f32⟩
  | 28 => ⟨S_, .f32⟩
  | 29 => ⟨S_, .f32⟩
  | 30 => ⟨S_, .f32⟩
  | 31 => ⟨S1, .f32⟩
  | 32 => ⟨S2, .f32⟩
  | 33 => ⟨S2, .f32⟩
  | 34 => ⟨S2, .f32⟩
  | 35 => ⟨S_, .f32⟩
  | 36 => ⟨S_, .f32⟩
  | 37 => ⟨S1, .f32⟩
  | 38 => ⟨S2, .f32⟩
  | 39 => ⟨S2, .f32⟩
  | 40 => ⟨S1, .f32⟩
  | 41 => ⟨S_, .f32⟩
  | 42 => ⟨S1, .f32⟩
  | 43 => ⟨S_, .f32⟩
  | 44 => ⟨S_, .f32⟩
  | 45 => ⟨S_, .f32⟩
  | 46 => ⟨S_, .f32⟩
  | 47 => ⟨S_, .f32⟩
  | 48 => ⟨S1, .f32⟩
  | 49 => ⟨S2, .f32⟩
  | 50 => ⟨S2, .f32⟩
  | 51 => ⟨S2, .f32⟩
  | 52 => ⟨S_, .f32⟩
  | 53 => ⟨S_, .f32⟩
  | 54 => ⟨S1, .f32⟩
  | 55 => ⟨S2, .f32⟩
  | 56 => ⟨S2, .f32⟩
  | 57 => ⟨S1, .f32⟩
  | 58 => ⟨S_, .f32⟩
  | 59 => ⟨S1, .f32⟩
  | 60 => ⟨S_, .f32⟩
  | 61 => ⟨S100000, .f32⟩
  | 62 => ⟨S100000, .f32⟩
  | 63 => ⟨S100000, .f32⟩
  | 64 => ⟨S100000, .f32⟩
  | 65 => ⟨S100000, .f32⟩
  | 66 => ⟨S1x1, .f32⟩
  | 67 => ⟨S1x1, .f32⟩
  | 68 => ⟨S100000x1, .f32⟩
  | 69 => ⟨S1x40, .f32⟩
  | 70 => ⟨S100000x40, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S64x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S5000x1, .f32⟩
  | .local _ .vmem, ⟨44, _⟩ => ⟨S5000x1, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S1x1, .f32⟩
  | .local _ .vmem, ⟨50, _⟩ => ⟨S1x1, .f32⟩
  | .local _ .vmem, ⟨51, _⟩ => ⟨S64x40, .f32⟩
  | .local _ .vmem, ⟨52, _⟩ => ⟨S1x40, .f32⟩
  | .local _ .vmem, ⟨53, _⟩ => ⟨S5000x40, .f32⟩
  | .local _ .vmem, ⟨54, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_c_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v50 : Ref sig .tc := ⟨.hbm, 87, rfl⟩
abbrev main_cst_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_cst_15 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_16 : Ref sig .tc := ⟨.hbm, 99, rfl⟩
abbrev main_call3_v0 : Ref sig .tc := ⟨.hbm, 100, rfl⟩
abbrev main_call3_v1 : Ref sig .tc := ⟨.hbm, 101, rfl⟩
abbrev main_v59 : Ref sig .tc := ⟨.hbm, 102, rfl⟩
abbrev main_c_17 : Ref sig .tc := ⟨.hbm, 103, rfl⟩
abbrev main_v60 : Ref sig .tc := ⟨.hbm, 104, rfl⟩
abbrev main_v61 : Ref sig .tc := ⟨.hbm, 105, rfl⟩
abbrev main_c_18 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_19 : Ref sig .tc := ⟨.hbm, 113, rfl⟩
abbrev main_v68 : Ref sig .tc := ⟨.hbm, 114, rfl⟩
abbrev main_v69 : Ref sig .tc := ⟨.hbm, 115, rfl⟩
abbrev main_c_20 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_21 : Ref sig .tc := ⟨.hbm, 124, rfl⟩
abbrev main_v77 : Ref sig .tc := ⟨.hbm, 125, rfl⟩
abbrev main_v78 : Ref sig .tc := ⟨.hbm, 126, rfl⟩
abbrev main_c_22 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_23 : Ref sig .tc := ⟨.hbm, 134, rfl⟩
abbrev main_call4_v0 : Ref sig .tc := ⟨.hbm, 135, rfl⟩
abbrev main_call4_v1 : Ref sig .tc := ⟨.hbm, 136, rfl⟩
abbrev main_v85 : Ref sig .tc := ⟨.hbm, 137, rfl⟩
abbrev main_cst_24 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_25 : Ref sig .tc := ⟨.hbm, 142, rfl⟩
abbrev main_v89 : Ref sig .tc := ⟨.hbm, 143, rfl⟩
abbrev main_v90 : Ref sig .tc := ⟨.hbm, 144, rfl⟩
abbrev main_cst_26 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_27 : Ref sig .tc := ⟨.hbm, 149, rfl⟩
abbrev main_call5_v0 : Ref sig .tc := ⟨.hbm, 150, rfl⟩
abbrev main_call5_v1 : Ref sig .tc := ⟨.hbm, 151, rfl⟩
abbrev main_v94 : Ref sig .tc := ⟨.hbm, 152, rfl⟩
abbrev main_c_28 : Ref sig .tc := ⟨.hbm, 153, rfl⟩
abbrev main_v95 : Ref sig .tc := ⟨.hbm, 154, rfl⟩
abbrev main_v96 : Ref sig .tc := ⟨.hbm, 155, rfl⟩
abbrev main_c_29 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_30 : Ref sig .tc := ⟨.hbm, 163, rfl⟩
abbrev main_v103 : Ref sig .tc := ⟨.hbm, 164, rfl⟩
abbrev main_v104 : Ref sig .tc := ⟨.hbm, 165, rfl⟩
abbrev main_c_31 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_32 : Ref sig .tc := ⟨.hbm, 174, rfl⟩
abbrev main_v112 : Ref sig .tc := ⟨.hbm, 175, rfl⟩
abbrev main_v113 : Ref sig .tc := ⟨.hbm, 176, rfl⟩
abbrev main_c_33 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_34 : Ref sig .tc := ⟨.hbm, 184, rfl⟩
abbrev main_call6_v0 : Ref sig .tc := ⟨.hbm, 185, rfl⟩
abbrev main_call6_v1 : Ref sig .tc := ⟨.hbm, 186, rfl⟩
abbrev main_v120 : Ref sig .tc := ⟨.hbm, 187, rfl⟩
abbrev main_cst_35 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_36 : Ref sig .tc := ⟨.hbm, 192, rfl⟩
abbrev main_v124 : Ref sig .tc := ⟨.hbm, 193, rfl⟩
abbrev main_v125 : Ref sig .tc := ⟨.hbm, 194, rfl⟩
abbrev main_cst_37 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_cst_38 : Ref sig .tc := ⟨.hbm, 199, rfl⟩
abbrev main_call7_v0 : Ref sig .tc := ⟨.hbm, 200, rfl⟩
abbrev main_call7_v1 : Ref sig .tc := ⟨.hbm, 201, rfl⟩
abbrev main_v129 : Ref sig .tc := ⟨.hbm, 202, rfl⟩
abbrev main_c_39 : Ref sig .tc := ⟨.hbm, 203, rfl⟩
abbrev main_v130 : Ref sig .tc := ⟨.hbm, 204, rfl⟩
abbrev main_v131 : Ref sig .tc := ⟨.hbm, 205, rfl⟩
abbrev main_c_40 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_41 : Ref sig .tc := ⟨.hbm, 213, rfl⟩
abbrev main_v138 : Ref sig .tc := ⟨.hbm, 214, rfl⟩
abbrev main_v139 : Ref sig .tc := ⟨.hbm, 215, rfl⟩
abbrev main_c_42 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_c_43 : Ref sig .tc := ⟨.hbm, 225, rfl⟩
abbrev main_v148 : Ref sig .tc := ⟨.hbm, 226, rfl⟩
abbrev main_v149 : Ref sig .tc := ⟨.hbm, 227, rfl⟩
abbrev main_c_44 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_cst_45 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_c_46 : Ref sig .tc := ⟨.hbm, 254, rfl⟩
abbrev main_v174 : Ref sig .tc := ⟨.hbm, 255, rfl⟩
abbrev main_v175 : Ref sig .tc := ⟨.hbm, 256, rfl⟩
abbrev main_c_47 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_cst_48 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_cst_49 : Ref sig .tc := ⟨.hbm, 283, rfl⟩
abbrev main_v200 : Ref sig .tc := ⟨.hbm, 284, rfl⟩
abbrev main_cst_50 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_cst_51 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_cst_52 : Ref sig .tc := ⟨.hbm, 300, rfl⟩
abbrev main_v214 : Ref sig .tc := ⟨.hbm, 301, rfl⟩
abbrev main_cst_53 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_cst_54 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg4_1 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg9_0 : Ref sig .tc := ⟨.vmem, 53, rfl⟩
abbrev cc4_stg9_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc4_sem4_0 : DmaSem sig := 47
abbrev cc4_sem4_1 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem9_1 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x40 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x40 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x40 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bitsLt_bf16_f32 : FTy.bits .bf16 < FTy.bits .f32
  bcast_S1600000x1_S1600000x64_0_1 : S1600000x1.BroadcastsInDim S1600000x64 (![0, 1] : Fin 2 → Fin S1600000x64.rank)
  concatenates_S1600000x64_S1600000x64_S1600000x128_d1 : Shape.Concatenates [S1600000x64, S1600000x64] S1600000x128 1
  bcast_S_S100000x128 : S_.BroadcastsInDim S100000x128 (![] : Fin 0 → Fin S100000x128.rank)
  slices_S100000x128_S100000x64_0_0 : S100000x128.Slices ![0, 0] S100000x64
  slices_S100000x128_S100000x64_0_64 : S100000x128.Slices ![0, 64] S100000x64
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  concatenates_S100000x64_S100000x64_S100000x128_d1 : Shape.Concatenates [S100000x64, S100000x64] S100000x128 1
  slices_S1600000x128_S1600000x64_0_0 : S1600000x128.Slices ![0, 0] S1600000x64
  slices_S1600000x128_S1600000x64_0_64 : S1600000x128.Slices ![0, 64] S1600000x64
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  shapeCasts_S_S1x1 : S_.ShapeCasts S1x1
  shapeCasts_S40_S1x40 : S40.ShapeCasts S1x40
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x64 : S1x1.Broadcasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x128_S1600000x1_S1600000x128_1_0_0_1_wf : ScatterDims.WF S100000x128 S1600000x1 S1600000x128 [1] [0] [0] 1
  dot_S5000x64_S64x64_S5000x64_1_0_0_1_n_n_wf : DotDims.WF S5000x64 S64x64 S5000x64 [1] [0] [0] [1] [] []
  gather_S100000x128_S1600000x1_S1600000x128_1_0_n_n_0_1_1128_wf : GatherDims.WF S100000x128 S1600000x1 S1600000x128 [1] [0] [] [0] [] 1 ![1, 128]
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x40.size a ≤ S64x40.size a
  hwx4_7 : ∀ i : grid4.Coords, EltTy.bits .f32 = 32 ∨ (Rect.block (s := S64x40) S64x40.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x40.size a ≤ S1x40.size a
  hwx4_8 : ∀ i : grid4.Coords, EltTy.bits .f32 = 32 ∨ (Rect.block (s := S1x40) S1x40.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x40.size a ≤ S100000x40.size a
  hwx4_9 : ∀ i : grid4.Coords, EltTy.bits .f32 = 32 ∨ (Rect.block (s := S100000x40) S5000x40.size (cc4_transform_9 i) (hinb4_9 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v166) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v168) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v169) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v167) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v170) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v171) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v194) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v196) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v169) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v197) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v195) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v198) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v171) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v199) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v235) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v197) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v199) S5000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v233) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v234) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg14) S64x40.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v236) S1x40.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v237) S5000x40.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S2 : Shape := ⟨1, ![2]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1 : Shape := ⟨1, ![1]⟩
abbrev S100000x40 : Shape := ⟨2, ![100000, 40]⟩
abbrev S1x40 : Shape := ⟨2, ![1, 40]⟩

abbrev nBuf : Space → Nat
  | .hbm => 378
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S2, .f32⟩
  | 13 => ⟨S2, .f32⟩
  | 14 => ⟨S64x40, .f32⟩
  | 15 => ⟨S40, .f32⟩
  | 16 => ⟨S1x1600000, .i32⟩
  | 17 => ⟨S1600000, .i32⟩
  | 18 => ⟨S1x1600000, .i32⟩
  | 19 => ⟨S1600000, .i32⟩
  | 20 => ⟨S100000, .f32⟩
  | 21 => ⟨S_, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .i1⟩
  | 34 => ⟨S_, .f32⟩
  | 35 => ⟨S_, .f32⟩
  | 36 => ⟨S1600000, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .i1⟩
  | 48 => ⟨S100000, .f32⟩
  | 49 => ⟨S_, .f32⟩
  | 50 => ⟨S_, .f32⟩
  | 51 => ⟨S100000, .f32⟩
  | 52 => ⟨S100000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S100000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S1600000, .i1⟩
  | 84 => ⟨S_, .f32⟩
  | 85 => ⟨S_, .f32⟩
  | 86 => ⟨S1600000, .f32⟩
  | 87 => ⟨S1600000, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S_, .f32⟩
  | 96 => ⟨S100000, .f32⟩
  | 97 => ⟨S100000, .i1⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S100000, .f32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .i1⟩
  | 6 => ⟨S_, .f32⟩
  | 7 => ⟨S_, .f32⟩
  | 8 => ⟨S1600000, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S100000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .i1⟩
  | 56 => ⟨S_, .f32⟩
  | 57 => ⟨S_, .f32⟩
  | 58 => ⟨S1600000, .f32⟩
  | 59 => ⟨S1600000, .f32⟩
  | 60 => ⟨S_, .f32⟩
  | 61 => ⟨S100000, .f32⟩
  | 62 => ⟨S1600000x1, .i32⟩
  | 63 => ⟨S100000, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .i1⟩
  | 70 => ⟨S100000, .f32⟩
  | 71 => ⟨S_, .f32⟩
  | 72 => ⟨S_, .f32⟩
  | 73 => ⟨S100000, .f32⟩
  | 74 => ⟨S100000, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S1600000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S1600000, .f32⟩
  | 95 => ⟨S100000, .f32⟩
  | 96 => ⟨S1600000x1, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x64, .f32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x1, .f32⟩
  | 113 => ⟨S100000x64, .f32⟩
  | 114 => ⟨S100000x64, .f32⟩
  | 115 => ⟨S100000x64, .f32⟩
  | 116 => ⟨S100000x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1600000x1, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_2 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1600000x64, .f32⟩
  | 5 => ⟨S1600000x64, .f32⟩
  | 6 => ⟨S_, .f32⟩
  | 7 => ⟨S100000x64, .f32⟩
  | 8 => ⟨S1600000x1, .i32⟩
  | 9 => ⟨S100000x64, .f32⟩
  | 10 => ⟨S100000x1, .f32⟩
  | 11 => ⟨S100000x64, .f32⟩
  | 12 => ⟨S100000x64, .f32⟩
  | 13 => ⟨S100000x64, .f32⟩
  | 14 => ⟨S100000x64, .f32⟩
  | 15 => ⟨S100000x64, .f32⟩
  | 16 => ⟨S100000x64, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S1600000x64, .f32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S100000x1, .f32⟩
  | 34 => ⟨S100000x64, .f32⟩
  | 35 => ⟨S100000x64, .f32⟩
  | 36 => ⟨S100000x64, .f32⟩
  | 37 => ⟨S100000x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000x1, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S1, .f32⟩
  | 72 => ⟨S2, .f32⟩
  | 73 => ⟨S2, .f32⟩
  | 74 => ⟨S2, .f32⟩
  | 75 => ⟨S_, .f32⟩
  | 76 => ⟨S_, .f32⟩
  | 77 => ⟨S1, .f32⟩
  | 78 => ⟨S2, .f32⟩
  | 79 => ⟨S2, .f32⟩
  | 80 => ⟨S1, .f32⟩
  | 81 => ⟨S_, .f32⟩
  | 82 => ⟨S1, .f32⟩
  | 83 => ⟨S_, .f32⟩
  | 84 => ⟨S_, .f32⟩
  | 85 => ⟨S_, .f32⟩
  | 86 => ⟨S_, .f32⟩
  | 87 => ⟨S_, .f32⟩
  | 88 => ⟨S1, .f32⟩
  | 89 => ⟨S2, .f32⟩
  | 90 => ⟨S2, .f32⟩
  | 91 => ⟨S2, .f32⟩
  | 92 => ⟨S_, .f32⟩
  | 93 => ⟨S_, .f32⟩
  | 94 => ⟨S1, .f32⟩
  | 95 => ⟨S2, .f32⟩
  | 96 => ⟨S2, .f32⟩
  | 97 => ⟨S1, .f32⟩
  | 98 => ⟨S_, .f32⟩
  | 99 => ⟨S1, .f32⟩
  | 100 => ⟨S_, .f32⟩
  | 101 => ⟨S100000, .f32⟩
  | 102 => ⟨S100000, .f32⟩
  | 103 => ⟨S100000, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x40, .f32⟩
  | 119 => ⟨S1x40, .f32⟩
  | 120 => ⟨S100000x40, .f32⟩
  | 121 => ⟨S100000x40, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_c_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v50 : Ref sig .tc := ⟨.hbm, 87, rfl⟩
abbrev main_cst_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_cst_15 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_16 : Ref sig .tc := ⟨.hbm, 99, rfl⟩
abbrev main_call3_v0 : Ref sig .tc := ⟨.hbm, 100, rfl⟩
abbrev main_call3_v1 : Ref sig .tc := ⟨.hbm, 101, rfl⟩
abbrev main_v59 : Ref sig .tc := ⟨.hbm, 102, rfl⟩
abbrev main_c_17 : Ref sig .tc := ⟨.hbm, 103, rfl⟩
abbrev main_v60 : Ref sig .tc := ⟨.hbm, 104, rfl⟩
abbrev main_v61 : Ref sig .tc := ⟨.hbm, 105, rfl⟩
abbrev main_c_18 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_19 : Ref sig .tc := ⟨.hbm, 113, rfl⟩
abbrev main_v68 : Ref sig .tc := ⟨.hbm, 114, rfl⟩
abbrev main_v69 : Ref sig .tc := ⟨.hbm, 115, rfl⟩
abbrev main_c_20 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_21 : Ref sig .tc := ⟨.hbm, 124, rfl⟩
abbrev main_v77 : Ref sig .tc := ⟨.hbm, 125, rfl⟩
abbrev main_v78 : Ref sig .tc := ⟨.hbm, 126, rfl⟩
abbrev main_c_22 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_23 : Ref sig .tc := ⟨.hbm, 134, rfl⟩
abbrev main_call4_v0 : Ref sig .tc := ⟨.hbm, 135, rfl⟩
abbrev main_call4_v1 : Ref sig .tc := ⟨.hbm, 136, rfl⟩
abbrev main_v85 : Ref sig .tc := ⟨.hbm, 137, rfl⟩
abbrev main_cst_24 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_25 : Ref sig .tc := ⟨.hbm, 142, rfl⟩
abbrev main_v89 : Ref sig .tc := ⟨.hbm, 143, rfl⟩
abbrev main_v90 : Ref sig .tc := ⟨.hbm, 144, rfl⟩
abbrev main_cst_26 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_27 : Ref sig .tc := ⟨.hbm, 149, rfl⟩
abbrev main_call5_v0 : Ref sig .tc := ⟨.hbm, 150, rfl⟩
abbrev main_call5_v1 : Ref sig .tc := ⟨.hbm, 151, rfl⟩
abbrev main_v94 : Ref sig .tc := ⟨.hbm, 152, rfl⟩
abbrev main_c_28 : Ref sig .tc := ⟨.hbm, 153, rfl⟩
abbrev main_v95 : Ref sig .tc := ⟨.hbm, 154, rfl⟩
abbrev main_v96 : Ref sig .tc := ⟨.hbm, 155, rfl⟩
abbrev main_c_29 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_30 : Ref sig .tc := ⟨.hbm, 163, rfl⟩
abbrev main_v103 : Ref sig .tc := ⟨.hbm, 164, rfl⟩
abbrev main_v104 : Ref sig .tc := ⟨.hbm, 165, rfl⟩
abbrev main_c_31 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_32 : Ref sig .tc := ⟨.hbm, 174, rfl⟩
abbrev main_v112 : Ref sig .tc := ⟨.hbm, 175, rfl⟩
abbrev main_v113 : Ref sig .tc := ⟨.hbm, 176, rfl⟩
abbrev main_c_33 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_34 : Ref sig .tc := ⟨.hbm, 184, rfl⟩
abbrev main_call6_v0 : Ref sig .tc := ⟨.hbm, 185, rfl⟩
abbrev main_call6_v1 : Ref sig .tc := ⟨.hbm, 186, rfl⟩
abbrev main_v120 : Ref sig .tc := ⟨.hbm, 187, rfl⟩
abbrev main_cst_35 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_36 : Ref sig .tc := ⟨.hbm, 192, rfl⟩
abbrev main_v124 : Ref sig .tc := ⟨.hbm, 193, rfl⟩
abbrev main_v125 : Ref sig .tc := ⟨.hbm, 194, rfl⟩
abbrev main_cst_37 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_cst_38 : Ref sig .tc := ⟨.hbm, 199, rfl⟩
abbrev main_call7_v0 : Ref sig .tc := ⟨.hbm, 200, rfl⟩
abbrev main_call7_v1 : Ref sig .tc := ⟨.hbm, 201, rfl⟩
abbrev main_v129 : Ref sig .tc := ⟨.hbm, 202, rfl⟩
abbrev main_c_39 : Ref sig .tc := ⟨.hbm, 203, rfl⟩
abbrev main_v130 : Ref sig .tc := ⟨.hbm, 204, rfl⟩
abbrev main_v131 : Ref sig .tc := ⟨.hbm, 205, rfl⟩
abbrev main_c_40 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_41 : Ref sig .tc := ⟨.hbm, 213, rfl⟩
abbrev main_v138 : Ref sig .tc := ⟨.hbm, 214, rfl⟩
abbrev main_v139 : Ref sig .tc := ⟨.hbm, 215, rfl⟩
abbrev main_c_42 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_c_43 : Ref sig .tc := ⟨.hbm, 225, rfl⟩
abbrev main_v148 : Ref sig .tc := ⟨.hbm, 226, rfl⟩
abbrev main_v149 : Ref sig .tc := ⟨.hbm, 227, rfl⟩
abbrev main_c_44 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_cst_45 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_call8_cst : Ref sig .tc := ⟨.hbm, 247, rfl⟩
abbrev main_call8_v0 : Ref sig .tc := ⟨.hbm, 248, rfl⟩
abbrev main_v167 : Ref sig .tc := ⟨.hbm, 249, rfl⟩
abbrev main_v168 : Ref sig .tc := ⟨.hbm, 250, rfl⟩
abbrev main_c_46 : Ref sig .tc := ⟨.hbm, 251, rfl⟩
abbrev main_v169 : Ref sig .tc := ⟨.hbm, 252, rfl⟩
abbrev main_v170 : Ref sig .tc := ⟨.hbm, 253, rfl⟩
abbrev main_c_47 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_cst_48 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_c_49 : Ref sig .tc := ⟨.hbm, 274, rfl⟩
abbrev main_v189 : Ref sig .tc := ⟨.hbm, 275, rfl⟩
abbrev main_v190 : Ref sig .tc := ⟨.hbm, 276, rfl⟩
abbrev main_c_50 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_cst_51 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_call9_cst : Ref sig .tc := ⟨.hbm, 296, rfl⟩
abbrev main_call9_v0 : Ref sig .tc := ⟨.hbm, 297, rfl⟩
abbrev main_v208 : Ref sig .tc := ⟨.hbm, 298, rfl⟩
abbrev main_v209 : Ref sig .tc := ⟨.hbm, 299, rfl⟩
abbrev main_c_52 : Ref sig .tc := ⟨.hbm, 300, rfl⟩
abbrev main_v210 : Ref sig .tc := ⟨.hbm, 301, rfl⟩
abbrev main_v211 : Ref sig .tc := ⟨.hbm, 302, rfl⟩
abbrev main_c_53 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_cst_54 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_cst_55 : Ref sig .tc := ⟨.hbm, 323, rfl⟩
abbrev main_v230 : Ref sig .tc := ⟨.hbm, 324, rfl⟩
abbrev main_cst_56 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_cst_57 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_cst_58 : Ref sig .tc := ⟨.hbm, 340, rfl⟩
abbrev main_v244 : Ref sig .tc := ⟨.hbm, 341, rfl⟩
abbrev main_cst_59 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_cst_60 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_call10_cst : Ref sig .tc := ⟨.hbm, 371, rfl⟩
abbrev main_call10_v0 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run, with its result named.

  The program is five pipelined regions among stretches of host operations.  Every weakly fair execution from a memory
  `m` terminates without a fault; at the end every unscoped buffer holds what the fold of the segments leaves in it.
  Read at the argument buffers this is the frame (they end as launched); read at the result buffer it says the result
  is what the last region's write-backs leave there: the last boundary's contents at that buffer.
-/
import proofs.«169779_j77360950935705_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the sixteen argument buffers end as launched. -/
theorem run_result : θ_run defs (onTc (τ := τ) (main (F := F))) ⟨m, fun _ => 0, ρ⟩ (fun r => ∀ c : Dev nD,
      r.2.mem ((c.tc : Thread nD τ).loc main_v237) = W26 m ρ c (Proc.devRef .tc main_v237)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v237 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c)⟩)

end Cert.KernelIdeal.RunValue

end
-- ==== Proof.RefRunStaged.S00.lean ====
/-
  The reference's operations 0 to 21 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 0 to 21, in order. -/
abbrev chunk00 : List (HloOp τ sig (Elt F)) :=
  [ unary main_arg1 main_v0 ((extractStridedSlice S1x1600000 ![1, 0] · slices_S2x1600000_S1x1600000_1_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_arg2 main_v4 (sitofp .f32 : (⟨S100000, .i32⟩ : BufTy).Contents (Elt F) → (⟨S100000, .f32⟩ : BufTy).Contents (Elt F)),
    nullary main_cst (constant S_ .f32 0x3F800000#32),
    unary main_cst main_v5 (broadcastInDim S100000 ![] bcast_S_S100000 : (⟨S_, .f32⟩ : BufTy).Contents (Elt F) → (⟨S100000, .f32⟩ : BufTy).Contents (Elt F)),
    binary main_v5 main_v4 main_v6 (subf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_v1 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v9 (broadcastInDim S1600000 ![] bcast_S_S1600000 : (⟨S_, .i32⟩ : BufTy).Contents (Elt F) → (⟨S1600000, .i32⟩ : BufTy).Contents (Elt F)),
    binary main_v1 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_v1 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_v4 main_v12 main_v13 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v1 main_v3 main_v14 (cmpi .eq : (⟨S1600000, .i32⟩ : BufTy).Contents (Elt F) → (⟨S1600000, .i32⟩ : BufTy).Contents (Elt F) → (⟨S1600000, .i1⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S1600000, .f32⟩) main_call0_v1) (broadcastInDim S1600000 ![] bcast_S_S1600000),
    TRef.ternary (TRef.of (T := ⟨S1600000, .i1⟩) main_v14) (TRef.of (T := ⟨S1600000, .f32⟩) main_call0_v1) (TRef.of (T := ⟨S1600000, .f32⟩) main_v13) (TRef.of (T := ⟨S1600000, .f32⟩) main_v15) select ]

/-- Each touches TensorCore references only. -/
theorem chunk00_sub : (chunk00 : List (HloOp τ sig (Elt F))).Forall fun op => op.bufs ⊆ tcRefs τ sig :=
  ⟨unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub ..⟩

/-- None allocates a buffer. -/
theorem chunk00_fresh : ∀ op ∈ (chunk00 : List (HloOp τ sig (Elt F))), op.fresh = ∅ := by
  intro _ h; (repeat (cases h with | head => rfl | tail _ h => ?_)); exact nomatch h

/-- The buffers the list writes. -/
abbrev chunk00_W : List (Ref sig .tc) := [main_v0, main_v1, main_v2, main_v3, main_v4, main_cst, main_v5, main_v6, main_c, main_v7, main_v8, main_c_0, main_v9, main_v10, main_v11, main_v12, main_v13, main_v14, main_cst_1, main_call0_v0, main_call0_v1, main_v15]

theorem chunk00_writes : (chunk00 : List (HloOp τ sig (Elt F))).Forall fun op => op.writes ⊆ (chunk00_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk00_keep (V : Valuation τ sig (Elt F)) (r : Ref sig .tc) (h : r ∉ chunk00_W) :
    after chunk00 V (Proc.devRef .tc r) = V (Proc.devRef .tc r) :=
  after_of_writes_sub chunk00 V chunk00_writes h

set_option maxHeartbeats 2000000 in
theorem s00_v1 (V : Valuation τ sig (Elt F)) (x1 : (⟨S2x1600000, .i32⟩ : BufTy).Contents (Elt F))
    (h_arg1 : V (no_index (Proc.devRef .tc main_arg1)) = x1) :
    after chunk00 V (Proc.devRef .tc main_v1) = ReadP.val_main_v1 (F := F) x1 := by
  stretch_simp [chunk00, h_arg1]
  try rfl

set_option maxHeartbeats 2000000 in
theorem s00_v3 (V : Valuation τ sig (Elt F)) (x1 : (⟨S2x1600000, .i32⟩ : BufTy).Contents (Elt F))
    (h_arg1 : V (no_index (Proc.devRef .tc main_arg1)) = x1) :
    after chunk00 V (Proc.devRef .tc main_v3) = ReadP.val_main_v3 (F := F) x1 := by
  stretch_simp [chunk00, h_arg1]
  try rfl

set_option maxHeartbeats 2000000 in
theorem s00_v4 (V : Valuation τ sig (Elt F)) (x2 : (⟨S100000, .i32⟩ : BufTy).Contents (Elt F))
    (h_arg2 : V (no_index (Proc.devRef .tc main_arg2)) = x2) :
    after chunk00 V (Proc.devRef .tc main_v4) = ReadP.val_main_v4 (F := F) x2 := by
  stretch_simp [chunk00, h_arg2]
  try rfl

set_option maxHeartbeats 2000000 in
theorem s00_v6 (V : Valuation τ sig (Elt F)) (x2 : (⟨S100000, .i32⟩ : BufTy).Contents (Elt F))
    (h_arg2 : V (no_index (Proc.devRef .tc main_arg2)) = x2) :
    after chunk00 V (Proc.devRef .tc main_v6) = ReadP.val_main_v6 (F := F) x2 := by
  stretch_simp [chunk00, h_arg2]
  try rfl

set_option maxHeartbeats 2000000 in
theorem s00_v15 (V : Valuation τ sig (Elt F)) (x1 : (⟨S2x1600000, .i32⟩ : BufTy).Contents (Elt F)) (x2 : (⟨S100000, .i32⟩ : BufTy).Contents (Elt F))
    (h_arg1 : V (no_index (Proc.devRef .tc main_arg1)) = x1)
    (h_arg2 : V (no_index (Proc.devRef .tc main_arg2)) = x2) :
    after chunk00 V (Proc.devRef .tc main_v15) = ReadP.val_main_v15 (F := F) x1 x2 := by
  stretch_simp [chunk00, h_arg1, h_arg2]
  try rfl

end Cert.ReferenceIdeal.Staged

end
-- ==== Proof.RefRunStaged.S01.lean ====
/-
  The reference's operations 22 to 46 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 22 to 46, in order. -/
abbrev chunk01 : List (HloOp τ sig (Elt F)) :=
  [ nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    unary main_v1 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v19 (broadcastInDim S100000 ![] bcast_S_S100000 : (⟨S_, .f32⟩ : BufTy).Contents (Elt F) → (⟨S100000, .f32⟩ : BufTy).Contents (Elt F)),
    binary main_v18 main_v19 main_v20 (addf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    unary main_cst_4 main_v21 (broadcastInDim S100000 ![] bcast_S_S100000 : (⟨S_, .f32⟩ : BufTy).Contents (Elt F) → (⟨S100000, .f32⟩ : BufTy).Contents (Elt F)),
    binary main_v20 main_v21 main_v22 (cmpf .ogt : (⟨S100000, .f32⟩ : BufTy).Contents (Elt F) → (⟨S100000, .f32⟩ : BufTy).Contents (Elt F) → (⟨S100000, .i1⟩ : BufTy).Contents (Elt F)),
    unary main_v20 main_v23 (Host.rsqrt : (⟨S100000, .f32⟩ : BufTy).Contents (Elt F) → (⟨S100000, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v22) (TRef.of (T := ⟨S100000, .f32⟩) main_v23) (TRef.of (T := ⟨S100000, .f32⟩) main_call1_v1) (TRef.of (T := ⟨S100000, .f32⟩) main_v24) select,
    nullary main_c_6 (constantI S_ 32 0#32),
    unary main_c_6 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_v24 main_v30 main_v31 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v31 main_v15 main_v32 (mulf : (⟨S1600000, .f32⟩ : BufTy).Contents (Elt F) → (⟨S1600000, .f32⟩ : BufTy).Contents (Elt F) → (⟨S1600000, .f32⟩ : BufTy).Contents (Elt F)) ]

/-- Each touches TensorCore references only. -/
theorem chunk01_sub : (chunk01 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem chunk01_fresh : ∀ op ∈ (chunk01 : List (HloOp τ sig (Elt F))), op.fresh = ∅ := by
  intro _ h; (repeat (cases h with | head => rfl | tail _ h => ?_)); exact nomatch h

/-- The buffers the list writes. -/
abbrev chunk01_W : List (Ref sig .tc) := [main_cst_2, main_v16, main_v17, main_v18, main_cst_3, main_v19, main_v20, main_cst_4, main_v21, main_v22, main_v23, main_cst_5, main_call1_v0, main_call1_v1, main_v24, main_c_6, main_v25, main_v26, main_c_7, main_v27, main_v28, main_v29, main_v30, main_v31, main_v32]

theorem chunk01_writes : (chunk01 : List (HloOp τ sig (Elt F))).Forall fun op => op.writes ⊆ (chunk01_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk01_keep (V : Valuation τ sig (Elt F)) (r : Ref sig .tc) (h : r ∉ chunk01_W) :
    after chunk01 V (Proc.devRef .tc r) = V (Proc.devRef .tc r) :=
  after_of_writes_sub chunk01 V chunk01_writes h

set_option maxHeartbeats 2000000 in
theorem s01_v24 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v15 : V (no_index (Proc.devRef .tc main_v15)) = ReadP.val_main_v15 (F := F) x1 x2) :
    after chunk01 V (Proc.devRef .tc main_v24) = ReadP.val_main_v24 (F := F) x1 x2 := by
  stretch_simp [chunk01, h_v1, h_v15]
  try rfl

set_option maxHeartbeats 2000000 in
theorem s01_v32 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v15 : V (no_index (Proc.devRef .tc main_v15)) = ReadP.val_main_v15 (F := F) x1 x2) :
    after chunk01 V (Proc.devRef .tc main_v32) = ReadP.val_main_v32 (F := F) x1 x2 := by
  stretch_simp [chunk01, h_v1, h_v15]
  try rfl

end Cert.ReferenceIdeal.Staged

end
-- ==== Proof.RefRunStaged.S02.lean ====
/-
  The reference's operations 47 to 64 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 47 to 64, in order. -/
abbrev chunk02 : List (HloOp τ sig (Elt F)) :=
  [ nullary main_c_8 (constantI S_ 32 0#32),
    unary main_c_8 main_v33 (broadcastInDim S1600000 ![] bcast_S_S1600000 : (⟨S_, .i32⟩ : BufTy).Contents (Elt F) → (⟨S1600000, .i32⟩ : BufTy).Contents (Elt F)),
    binary main_v3 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v35 (broadcastInDim S1600000 ![] bcast_S_S1600000 : (⟨S_, .i32⟩ : BufTy).Contents (Elt F) → (⟨S1600000, .i32⟩ : BufTy).Contents (Elt F)),
    binary main_v3 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v3 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v24 main_v38 main_v39 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v32 main_v39 main_v40 (mulf : (⟨S1600000, .f32⟩ : BufTy).Contents (Elt F) → (⟨S1600000, .f32⟩ : BufTy).Contents (Elt F) → (⟨S1600000, .f32⟩ : BufTy).Contents (Elt F)),
    binary main_v24 main_v24 main_v41 (mulf : (⟨S100000, .f32⟩ : BufTy).Contents (Elt F) → (⟨S100000, .f32⟩ : BufTy).Contents (Elt F) → (⟨S100000, .f32⟩ : BufTy).Contents (Elt F)),
    nullary main_c_10 (constantI S_ 32 0#32),
    unary main_c_10 main_v42 (broadcastInDim S1600000 ![] bcast_S_S1600000 : (⟨S_, .i32⟩ : BufTy).Contents (Elt F) → (⟨S1600000, .i32⟩ : BufTy).Contents (Elt F)),
    binary main_v3 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v44 (broadcastInDim S1600000 ![] bcast_S_S1600000 : (⟨S_, .i32⟩ : BufTy).Contents (Elt F) → (⟨S1600000, .i32⟩ : BufTy).Contents (Elt F)),
    binary main_v3 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v3 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- Each touches TensorCore references only. -/
theorem chunk02_sub : (chunk02 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub ..⟩

/-- None allocates a buffer. -/
theorem chunk02_fresh : ∀ op ∈ (chunk02 : List (HloOp τ sig (Elt F))), op.fresh = ∅ := by
  intro _ h; (repeat (cases h with | head => rfl | tail _ h => ?_)); exact nomatch h

/-- The buffers the list writes. -/
abbrev chunk02_W : List (Ref sig .tc) := [main_c_8, main_v33, main_v34, main_c_9, main_v35, main_v36, main_v37, main_v38, main_v39, main_v40, main_v41, main_c_10, main_v42, main_v43, main_c_11, main_v44, main_v45, main_v46]

theorem chunk02_writes : (chunk02 : List (HloOp τ sig (Elt F))).Forall fun op => op.writes ⊆ (chunk02_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk02_keep (V : Valuation τ sig (Elt F)) (r : Ref sig .tc) (h : r ∉ chunk02_W) :
    after chunk02 V (Proc.devRef .tc r) = V (Proc.devRef .tc r) :=
  after_of_writes_sub chunk02 V chunk02_writes h

set_option maxHeartbeats 2000000 in
theorem s02_v40 (V : Valuation τ sig (Elt F)) (x1 : (⟨S2x1600000, .i32⟩ : BufTy).Contents (Elt F)) (x2 : (⟨S100000, .i32⟩ : BufTy).Contents (Elt F))
    (h_v3 : V (no_index (Proc.devRef .tc main_v3)) = ReadP.val_main_v3 (F := F) x1)
    (h_v24 : V (no_index (Proc.devRef .tc main_v24)) = ReadP.val_main_v24 (F := F) x1 x2)
    (h_v32 : V (no_index (Proc.devRef .tc main_v32)) = ReadP.val_main_v32 (F := F) x1 x2) :
    after chunk02 V (Proc.devRef .tc main_v40) = ReadP.val_main_v40 (F := F) x1 x2 := by
  stretch_simp [chunk02, h_v3, h_v24, h_v32]
  try rfl

set_option maxHeartbeats 2000000 in
theorem s02_v41 (V : Valuation τ sig (Elt F)) (x1 : (⟨S2x1600000, .i32⟩ : BufTy).Contents (Elt F)) (x2 : (⟨S100000, .i32⟩ : BufTy).Contents (Elt F))
    (h_v24 : V (no_index (Proc.devRef .tc main_v24)) = ReadP.val_main_v24 (F := F) x1 x2) :
    after chunk02 V (Proc.devRef .tc main_v41) = ReadP.val_main_v41 (F := F) x1 x2 := by
  stretch_simp [chunk02, h_v24]
  try rfl

set_option maxHeartbeats 2000000 in
theorem s02_v46 (V : Valuation τ sig (Elt F)) (x1 : (⟨S2x1600000, .i32⟩ : BufTy).Contents (Elt F))
    (h_v3 : V (no_index (Proc.devRef .tc main_v3)) = ReadP.val_main_v3 (F := F) x1) :
    after chunk02 V (Proc.devRef .tc main_v46) = ReadP.val_main_v46 (F := F) x1 := by
  stretch_simp [chunk02, h_v3]
  try rfl

end Cert.ReferenceIdeal.Staged

end
-- ==== Proof.RefRunStaged.S03.lean ====
/-
  The reference's operations 65 to 86 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 65 to 86, in order. -/
abbrev chunk03 : List (HloOp τ sig (Elt F)) :=
  [ unary main_v46 main_v47 (broadcastInDim S1600000x1 ![0] bcast_S1600000_S1600000x1_0 : (⟨S1600000, .i32⟩ : BufTy).Contents (Elt F) → (⟨S1600000x1, .i32⟩ : BufTy).Contents (Elt F)),
    binary main_v4 main_v47 main_v48 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v1 main_v3 main_v49 (cmpi .eq : (⟨S1600000, .i32⟩ : BufTy).Contents (Elt F) → (⟨S1600000, .i32⟩ : BufTy).Contents (Elt F) → (⟨S1600000, .i1⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S1600000, .f32⟩) main_call2_v1) (broadcastInDim S1600000 ![] bcast_S_S1600000),
    TRef.ternary (TRef.of (T := ⟨S1600000, .i1⟩) main_v49) (TRef.of (T := ⟨S1600000, .f32⟩) main_call2_v1) (TRef.of (T := ⟨S1600000, .f32⟩) main_v48) (TRef.of (T := ⟨S1600000, .f32⟩) main_v50) select,
    nullary main_cst_13 (constant S_ .f32 0x00000000#32),
    unary main_cst_13 main_v51 (broadcastInDim S100000 ![] bcast_S_S100000 : (⟨S_, .f32⟩ : BufTy).Contents (Elt F) → (⟨S100000, .f32⟩ : BufTy).Contents (Elt F)),
    unary main_v1 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    nullary main_cst_15 (constant S_ .f32 0x00000000#32),
    unary main_cst_15 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v57) (TRef.of (T := ⟨S100000, .f32⟩) main_v58) (TRef.of (T := ⟨S100000, .f32⟩) main_call3_v1) (TRef.of (T := ⟨S100000, .f32⟩) main_v59) select ]

/-- Each touches TensorCore references only. -/
theorem chunk03_sub : (chunk03 : List (HloOp τ sig (Elt F))).Forall fun op => op.bufs ⊆ tcRefs τ sig :=
  ⟨unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem chunk03_fresh : ∀ op ∈ (chunk03 : List (HloOp τ sig (Elt F))), op.fresh = ∅ := by
  intro _ h; (repeat (cases h with | head => rfl | tail _ h => ?_)); exact nomatch h

/-- The buffers the list writes. -/
abbrev chunk03_W : List (Ref sig .tc) := [main_v47, main_v48, main_v49, main_cst_12, main_call2_v0, main_call2_v1, main_v50, main_cst_13, main_v51, main_v52, main_v53, main_cst_14, main_v54, main_v55, main_cst_15, main_v56, main_v57, main_v58, main_cst_16, main_call3_v0, main_call3_v1, main_v59]

theorem chunk03_writes : (chunk03 : List (HloOp τ sig (Elt F))).Forall fun op => op.writes ⊆ (chunk03_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk03_keep (V : Valuation τ sig (Elt F)) (r : Ref sig .tc) (h : r ∉ chunk03_W) :
    after chunk03 V (Proc.devRef .tc r) = V (Proc.devRef .tc r) :=
  after_of_writes_sub chunk03 V chunk03_writes h

set_option maxHeartbeats 2000000 in
theorem s03_v50 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v4 : V (no_index (Proc.devRef .tc main_v4)) = ReadP.val_main_v4 (F := F) x2)
    (h_v46 : V (no_index (Proc.devRef .tc main_v46)) = ReadP.val_main_v46 (F := F) x1) :
    after chunk03 V (Proc.devRef .tc main_v50) = ReadP.val_main_v50 (F := F) x1 x2 := by
  stretch_simp [chunk03, h_v1, h_v3, h_v4, h_v46]
  try rfl

set_option maxHeartbeats 2000000 in
theorem s03_v59 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v4 : V (no_index (Proc.devRef .tc main_v4)) = ReadP.val_main_v4 (F := F) x2)
    (h_v46 : V (no_index (Proc.devRef .tc main_v46)) = ReadP.val_main_v46 (F := F) x1) :
    after chunk03 V (Proc.devRef .tc main_v59) = ReadP.val_main_v59 (F := F) x1 x2 := by
  stretch_simp [chunk03, h_v1, h_v3, h_v4, h_v46]
  try rfl

end Cert.ReferenceIdeal.Staged

end
-- ==== Proof.RefRunStaged.S04.lean ====
/-
  The reference's operations 87 to 106 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 87 to 106, in order. -/
abbrev chunk04 : List (HloOp τ sig (Elt F)) :=
  [ nullary main_c_17 (constantI S_ 32 0#32),
    unary main_c_17 main_v60 (broadcastInDim S1600000 ![] bcast_S_S1600000 : (⟨S_, .i32⟩ : BufTy).Contents (Elt F) → (⟨S1600000, .i32⟩ : BufTy).Contents (Elt F)),
    binary main_v1 main_v60 main_v61 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v62 (broadcastInDim S1600000 ![] bcast_S_S1600000 : (⟨S_, .i32⟩ : BufTy).Contents (Elt F) → (⟨S1600000, .i32⟩ : BufTy).Contents (Elt F)),
    binary main_v1 main_v62 main_v63 (addi : (⟨S1600000, .i32⟩ : BufTy).Contents (Elt F) → (⟨S1600000, .i32⟩ : BufTy).Contents (Elt F) → (⟨S1600000, .i32⟩ : BufTy).Contents (Elt F)),
    ternary main_v61 main_v63 main_v1 main_v64 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v64 main_v65 (broadcastInDim S1600000x1 ![0] bcast_S1600000_S1600000x1_0 : (⟨S1600000, .i32⟩ : BufTy).Contents (Elt F) → (⟨S1600000x1, .i32⟩ : BufTy).Contents (Elt F)),
    binary main_v59 main_v65 main_v66 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v66 main_v50 main_v67 (mulf : (⟨S1600000, .f32⟩ : BufTy).Contents (Elt F) → (⟨S1600000, .f32⟩ : BufTy).Contents (Elt F) → (⟨S1600000, .f32⟩ : BufTy).Contents (Elt F)),
    nullary main_c_19 (constantI S_ 32 0#32),
    unary main_c_19 main_v68 (broadcastInDim S1600000 ![] bcast_S_S1600000 : (⟨S_, .i32⟩ : BufTy).Contents (Elt F) → (⟨S1600000, .i32⟩ : BufTy).Contents (Elt F)),
    binary main_v3 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v70 (broadcastInDim S1600000 ![] bcast_S_S1600000 : (⟨S_, .i32⟩ : BufTy).Contents (Elt F) → (⟨S1600000, .i32⟩ : BufTy).Contents (Elt F)),
    binary main_v3 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v3 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v59 main_v73 main_v74 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v67 main_v74 main_v75 (mulf : (⟨S1600000, .f32⟩ : BufTy).Contents (Elt F) → (⟨S1600000, .f32⟩ : BufTy).Contents (Elt F) → (⟨S1600000, .f32⟩ : BufTy).Contents (Elt F)) ]

/-- Each touches TensorCore references only. -/
theorem chunk04_sub : (chunk04 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem chunk04_fresh : ∀ op ∈ (chunk04 : List (HloOp τ sig (Elt F))), op.fresh = ∅ := by
  intro _ h; (repeat (cases h with | head => rfl | tail _ h => ?_)); exact nomatch h

/-- The buffers the list writes. -/
abbrev chunk04_W : List (Ref sig .tc) := [main_c_17, main_v60, main_v61, main_c_18, main_v62, main_v63, main_v64, main_v65, main_v66, main_v67, main_c_19, main_v68, main_v69, main_c_20, main_v70, main_v71, main_v72, main_v73, main_v74, main_v75]

theorem chunk04_writes : (chunk04 : List (HloOp τ sig (Elt F))).Forall fun op => op.writes ⊆ (chunk04_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk04_keep (V : Valuation τ sig (Elt F)) (r : Ref sig .tc) (h : r ∉ chunk04_W) :
    after chunk04 V (Proc.devRef .tc r) = V (Proc.devRef .tc r) :=
  after_of_writes_sub chunk04 V chunk04_writes h

set_option maxHeartbeats 2000000 in
theorem s04_v75 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v50 : V (no_index (Proc.devRef .tc main_v50)) = ReadP.val_main_v50 (F := F) x1 x2)
    (h_v59 : V (no_index (Proc.devRef .tc main_v59)) = ReadP.val_main_v59 (F := F) x1 x2) :
    after chunk04 V (Proc.devRef .tc main_v75) = ReadP.val_main_v75 (F := F) x1 x2 := by
  stretch_simp [chunk04, h_v1, h_v3, h_v50, h_v59]
  try rfl

end Cert.ReferenceIdeal.Staged

end
-- ==== Proof.RefRunStaged.S05.lean ====
/-
  The reference's operations 107 to 125 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 107 to 125, in order. -/
abbrev chunk05 : List (HloOp τ sig (Elt F)) :=
  [ binary main_v59 main_v59 main_v76 (mulf : (⟨S100000, .f32⟩ : BufTy).Contents (Elt F) → (⟨S100000, .f32⟩ : BufTy).Contents (Elt F) → (⟨S100000, .f32⟩ : BufTy).Contents (Elt F)),
    nullary main_c_21 (constantI S_ 32 0#32),
    unary main_c_21 main_v77 (broadcastInDim S1600000 ![] bcast_S_S1600000 : (⟨S_, .i32⟩ : BufTy).Contents (Elt F) → (⟨S1600000, .i32⟩ : BufTy).Contents (Elt F)),
    binary main_v1 main_v77 main_v78 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v79 (broadcastInDim S1600000 ![] bcast_S_S1600000 : (⟨S_, .i32⟩ : BufTy).Contents (Elt F) → (⟨S1600000, .i32⟩ : BufTy).Contents (Elt F)),
    binary main_v1 main_v79 main_v80 (addi : (⟨S1600000, .i32⟩ : BufTy).Contents (Elt F) → (⟨S1600000, .i32⟩ : BufTy).Contents (Elt F) → (⟨S1600000, .i32⟩ : BufTy).Contents (Elt F)),
    ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v81 main_v82 (broadcastInDim S1600000x1 ![0] bcast_S1600000_S1600000x1_0 : (⟨S1600000, .i32⟩ : BufTy).Contents (Elt F) → (⟨S1600000x1, .i32⟩ : BufTy).Contents (Elt F)),
    binary main_v6 main_v82 main_v83 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v1 main_v3 main_v84 (cmpi .eq : (⟨S1600000, .i32⟩ : BufTy).Contents (Elt F) → (⟨S1600000, .i32⟩ : BufTy).Contents (Elt F) → (⟨S1600000, .i1⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S1600000, .f32⟩) main_call4_v1) (broadcastInDim S1600000 ![] bcast_S_S1600000),
    TRef.ternary (TRef.of (T := ⟨S1600000, .i1⟩) main_v84) (TRef.of (T := ⟨S1600000, .f32⟩) main_call4_v1) (TRef.of (T := ⟨S1600000, .f32⟩) main_v83) (TRef.of (T := ⟨S1600000, .f32⟩) main_v85) select,
    nullary main_cst_24 (constant S_ .f32 0x00000000#32),
    unary main_cst_24 main_v86 (broadcastInDim S100000 ![] bcast_S_S100000 : (⟨S_, .f32⟩ : BufTy).Contents (Elt F) → (⟨S100000, .f32⟩ : BufTy).Contents (Elt F)),
    unary main_v1 main_v87 (broadcastInDim S1600000x1 ![0] bcast_S1600000_S1600000x1_0 : (⟨S1600000, .i32⟩ : BufTy).Contents (Elt F) → (⟨S1600000x1, .i32⟩ : BufTy).Contents (Elt F)),
    ternary main_v86 main_v87 main_v85 main_v88 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- Each touches TensorCore references only. -/
theorem chunk05_sub : (chunk05 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub ..⟩

/-- None allocates a buffer. -/
theorem chunk05_fresh : ∀ op ∈ (chunk05 : List (HloOp τ sig (Elt F))), op.fresh = ∅ := by
  intro _ h; (repeat (cases h with | head => rfl | tail _ h => ?_)); exact nomatch h

/-- The buffers the list writes. -/
abbrev chunk05_W : List (Ref sig .tc) := [main_v76, main_c_21, main_v77, main_v78, main_c_22, main_v79, main_v80, main_v81, main_v82, main_v83, main_v84, main_cst_23, main_call4_v0, main_call4_v1, main_v85, main_cst_24, main_v86, main_v87, main_v88]

theorem chunk05_writes : (chunk05 : List (HloOp τ sig (Elt F))).Forall fun op => op.writes ⊆ (chunk05_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk05_keep (V : Valuation τ sig (Elt F)) (r : Ref sig .tc) (h : r ∉ chunk05_W) :
    after chunk05 V (Proc.devRef .tc r) = V (Proc.devRef .tc r) :=
  after_of_writes_sub chunk05 V chunk05_writes h

set_option maxHeartbeats 2000000 in
theorem s05_v76 (V : Valuation τ sig (Elt F)) (x1 : (⟨S2x1600000, .i32⟩ : BufTy).Contents (Elt F)) (x2 : (⟨S100000, .i32⟩ : BufTy).Contents (Elt F))
    (h_v59 : V (no_index (Proc.devRef .tc main_v59)) = ReadP.val_main_v59 (F := F) x1 x2) :
    after chunk05 V (Proc.devRef .tc main_v76) = ReadP.val_main_v76 (F := F) x1 x2 := by
  stretch_simp [chunk05, h_v59]
  try rfl

set_option maxHeartbeats 2000000 in
theorem s05_v85 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v6 : V (no_index (Proc.devRef .tc main_v6)) = ReadP.val_main_v6 (F := F) x2) :
    after chunk05 V (Proc.devRef .tc main_v85) = ReadP.val_main_v85 (F := F) x1 x2 := by
  stretch_simp [chunk05, h_v1, h_v3, h_v6]
  try rfl

set_option maxHeartbeats 2000000 in
theorem s05_v88 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v6 : V (no_index (Proc.devRef .tc main_v6)) = ReadP.val_main_v6 (F := F) x2) :
    after chunk05 V (Proc.devRef .tc main_v88) = ReadP.val_main_v88 (F := F) x1 x2 := by
  stretch_simp [chunk05, h_v1, h_v3, h_v6]
  try rfl

end Cert.ReferenceIdeal.Staged

end
-- ==== Proof.RefRunStaged.S06.lean ====
/-
  The reference's operations 126 to 146 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 126 to 146, in order. -/
abbrev chunk06 : List (HloOp τ sig (Elt F)) :=
  [ nullary main_cst_25 (constant S_ .f32 0x3F800000#32),
    unary main_cst_25 main_v89 (broadcastInDim S100000 ![] bcast_S_S100000 : (⟨S_, .f32⟩ : BufTy).Contents (Elt F) → (⟨S100000, .f32⟩ : BufTy).Contents (Elt F)),
    binary main_v88 main_v89 main_v90 (addf : (⟨S100000, .f32⟩ : BufTy).Contents (Elt F) → (⟨S100000, .f32⟩ : BufTy).Contents (Elt F) → (⟨S100000, .f32⟩ : BufTy).Contents (Elt F)),
    nullary main_cst_26 (constant S_ .f32 0x00000000#32),
    unary main_cst_26 main_v91 (broadcastInDim S100000 ![] bcast_S_S100000 : (⟨S_, .f32⟩ : BufTy).Contents (Elt F) → (⟨S100000, .f32⟩ : BufTy).Contents (Elt F)),
    binary main_v90 main_v91 main_v92 (cmpf .ogt : (⟨S100000, .f32⟩ : BufTy).Contents (Elt F) → (⟨S100000, .f32⟩ : BufTy).Contents (Elt F) → (⟨S100000, .i1⟩ : BufTy).Contents (Elt F)),
    unary main_v90 main_v93 (Host.rsqrt : (⟨S100000, .f32⟩ : BufTy).Contents (Elt F) → (⟨S100000, .f32⟩ : BufTy).Contents (Elt F)),
    nullary main_cst_27 (constant S_ .f32 0x00000000#32),
    TRef.unary (TRef.of (T := ⟨S_, .f32⟩) main_cst_27) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v92) (TRef.of (T := ⟨S100000, .f32⟩) main_v93) (TRef.of (T := ⟨S100000, .f32⟩) main_call5_v1) (TRef.of (T := ⟨S100000, .f32⟩) main_v94) select,
    nullary main_c_28 (constantI S_ 32 0#32),
    unary main_c_28 main_v95 (broadcastInDim S1600000 ![] bcast_S_S1600000 : (⟨S_, .i32⟩ : BufTy).Contents (Elt F) → (⟨S1600000, .i32⟩ : BufTy).Contents (Elt F)),
    binary main_v1 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v97 (broadcastInDim S1600000 ![] bcast_S_S1600000 : (⟨S_, .i32⟩ : BufTy).Contents (Elt F) → (⟨S1600000, .i32⟩ : BufTy).Contents (Elt F)),
    binary main_v1 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v1 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v94 main_v100 main_v101 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v101 main_v85 main_v102 (mulf : (⟨S1600000, .f32⟩ : BufTy).Contents (Elt F) → (⟨S1600000, .f32⟩ : BufTy).Contents (Elt F) → (⟨S1600000, .f32⟩ : BufTy).Contents (Elt F)) ]

/-- Each touches TensorCore references only. -/
theorem chunk06_sub : (chunk06 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem chunk06_fresh : ∀ op ∈ (chunk06 : List (HloOp τ sig (Elt F))), op.fresh = ∅ := by
  intro _ h; (repeat (cases h with | head => rfl | tail _ h => ?_)); exact nomatch h

/-- The buffers the list writes. -/
abbrev chunk06_W : List (Ref sig .tc) := [main_cst_25, main_v89, main_v90, main_cst_26, main_v91, main_v92, main_v93, main_cst_27, main_call5_v0, main_call5_v1, main_v94, main_c_28, main_v95, main_v96, main_c_29, main_v97, main_v98, main_v99, main_v100, main_v101, main_v102]

theorem chunk06_writes : (chunk06 : List (HloOp τ sig (Elt F))).Forall fun op => op.writes ⊆ (chunk06_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk06_keep (V : Valuation τ sig (Elt F)) (r : Ref sig .tc) (h : r ∉ chunk06_W) :
    after chunk06 V (Proc.devRef .tc r) = V (Proc.devRef .tc r) :=
  after_of_writes_sub chunk06 V chunk06_writes h

set_option maxHeartbeats 2000000 in
theorem s06_v94 (V : Valuation τ sig (Elt F)) (x1 : (⟨S2x1600000, .i32⟩ : BufTy).Contents (Elt F)) (x2 : (⟨S100000, .i32⟩ : BufTy).Contents (Elt F))
    (h_v88 : V (no_index (Proc.devRef .tc main_v88)) = ReadP.val_main_v88 (F := F) x1 x2) :
    after chunk06 V (Proc.devRef .tc main_v94) = ReadP.val_main_v94 (F := F) x1 x2 := by
  stretch_simp [chunk06, h_v88]
  try rfl

set_option maxHeartbeats 2000000 in
theorem s06_v102 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v85 : V (no_index (Proc.devRef .tc main_v85)) = ReadP.val_main_v85 (F := F) x1 x2)
    (h_v88 : V (no_index (Proc.devRef .tc main_v88)) = ReadP.val_main_v88 (F := F) x1 x2) :
    after chunk06 V (Proc.devRef .tc main_v102) = ReadP.val_main_v102 (F := F) x1 x2 := by
  stretch_simp [chunk06, h_v1, h_v85, h_v88]
  try rfl

end Cert.ReferenceIdeal.Staged

end
-- ==== Proof.RefRunStaged.S07.lean ====
/-
  The reference's operations 147 to 164 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 147 to 164, in order. -/
abbrev chunk07 : List (HloOp τ sig (Elt F)) :=
  [ nullary main_c_30 (constantI S_ 32 0#32),
    unary main_c_30 main_v103 (broadcastInDim S1600000 ![] bcast_S_S1600000 : (⟨S_, .i32⟩ : BufTy).Contents (Elt F) → (⟨S1600000, .i32⟩ : BufTy).Contents (Elt F)),
    binary main_v3 main_v103 main_v104 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v105 (broadcastInDim S1600000 ![] bcast_S_S1600000 : (⟨S_, .i32⟩ : BufTy).Contents (Elt F) → (⟨S1600000, .i32⟩ : BufTy).Contents (Elt F)),
    binary main_v3 main_v105 main_v106 (addi : (⟨S1600000, .i32⟩ : BufTy).Contents (Elt F) → (⟨S1600000, .i32⟩ : BufTy).Contents (Elt F) → (⟨S1600000, .i32⟩ : BufTy).Contents (Elt F)),
    ternary main_v104 main_v106 main_v3 main_v107 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v107 main_v108 (broadcastInDim S1600000x1 ![0] bcast_S1600000_S1600000x1_0 : (⟨S1600000, .i32⟩ : BufTy).Contents (Elt F) → (⟨S1600000x1, .i32⟩ : BufTy).Contents (Elt F)),
    binary main_v94 main_v108 main_v109 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v102 main_v109 main_v110 (mulf : (⟨S1600000, .f32⟩ : BufTy).Contents (Elt F) → (⟨S1600000, .f32⟩ : BufTy).Contents (Elt F) → (⟨S1600000, .f32⟩ : BufTy).Contents (Elt F)),
    binary main_v94 main_v94 main_v111 (mulf : (⟨S100000, .f32⟩ : BufTy).Contents (Elt F) → (⟨S100000, .f32⟩ : BufTy).Contents (Elt F) → (⟨S100000, .f32⟩ : BufTy).Contents (Elt F)),
    nullary main_c_32 (constantI S_ 32 0#32),
    unary main_c_32 main_v112 (broadcastInDim S1600000 ![] bcast_S_S1600000 : (⟨S_, .i32⟩ : BufTy).Contents (Elt F) → (⟨S1600000, .i32⟩ : BufTy).Contents (Elt F)),
    binary main_v3 main_v112 main_v113 (cmpi .slt : (⟨S1600000, .i32⟩ : BufTy).Contents (Elt F) → (⟨S1600000, .i32⟩ : BufTy).Contents (Elt F) → (⟨S1600000, .i1⟩ : BufTy).Contents (Elt F)),
    nullary main_c_33 (constantI S_ 32 100000#32),
    unary main_c_33 main_v114 (broadcastInDim S1600000 ![] bcast_S_S1600000 : (⟨S_, .i32⟩ : BufTy).Contents (Elt F) → (⟨S1600000, .i32⟩ : BufTy).Contents (Elt F)),
    binary main_v3 main_v114 main_v115 (addi : (⟨S1600000, .i32⟩ : BufTy).Contents (Elt F) → (⟨S1600000, .i32⟩ : BufTy).Contents (Elt F) → (⟨S1600000, .i32⟩ : BufTy).Contents (Elt F)),
    ternary main_v113 main_v115 main_v3 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- Each touches TensorCore references only. -/
theorem chunk07_sub : (chunk07 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub ..⟩

/-- None allocates a buffer. -/
theorem chunk07_fresh : ∀ op ∈ (chunk07 : List (HloOp τ sig (Elt F))), op.fresh = ∅ := by
  intro _ h; (repeat (cases h with | head => rfl | tail _ h => ?_)); exact nomatch h

/-- The buffers the list writes. -/
abbrev chunk07_W : List (Ref sig .tc) := [main_c_30, main_v103, main_v104, main_c_31, main_v105, main_v106, main_v107, main_v108, main_v109, main_v110, main_v111, main_c_32, main_v112, main_v113, main_c_33, main_v114, main_v115, main_v116]

theorem chunk07_writes : (chunk07 : List (HloOp τ sig (Elt F))).Forall fun op => op.writes ⊆ (chunk07_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk07_keep (V : Valuation τ sig (Elt F)) (r : Ref sig .tc) (h : r ∉ chunk07_W) :
    after chunk07 V (Proc.devRef .tc r) = V (Proc.devRef .tc r) :=
  after_of_writes_sub chunk07 V chunk07_writes h

set_option maxHeartbeats 2000000 in
theorem s07_v110 (V : Valuation τ sig (Elt F)) (x1 : (⟨S2x1600000, .i32⟩ : BufTy).Contents (Elt F)) (x2 : (⟨S100000, .i32⟩ : BufTy).Contents (Elt F))
    (h_v3 : V (no_index (Proc.devRef .tc main_v3)) = ReadP.val_main_v3 (F := F) x1)
    (h_v94 : V (no_index (Proc.devRef .tc main_v94)) = ReadP.val_main_v94 (F := F) x1 x2)
    (h_v102 : V (no_index (Proc.devRef .tc main_v102)) = ReadP.val_main_v102 (F := F) x1 x2) :
    after chunk07 V (Proc.devRef .tc main_v110) = ReadP.val_main_v110 (F := F) x1 x2 := by
  stretch_simp [chunk07, h_v3, h_v94, h_v102]
  try rfl

set_option maxHeartbeats 2000000 in
theorem s07_v111 (V : Valuation τ sig (Elt F)) (x1 : (⟨S2x1600000, .i32⟩ : BufTy).Contents (Elt F)) (x2 : (⟨S100000, .i32⟩ : BufTy).Contents (Elt F))
    (h_v94 : V (no_index (Proc.devRef .tc main_v94)) = ReadP.val_main_v94 (F := F) x1 x2) :
    after chunk07 V (Proc.devRef .tc main_v111) = ReadP.val_main_v111 (F := F) x1 x2 := by
  stretch_simp [chunk07, h_v94]
  try rfl

set_option maxHeartbeats 2000000 in
theorem s07_v116 (V : Valuation τ sig (Elt F)) (x1 : (⟨S2x1600000, .i32⟩ : BufTy).Contents (Elt F))
    (h_v3 : V (no_index (Proc.devRef .tc main_v3)) = ReadP.val_main_v3 (F := F) x1) :
    after chunk07 V (Proc.devRef .tc main_v116) = ReadP.val_main_v116 (F := F) x1 := by
  stretch_simp [chunk07, h_v3]
  try rfl

end Cert.ReferenceIdeal.Staged

end
-- ==== Proof.RefRunStaged.S08.lean ====
/-
  The reference's operations 165 to 186 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 165 to 186, in order. -/
abbrev chunk08 : List (HloOp τ sig (Elt F)) :=
  [ unary main_v116 main_v117 (broadcastInDim S1600000x1 ![0] bcast_S1600000_S1600000x1_0 : (⟨S1600000, .i32⟩ : BufTy).Contents (Elt F) → (⟨S1600000x1, .i32⟩ : BufTy).Contents (Elt F)),
    binary main_v6 main_v117 main_v118 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v1 main_v3 main_v119 (cmpi .eq : (⟨S1600000, .i32⟩ : BufTy).Contents (Elt F) → (⟨S1600000, .i32⟩ : BufTy).Contents (Elt F) → (⟨S1600000, .i1⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S1600000, .f32⟩) main_call6_v1) (broadcastInDim S1600000 ![] bcast_S_S1600000),
    TRef.ternary (TRef.of (T := ⟨S1600000, .i1⟩) main_v119) (TRef.of (T := ⟨S1600000, .f32⟩) main_call6_v1) (TRef.of (T := ⟨S1600000, .f32⟩) main_v118) (TRef.of (T := ⟨S1600000, .f32⟩) main_v120) select,
    nullary main_cst_35 (constant S_ .f32 0x00000000#32),
    unary main_cst_35 main_v121 (broadcastInDim S100000 ![] bcast_S_S100000 : (⟨S_, .f32⟩ : BufTy).Contents (Elt F) → (⟨S100000, .f32⟩ : BufTy).Contents (Elt F)),
    unary main_v1 main_v122 (broadcastInDim S1600000x1 ![0] bcast_S1600000_S1600000x1_0 : (⟨S1600000, .i32⟩ : BufTy).Contents (Elt F) → (⟨S1600000x1, .i32⟩ : BufTy).Contents (Elt F)),
    ternary main_v121 main_v122 main_v120 main_v123 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_36 (constant S_ .f32 0x3F800000#32),
    unary main_cst_36 main_v124 (broadcastInDim S100000 ![] bcast_S_S100000 : (⟨S_, .f32⟩ : BufTy).Contents (Elt F) → (⟨S100000, .f32⟩ : BufTy).Contents (Elt F)),
    binary main_v123 main_v124 main_v125 (addf : (⟨S100000, .f32⟩ : BufTy).Contents (Elt F) → (⟨S100000, .f32⟩ : BufTy).Contents (Elt F) → (⟨S100000, .f32⟩ : BufTy).Contents (Elt F)),
    nullary main_cst_37 (constant S_ .f32 0x00000000#32),
    unary main_cst_37 main_v126 (broadcastInDim S100000 ![] bcast_S_S100000 : (⟨S_, .f32⟩ : BufTy).Contents (Elt F) → (⟨S100000, .f32⟩ : BufTy).Contents (Elt F)),
    binary main_v125 main_v126 main_v127 (cmpf .ogt : (⟨S100000, .f32⟩ : BufTy).Contents (Elt F) → (⟨S100000, .f32⟩ : BufTy).Contents (Elt F) → (⟨S100000, .i1⟩ : BufTy).Contents (Elt F)),
    unary main_v125 main_v128 (Host.rsqrt : (⟨S100000, .f32⟩ : BufTy).Contents (Elt F) → (⟨S100000, .f32⟩ : BufTy).Contents (Elt F)),
    nullary main_cst_38 (constant S_ .f32 0x00000000#32),
    TRef.unary (TRef.of (T := ⟨S_, .f32⟩) main_cst_38) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.ternary (TRef.of (T := ⟨S100000, .i1⟩) main_v127) (TRef.of (T := ⟨S100000, .f32⟩) main_v128) (TRef.of (T := ⟨S100000, .f32⟩) main_call7_v1) (TRef.of (T := ⟨S100000, .f32⟩) main_v129) select ]

/-- Each touches TensorCore references only. -/
theorem chunk08_sub : (chunk08 : List (HloOp τ sig (Elt F))).Forall fun op => op.bufs ⊆ tcRefs τ sig :=
  ⟨unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩

/-- None allocates a buffer. -/
theorem chunk08_fresh : ∀ op ∈ (chunk08 : List (HloOp τ sig (Elt F))), op.fresh = ∅ := by
  intro _ h; (repeat (cases h with | head => rfl | tail _ h => ?_)); exact nomatch h

/-- The buffers the list writes. -/
abbrev chunk08_W : List (Ref sig .tc) := [main_v117, main_v118, main_v119, main_cst_34, main_call6_v0, main_call6_v1, main_v120, main_cst_35, main_v121, main_v122, main_v123, main_cst_36, main_v124, main_v125, main_cst_37, main_v126, main_v127, main_v128, main_cst_38, main_call7_v0, main_call7_v1, main_v129]

theorem chunk08_writes : (chunk08 : List (HloOp τ sig (Elt F))).Forall fun op => op.writes ⊆ (chunk08_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk08_keep (V : Valuation τ sig (Elt F)) (r : Ref sig .tc) (h : r ∉ chunk08_W) :
    after chunk08 V (Proc.devRef .tc r) = V (Proc.devRef .tc r) :=
  after_of_writes_sub chunk08 V chunk08_writes h

set_option maxHeartbeats 2000000 in
theorem s08_v120 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v6 : V (no_index (Proc.devRef .tc main_v6)) = ReadP.val_main_v6 (F := F) x2)
    (h_v116 : V (no_index (Proc.devRef .tc main_v116)) = ReadP.val_main_v116 (F := F) x1) :
    after chunk08 V (Proc.devRef .tc main_v120) = ReadP.val_main_v120 (F := F) x1 x2 := by
  stretch_simp [chunk08, h_v1, h_v3, h_v6, h_v116]
  try rfl

set_option maxHeartbeats 2000000 in
theorem s08_v129 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v6 : V (no_index (Proc.devRef .tc main_v6)) = ReadP.val_main_v6 (F := F) x2)
    (h_v116 : V (no_index (Proc.devRef .tc main_v116)) = ReadP.val_main_v116 (F := F) x1) :
    after chunk08 V (Proc.devRef .tc main_v129) = ReadP.val_main_v129 (F := F) x1 x2 := by
  stretch_simp [chunk08, h_v1, h_v3, h_v6, h_v116]
  try rfl

end Cert.ReferenceIdeal.Staged

end
-- ==== Proof.RefRunStaged.S09.lean ====
/-
  The reference's operations 187 to 206 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 187 to 206, in order. -/
abbrev chunk09 : List (HloOp τ sig (Elt F)) :=
  [ nullary main_c_39 (constantI S_ 32 0#32),
    unary main_c_39 main_v130 (broadcastInDim S1600000 ![] bcast_S_S1600000 : (⟨S_, .i32⟩ : BufTy).Contents (Elt F) → (⟨S1600000, .i32⟩ : BufTy).Contents (Elt F)),
    binary main_v1 main_v130 main_v131 (cmpi .slt : (⟨S1600000, .i32⟩ : BufTy).Contents (Elt F) → (⟨S1600000, .i32⟩ : BufTy).Contents (Elt F) → (⟨S1600000, .i1⟩ : BufTy).Contents (Elt F)),
    nullary main_c_40 (constantI S_ 32 100000#32),
    unary main_c_40 main_v132 (broadcastInDim S1600000 ![] bcast_S_S1600000 : (⟨S_, .i32⟩ : BufTy).Contents (Elt F) → (⟨S1600000, .i32⟩ : BufTy).Contents (Elt F)),
    binary main_v1 main_v132 main_v133 (addi : (⟨S1600000, .i32⟩ : BufTy).Contents (Elt F) → (⟨S1600000, .i32⟩ : BufTy).Contents (Elt F) → (⟨S1600000, .i32⟩ : BufTy).Contents (Elt F)),
    ternary main_v131 main_v133 main_v1 main_v134 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v134 main_v135 (broadcastInDim S1600000x1 ![0] bcast_S1600000_S1600000x1_0 : (⟨S1600000, .i32⟩ : BufTy).Contents (Elt F) → (⟨S1600000x1, .i32⟩ : BufTy).Contents (Elt F)),
    binary main_v129 main_v135 main_v136 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v136 main_v120 main_v137 (mulf : (⟨S1600000, .f32⟩ : BufTy).Contents (Elt F) → (⟨S1600000, .f32⟩ : BufTy).Contents (Elt F) → (⟨S1600000, .f32⟩ : BufTy).Contents (Elt F)),
    nullary main_c_41 (constantI S_ 32 0#32),
    unary main_c_41 main_v138 (broadcastInDim S1600000 ![] bcast_S_S1600000 : (⟨S_, .i32⟩ : BufTy).Contents (Elt F) → (⟨S1600000, .i32⟩ : BufTy).Contents (Elt F)),
    binary main_v3 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_42 (constantI S_ 32 100000#32),
    unary main_c_42 main_v140 (broadcastInDim S1600000 ![] bcast_S_S1600000 : (⟨S_, .i32⟩ : BufTy).Contents (Elt F) → (⟨S1600000, .i32⟩ : BufTy).Contents (Elt F)),
    binary main_v3 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v3 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v129 main_v143 main_v144 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v137 main_v144 main_v145 (mulf : (⟨S1600000, .f32⟩ : BufTy).Contents (Elt F) → (⟨S1600000, .f32⟩ : BufTy).Contents (Elt F) → (⟨S1600000, .f32⟩ : BufTy).Contents (Elt F)) ]

/-- Each touches TensorCore references only. -/
theorem chunk09_sub : (chunk09 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- None allocates a buffer. -/
theorem chunk09_fresh : ∀ op ∈ (chunk09 : List (HloOp τ sig (Elt F))), op.fresh = ∅ := by
  intro _ h; (repeat (cases h with | head => rfl | tail _ h => ?_)); exact nomatch h

/-- The buffers the list writes. -/
abbrev chunk09_W : List (Ref sig .tc) := [main_c_39, main_v130, main_v131, main_c_40, main_v132, main_v133, main_v134, main_v135, main_v136, main_v137, main_c_41, main_v138, main_v139, main_c_42, main_v140, main_v141, main_v142, main_v143, main_v144, main_v145]

theorem chunk09_writes : (chunk09 : List (HloOp τ sig (Elt F))).Forall fun op => op.writes ⊆ (chunk09_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk09_keep (V : Valuation τ sig (Elt F)) (r : Ref sig .tc) (h : r ∉ chunk09_W) :
    after chunk09 V (Proc.devRef .tc r) = V (Proc.devRef .tc r) :=
  after_of_writes_sub chunk09 V chunk09_writes h

set_option maxHeartbeats 2000000 in
theorem s09_v145 (V : Valuation τ sig (Elt F)) (x1 : (⟨S2x1600000, .i32⟩ : BufTy).Contents (Elt F)) (x2 : (⟨S100000, .i32⟩ : BufTy).Contents (Elt F))
    (h_v1 : V (no_index (Proc.devRef .tc main_v1)) = ReadP.val_main_v1 (F := F) x1)
    (h_v3 : V (no_index (Proc.devRef .tc main_v3)) = ReadP.val_main_v3 (F := F) x1)
    (h_v120 : V (no_index (Proc.devRef .tc main_v120)) = ReadP.val_main_v120 (F := F) x1 x2)
    (h_v129 : V (no_index (Proc.devRef .tc main_v129)) = ReadP.val_main_v129 (F := F) x1 x2) :
    after chunk09 V (Proc.devRef .tc main_v145) = ReadP.val_main_v145 (F := F) x1 x2 := by
  stretch_simp [chunk09, h_v1, h_v3, h_v120, h_v129]
  try rfl

end Cert.ReferenceIdeal.Staged

end
-- ==== Proof.RefRunStaged.S10.lean ====
/-
  The reference's operations 207 to 227 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 207 to 227, in order. -/
abbrev chunk10 : List (HloOp τ sig (Elt F)) :=
  [ binary main_v129 main_v129 main_v146 (mulf : (⟨S100000, .f32⟩ : BufTy).Contents (Elt F) → (⟨S100000, .f32⟩ : BufTy).Contents (Elt F) → (⟨S100000, .f32⟩ : BufTy).Contents (Elt F)),
    unary main_v40 main_v147 (broadcastInDim S1600000x1 ![0] bcast_S1600000_S1600000x1_0 : (⟨S1600000, .f32⟩ : BufTy).Contents (Elt F) → (⟨S1600000x1, .f32⟩ : BufTy).Contents (Elt F)),
    nullary main_c_43 (constantI S_ 32 0#32),
    unary main_c_43 main_v148 (broadcastInDim S1600000 ![] bcast_S_S1600000 : (⟨S_, .i32⟩ : BufTy).Contents (Elt F) → (⟨S1600000, .i32⟩ : BufTy).Contents (Elt F)),
    binary main_v3 main_v148 main_v149 (cmpi .slt : (⟨S1600000, .i32⟩ : BufTy).Contents (Elt F) → (⟨S1600000, .i32⟩ : BufTy).Contents (Elt F) → (⟨S1600000, .i1⟩ : BufTy).Contents (Elt F)),
    nullary main_c_44 (constantI S_ 32 100000#32),
    unary main_c_44 main_v150 (broadcastInDim S1600000 ![] bcast_S_S1600000 : (⟨S_, .i32⟩ : BufTy).Contents (Elt F) → (⟨S1600000, .i32⟩ : BufTy).Contents (Elt F)),
    binary main_v3 main_v150 main_v151 (addi : (⟨S1600000, .i32⟩ : BufTy).Contents (Elt F) → (⟨S1600000, .i32⟩ : BufTy).Contents (Elt F) → (⟨S1600000, .i32⟩ : BufTy).Contents (Elt F)),
    ternary main_v149 main_v151 main_v3 main_v152 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v152 main_v153 (broadcastInDim S1600000x1 ![0] bcast_S1600000_S1600000x1_0 : (⟨S1600000, .i32⟩ : BufTy).Contents (Elt F) → (⟨S1600000x1, .i32⟩ : BufTy).Contents (Elt F)),
    binary main_arg0 main_v153 main_v154 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v147 main_v155 (broadcastInDim S1600000x64 ![0, 1] bcast_S1600000x1_S1600000x64_0_1 : (⟨S1600000x1, .f32⟩ : BufTy).Contents (Elt F) → (⟨S1600000x64, .f32⟩ : BufTy).Contents (Elt F)),
    binary main_v155 main_v154 main_v156 (mulf : (⟨S1600000x64, .f32⟩ : BufTy).Contents (Elt F) → (⟨S1600000x64, .f32⟩ : BufTy).Contents (Elt F) → (⟨S1600000x64, .f32⟩ : BufTy).Contents (Elt F)),
    nullary main_cst_45 (constant S_ .f32 0x00000000#32),
    unary main_cst_45 main_v157 (broadcastInDim S100000x64 ![] bcast_S_S100000x64 : (⟨S_, .f32⟩ : BufTy).Contents (Elt F) → (⟨S100000x64, .f32⟩ : BufTy).Contents (Elt F)),
    unary main_v1 main_v158 (broadcastInDim S1600000x1 ![0] bcast_S1600000_S1600000x1_0 : (⟨S1600000, .i32⟩ : BufTy).Contents (Elt F) → (⟨S1600000x1, .i32⟩ : BufTy).Contents (Elt F)),
    ternary main_v157 main_v158 main_v156 main_v159 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v41 main_v160 (broadcastInDim S100000x1 ![0] bcast_S100000_S100000x1_0 : (⟨S100000, .f32⟩ : BufTy).Contents (Elt F) → (⟨S100000x1, .f32⟩ : BufTy).Contents (Elt F)),
    unary main_v160 main_v161 (broadcastInDim S100000x64 ![0, 1] bcast_S100000x1_S100000x64_0_1 : (⟨S100000x1, .f32⟩ : BufTy).Contents (Elt F) → (⟨S100000x64, .f32⟩ : BufTy).Contents (Elt F)),
    binary main_v161 main_arg0 main_v162 (mulf : (⟨S100000x64, .f32⟩ : BufTy).Contents (Elt F) → (⟨S100000x64, .f32⟩ : BufTy).Contents (Elt F) → (⟨S100000x64, .f32⟩ : BufTy).Contents (Elt F)),
    binary main_v159 main_v162 main_v163 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem chunk10_sub : (chunk10 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩

/-- None allocates a buffer. -/
theorem chunk10_fresh : ∀ op ∈ (chunk10 : List (HloOp τ sig (Elt F))), op.fresh = ∅ := by
  intro _ h; (repeat (cases h with | head => rfl | tail _ h => ?_)); exact nomatch h

/-- The buffers the list writes. -/
abbrev chunk10_W : List (Ref sig .tc) := [main_v146, main_v147, main_c_43, main_v148, main_v149, main_c_44, main_v150, main_v151, main_v152, main_v153, main_v154, main_v155, main_v156, main_cst_45, main_v157, main_v158, main_v159, main_v160, main_v161, main_v162, main_v163]

theorem chunk10_writes : (chunk10 : List (HloOp τ sig (Elt F))).Forall fun op => op.writes ⊆ (chunk10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk10_keep (V : Valuation τ sig (Elt F)) (r : Ref sig .tc) (h : r ∉ chunk10_W) :
    after chunk10 V (Proc.devRef .tc r) = V (Proc.devRef .tc r) :=
  after_of_writes_sub chunk10 V chunk10_writes h

set_option maxHeartbeats 2000000 in
theorem s10_v146 (V : Valuation τ sig (Elt F)) (x1 : (⟨S2x1600000, .i32⟩ : BufTy).Contents (Elt F)) (x2 : (⟨S100000, .i32⟩ : BufTy).Contents (Elt F))
    (h_v129 : V (no_index (Proc.devRef .tc main_v129)) = ReadP.val_main_v129 (F := F) x1 x2) :
    after chunk10 V (Proc.devRef .tc main_v146) = ReadP.val_main_v146 (F := F) x1 x2 := by
  stretch_simp [chunk10, h_v129]
  try rfl

set_option maxHeartbeats 2000000 in
theorem s10_v163 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F))
    (h_arg0 : V (no_index (Proc.devRef .tc main_arg0)) = x0)
    (h_v1 : V (no_index (Proc.devRef .tc main_v1)) = ReadP.val_main_v1 (F := F) x1)
    (h_v3 : V (no_index (Proc.devRef .tc main_v3)) = ReadP.val_main_v3 (F := F) x1)
    (h_v40 : V (no_index (Proc.devRef .tc main_v40)) = ReadP.val_main_v40 (F := F) x1 x2)
    (h_v41 : V (no_index (Proc.devRef .tc main_v41)) = ReadP.val_main_v41 (F := F) x1 x2) :
    after chunk10 V (Proc.devRef .tc main_v163) = ReadP.val_main_v163 (F := F) x0 x1 x2 := by
  stretch_simp [chunk10, h_arg0, h_v1, h_v3, h_v40, h_v41]
  try rfl

end Cert.ReferenceIdeal.Staged

end
-- ==== Proof.RefRunStaged.S11.lean ====
/-
  The reference's operations 228 to 256 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 228 to 256, in order. -/
abbrev chunk11 : List (HloOp τ sig (Elt F)) :=
  [ binary main_v163 main_arg3 main_v164 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_arg0 main_arg4 main_v165 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v164 main_v165 main_v166 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v166) (TRef.of (T := ⟨S100000x64, .f32⟩) main_call8_v0) (TRef.of (T := ⟨S100000x64, .f32⟩) main_v167) maximumf,
    unary main_v75 main_v168 (broadcastInDim S1600000x1 ![0] bcast_S1600000_S1600000x1_0 : (⟨S1600000, .f32⟩ : BufTy).Contents (Elt F) → (⟨S1600000x1, .f32⟩ : BufTy).Contents (Elt F)),
    nullary main_c_46 (constantI S_ 32 0#32),
    unary main_c_46 main_v169 (broadcastInDim S1600000 ![] bcast_S_S1600000 : (⟨S_, .i32⟩ : BufTy).Contents (Elt F) → (⟨S1600000, .i32⟩ : BufTy).Contents (Elt F)),
    binary main_v3 main_v169 main_v170 (cmpi .slt : (⟨S1600000, .i32⟩ : BufTy).Contents (Elt F) → (⟨S1600000, .i32⟩ : BufTy).Contents (Elt F) → (⟨S1600000, .i1⟩ : BufTy).Contents (Elt F)),
    nullary main_c_47 (constantI S_ 32 100000#32),
    unary main_c_47 main_v171 (broadcastInDim S1600000 ![] bcast_S_S1600000 : (⟨S_, .i32⟩ : BufTy).Contents (Elt F) → (⟨S1600000, .i32⟩ : BufTy).Contents (Elt F)),
    binary main_v3 main_v171 main_v172 (addi : (⟨S1600000, .i32⟩ : BufTy).Contents (Elt F) → (⟨S1600000, .i32⟩ : BufTy).Contents (Elt F) → (⟨S1600000, .i32⟩ : BufTy).Contents (Elt F)),
    ternary main_v170 main_v172 main_v3 main_v173 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v173 main_v174 (broadcastInDim S1600000x1 ![0] bcast_S1600000_S1600000x1_0 : (⟨S1600000, .i32⟩ : BufTy).Contents (Elt F) → (⟨S1600000x1, .i32⟩ : BufTy).Contents (Elt F)),
    binary main_v167 main_v174 main_v175 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v168 main_v176 (broadcastInDim S1600000x64 ![0, 1] bcast_S1600000x1_S1600000x64_0_1 : (⟨S1600000x1, .f32⟩ : BufTy).Contents (Elt F) → (⟨S1600000x64, .f32⟩ : BufTy).Contents (Elt F)),
    binary main_v176 main_v175 main_v177 (mulf : (⟨S1600000x64, .f32⟩ : BufTy).Contents (Elt F) → (⟨S1600000x64, .f32⟩ : BufTy).Contents (Elt F) → (⟨S1600000x64, .f32⟩ : BufTy).Contents (Elt F)),
    nullary main_cst_48 (constant S_ .f32 0x00000000#32),
    unary main_cst_48 main_v178 (broadcastInDim S100000x64 ![] bcast_S_S100000x64 : (⟨S_, .f32⟩ : BufTy).Contents (Elt F) → (⟨S100000x64, .f32⟩ : BufTy).Contents (Elt F)),
    unary main_v1 main_v179 (broadcastInDim S1600000x1 ![0] bcast_S1600000_S1600000x1_0 : (⟨S1600000, .i32⟩ : BufTy).Contents (Elt F) → (⟨S1600000x1, .i32⟩ : BufTy).Contents (Elt F)),
    ternary main_v178 main_v179 main_v177 main_v180 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v76 main_v181 (broadcastInDim S100000x1 ![0] bcast_S100000_S100000x1_0 : (⟨S100000, .f32⟩ : BufTy).Contents (Elt F) → (⟨S100000x1, .f32⟩ : BufTy).Contents (Elt F)),
    unary main_v181 main_v182 (broadcastInDim S100000x64 ![0, 1] bcast_S100000x1_S100000x64_0_1 : (⟨S100000x1, .f32⟩ : BufTy).Contents (Elt F) → (⟨S100000x64, .f32⟩ : BufTy).Contents (Elt F)),
    binary main_v182 main_v167 main_v183 (mulf : (⟨S100000x64, .f32⟩ : BufTy).Contents (Elt F) → (⟨S100000x64, .f32⟩ : BufTy).Contents (Elt F) → (⟨S100000x64, .f32⟩ : BufTy).Contents (Elt F)),
    binary main_v180 main_v183 main_v184 (addf : (⟨S100000x64, .f32⟩ : BufTy).Contents (Elt F) → (⟨S100000x64, .f32⟩ : BufTy).Contents (Elt F) → (⟨S100000x64, .f32⟩ : BufTy).Contents (Elt F)),
    binary main_v184 main_arg5 main_v185 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v167 main_arg6 main_v186 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v185 main_v186 main_v187 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem chunk11_sub : (chunk11 : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub ..⟩

/-- None allocates a buffer. -/
theorem chunk11_fresh : ∀ op ∈ (chunk11 : List (HloOp τ sig (Elt F))), op.fresh = ∅ := by
  intro _ h; (repeat (cases h with | head => rfl | tail _ h => ?_)); exact nomatch h

/-- The buffers the list writes. -/
abbrev chunk11_W : List (Ref sig .tc) := [main_v164, main_v165, main_v166, main_call8_cst, main_call8_v0, main_v167, main_v168, main_c_46, main_v169, main_v170, main_c_47, main_v171, main_v172, main_v173, main_v174, main_v175, main_v176, main_v177, main_cst_48, main_v178, main_v179, main_v180, main_v181, main_v182, main_v183, main_v184, main_v185, main_v186, main_v187]

theorem chunk11_writes : (chunk11 : List (HloOp τ sig (Elt F))).Forall fun op => op.writes ⊆ (chunk11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk11_keep (V : Valuation τ sig (Elt F)) (r : Ref sig .tc) (h : r ∉ chunk11_W) :
    after chunk11 V (Proc.devRef .tc r) = V (Proc.devRef .tc r) :=
  after_of_writes_sub chunk11 V chunk11_writes h

set_option maxHeartbeats 2000000 in
theorem s11_v187 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64x64, .f32⟩ : BufTy).Contents (Elt F)) (x5 : (⟨S64x64, .f32⟩ : BufTy).Contents (Elt F)) (x6 : (⟨S64x64, .f32⟩ : BufTy).Contents (Elt F))
    (h_arg0 : V (no_index (Proc.devRef .tc main_arg0)) = x0)
    (h_arg3 : V (no_index (Proc.devRef .tc main_arg3)) = x3)
    (h_arg4 : V (no_index (Proc.devRef .tc main_arg4)) = x4)
    (h_arg5 : V (no_index (Proc.devRef .tc main_arg5)) = x5)
    (h_arg6 : V (no_index (Proc.devRef .tc main_arg6)) = x6)
    (h_v1 : V (no_index (Proc.devRef .tc main_v1)) = ReadP.val_main_v1 (F := F) x1)
    (h_v3 : V (no_index (Proc.devRef .tc main_v3)) = ReadP.val_main_v3 (F := F) x1)
    (h_v75 : V (no_index (Proc.devRef .tc main_v75)) = ReadP.val_main_v75 (F := F) x1 x2)
    (h_v76 : V (no_index (Proc.devRef .tc main_v76)) = ReadP.val_main_v76 (F := F) x1 x2)
    (h_v163 : V (no_index (Proc.devRef .tc main_v163)) = ReadP.val_main_v163 (F := F) x0 x1 x2) :
    after chunk11 V (Proc.devRef .tc main_v187) = ReadP.val_main_v187 (F := F) x0 x1 x2 x3 x4 x5 x6 := by
  stretch_simp [chunk11, h_arg0, h_arg3, h_arg4, h_arg5, h_arg6, h_v1, h_v3, h_v75, h_v76, h_v163]
  try rfl

end Cert.ReferenceIdeal.Staged

end
-- ==== Proof.RefRunStaged.S12.lean ====
/-
  The reference's operations 257 to 276 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 257 to 276, in order. -/
abbrev chunk12 : List (HloOp τ sig (Elt F)) :=
  [ unary main_v110 main_v188 (broadcastInDim S1600000x1 ![0] bcast_S1600000_S1600000x1_0 : (⟨S1600000, .f32⟩ : BufTy).Contents (Elt F) → (⟨S1600000x1, .f32⟩ : BufTy).Contents (Elt F)),
    nullary main_c_49 (constantI S_ 32 0#32),
    unary main_c_49 main_v189 (broadcastInDim S1600000 ![] bcast_S_S1600000 : (⟨S_, .i32⟩ : BufTy).Contents (Elt F) → (⟨S1600000, .i32⟩ : BufTy).Contents (Elt F)),
    binary main_v3 main_v189 main_v190 (cmpi .slt : (⟨S1600000, .i32⟩ : BufTy).Contents (Elt F) → (⟨S1600000, .i32⟩ : BufTy).Contents (Elt F) → (⟨S1600000, .i1⟩ : BufTy).Contents (Elt F)),
    nullary main_c_50 (constantI S_ 32 100000#32),
    unary main_c_50 main_v191 (broadcastInDim S1600000 ![] bcast_S_S1600000 : (⟨S_, .i32⟩ : BufTy).Contents (Elt F) → (⟨S1600000, .i32⟩ : BufTy).Contents (Elt F)),
    binary main_v3 main_v191 main_v192 (addi : (⟨S1600000, .i32⟩ : BufTy).Contents (Elt F) → (⟨S1600000, .i32⟩ : BufTy).Contents (Elt F) → (⟨S1600000, .i32⟩ : BufTy).Contents (Elt F)),
    ternary main_v190 main_v192 main_v3 main_v193 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v193 main_v194 (broadcastInDim S1600000x1 ![0] bcast_S1600000_S1600000x1_0 : (⟨S1600000, .i32⟩ : BufTy).Contents (Elt F) → (⟨S1600000x1, .i32⟩ : BufTy).Contents (Elt F)),
    binary main_arg0 main_v194 main_v195 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v188 main_v196 (broadcastInDim S1600000x64 ![0, 1] bcast_S1600000x1_S1600000x64_0_1 : (⟨S1600000x1, .f32⟩ : BufTy).Contents (Elt F) → (⟨S1600000x64, .f32⟩ : BufTy).Contents (Elt F)),
    binary main_v196 main_v195 main_v197 (mulf : (⟨S1600000x64, .f32⟩ : BufTy).Contents (Elt F) → (⟨S1600000x64, .f32⟩ : BufTy).Contents (Elt F) → (⟨S1600000x64, .f32⟩ : BufTy).Contents (Elt F)),
    nullary main_cst_51 (constant S_ .f32 0x00000000#32),
    unary main_cst_51 main_v198 (broadcastInDim S100000x64 ![] bcast_S_S100000x64 : (⟨S_, .f32⟩ : BufTy).Contents (Elt F) → (⟨S100000x64, .f32⟩ : BufTy).Contents (Elt F)),
    unary main_v1 main_v199 (broadcastInDim S1600000x1 ![0] bcast_S1600000_S1600000x1_0 : (⟨S1600000, .i32⟩ : BufTy).Contents (Elt F) → (⟨S1600000x1, .i32⟩ : BufTy).Contents (Elt F)),
    ternary main_v198 main_v199 main_v197 main_v200 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v111 main_v201 (broadcastInDim S100000x1 ![0] bcast_S100000_S100000x1_0 : (⟨S100000, .f32⟩ : BufTy).Contents (Elt F) → (⟨S100000x1, .f32⟩ : BufTy).Contents (Elt F)),
    unary main_v201 main_v202 (broadcastInDim S100000x64 ![0, 1] bcast_S100000x1_S100000x64_0_1 : (⟨S100000x1, .f32⟩ : BufTy).Contents (Elt F) → (⟨S100000x64, .f32⟩ : BufTy).Contents (Elt F)),
    binary main_v202 main_arg0 main_v203 (mulf : (⟨S100000x64, .f32⟩ : BufTy).Contents (Elt F) → (⟨S100000x64, .f32⟩ : BufTy).Contents (Elt F) → (⟨S100000x64, .f32⟩ : BufTy).Contents (Elt F)),
    binary main_v200 main_v203 main_v204 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem chunk12_sub : (chunk12 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩

/-- None allocates a buffer. -/
theorem chunk12_fresh : ∀ op ∈ (chunk12 : List (HloOp τ sig (Elt F))), op.fresh = ∅ := by
  intro _ h; (repeat (cases h with | head => rfl | tail _ h => ?_)); exact nomatch h

/-- The buffers the list writes. -/
abbrev chunk12_W : List (Ref sig .tc) := [main_v188, main_c_49, main_v189, main_v190, main_c_50, main_v191, main_v192, main_v193, main_v194, main_v195, main_v196, main_v197, main_cst_51, main_v198, main_v199, main_v200, main_v201, main_v202, main_v203, main_v204]

theorem chunk12_writes : (chunk12 : List (HloOp τ sig (Elt F))).Forall fun op => op.writes ⊆ (chunk12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk12_keep (V : Valuation τ sig (Elt F)) (r : Ref sig .tc) (h : r ∉ chunk12_W) :
    after chunk12 V (Proc.devRef .tc r) = V (Proc.devRef .tc r) :=
  after_of_writes_sub chunk12 V chunk12_writes h

set_option maxHeartbeats 2000000 in
theorem s12_v204 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F))
    (h_arg0 : V (no_index (Proc.devRef .tc main_arg0)) = x0)
    (h_v1 : V (no_index (Proc.devRef .tc main_v1)) = ReadP.val_main_v1 (F := F) x1)
    (h_v3 : V (no_index (Proc.devRef .tc main_v3)) = ReadP.val_main_v3 (F := F) x1)
    (h_v110 : V (no_index (Proc.devRef .tc main_v110)) = ReadP.val_main_v110 (F := F) x1 x2)
    (h_v111 : V (no_index (Proc.devRef .tc main_v111)) = ReadP.val_main_v111 (F := F) x1 x2) :
    after chunk12 V (Proc.devRef .tc main_v204) = ReadP.val_main_v204 (F := F) x0 x1 x2 := by
  stretch_simp [chunk12, h_arg0, h_v1, h_v3, h_v110, h_v111]
  try rfl

end Cert.ReferenceIdeal.Staged

end
-- ==== Proof.RefRunStaged.S13.lean ====
/-
  The reference's operations 277 to 305 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 277 to 305, in order. -/
abbrev chunk13 : List (HloOp τ sig (Elt F)) :=
  [ binary main_v204 main_arg7 main_v205 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_arg0 main_arg8 main_v206 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v205 main_v206 main_v207 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x64, .f32⟩) main_call9_v0) (broadcastInDim S100000x64 ![] bcast_S_S100000x64),
    TRef.binary (TRef.of (T := ⟨S100000x64, .f32⟩) main_v207) (TRef.of (T := ⟨S100000x64, .f32⟩) main_call9_v0) (TRef.of (T := ⟨S100000x64, .f32⟩) main_v208) maximumf,
    unary main_v145 main_v209 (broadcastInDim S1600000x1 ![0] bcast_S1600000_S1600000x1_0 : (⟨S1600000, .f32⟩ : BufTy).Contents (Elt F) → (⟨S1600000x1, .f32⟩ : BufTy).Contents (Elt F)),
    nullary main_c_52 (constantI S_ 32 0#32),
    unary main_c_52 main_v210 (broadcastInDim S1600000 ![] bcast_S_S1600000 : (⟨S_, .i32⟩ : BufTy).Contents (Elt F) → (⟨S1600000, .i32⟩ : BufTy).Contents (Elt F)),
    binary main_v3 main_v210 main_v211 (cmpi .slt : (⟨S1600000, .i32⟩ : BufTy).Contents (Elt F) → (⟨S1600000, .i32⟩ : BufTy).Contents (Elt F) → (⟨S1600000, .i1⟩ : BufTy).Contents (Elt F)),
    nullary main_c_53 (constantI S_ 32 100000#32),
    unary main_c_53 main_v212 (broadcastInDim S1600000 ![] bcast_S_S1600000 : (⟨S_, .i32⟩ : BufTy).Contents (Elt F) → (⟨S1600000, .i32⟩ : BufTy).Contents (Elt F)),
    binary main_v3 main_v212 main_v213 (addi : (⟨S1600000, .i32⟩ : BufTy).Contents (Elt F) → (⟨S1600000, .i32⟩ : BufTy).Contents (Elt F) → (⟨S1600000, .i32⟩ : BufTy).Contents (Elt F)),
    ternary main_v211 main_v213 main_v3 main_v214 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v214 main_v215 (broadcastInDim S1600000x1 ![0] bcast_S1600000_S1600000x1_0 : (⟨S1600000, .i32⟩ : BufTy).Contents (Elt F) → (⟨S1600000x1, .i32⟩ : BufTy).Contents (Elt F)),
    binary main_v208 main_v215 main_v216 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v209 main_v217 (broadcastInDim S1600000x64 ![0, 1] bcast_S1600000x1_S1600000x64_0_1 : (⟨S1600000x1, .f32⟩ : BufTy).Contents (Elt F) → (⟨S1600000x64, .f32⟩ : BufTy).Contents (Elt F)),
    binary main_v217 main_v216 main_v218 (mulf : (⟨S1600000x64, .f32⟩ : BufTy).Contents (Elt F) → (⟨S1600000x64, .f32⟩ : BufTy).Contents (Elt F) → (⟨S1600000x64, .f32⟩ : BufTy).Contents (Elt F)),
    nullary main_cst_54 (constant S_ .f32 0x00000000#32),
    unary main_cst_54 main_v219 (broadcastInDim S100000x64 ![] bcast_S_S100000x64 : (⟨S_, .f32⟩ : BufTy).Contents (Elt F) → (⟨S100000x64, .f32⟩ : BufTy).Contents (Elt F)),
    unary main_v1 main_v220 (broadcastInDim S1600000x1 ![0] bcast_S1600000_S1600000x1_0 : (⟨S1600000, .i32⟩ : BufTy).Contents (Elt F) → (⟨S1600000x1, .i32⟩ : BufTy).Contents (Elt F)),
    ternary main_v219 main_v220 main_v218 main_v221 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v146 main_v222 (broadcastInDim S100000x1 ![0] bcast_S100000_S100000x1_0 : (⟨S100000, .f32⟩ : BufTy).Contents (Elt F) → (⟨S100000x1, .f32⟩ : BufTy).Contents (Elt F)),
    unary main_v222 main_v223 (broadcastInDim S100000x64 ![0, 1] bcast_S100000x1_S100000x64_0_1 : (⟨S100000x1, .f32⟩ : BufTy).Contents (Elt F) → (⟨S100000x64, .f32⟩ : BufTy).Contents (Elt F)),
    binary main_v223 main_v208 main_v224 (mulf : (⟨S100000x64, .f32⟩ : BufTy).Contents (Elt F) → (⟨S100000x64, .f32⟩ : BufTy).Contents (Elt F) → (⟨S100000x64, .f32⟩ : BufTy).Contents (Elt F)),
    binary main_v221 main_v224 main_v225 (addf : (⟨S100000x64, .f32⟩ : BufTy).Contents (Elt F) → (⟨S100000x64, .f32⟩ : BufTy).Contents (Elt F) → (⟨S100000x64, .f32⟩ : BufTy).Contents (Elt F)),
    binary main_v225 main_arg9 main_v226 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v208 main_arg10 main_v227 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v226 main_v227 main_v228 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem chunk13_sub : (chunk13 : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub ..⟩

/-- None allocates a buffer. -/
theorem chunk13_fresh : ∀ op ∈ (chunk13 : List (HloOp τ sig (Elt F))), op.fresh = ∅ := by
  intro _ h; (repeat (cases h with | head => rfl | tail _ h => ?_)); exact nomatch h

/-- The buffers the list writes. -/
abbrev chunk13_W : List (Ref sig .tc) := [main_v205, main_v206, main_v207, main_call9_cst, main_call9_v0, main_v208, main_v209, main_c_52, main_v210, main_v211, main_c_53, main_v212, main_v213, main_v214, main_v215, main_v216, main_v217, main_v218, main_cst_54, main_v219, main_v220, main_v221, main_v222, main_v223, main_v224, main_v225, main_v226, main_v227, main_v228]

theorem chunk13_writes : (chunk13 : List (HloOp τ sig (Elt F))).Forall fun op => op.writes ⊆ (chunk13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk13_keep (V : Valuation τ sig (Elt F)) (r : Ref sig .tc) (h : r ∉ chunk13_W) :
    after chunk13 V (Proc.devRef .tc r) = V (Proc.devRef .tc r) :=
  after_of_writes_sub chunk13 V chunk13_writes h

set_option maxHeartbeats 2000000 in
theorem s13_v228 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F)) (x7 : (⟨S64x64, .f32⟩ : BufTy).Contents (Elt F)) (x8 : (⟨S64x64, .f32⟩ : BufTy).Contents (Elt F)) (x9 : (⟨S64x64, .f32⟩ : BufTy).Contents (Elt F)) (x10 : (⟨S64x64, .f32⟩ : BufTy).Contents (Elt F))
    (h_arg0 : V (no_index (Proc.devRef .tc main_arg0)) = x0)
    (h_arg7 : V (no_index (Proc.devRef .tc main_arg7)) = x7)
    (h_arg8 : V (no_index (Proc.devRef .tc main_arg8)) = x8)
    (h_arg9 : V (no_index (Proc.devRef .tc main_arg9)) = x9)
    (h_arg10 : V (no_index (Proc.devRef .tc main_arg10)) = x10)
    (h_v1 : V (no_index (Proc.devRef .tc main_v1)) = ReadP.val_main_v1 (F := F) x1)
    (h_v3 : V (no_index (Proc.devRef .tc main_v3)) = ReadP.val_main_v3 (F := F) x1)
    (h_v145 : V (no_index (Proc.devRef .tc main_v145)) = ReadP.val_main_v145 (F := F) x1 x2)
    (h_v146 : V (no_index (Proc.devRef .tc main_v146)) = ReadP.val_main_v146 (F := F) x1 x2)
    (h_v204 : V (no_index (Proc.devRef .tc main_v204)) = ReadP.val_main_v204 (F := F) x0 x1 x2) :
    after chunk13 V (Proc.devRef .tc main_v228) = ReadP.val_main_v228 (F := F) x0 x1 x2 x7 x8 x9 x10 := by
  stretch_simp [chunk13, h_arg0, h_arg7, h_arg8, h_arg9, h_arg10, h_v1, h_v3, h_v145, h_v146, h_v204]
  try rfl

end Cert.ReferenceIdeal.Staged

end
-- ==== Proof.RefRunStaged.S14.lean ====
/-
  The reference's operations 306 to 323 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 306 to 323, in order. -/
abbrev chunk14 : List (HloOp τ sig (Elt F)) :=
  [ binary main_arg0 main_arg11 main_v229 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_55 (constant S_ .f32 0xFF800000#32),
    binary main_arg12 main_cst_55 main_v230 ((fun x v => Host.reduce FloatOps.maximumf x v reducesTo_S2_S_d0 h_S_) : (⟨S2, .f32⟩ : BufTy).Contents (Elt F) → (⟨S_, .f32⟩ : BufTy).Contents (Elt F) → (⟨S_, .f32⟩ : BufTy).Contents (Elt F)),
    nullary main_cst_56 (constant S_ .f32 0xFF800000#32),
    binary main_cst_56 main_v230 main_v231 (maximumf : (⟨S_, .f32⟩ : BufTy).Contents (Elt F) → (⟨S_, .f32⟩ : BufTy).Contents (Elt F) → (⟨S_, .f32⟩ : BufTy).Contents (Elt F)),
    unary main_v231 main_v232 (broadcastInDim S1 ![] bcast_S_S1 : (⟨S_, .f32⟩ : BufTy).Contents (Elt F) → (⟨S1, .f32⟩ : BufTy).Contents (Elt F)),
    unary main_v232 main_v233 (broadcastInDim S2 ![0] bcast_S1_S2_0 : (⟨S1, .f32⟩ : BufTy).Contents (Elt F) → (⟨S2, .f32⟩ : BufTy).Contents (Elt F)),
    binary main_arg12 main_v233 main_v234 (subf : (⟨S2, .f32⟩ : BufTy).Contents (Elt F) → (⟨S2, .f32⟩ : BufTy).Contents (Elt F) → (⟨S2, .f32⟩ : BufTy).Contents (Elt F)),
    unary main_v234 main_v235 (Host.exp : (⟨S2, .f32⟩ : BufTy).Contents (Elt F) → (⟨S2, .f32⟩ : BufTy).Contents (Elt F)),
    nullary main_cst_57 (constant S_ .f32 0x00000000#32),
    binary main_v235 main_cst_57 main_v236 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v236 main_v237 (broadcastInDim S1 ![] bcast_S_S1 : (⟨S_, .f32⟩ : BufTy).Contents (Elt F) → (⟨S1, .f32⟩ : BufTy).Contents (Elt F)),
    unary main_v237 main_v238 (broadcastInDim S2 ![0] bcast_S1_S2_0 : (⟨S1, .f32⟩ : BufTy).Contents (Elt F) → (⟨S2, .f32⟩ : BufTy).Contents (Elt F)),
    binary main_v235 main_v238 main_v239 (Host.divf : (⟨S2, .f32⟩ : BufTy).Contents (Elt F) → (⟨S2, .f32⟩ : BufTy).Contents (Elt F) → (⟨S2, .f32⟩ : BufTy).Contents (Elt F)),
    unary main_v239 main_v240 ((extractStridedSlice S1 ![0] · slices_S2_S1_0) : (⟨S2, .f32⟩ : BufTy).Contents (Elt F) → (⟨S1, .f32⟩ : BufTy).Contents (Elt F)),
    reshape main_v240 main_v241 rfl shapeCasts_S1_S_,
    unary main_v239 main_v242 ((extractStridedSlice S1 ![1] · slices_S2_S1_1) : (⟨S2, .f32⟩ : BufTy).Contents (Elt F) → (⟨S1, .f32⟩ : BufTy).Contents (Elt F)),
    reshape main_v242 main_v243 rfl shapeCasts_S1_S_ ]

/-- Each touches TensorCore references only. -/
theorem chunk14_sub : (chunk14 : List (HloOp τ sig (Elt F))).Forall fun op => op.bufs ⊆ tcRefs τ sig :=
  ⟨binary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., reshape_bufs_sub ..⟩

/-- None allocates a buffer. -/
theorem chunk14_fresh : ∀ op ∈ (chunk14 : List (HloOp τ sig (Elt F))), op.fresh = ∅ := by
  intro _ h; (repeat (cases h with | head => rfl | tail _ h => ?_)); exact nomatch h

/-- The buffers the list writes. -/
abbrev chunk14_W : List (Ref sig .tc) := [main_v229, main_cst_55, main_v230, main_cst_56, main_v231, main_v232, main_v233, main_v234, main_v235, main_cst_57, main_v236, main_v237, main_v238, main_v239, main_v240, main_v241, main_v242, main_v243]

theorem chunk14_writes : (chunk14 : List (HloOp τ sig (Elt F))).Forall fun op => op.writes ⊆ (chunk14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk14_keep (V : Valuation τ sig (Elt F)) (r : Ref sig .tc) (h : r ∉ chunk14_W) :
    after chunk14 V (Proc.devRef .tc r) = V (Proc.devRef .tc r) :=
  after_of_writes_sub chunk14 V chunk14_writes h

set_option maxHeartbeats 2000000 in
theorem s14_v229 (V : Valuation τ sig (Elt F)) (x0 : (⟨S100000x64, .f32⟩ : BufTy).Contents (Elt F)) (x11 : (⟨S64x64, .f32⟩ : BufTy).Contents (Elt F))
    (h_arg0 : V (no_index (Proc.devRef .tc main_arg0)) = x0)
    (h_arg11 : V (no_index (Proc.devRef .tc main_arg11)) = x11) :
    after chunk14 V (Proc.devRef .tc main_v229) = ReadP.val_main_v229 (F := F) x0 x11 := by
  stretch_simp [chunk14, h_arg0, h_arg11]
  try rfl

set_option maxHeartbeats 2000000 in
theorem s14_v241 (V : Valuation τ sig (Elt F)) (x12 : (⟨S2, .f32⟩ : BufTy).Contents (Elt F))
    (h_arg12 : V (no_index (Proc.devRef .tc main_arg12)) = x12) :
    after chunk14 V (Proc.devRef .tc main_v241) = ReadP.val_main_v241 (F := F) x12 := by
  stretch_simp [chunk14, h_arg12]
  try rfl

set_option maxHeartbeats 2000000 in
theorem s14_v243 (V : Valuation τ sig (Elt F)) (x12 : (⟨S2, .f32⟩ : BufTy).Contents (Elt F))
    (h_arg12 : V (no_index (Proc.devRef .tc main_arg12)) = x12) :
    after chunk14 V (Proc.devRef .tc main_v243) = ReadP.val_main_v243 (F := F) x12 := by
  stretch_simp [chunk14, h_arg12]
  try rfl

end Cert.ReferenceIdeal.Staged

end
-- ==== Proof.RefRunStaged.S15.lean ====
/-
  The reference's operations 324 to 353 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 324 to 353, in order. -/
abbrev chunk15 : List (HloOp τ sig (Elt F)) :=
  [ nullary main_cst_58 (constant S_ .f32 0xFF800000#32),
    binary main_arg13 main_cst_58 main_v244 ((fun x v => Host.reduce FloatOps.maximumf x v reducesTo_S2_S_d0 h_S_) : (⟨S2, .f32⟩ : BufTy).Contents (Elt F) → (⟨S_, .f32⟩ : BufTy).Contents (Elt F) → (⟨S_, .f32⟩ : BufTy).Contents (Elt F)),
    nullary main_cst_59 (constant S_ .f32 0xFF800000#32),
    binary main_cst_59 main_v244 main_v245 (maximumf : (⟨S_, .f32⟩ : BufTy).Contents (Elt F) → (⟨S_, .f32⟩ : BufTy).Contents (Elt F) → (⟨S_, .f32⟩ : BufTy).Contents (Elt F)),
    unary main_v245 main_v246 (broadcastInDim S1 ![] bcast_S_S1 : (⟨S_, .f32⟩ : BufTy).Contents (Elt F) → (⟨S1, .f32⟩ : BufTy).Contents (Elt F)),
    unary main_v246 main_v247 (broadcastInDim S2 ![0] bcast_S1_S2_0 : (⟨S1, .f32⟩ : BufTy).Contents (Elt F) → (⟨S2, .f32⟩ : BufTy).Contents (Elt F)),
    binary main_arg13 main_v247 main_v248 (subf : (⟨S2, .f32⟩ : BufTy).Contents (Elt F) → (⟨S2, .f32⟩ : BufTy).Contents (Elt F) → (⟨S2, .f32⟩ : BufTy).Contents (Elt F)),
    unary main_v248 main_v249 (Host.exp : (⟨S2, .f32⟩ : BufTy).Contents (Elt F) → (⟨S2, .f32⟩ : BufTy).Contents (Elt F)),
    nullary main_cst_60 (constant S_ .f32 0x00000000#32),
    binary main_v249 main_cst_60 main_v250 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    unary main_v250 main_v251 (broadcastInDim S1 ![] bcast_S_S1 : (⟨S_, .f32⟩ : BufTy).Contents (Elt F) → (⟨S1, .f32⟩ : BufTy).Contents (Elt F)),
    unary main_v251 main_v252 (broadcastInDim S2 ![0] bcast_S1_S2_0 : (⟨S1, .f32⟩ : BufTy).Contents (Elt F) → (⟨S2, .f32⟩ : BufTy).Contents (Elt F)),
    binary main_v249 main_v252 main_v253 (Host.divf : (⟨S2, .f32⟩ : BufTy).Contents (Elt F) → (⟨S2, .f32⟩ : BufTy).Contents (Elt F) → (⟨S2, .f32⟩ : BufTy).Contents (Elt F)),
    unary main_v253 main_v254 ((extractStridedSlice S1 ![0] · slices_S2_S1_0) : (⟨S2, .f32⟩ : BufTy).Contents (Elt F) → (⟨S1, .f32⟩ : BufTy).Contents (Elt F)),
    reshape main_v254 main_v255 rfl shapeCasts_S1_S_,
    unary main_v253 main_v256 ((extractStridedSlice S1 ![1] · slices_S2_S1_1) : (⟨S2, .f32⟩ : BufTy).Contents (Elt F) → (⟨S1, .f32⟩ : BufTy).Contents (Elt F)),
    reshape main_v256 main_v257 rfl shapeCasts_S1_S_,
    unary main_v241 main_v258 (broadcastInDim S100000 ![] bcast_S_S100000 : (⟨S_, .f32⟩ : BufTy).Contents (Elt F) → (⟨S100000, .f32⟩ : BufTy).Contents (Elt F)),
    binary main_v258 main_v4 main_v259 (mulf : (⟨S100000, .f32⟩ : BufTy).Contents (Elt F) → (⟨S100000, .f32⟩ : BufTy).Contents (Elt F) → (⟨S100000, .f32⟩ : BufTy).Contents (Elt F)),
    unary main_v255 main_v260 (broadcastInDim S100000 ![] bcast_S_S100000 : (⟨S_, .f32⟩ : BufTy).Contents (Elt F) → (⟨S100000, .f32⟩ : BufTy).Contents (Elt F)),
    binary main_v260 main_v6 main_v261 (mulf : (⟨S100000, .f32⟩ : BufTy).Contents (Elt F) → (⟨S100000, .f32⟩ : BufTy).Contents (Elt F) → (⟨S100000, .f32⟩ : BufTy).Contents (Elt F)),
    binary main_v259 main_v261 main_v262 (addf : (⟨S100000, .f32⟩ : BufTy).Contents (Elt F) → (⟨S100000, .f32⟩ : BufTy).Contents (Elt F) → (⟨S100000, .f32⟩ : BufTy).Contents (Elt F)),
    unary main_v262 main_v263 (broadcastInDim S100000x1 ![0] bcast_S100000_S100000x1_0 : (⟨S100000, .f32⟩ : BufTy).Contents (Elt F) → (⟨S100000x1, .f32⟩ : BufTy).Contents (Elt F)),
    unary main_v263 main_v264 (broadcastInDim S100000x64 ![0, 1] bcast_S100000x1_S100000x64_0_1 : (⟨S100000x1, .f32⟩ : BufTy).Contents (Elt F) → (⟨S100000x64, .f32⟩ : BufTy).Contents (Elt F)),
    binary main_v264 main_v229 main_v265 (mulf : (⟨S100000x64, .f32⟩ : BufTy).Contents (Elt F) → (⟨S100000x64, .f32⟩ : BufTy).Contents (Elt F) → (⟨S100000x64, .f32⟩ : BufTy).Contents (Elt F)),
    unary main_v243 main_v266 (broadcastInDim S100000x64 ![] bcast_S_S100000x64 : (⟨S_, .f32⟩ : BufTy).Contents (Elt F) → (⟨S100000x64, .f32⟩ : BufTy).Contents (Elt F)),
    binary main_v266 main_v187 main_v267 (mulf : (⟨S100000x64, .f32⟩ : BufTy).Contents (Elt F) → (⟨S100000x64, .f32⟩ : BufTy).Contents (Elt F) → (⟨S100000x64, .f32⟩ : BufTy).Contents (Elt F)),
    binary main_v265 main_v267 main_v268 (addf : (⟨S100000x64, .f32⟩ : BufTy).Contents (Elt F) → (⟨S100000x64, .f32⟩ : BufTy).Contents (Elt F) → (⟨S100000x64, .f32⟩ : BufTy).Contents (Elt F)),
    unary main_v257 main_v269 (broadcastInDim S100000x64 ![] bcast_S_S100000x64 : (⟨S_, .f32⟩ : BufTy).Contents (Elt F) → (⟨S100000x64, .f32⟩ : BufTy).Contents (Elt F)),
    binary main_v269 main_v228 main_v270 (mulf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem chunk15_sub : (chunk15 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., unary_bufs_sub .., reshape_bufs_sub .., unary_bufs_sub .., binary_bufs_sub .., unary_bufs_sub .., binary_bufs_sub .., binary_bufs_sub .., unary_bufs_sub .., unary_bufs_sub .., binary_bufs_sub .., unary_bufs_sub .., binary_bufs_sub .., binary_bufs_sub .., unary_bufs_sub .., binary_bufs_sub ..⟩

/-- None allocates a buffer. -/
theorem chunk15_fresh : ∀ op ∈ (chunk15 : List (HloOp τ sig (Elt F))), op.fresh = ∅ := by
  intro _ h; (repeat (cases h with | head => rfl | tail _ h => ?_)); exact nomatch h

/-- The buffers the list writes. -/
abbrev chunk15_W : List (Ref sig .tc) := [main_cst_58, main_v244, main_cst_59, main_v245, main_v246, main_v247, main_v248, main_v249, main_cst_60, main_v250, main_v251, main_v252, main_v253, main_v254, main_v255, main_v256, main_v257, main_v258, main_v259, main_v260, main_v261, main_v262, main_v263, main_v264, main_v265, main_v266, main_v267, main_v268, main_v269, main_v270]

theorem chunk15_writes : (chunk15 : List (HloOp τ sig (Elt F))).Forall fun op => op.writes ⊆ (chunk15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk15_keep (V : Valuation τ sig (Elt F)) (r : Ref sig .tc) (h : r ∉ chunk15_W) :
    after chunk15 V (Proc.devRef .tc r) = V (Proc.devRef .tc r) :=
  after_of_writes_sub chunk15 V chunk15_writes h

set_option maxHeartbeats 2000000 in
theorem s15_v268 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64x64, .f32⟩ : BufTy).Contents (Elt F)) (x5 : (⟨S64x64, .f32⟩ : BufTy).Contents (Elt F)) (x6 : (⟨S64x64, .f32⟩ : BufTy).Contents (Elt F)) (x11 : (⟨S64x64, .f32⟩ : BufTy).Contents (Elt F)) (x12 : (⟨S2, .f32⟩ : BufTy).Contents (Elt F)) (x13 : (⟨S2, .f32⟩ : BufTy).Contents (Elt F))
    (h_arg13 : V (no_index (Proc.devRef .tc main_arg13)) = x13)
    (h_v4 : V (no_index (Proc.devRef .tc main_v4)) = ReadP.val_main_v4 (F := F) x2)
    (h_v6 : V (no_index (Proc.devRef .tc main_v6)) = ReadP.val_main_v6 (F := F) x2)
    (h_v187 : V (no_index (Proc.devRef .tc main_v187)) = ReadP.val_main_v187 (F := F) x0 x1 x2 x3 x4 x5 x6)
    (h_v229 : V (no_index (Proc.devRef .tc main_v229)) = ReadP.val_main_v229 (F := F) x0 x11)
    (h_v241 : V (no_index (Proc.devRef .tc main_v241)) = ReadP.val_main_v241 (F := F) x12)
    (h_v243 : V (no_index (Proc.devRef .tc main_v243)) = ReadP.val_main_v243 (F := F) x12) :
    after chunk15 V (Proc.devRef .tc main_v268) = ReadP.val_main_v268 (F := F) x0 x1 x2 x3 x4 x5 x6 x11 x12 x13 := by
  stretch_simp [chunk15, h_arg13, h_v4, h_v6, h_v187, h_v229, h_v241, h_v243]
  try rfl

set_option maxHeartbeats 2000000 in
theorem s15_v270 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F)) (x7 : (⟨S64x64, .f32⟩ : BufTy).Contents (Elt F)) (x8 : (⟨S64x64, .f32⟩ : BufTy).Contents (Elt F)) (x9 : (⟨S64x64, .f32⟩ : BufTy).Contents (Elt F)) (x10 : (⟨S64x64, .f32⟩ : BufTy).Contents (Elt F)) (x13 : (⟨S2, .f32⟩ : BufTy).Contents (Elt F))
    (h_arg13 : V (no_index (Proc.devRef .tc main_arg13)) = x13)
    (h_v228 : V (no_index (Proc.devRef .tc main_v228)) = ReadP.val_main_v228 (F := F) x0 x1 x2 x7 x8 x9 x10) :
    after chunk15 V (Proc.devRef .tc main_v270) = ReadP.val_main_v270 (F := F) x0 x1 x2 x7 x8 x9 x10 x13 := by
  stretch_simp [chunk15, h_arg13, h_v228]
  try rfl

end Cert.ReferenceIdeal.Staged

end
-- ==== Proof.RefRunStaged.S16.lean ====
/-
  The reference's operations 354 to 361 (of 362, in program order), as one list, and the value each buffer that a later
  operation reads holds after them: the stage of that buffer's name, whenever the buffers read from before the list hold their stages.
-/
import proofs.«169779_j77360950935705_2_alg».proof.Proof.Gen.ReferenceIdeal
import proofs.«169779_j77360950935705_2_alg».proof.Proof.RefRead
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- One run of consecutive operations evaluated at a buffer: the operations' results, outermost first, and a buffer the
    run does not write left as it was. -/
local macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-- Operations 354 to 361, in order. -/
abbrev chunk16 : List (HloOp τ sig (Elt F)) :=
  [ binary main_v268 main_v270 main_v271 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v271) (TRef.of (T := ⟨S100000x64, .f32⟩) main_call10_v0) (TRef.of (T := ⟨S100000x64, .f32⟩) main_v272) maximumf,
    binary main_v272 main_arg14 main_v273 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg15 main_v274 (broadcastInDim S1x40 ![1] bcast_S40_S1x40_1 : (⟨S40, .f32⟩ : BufTy).Contents (Elt F) → (⟨S1x40, .f32⟩ : BufTy).Contents (Elt F)),
    unary main_v274 main_v275 (broadcastInDim S100000x40 ![0, 1] bcast_S1x40_S100000x40_0_1 : (⟨S1x40, .f32⟩ : BufTy).Contents (Elt F) → (⟨S100000x40, .f32⟩ : BufTy).Contents (Elt F)),
    binary main_v273 main_v275 main_v276 (addf : (⟨S100000x40, .f32⟩ : BufTy).Contents (Elt F) → (⟨S100000x40, .f32⟩ : BufTy).Contents (Elt F) → (⟨S100000x40, .f32⟩ : BufTy).Contents (Elt F)) ]

/-- Each touches TensorCore references only. -/
theorem chunk16_sub : (chunk16 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub ..⟩

/-- None allocates a buffer. -/
theorem chunk16_fresh : ∀ op ∈ (chunk16 : List (HloOp τ sig (Elt F))), op.fresh = ∅ := by
  intro _ h; (repeat (cases h with | head => rfl | tail _ h => ?_)); exact nomatch h

/-- The buffers the list writes. -/
abbrev chunk16_W : List (Ref sig .tc) := [main_v271, main_call10_cst, main_call10_v0, main_v272, main_v273, main_v274, main_v275, main_v276]

theorem chunk16_writes : (chunk16 : List (HloOp τ sig (Elt F))).Forall fun op => op.writes ⊆ (chunk16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the list does not write keeps its contents through it. -/
theorem chunk16_keep (V : Valuation τ sig (Elt F)) (r : Ref sig .tc) (h : r ∉ chunk16_W) :
    after chunk16 V (Proc.devRef .tc r) = V (Proc.devRef .tc r) :=
  after_of_writes_sub chunk16 V chunk16_writes h

set_option maxHeartbeats 2000000 in
theorem s16_v276 (V : Valuation τ sig (Elt F)) (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64x64, .f32⟩ : BufTy).Contents (Elt F)) (x5 : (⟨S64x64, .f32⟩ : BufTy).Contents (Elt F)) (x6 : (⟨S64x64, .f32⟩ : BufTy).Contents (Elt F)) (x7 : (⟨S64x64, .f32⟩ : BufTy).Contents (Elt F)) (x8 : (⟨S64x64, .f32⟩ : BufTy).Contents (Elt F)) (x9 : (⟨S64x64, .f32⟩ : BufTy).Contents (Elt F)) (x10 : (⟨S64x64, .f32⟩ : BufTy).Contents (Elt F)) (x11 : (⟨S64x64, .f32⟩ : BufTy).Contents (Elt F)) (x12 : (⟨S2, .f32⟩ : BufTy).Contents (Elt F)) (x13 : (⟨S2, .f32⟩ : BufTy).Contents (Elt F)) (x14 : (⟨S64x40, .f32⟩ : BufTy).Contents (Elt F)) (x15 : (⟨S40, .f32⟩ : BufTy).Contents (Elt F))
    (h_arg14 : V (no_index (Proc.devRef .tc main_arg14)) = x14)
    (h_arg15 : V (no_index (Proc.devRef .tc main_arg15)) = x15)
    (h_v268 : V (no_index (Proc.devRef .tc main_v268)) = ReadP.val_main_v268 (F := F) x0 x1 x2 x3 x4 x5 x6 x11 x12 x13)
    (h_v270 : V (no_index (Proc.devRef .tc main_v270)) = ReadP.val_main_v270 (F := F) x0 x1 x2 x7 x8 x9 x10 x13) :
    after chunk16 V (Proc.devRef .tc main_v276) = ReadP.val_main_v276 (F := F) x0 x1 x2 x3 x4 x5 x6 x7 x8 x9 x10 x11 x12 x13 x14 x15 := by
  stretch_simp [chunk16, h_arg14, h_arg15, h_v268, h_v270]
  try rfl

end Cert.ReferenceIdeal.Staged

end
-- ==== Proof.RefRunStaged.lean ====
/-
  The reference's run, in stages.

  The reference is a straight line of 362 host operations. Cut into consecutive lists, the buffer contents after each list
  are the contents before it with the list's results written; at every cut, each buffer that a later operation reads holds
  the stage of its name (one operation applied to earlier stages) of the arguments' launch contents, and an argument buffer,
  which nothing writes, holds its launch contents. The last cut gives the result buffer as the last stage.
-/
import proofs.«169779_j77360950935705_2_alg».proof.Proof.RefRunStaged.S00
import proofs.«169779_j77360950935705_2_alg».proof.Proof.RefRunStaged.S01
import proofs.«169779_j77360950935705_2_alg».proof.Proof.RefRunStaged.S02
import proofs.«169779_j77360950935705_2_alg».proof.Proof.RefRunStaged.S03
import proofs.«169779_j77360950935705_2_alg».proof.Proof.RefRunStaged.S04
import proofs.«169779_j77360950935705_2_alg».proof.Proof.RefRunStaged.S05
import proofs.«169779_j77360950935705_2_alg».proof.Proof.RefRunStaged.S06
import proofs.«169779_j77360950935705_2_alg».proof.Proof.RefRunStaged.S07
import proofs.«169779_j77360950935705_2_alg».proof.Proof.RefRunStaged.S08
import proofs.«169779_j77360950935705_2_alg».proof.Proof.RefRunStaged.S09
import proofs.«169779_j77360950935705_2_alg».proof.Proof.RefRunStaged.S10
import proofs.«169779_j77360950935705_2_alg».proof.Proof.RefRunStaged.S11
import proofs.«169779_j77360950935705_2_alg».proof.Proof.RefRunStaged.S12
import proofs.«169779_j77360950935705_2_alg».proof.Proof.RefRunStaged.S13
import proofs.«169779_j77360950935705_2_alg».proof.Proof.RefRunStaged.S14
import proofs.«169779_j77360950935705_2_alg».proof.Proof.RefRunStaged.S15
import proofs.«169779_j77360950935705_2_alg».proof.Proof.RefRunStaged.S16
import Idealize.ShloMosaic.Lib.StableHlo.Run

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- The operations after a concatenation are the second list's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A property of every operation of two lists holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.2 fun x hx => (List.mem_append.1 hx).elim (List.forall_iff_forall_mem.1 h₁ x) (List.forall_iff_forall_mem.1 h₂ x)

/-- @main's 362 operations, in order, as the concatenation of the lists. -/
abbrev ops : List (HloOp τ sig (Elt F)) :=
  chunk00 ++ (chunk01 ++ (chunk02 ++ (chunk03 ++ (chunk04 ++ (chunk05 ++ (chunk06 ++ (chunk07 ++ (chunk08 ++ (chunk09 ++ (chunk10 ++ (chunk11 ++ (chunk12 ++ (chunk13 ++ (chunk14 ++ (chunk15 ++ (chunk16))))))))))))))))

set_option maxRecDepth 65536 in
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append chunk00_sub (forall_append chunk01_sub (forall_append chunk02_sub (forall_append chunk03_sub (forall_append chunk04_sub (forall_append chunk05_sub (forall_append chunk06_sub (forall_append chunk07_sub (forall_append chunk08_sub (forall_append chunk09_sub (forall_append chunk10_sub (forall_append chunk11_sub (forall_append chunk12_sub (forall_append chunk13_sub (forall_append chunk14_sub (forall_append chunk15_sub (chunk16_sub))))))))))))))))

theorem ops_fresh : ∀ op ∈ (ops : List (HloOp τ sig (Elt F))), op.fresh = ∅ := fun op h =>
  (List.mem_append.1 h).elim (fun h => chunk00_fresh op h) (fun h => (List.mem_append.1 h).elim (fun h => chunk01_fresh op h) (fun h => (List.mem_append.1 h).elim (fun h => chunk02_fresh op h) (fun h => (List.mem_append.1 h).elim (fun h => chunk03_fresh op h) (fun h => (List.mem_append.1 h).elim (fun h => chunk04_fresh op h) (fun h => (List.mem_append.1 h).elim (fun h => chunk05_fresh op h) (fun h => (List.mem_append.1 h).elim (fun h => chunk06_fresh op h) (fun h => (List.mem_append.1 h).elim (fun h => chunk07_fresh op h) (fun h => (List.mem_append.1 h).elim (fun h => chunk08_fresh op h) (fun h => (List.mem_append.1 h).elim (fun h => chunk09_fresh op h) (fun h => (List.mem_append.1 h).elim (fun h => chunk10_fresh op h) (fun h => (List.mem_append.1 h).elim (fun h => chunk11_fresh op h) (fun h => (List.mem_append.1 h).elim (fun h => chunk12_fresh op h) (fun h => (List.mem_append.1 h).elim (fun h => chunk13_fresh op h) (fun h => (List.mem_append.1 h).elim (fun h => chunk14_fresh op h) (fun h => (List.mem_append.1 h).elim (fun h => chunk15_fresh op h) (fun h => chunk16_fresh op h))))))))))))))))

section Boundaries

variable (m : (ℓ : Loc nD τ sig) → Buf (Elt F) ℓ) (c : Dev nD)

/-- The buffer contents at the launch. -/
abbrev B00 : Valuation τ sig (Elt F) := launchContents m c
/-- The buffer contents after list 0. -/
abbrev B01 : Valuation τ sig (Elt F) := after chunk00 (B00 m c)
/-- The buffer contents after list 1. -/
abbrev B02 : Valuation τ sig (Elt F) := after chunk01 (B01 m c)
/-- The buffer contents after list 2. -/
abbrev B03 : Valuation τ sig (Elt F) := after chunk02 (B02 m c)
/-- The buffer contents after list 3. -/
abbrev B04 : Valuation τ sig (Elt F) := after chunk03 (B03 m c)
/-- The buffer contents after list 4. -/
abbrev B05 : Valuation τ sig (Elt F) := after chunk04 (B04 m c)
/-- The buffer contents after list 5. -/
abbrev B06 : Valuation τ sig (Elt F) := after chunk05 (B05 m c)
/-- The buffer contents after list 6. -/
abbrev B07 : Valuation τ sig (Elt F) := after chunk06 (B06 m c)
/-- The buffer contents after list 7. -/
abbrev B08 : Valuation τ sig (Elt F) := after chunk07 (B07 m c)
/-- The buffer contents after list 8. -/
abbrev B09 : Valuation τ sig (Elt F) := after chunk08 (B08 m c)
/-- The buffer contents after list 9. -/
abbrev B10 : Valuation τ sig (Elt F) := after chunk09 (B09 m c)
/-- The buffer contents after list 10. -/
abbrev B11 : Valuation τ sig (Elt F) := after chunk10 (B10 m c)
/-- The buffer contents after list 11. -/
abbrev B12 : Valuation τ sig (Elt F) := after chunk11 (B11 m c)
/-- The buffer contents after list 12. -/
abbrev B13 : Valuation τ sig (Elt F) := after chunk12 (B12 m c)
/-- The buffer contents after list 13. -/
abbrev B14 : Valuation τ sig (Elt F) := after chunk13 (B13 m c)
/-- The buffer contents after list 14. -/
abbrev B15 : Valuation τ sig (Elt F) := after chunk14 (B14 m c)
/-- The buffer contents after list 15. -/
abbrev B16 : Valuation τ sig (Elt F) := after chunk15 (B15 m c)
/-- The buffer contents after list 16. -/
abbrev B17 : Valuation τ sig (Elt F) := after chunk16 (B16 m c)

theorem after_ops : after ops (launchContents m c) = B17 m c := by
  simp only [ops, after_append]

/-! ## At the launch -/

theorem w00_arg0 : B00 m c (no_index (Proc.devRef .tc main_arg0)) = m ((c.tc : Thread nD τ).loc main_arg0) := rfl

theorem w00_arg1 : B00 m c (no_index (Proc.devRef .tc main_arg1)) = m ((c.tc : Thread nD τ).loc main_arg1) := rfl

theorem w00_arg2 : B00 m c (no_index (Proc.devRef .tc main_arg2)) = m ((c.tc : Thread nD τ).loc main_arg2) := rfl

theorem w00_arg3 : B00 m c (no_index (Proc.devRef .tc main_arg3)) = m ((c.tc : Thread nD τ).loc main_arg3) := rfl

theorem w00_arg4 : B00 m c (no_index (Proc.devRef .tc main_arg4)) = m ((c.tc : Thread nD τ).loc main_arg4) := rfl

theorem w00_arg5 : B00 m c (no_index (Proc.devRef .tc main_arg5)) = m ((c.tc : Thread nD τ).loc main_arg5) := rfl

theorem w00_arg6 : B00 m c (no_index (Proc.devRef .tc main_arg6)) = m ((c.tc : Thread nD τ).loc main_arg6) := rfl

theorem w00_arg7 : B00 m c (no_index (Proc.devRef .tc main_arg7)) = m ((c.tc : Thread nD τ).loc main_arg7) := rfl

theorem w00_arg8 : B00 m c (no_index (Proc.devRef .tc main_arg8)) = m ((c.tc : Thread nD τ).loc main_arg8) := rfl

theorem w00_arg9 : B00 m c (no_index (Proc.devRef .tc main_arg9)) = m ((c.tc : Thread nD τ).loc main_arg9) := rfl

theorem w00_arg10 : B00 m c (no_index (Proc.devRef .tc main_arg10)) = m ((c.tc : Thread nD τ).loc main_arg10) := rfl

theorem w00_arg11 : B00 m c (no_index (Proc.devRef .tc main_arg11)) = m ((c.tc : Thread nD τ).loc main_arg11) := rfl

theorem w00_arg12 : B00 m c (no_index (Proc.devRef .tc main_arg12)) = m ((c.tc : Thread nD τ).loc main_arg12) := rfl

theorem w00_arg13 : B00 m c (no_index (Proc.devRef .tc main_arg13)) = m ((c.tc : Thread nD τ).loc main_arg13) := rfl

theorem w00_arg14 : B00 m c (no_index (Proc.devRef .tc main_arg14)) = m ((c.tc : Thread nD τ).loc main_arg14) := rfl

theorem w00_arg15 : B00 m c (no_index (Proc.devRef .tc main_arg15)) = m ((c.tc : Thread nD τ).loc main_arg15) := rfl

/-! ## After list 0 -/

theorem w01_arg0 : B01 m c (no_index (Proc.devRef .tc main_arg0)) = m ((c.tc : Thread nD τ).loc main_arg0) :=
  (chunk00_keep (B00 m c) main_arg0 (by decide)).trans (w00_arg0 m c)

theorem w01_arg1 : B01 m c (no_index (Proc.devRef .tc main_arg1)) = m ((c.tc : Thread nD τ).loc main_arg1) :=
  (chunk00_keep (B00 m c) main_arg1 (by decide)).trans (w00_arg1 m c)

theorem w01_arg2 : B01 m c (no_index (Proc.devRef .tc main_arg2)) = m ((c.tc : Thread nD τ).loc main_arg2) :=
  (chunk00_keep (B00 m c) main_arg2 (by decide)).trans (w00_arg2 m c)

theorem w01_arg3 : B01 m c (no_index (Proc.devRef .tc main_arg3)) = m ((c.tc : Thread nD τ).loc main_arg3) :=
  (chunk00_keep (B00 m c) main_arg3 (by decide)).trans (w00_arg3 m c)

theorem w01_arg4 : B01 m c (no_index (Proc.devRef .tc main_arg4)) = m ((c.tc : Thread nD τ).loc main_arg4) :=
  (chunk00_keep (B00 m c) main_arg4 (by decide)).trans (w00_arg4 m c)

theorem w01_arg5 : B01 m c (no_index (Proc.devRef .tc main_arg5)) = m ((c.tc : Thread nD τ).loc main_arg5) :=
  (chunk00_keep (B00 m c) main_arg5 (by decide)).trans (w00_arg5 m c)

theorem w01_arg6 : B01 m c (no_index (Proc.devRef .tc main_arg6)) = m ((c.tc : Thread nD τ).loc main_arg6) :=
  (chunk00_keep (B00 m c) main_arg6 (by decide)).trans (w00_arg6 m c)

theorem w01_arg7 : B01 m c (no_index (Proc.devRef .tc main_arg7)) = m ((c.tc : Thread nD τ).loc main_arg7) :=
  (chunk00_keep (B00 m c) main_arg7 (by decide)).trans (w00_arg7 m c)

theorem w01_arg8 : B01 m c (no_index (Proc.devRef .tc main_arg8)) = m ((c.tc : Thread nD τ).loc main_arg8) :=
  (chunk00_keep (B00 m c) main_arg8 (by decide)).trans (w00_arg8 m c)

theorem w01_arg9 : B01 m c (no_index (Proc.devRef .tc main_arg9)) = m ((c.tc : Thread nD τ).loc main_arg9) :=
  (chunk00_keep (B00 m c) main_arg9 (by decide)).trans (w00_arg9 m c)

theorem w01_arg10 : B01 m c (no_index (Proc.devRef .tc main_arg10)) = m ((c.tc : Thread nD τ).loc main_arg10) :=
  (chunk00_keep (B00 m c) main_arg10 (by decide)).trans (w00_arg10 m c)

theorem w01_arg11 : B01 m c (no_index (Proc.devRef .tc main_arg11)) = m ((c.tc : Thread nD τ).loc main_arg11) :=
  (chunk00_keep (B00 m c) main_arg11 (by decide)).trans (w00_arg11 m c)

theorem w01_arg12 : B01 m c (no_index (Proc.devRef .tc main_arg12)) = m ((c.tc : Thread nD τ).loc main_arg12) :=
  (chunk00_keep (B00 m c) main_arg12 (by decide)).trans (w00_arg12 m c)

theorem w01_arg13 : B01 m c (no_index (Proc.devRef .tc main_arg13)) = m ((c.tc : Thread nD τ).loc main_arg13) :=
  (chunk00_keep (B00 m c) main_arg13 (by decide)).trans (w00_arg13 m c)

theorem w01_arg14 : B01 m c (no_index (Proc.devRef .tc main_arg14)) = m ((c.tc : Thread nD τ).loc main_arg14) :=
  (chunk00_keep (B00 m c) main_arg14 (by decide)).trans (w00_arg14 m c)

theorem w01_arg15 : B01 m c (no_index (Proc.devRef .tc main_arg15)) = m ((c.tc : Thread nD τ).loc main_arg15) :=
  (chunk00_keep (B00 m c) main_arg15 (by decide)).trans (w00_arg15 m c)

theorem w01_v1 : B01 m c (no_index (Proc.devRef .tc main_v1)) = ReadP.val_main_v1 (F := F) (m ((c.tc : Thread nD τ).loc main_arg1)) :=
  s00_v1 (B00 m c) (m ((c.tc : Thread nD τ).loc main_arg1)) (w00_arg1 m c)

theorem w01_v3 : B01 m c (no_index (Proc.devRef .tc main_v3)) = ReadP.val_main_v3 (F := F) (m ((c.tc : Thread nD τ).loc main_arg1)) :=
  s00_v3 (B00 m c) (m ((c.tc : Thread nD τ).loc main_arg1)) (w00_arg1 m c)

theorem w01_v4 : B01 m c (no_index (Proc.devRef .tc main_v4)) = ReadP.val_main_v4 (F := F) (m ((c.tc : Thread nD τ).loc main_arg2)) :=
  s00_v4 (B00 m c) (m ((c.tc : Thread nD τ).loc main_arg2)) (w00_arg2 m c)

theorem w01_v6 : B01 m c (no_index (Proc.devRef .tc main_v6)) = ReadP.val_main_v6 (F := F) (m ((c.tc : Thread nD τ).loc main_arg2)) :=
  s00_v6 (B00 m c) (m ((c.tc : Thread nD τ).loc main_arg2)) (w00_arg2 m c)

theorem w01_v15 : B01 m c (no_index (Proc.devRef .tc main_v15)) = ReadP.val_main_v15 (F := F) (m ((c.tc : Thread nD τ).loc main_arg1)) (m ((c.tc : Thread nD τ).loc main_arg2)) :=
  s00_v15 (B00 m c) (m ((c.tc : Thread nD τ).loc main_arg1)) (m ((c.tc : Thread nD τ).loc main_arg2)) (w00_arg1 m c) (w00_arg2 m c)

/-! ## After list 1 -/

theorem w02_arg0 : B02 m c (no_index (Proc.devRef .tc main_arg0)) = m ((c.tc : Thread nD τ).loc main_arg0) :=
  (chunk01_keep (B01 m c) main_arg0 (by decide)).trans (w01_arg0 m c)

theorem w02_arg1 : B02 m c (no_index (Proc.devRef .tc main_arg1)) = m ((c.tc : Thread nD τ).loc main_arg1) :=
  (chunk01_keep (B01 m c) main_arg1 (by decide)).trans (w01_arg1 m c)

theorem w02_arg2 : B02 m c (no_index (Proc.devRef .tc main_arg2)) = m ((c.tc : Thread nD τ).loc main_arg2) :=
  (chunk01_keep (B01 m c) main_arg2 (by decide)).trans (w01_arg2 m c)

theorem w02_arg3 : B02 m c (no_index (Proc.devRef .tc main_arg3)) = m ((c.tc : Thread nD τ).loc main_arg3) :=
  (chunk01_keep (B01 m c) main_arg3 (by decide)).trans (w01_arg3 m c)

theorem w02_arg4 : B02 m c (no_index (Proc.devRef .tc main_arg4)) = m ((c.tc : Thread nD τ).loc main_arg4) :=
  (chunk01_keep (B01 m c) main_arg4 (by decide)).trans (w01_arg4 m c)

theorem w02_arg5 : B02 m c (no_index (Proc.devRef .tc main_arg5)) = m ((c.tc : Thread nD τ).loc main_arg5) :=
  (chunk01_keep (B01 m c) main_arg5 (by decide)).trans (w01_arg5 m c)

theorem w02_arg6 : B02 m c (no_index (Proc.devRef .tc main_arg6)) = m ((c.tc : Thread nD τ).loc main_arg6) :=
  (chunk01_keep (B01 m c) main_arg6 (by decide)).trans (w01_arg6 m c)

theorem w02_arg7 : B02 m c (no_index (Proc.devRef .tc main_arg7)) = m ((c.tc : Thread nD τ).loc main_arg7) :=
  (chunk01_keep (B01 m c) main_arg7 (by decide)).trans (w01_arg7 m c)

theorem w02_arg8 : B02 m c (no_index (Proc.devRef .tc main_arg8)) = m ((c.tc : Thread nD τ).loc main_arg8) :=
  (chunk01_keep (B01 m c) main_arg8 (by decide)).trans (w01_arg8 m c)

theorem w02_arg9 : B02 m c (no_index (Proc.devRef .tc main_arg9)) = m ((c.tc : Thread nD τ).loc main_arg9) :=
  (chunk01_keep (B01 m c) main_arg9 (by decide)).trans (w01_arg9 m c)

theorem w02_arg10 : B02 m c (no_index (Proc.devRef .tc main_arg10)) = m ((c.tc : Thread nD τ).loc main_arg10) :=
  (chunk01_keep (B01 m c) main_arg10 (by decide)).trans (w01_arg10 m c)

theorem w02_arg11 : B02 m c (no_index (Proc.devRef .tc main_arg11)) = m ((c.tc : Thread nD τ).loc main_arg11) :=
  (chunk01_keep (B01 m c) main_arg11 (by decide)).trans (w01_arg11 m c)

theorem w02_arg12 : B02 m c (no_index (Proc.devRef .tc main_arg12)) = m ((c.tc : Thread nD τ).loc main_arg12) :=
  (chunk01_keep (B01 m c) main_arg12 (by decide)).trans (w01_arg12 m c)

theorem w02_arg13 : B02 m c (no_index (Proc.devRef .tc main_arg13)) = m ((c.tc : Thread nD τ).loc main_arg13) :=
  (chunk01_keep (B01 m c) main_arg13 (by decide)).trans (w01_arg13 m c)

theorem w02_arg14 : B02 m c (no_index (Proc.devRef .tc main_arg14)) = m ((c.tc : Thread nD τ).loc main_arg14) :=
  (chunk01_keep (B01 m c) main_arg14 (by decide)).trans (w01_arg14 m c)

theorem w02_arg15 : B02 m c (no_index (Proc.devRef .tc main_arg15)) = m ((c.tc : Thread nD τ).loc main_arg15) :=
  (chunk01_keep (B01 m c) main_arg15 (by decide)).trans (w01_arg15 m c)

theorem w02_v1 : B02 m c (no_index (Proc.devRef .tc main_v1)) = ReadP.val_main_v1 (F := F) (m ((c.tc : Thread nD τ).loc main_arg1)) :=
  (chunk01_keep (B01 m c) main_v1 (by decide)).trans (w01_v1 m c)

theorem w02_v3 : B02 m c (no_index (Proc.devRef .tc main_v3)) = ReadP.val_main_v3 (F := F) (m ((c.tc : Thread nD τ).loc main_arg1)) :=
  (chunk01_keep (B01 m c) main_v3 (by decide)).trans (w01_v3 m c)

theorem w02_v4 : B02 m c (no_index (Proc.devRef .tc main_v4)) = ReadP.val_main_v4 (F := F) (m ((c.tc : Thread nD τ).loc main_arg2)) :=
  (chunk01_keep (B01 m c) main_v4 (by decide)).trans (w01_v4 m c)

theorem w02_v6 : B02 m c (no_index (Proc.devRef .tc main_v6)) = ReadP.val_main_v6 (F := F) (m ((c.tc : Thread nD τ).loc main_arg2)) :=
  (chunk01_keep (B01 m c) main_v6 (by decide)).trans (w01_v6 m c)

theorem w02_v24 : B02 m c (no_index (Proc.devRef .tc main_v24)) = ReadP.val_main_v24 (F := F) (m ((c.tc : Thread nD τ).loc main_arg1)) (m ((c.tc : Thread nD τ).loc main_arg2)) :=
  s01_v24 (B01 m c) (m ((c.tc : Thread nD τ).loc main_arg1)) (m ((c.tc : Thread nD τ).loc main_arg2)) (w01_v1 m c) (w01_v15 m c)

theorem w02_v32 : B02 m c (no_index (Proc.devRef .tc main_v32)) = ReadP.val_main_v32 (F := F) (m ((c.tc : Thread nD τ).loc main_arg1)) (m ((c.tc : Thread nD τ).loc main_arg2)) :=
  s01_v32 (B01 m c) (m ((c.tc : Thread nD τ).loc main_arg1)) (m ((c.tc : Thread nD τ).loc main_arg2)) (w01_v1 m c) (w01_v15 m c)

/-! ## After list 2 -/

theorem w03_arg0 : B03 m c (no_index (Proc.devRef .tc main_arg0)) = m ((c.tc : Thread nD τ).loc main_arg0) :=
  (chunk02_keep (B02 m c) main_arg0 (by decide)).trans (w02_arg0 m c)

theorem w03_arg1 : B03 m c (no_index (Proc.devRef .tc main_arg1)) = m ((c.tc : Thread nD τ).loc main_arg1) :=
  (chunk02_keep (B02 m c) main_arg1 (by decide)).trans (w02_arg1 m c)

theorem w03_arg2 : B03 m c (no_index (Proc.devRef .tc main_arg2)) = m ((c.tc : Thread nD τ).loc main_arg2) :=
  (chunk02_keep (B02 m c) main_arg2 (by decide)).trans (w02_arg2 m c)

theorem w03_arg3 : B03 m c (no_index (Proc.devRef .tc main_arg3)) = m ((c.tc : Thread nD τ).loc main_arg3) :=
  (chunk02_keep (B02 m c) main_arg3 (by decide)).trans (w02_arg3 m c)

theorem w03_arg4 : B03 m c (no_index (Proc.devRef .tc main_arg4)) = m ((c.tc : Thread nD τ).loc main_arg4) :=
  (chunk02_keep (B02 m c) main_arg4 (by decide)).trans (w02_arg4 m c)

theorem w03_arg5 : B03 m c (no_index (Proc.devRef .tc main_arg5)) = m ((c.tc : Thread nD τ).loc main_arg5) :=
  (chunk02_keep (B02 m c) main_arg5 (by decide)).trans (w02_arg5 m c)

theorem w03_arg6 : B03 m c (no_index (Proc.devRef .tc main_arg6)) = m ((c.tc : Thread nD τ).loc main_arg6) :=
  (chunk02_keep (B02 m c) main_arg6 (by decide)).trans (w02_arg6 m c)

theorem w03_arg7 : B03 m c (no_index (Proc.devRef .tc main_arg7)) = m ((c.tc : Thread nD τ).loc main_arg7) :=
  (chunk02_keep (B02 m c) main_arg7 (by decide)).trans (w02_arg7 m c)

theorem w03_arg8 : B03 m c (no_index (Proc.devRef .tc main_arg8)) = m ((c.tc : Thread nD τ).loc main_arg8) :=
  (chunk02_keep (B02 m c) main_arg8 (by decide)).trans (w02_arg8 m c)

theorem w03_arg9 : B03 m c (no_index (Proc.devRef .tc main_arg9)) = m ((c.tc : Thread nD τ).loc main_arg9) :=
  (chunk02_keep (B02 m c) main_arg9 (by decide)).trans (w02_arg9 m c)

theorem w03_arg10 : B03 m c (no_index (Proc.devRef .tc main_arg10)) = m ((c.tc : Thread nD τ).loc main_arg10) :=
  (chunk02_keep (B02 m c) main_arg10 (by decide)).trans (w02_arg10 m c)

theorem w03_arg11 : B03 m c (no_index (Proc.devRef .tc main_arg11)) = m ((c.tc : Thread nD τ).loc main_arg11) :=
  (chunk02_keep (B02 m c) main_arg11 (by decide)).trans (w02_arg11 m c)

theorem w03_arg12 : B03 m c (no_index (Proc.devRef .tc main_arg12)) = m ((c.tc : Thread nD τ).loc main_arg12) :=
  (chunk02_keep (B02 m c) main_arg12 (by decide)).trans (w02_arg12 m c)

theorem w03_arg13 : B03 m c (no_index (Proc.devRef .tc main_arg13)) = m ((c.tc : Thread nD τ).loc main_arg13) :=
  (chunk02_keep (B02 m c) main_arg13 (by decide)).trans (w02_arg13 m c)

theorem w03_arg14 : B03 m c (no_index (Proc.devRef .tc main_arg14)) = m ((c.tc : Thread nD τ).loc main_arg14) :=
  (chunk02_keep (B02 m c) main_arg14 (by decide)).trans (w02_arg14 m c)

theorem w03_arg15 : B03 m c (no_index (Proc.devRef .tc main_arg15)) = m ((c.tc : Thread nD τ).loc main_arg15) :=
  (chunk02_keep (B02 m c) main_arg15 (by decide)).trans (w02_arg15 m c)

theorem w03_v1 : B03 m c (no_index (Proc.devRef .tc main_v1)) = ReadP.val_main_v1 (F := F) (m ((c.tc : Thread nD τ).loc main_arg1)) :=
  (chunk02_keep (B02 m c) main_v1 (by decide)).trans (w02_v1 m c)

theorem w03_v3 : B03 m c (no_index (Proc.devRef .tc main_v3)) = ReadP.val_main_v3 (F := F) (m ((c.tc : Thread nD τ).loc main_arg1)) :=
  (chunk02_keep (B02 m c) main_v3 (by decide)).trans (w02_v3 m c)

theorem w03_v4 : B03 m c (no_index (Proc.devRef .tc main_v4)) = ReadP.val_main_v4 (F := F) (m ((c.tc : Thread nD τ).loc main_arg2)) :=
  (chunk02_keep (B02 m c) main_v4 (by decide)).trans (w02_v4 m c)

theorem w03_v6 : B03 m c (no_index (Proc.devRef .tc main_v6)) = ReadP.val_main_v6 (F := F) (m ((c.tc : Thread nD τ).loc main_arg2)) :=
  (chunk02_keep (B02 m c) main_v6 (by decide)).trans (w02_v6 m c)

theorem w03_v40 : B03 m c (no_index (Proc.devRef .tc main_v40)) = ReadP.val_main_v40 (F := F) (m ((c.tc : Thread nD τ).loc main_arg1)) (m ((c.tc : Thread nD τ).loc main_arg2)) :=
  s02_v40 (B02 m c) (m ((c.tc : Thread nD τ).loc main_arg1)) (m ((c.tc : Thread nD τ).loc main_arg2)) (w02_v3 m c) (w02_v24 m c) (w02_v32 m c)

theorem w03_v41 : B03 m c (no_index (Proc.devRef .tc main_v41)) = ReadP.val_main_v41 (F := F) (m ((c.tc : Thread nD τ).loc main_arg1)) (m ((c.tc : Thread nD τ).loc main_arg2)) :=
  s02_v41 (B02 m c) (m ((c.tc : Thread nD τ).loc main_arg1)) (m ((c.tc : Thread nD τ).loc main_arg2)) (w02_v24 m c)

theorem w03_v46 : B03 m c (no_index (Proc.devRef .tc main_v46)) = ReadP.val_main_v46 (F := F) (m ((c.tc : Thread nD τ).loc main_arg1)) :=
  s02_v46 (B02 m c) (m ((c.tc : Thread nD τ).loc main_arg1)) (w02_v3 m c)

/-! ## After list 3 -/

theorem w04_arg0 : B04 m c (no_index (Proc.devRef .tc main_arg0)) = m ((c.tc : Thread nD τ).loc main_arg0) :=
  (chunk03_keep (B03 m c) main_arg0 (by decide)).trans (w03_arg0 m c)

theorem w04_arg1 : B04 m c (no_index (Proc.devRef .tc main_arg1)) = m ((c.tc : Thread nD τ).loc main_arg1) :=
  (chunk03_keep (B03 m c) main_arg1 (by decide)).trans (w03_arg1 m c)

theorem w04_arg2 : B04 m c (no_index (Proc.devRef .tc main_arg2)) = m ((c.tc : Thread nD τ).loc main_arg2) :=
  (chunk03_keep (B03 m c) main_arg2 (by decide)).trans (w03_arg2 m c)

theorem w04_arg3 : B04 m c (no_index (Proc.devRef .tc main_arg3)) = m ((c.tc : Thread nD τ).loc main_arg3) :=
  (chunk03_keep (B03 m c) main_arg3 (by decide)).trans (w03_arg3 m c)

theorem w04_arg4 : B04 m c (no_index (Proc.devRef .tc main_arg4)) = m ((c.tc : Thread nD τ).loc main_arg4) :=
  (chunk03_keep (B03 m c) main_arg4 (by decide)).trans (w03_arg4 m c)

theorem w04_arg5 : B04 m c (no_index (Proc.devRef .tc main_arg5)) = m ((c.tc : Thread nD τ).loc main_arg5) :=
  (chunk03_keep (B03 m c) main_arg5 (by decide)).trans (w03_arg5 m c)

theorem w04_arg6 : B04 m c (no_index (Proc.devRef .tc main_arg6)) = m ((c.tc : Thread nD τ).loc main_arg6) :=
  (chunk03_keep (B03 m c) main_arg6 (by decide)).trans (w03_arg6 m c)

theorem w04_arg7 : B04 m c (no_index (Proc.devRef .tc main_arg7)) = m ((c.tc : Thread nD τ).loc main_arg7) :=
  (chunk03_keep (B03 m c) main_arg7 (by decide)).trans (w03_arg7 m c)

theorem w04_arg8 : B04 m c (no_index (Proc.devRef .tc main_arg8)) = m ((c.tc : Thread nD τ).loc main_arg8) :=
  (chunk03_keep (B03 m c) main_arg8 (by decide)).trans (w03_arg8 m c)

theorem w04_arg9 : B04 m c (no_index (Proc.devRef .tc main_arg9)) = m ((c.tc : Thread nD τ).loc main_arg9) :=
  (chunk03_keep (B03 m c) main_arg9 (by decide)).trans (w03_arg9 m c)

theorem w04_arg10 : B04 m c (no_index (Proc.devRef .tc main_arg10)) = m ((c.tc : Thread nD τ).loc main_arg10) :=
  (chunk03_keep (B03 m c) main_arg10 (by decide)).trans (w03_arg10 m c)

theorem w04_arg11 : B04 m c (no_index (Proc.devRef .tc main_arg11)) = m ((c.tc : Thread nD τ).loc main_arg11) :=
  (chunk03_keep (B03 m c) main_arg11 (by decide)).trans (w03_arg11 m c)

theorem w04_arg12 : B04 m c (no_index (Proc.devRef .tc main_arg12)) = m ((c.tc : Thread nD τ).loc main_arg12) :=
  (chunk03_keep (B03 m c) main_arg12 (by decide)).trans (w03_arg12 m c)

theorem w04_arg13 : B04 m c (no_index (Proc.devRef .tc main_arg13)) = m ((c.tc : Thread nD τ).loc main_arg13) :=
  (chunk03_keep (B03 m c) main_arg13 (by decide)).trans (w03_arg13 m c)

theorem w04_arg14 : B04 m c (no_index (Proc.devRef .tc main_arg14)) = m ((c.tc : Thread nD τ).loc main_arg14) :=
  (chunk03_keep (B03 m c) main_arg14 (by decide)).trans (w03_arg14 m c)

theorem w04_arg15 : B04 m c (no_index (Proc.devRef .tc main_arg15)) = m ((c.tc : Thread nD τ).loc main_arg15) :=
  (chunk03_keep (B03 m c) main_arg15 (by decide)).trans (w03_arg15 m c)

theorem w04_v1 : B04 m c (no_index (Proc.devRef .tc main_v1)) = ReadP.val_main_v1 (F := F) (m ((c.tc : Thread nD τ).loc main_arg1)) :=
  (chunk03_keep (B03 m c) main_v1 (by decide)).trans (w03_v1 m c)

theorem w04_v3 : B04 m c (no_index (Proc.devRef .tc main_v3)) = ReadP.val_main_v3 (F := F) (m ((c.tc : Thread nD τ).loc main_arg1)) :=
  (chunk03_keep (B03 m c) main_v3 (by decide)).trans (w03_v3 m c)

theorem w04_v4 : B04 m c (no_index (Proc.devRef .tc main_v4)) = ReadP.val_main_v4 (F := F) (m ((c.tc : Thread nD τ).loc main_arg2)) :=
  (chunk03_keep (B03 m c) main_v4 (by decide)).trans (w03_v4 m c)

theorem w04_v6 : B04 m c (no_index (Proc.devRef .tc main_v6)) = ReadP.val_main_v6 (F := F) (m ((c.tc : Thread nD τ).loc main_arg2)) :=
  (chunk03_keep (B03 m c) main_v6 (by decide)).trans (w03_v6 m c)

theorem w04_v40 : B04 m c (no_index (Proc.devRef .tc main_v40)) = ReadP.val_main_v40 (F := F) (m ((c.tc : Thread nD τ).loc main_arg1)) (m ((c.tc : Thread nD τ).loc main_arg2)) :=
  (chunk03_keep (B03 m c) main_v40 (by decide)).trans (w03_v40 m c)

theorem w04_v41 : B04 m c (no_index (Proc.devRef .tc main_v41)) = ReadP.val_main_v41 (F := F) (m ((c.tc : Thread nD τ).loc main_arg1)) (m ((c.tc : Thread nD τ).loc main_arg2)) :=
  (chunk03_keep (B03 m c) main_v41 (by decide)).trans (w03_v41 m c)

theorem w04_v50 : B04 m c (no_index (Proc.devRef .tc main_v50)) = ReadP.val_main_v50 (F := F) (m ((c.tc : Thread nD τ).loc main_arg1)) (m ((c.tc : Thread nD τ).loc main_arg2)) :=
  s03_v50 (B03 m c) (m ((c.tc : Thread nD τ).loc main_arg1)) (m ((c.tc : Thread nD τ).loc main_arg2)) (w03_v1 m c) (w03_v3 m c) (w03_v4 m c) (w03_v46 m c)

theorem w04_v59 : B04 m c (no_index (Proc.devRef .tc main_v59)) = ReadP.val_main_v59 (F := F) (m ((c.tc : Thread nD τ).loc main_arg1)) (m ((c.tc : Thread nD τ).loc main_arg2)) :=
  s03_v59 (B03 m c) (m ((c.tc : Thread nD τ).loc main_arg1)) (m ((c.tc : Thread nD τ).loc main_arg2)) (w03_v1 m c) (w03_v3 m c) (w03_v4 m c) (w03_v46 m c)

/-! ## After list 4 -/

theorem w05_arg0 : B05 m c (no_index (Proc.devRef .tc main_arg0)) = m ((c.tc : Thread nD τ).loc main_arg0) :=
  (chunk04_keep (B04 m c) main_arg0 (by decide)).trans (w04_arg0 m c)

theorem w05_arg1 : B05 m c (no_index (Proc.devRef .tc main_arg1)) = m ((c.tc : Thread nD τ).loc main_arg1) :=
  (chunk04_keep (B04 m c) main_arg1 (by decide)).trans (w04_arg1 m c)

theorem w05_arg2 : B05 m c (no_index (Proc.devRef .tc main_arg2)) = m ((c.tc : Thread nD τ).loc main_arg2) :=
  (chunk04_keep (B04 m c) main_arg2 (by decide)).trans (w04_arg2 m c)

theorem w05_arg3 : B05 m c (no_index (Proc.devRef .tc main_arg3)) = m ((c.tc : Thread nD τ).loc main_arg3) :=
  (chunk04_keep (B04 m c) main_arg3 (by decide)).trans (w04_arg3 m c)

theorem w05_arg4 : B05 m c (no_index (Proc.devRef .tc main_arg4)) = m ((c.tc : Thread nD τ).loc main_arg4) :=
  (chunk04_keep (B04 m c) main_arg4 (by decide)).trans (w04_arg4 m c)

theorem w05_arg5 : B05 m c (no_index (Proc.devRef .tc main_arg5)) = m ((c.tc : Thread nD τ).loc main_arg5) :=
  (chunk04_keep (B04 m c) main_arg5 (by decide)).trans (w04_arg5 m c)

theorem w05_arg6 : B05 m c (no_index (Proc.devRef .tc main_arg6)) = m ((c.tc : Thread nD τ).loc main_arg6) :=
  (chunk04_keep (B04 m c) main_arg6 (by decide)).trans (w04_arg6 m c)

theorem w05_arg7 : B05 m c (no_index (Proc.devRef .tc main_arg7)) = m ((c.tc : Thread nD τ).loc main_arg7) :=
  (chunk04_keep (B04 m c) main_arg7 (by decide)).trans (w04_arg7 m c)

theorem w05_arg8 : B05 m c (no_index (Proc.devRef .tc main_arg8)) = m ((c.tc : Thread nD τ).loc main_arg8) :=
  (chunk04_keep (B04 m c) main_arg8 (by decide)).trans (w04_arg8 m c)

theorem w05_arg9 : B05 m c (no_index (Proc.devRef .tc main_arg9)) = m ((c.tc : Thread nD τ).loc main_arg9) :=
  (chunk04_keep (B04 m c) main_arg9 (by decide)).trans (w04_arg9 m c)

theorem w05_arg10 : B05 m c (no_index (Proc.devRef .tc main_arg10)) = m ((c.tc : Thread nD τ).loc main_arg10) :=
  (chunk04_keep (B04 m c) main_arg10 (by decide)).trans (w04_arg10 m c)

theorem w05_arg11 : B05 m c (no_index (Proc.devRef .tc main_arg11)) = m ((c.tc : Thread nD τ).loc main_arg11) :=
  (chunk04_keep (B04 m c) main_arg11 (by decide)).trans (w04_arg11 m c)

theorem w05_arg12 : B05 m c (no_index (Proc.devRef .tc main_arg12)) = m ((c.tc : Thread nD τ).loc main_arg12) :=
  (chunk04_keep (B04 m c) main_arg12 (by decide)).trans (w04_arg12 m c)

theorem w05_arg13 : B05 m c (no_index (Proc.devRef .tc main_arg13)) = m ((c.tc : Thread nD τ).loc main_arg13) :=
  (chunk04_keep (B04 m c) main_arg13 (by decide)).trans (w04_arg13 m c)

theorem w05_arg14 : B05 m c (no_index (Proc.devRef .tc main_arg14)) = m ((c.tc : Thread nD τ).loc main_arg14) :=
  (chunk04_keep (B04 m c) main_arg14 (by decide)).trans (w04_arg14 m c)

theorem w05_arg15 : B05 m c (no_index (Proc.devRef .tc main_arg15)) = m ((c.tc : Thread nD τ).loc main_arg15) :=
  (chunk04_keep (B04 m c) main_arg15 (by decide)).trans (w04_arg15 m c)

theorem w05_v1 : B05 m c (no_index (Proc.devRef .tc main_v1)) = ReadP.val_main_v1 (F := F) (m ((c.tc : Thread nD τ).loc main_arg1)) :=
  (chunk04_keep (B04 m c) main_v1 (by decide)).trans (w04_v1 m c)

theorem w05_v3 : B05 m c (no_index (Proc.devRef .tc main_v3)) = ReadP.val_main_v3 (F := F) (m ((c.tc : Thread nD τ).loc main_arg1)) :=
  (chunk04_keep (B04 m c) main_v3 (by decide)).trans (w04_v3 m c)

theorem w05_v4 : B05 m c (no_index (Proc.devRef .tc main_v4)) = ReadP.val_main_v4 (F := F) (m ((c.tc : Thread nD τ).loc main_arg2)) :=
  (chunk04_keep (B04 m c) main_v4 (by decide)).trans (w04_v4 m c)

theorem w05_v6 : B05 m c (no_index (Proc.devRef .tc main_v6)) = ReadP.val_main_v6 (F := F) (m ((c.tc : Thread nD τ).loc main_arg2)) :=
  (chunk04_keep (B04 m c) main_v6 (by decide)).trans (w04_v6 m c)

theorem w05_v40 : B05 m c (no_index (Proc.devRef .tc main_v40)) = ReadP.val_main_v40 (F := F) (m ((c.tc : Thread nD τ).loc main_arg1)) (m ((c.tc : Thread nD τ).loc main_arg2)) :=
  (chunk04_keep (B04 m c) main_v40 (by decide)).trans (w04_v40 m c)

theorem w05_v41 : B05 m c (no_index (Proc.devRef .tc main_v41)) = ReadP.val_main_v41 (F := F) (m ((c.tc : Thread nD τ).loc main_arg1)) (m ((c.tc : Thread nD τ).loc main_arg2)) :=
  (chunk04_keep (B04 m c) main_v41 (by decide)).trans (w04_v41 m c)

theorem w05_v59 : B05 m c (no_index (Proc.devRef .tc main_v59)) = ReadP.val_main_v59 (F := F) (m ((c.tc : Thread nD τ).loc main_arg1)) (m ((c.tc : Thread nD τ).loc main_arg2)) :=
  (chunk04_keep (B04 m c) main_v59 (by decide)).trans (w04_v59 m c)

theorem w05_v75 : B05 m c (no_index (Proc.devRef .tc main_v75)) = ReadP.val_main_v75 (F := F) (m ((c.tc : Thread nD τ).loc main_arg1)) (m ((c.tc : Thread nD τ).loc main_arg2)) :=
  s04_v75 (B04 m c) (m ((c.tc : Thread nD τ).loc main_arg1)) (m ((c.tc : Thread nD τ).loc main_arg2)) (w04_v1 m c) (w04_v3 m c) (w04_v50 m c) (w04_v59 m c)

/-! ## After list 5 -/

theorem w06_arg0 : B06 m c (no_index (Proc.devRef .tc main_arg0)) = m ((c.tc : Thread nD τ).loc main_arg0) :=
  (chunk05_keep (B05 m c) main_arg0 (by decide)).trans (w05_arg0 m c)

theorem w06_arg1 : B06 m c (no_index (Proc.devRef .tc main_arg1)) = m ((c.tc : Thread nD τ).loc main_arg1) :=
  (chunk05_keep (B05 m c) main_arg1 (by decide)).trans (w05_arg1 m c)

theorem w06_arg2 : B06 m c (no_index (Proc.devRef .tc main_arg2)) = m ((c.tc : Thread nD τ).loc main_arg2) :=
  (chunk05_keep (B05 m c) main_arg2 (by decide)).trans (w05_arg2 m c)

theorem w06_arg3 : B06 m c (no_index (Proc.devRef .tc main_arg3)) = m ((c.tc : Thread nD τ).loc main_arg3) :=
  (chunk05_keep (B05 m c) main_arg3 (by decide)).trans (w05_arg3 m c)

theorem w06_arg4 : B06 m c (no_index (Proc.devRef .tc main_arg4)) = m ((c.tc : Thread nD τ).loc main_arg4) :=
  (chunk05_keep (B05 m c) main_arg4 (by decide)).trans (w05_arg4 m c)

theorem w06_arg5 : B06 m c (no_index (Proc.devRef .tc main_arg5)) = m ((c.tc : Thread nD τ).loc main_arg5) :=
  (chunk05_keep (B05 m c) main_arg5 (by decide)).trans (w05_arg5 m c)

theorem w06_arg6 : B06 m c (no_index (Proc.devRef .tc main_arg6)) = m ((c.tc : Thread nD τ).loc main_arg6) :=
  (chunk05_keep (B05 m c) main_arg6 (by decide)).trans (w05_arg6 m c)

theorem w06_arg7 : B06 m c (no_index (Proc.devRef .tc main_arg7)) = m ((c.tc : Thread nD τ).loc main_arg7) :=
  (chunk05_keep (B05 m c) main_arg7 (by decide)).trans (w05_arg7 m c)

theorem w06_arg8 : B06 m c (no_index (Proc.devRef .tc main_arg8)) = m ((c.tc : Thread nD τ).loc main_arg8) :=
  (chunk05_keep (B05 m c) main_arg8 (by decide)).trans (w05_arg8 m c)

theorem w06_arg9 : B06 m c (no_index (Proc.devRef .tc main_arg9)) = m ((c.tc : Thread nD τ).loc main_arg9) :=
  (chunk05_keep (B05 m c) main_arg9 (by decide)).trans (w05_arg9 m c)

theorem w06_arg10 : B06 m c (no_index (Proc.devRef .tc main_arg10)) = m ((c.tc : Thread nD τ).loc main_arg10) :=
  (chunk05_keep (B05 m c) main_arg10 (by decide)).trans (w05_arg10 m c)

theorem w06_arg11 : B06 m c (no_index (Proc.devRef .tc main_arg11)) = m ((c.tc : Thread nD τ).loc main_arg11) :=
  (chunk05_keep (B05 m c) main_arg11 (by decide)).trans (w05_arg11 m c)

theorem w06_arg12 : B06 m c (no_index (Proc.devRef .tc main_arg12)) = m ((c.tc : Thread nD τ).loc main_arg12) :=
  (chunk05_keep (B05 m c) main_arg12 (by decide)).trans (w05_arg12 m c)

theorem w06_arg13 : B06 m c (no_index (Proc.devRef .tc main_arg13)) = m ((c.tc : Thread nD τ).loc main_arg13) :=
  (chunk05_keep (B05 m c) main_arg13 (by decide)).trans (w05_arg13 m c)

theorem w06_arg14 : B06 m c (no_index (Proc.devRef .tc main_arg14)) = m ((c.tc : Thread nD τ).loc main_arg14) :=
  (chunk05_keep (B05 m c) main_arg14 (by decide)).trans (w05_arg14 m c)

theorem w06_arg15 : B06 m c (no_index (Proc.devRef .tc main_arg15)) = m ((c.tc : Thread nD τ).loc main_arg15) :=
  (chunk05_keep (B05 m c) main_arg15 (by decide)).trans (w05_arg15 m c)

theorem w06_v1 : B06 m c (no_index (Proc.devRef .tc main_v1)) = ReadP.val_main_v1 (F := F) (m ((c.tc : Thread nD τ).loc main_arg1)) :=
  (chunk05_keep (B05 m c) main_v1 (by decide)).trans (w05_v1 m c)

theorem w06_v3 : B06 m c (no_index (Proc.devRef .tc main_v3)) = ReadP.val_main_v3 (F := F) (m ((c.tc : Thread nD τ).loc main_arg1)) :=
  (chunk05_keep (B05 m c) main_v3 (by decide)).trans (w05_v3 m c)

theorem w06_v4 : B06 m c (no_index (Proc.devRef .tc main_v4)) = ReadP.val_main_v4 (F := F) (m ((c.tc : Thread nD τ).loc main_arg2)) :=
  (chunk05_keep (B05 m c) main_v4 (by decide)).trans (w05_v4 m c)

theorem w06_v6 : B06 m c (no_index (Proc.devRef .tc main_v6)) = ReadP.val_main_v6 (F := F) (m ((c.tc : Thread nD τ).loc main_arg2)) :=
  (chunk05_keep (B05 m c) main_v6 (by decide)).trans (w05_v6 m c)

theorem w06_v40 : B06 m c (no_index (Proc.devRef .tc main_v40)) = ReadP.val_main_v40 (F := F) (m ((c.tc : Thread nD τ).loc main_arg1)) (m ((c.tc : Thread nD τ).loc main_arg2)) :=
  (chunk05_keep (B05 m c) main_v40 (by decide)).trans (w05_v40 m c)

theorem w06_v41 : B06 m c (no_index (Proc.devRef .tc main_v41)) = ReadP.val_main_v41 (F := F) (m ((c.tc : Thread nD τ).loc main_arg1)) (m ((c.tc : Thread nD τ).loc main_arg2)) :=
  (chunk05_keep (B05 m c) main_v41 (by decide)).trans (w05_v41 m c)

theorem w06_v75 : B06 m c (no_index (Proc.devRef .tc main_v75)) = ReadP.val_main_v75 (F := F) (m ((c.tc : Thread nD τ).loc main_arg1)) (m ((c.tc : Thread nD τ).loc main_arg2)) :=
  (chunk05_keep (B05 m c) main_v75 (by decide)).trans (w05_v75 m c)

theorem w06_v76 : B06 m c (no_index (Proc.devRef .tc main_v76)) = ReadP.val_main_v76 (F := F) (m ((c.tc : Thread nD τ).loc main_arg1)) (m ((c.tc : Thread nD τ).loc main_arg2)) :=
  s05_v76 (B05 m c) (m ((c.tc : Thread nD τ).loc main_arg1)) (m ((c.tc : Thread nD τ).loc main_arg2)) (w05_v59 m c)

theorem w06_v85 : B06 m c (no_index (Proc.devRef .tc main_v85)) = ReadP.val_main_v85 (F := F) (m ((c.tc : Thread nD τ).loc main_arg1)) (m ((c.tc : Thread nD τ).loc main_arg2)) :=
  s05_v85 (B05 m c) (m ((c.tc : Thread nD τ).loc main_arg1)) (m ((c.tc : Thread nD τ).loc main_arg2)) (w05_v1 m c) (w05_v3 m c) (w05_v6 m c)

theorem w06_v88 : B06 m c (no_index (Proc.devRef .tc main_v88)) = ReadP.val_main_v88 (F := F) (m ((c.tc : Thread nD τ).loc main_arg1)) (m ((c.tc : Thread nD τ).loc main_arg2)) :=
  s05_v88 (B05 m c) (m ((c.tc : Thread nD τ).loc main_arg1)) (m ((c.tc : Thread nD τ).loc main_arg2)) (w05_v1 m c) (w05_v3 m c) (w05_v6 m c)

/-! ## After list 6 -/

theorem w07_arg0 : B07 m c (no_index (Proc.devRef .tc main_arg0)) = m ((c.tc : Thread nD τ).loc main_arg0) :=
  (chunk06_keep (B06 m c) main_arg0 (by decide)).trans (w06_arg0 m c)

theorem w07_arg1 : B07 m c (no_index (Proc.devRef .tc main_arg1)) = m ((c.tc : Thread nD τ).loc main_arg1) :=
  (chunk06_keep (B06 m c) main_arg1 (by decide)).trans (w06_arg1 m c)

theorem w07_arg2 : B07 m c (no_index (Proc.devRef .tc main_arg2)) = m ((c.tc : Thread nD τ).loc main_arg2) :=
  (chunk06_keep (B06 m c) main_arg2 (by decide)).trans (w06_arg2 m c)

theorem w07_arg3 : B07 m c (no_index (Proc.devRef .tc main_arg3)) = m ((c.tc : Thread nD τ).loc main_arg3) :=
  (chunk06_keep (B06 m c) main_arg3 (by decide)).trans (w06_arg3 m c)

theorem w07_arg4 : B07 m c (no_index (Proc.devRef .tc main_arg4)) = m ((c.tc : Thread nD τ).loc main_arg4) :=
  (chunk06_keep (B06 m c) main_arg4 (by decide)).trans (w06_arg4 m c)

theorem w07_arg5 : B07 m c (no_index (Proc.devRef .tc main_arg5)) = m ((c.tc : Thread nD τ).loc main_arg5) :=
  (chunk06_keep (B06 m c) main_arg5 (by decide)).trans (w06_arg5 m c)

theorem w07_arg6 : B07 m c (no_index (Proc.devRef .tc main_arg6)) = m ((c.tc : Thread nD τ).loc main_arg6) :=
  (chunk06_keep (B06 m c) main_arg6 (by decide)).trans (w06_arg6 m c)

theorem w07_arg7 : B07 m c (no_index (Proc.devRef .tc main_arg7)) = m ((c.tc : Thread nD τ).loc main_arg7) :=
  (chunk06_keep (B06 m c) main_arg7 (by decide)).trans (w06_arg7 m c)

theorem w07_arg8 : B07 m c (no_index (Proc.devRef .tc main_arg8)) = m ((c.tc : Thread nD τ).loc main_arg8) :=
  (chunk06_keep (B06 m c) main_arg8 (by decide)).trans (w06_arg8 m c)

theorem w07_arg9 : B07 m c (no_index (Proc.devRef .tc main_arg9)) = m ((c.tc : Thread nD τ).loc main_arg9) :=
  (chunk06_keep (B06 m c) main_arg9 (by decide)).trans (w06_arg9 m c)

theorem w07_arg10 : B07 m c (no_index (Proc.devRef .tc main_arg10)) = m ((c.tc : Thread nD τ).loc main_arg10) :=
  (chunk06_keep (B06 m c) main_arg10 (by decide)).trans (w06_arg10 m c)

theorem w07_arg11 : B07 m c (no_index (Proc.devRef .tc main_arg11)) = m ((c.tc : Thread nD τ).loc main_arg11) :=
  (chunk06_keep (B06 m c) main_arg11 (by decide)).trans (w06_arg11 m c)

theorem w07_arg12 : B07 m c (no_index (Proc.devRef .tc main_arg12)) = m ((c.tc : Thread nD τ).loc main_arg12) :=
  (chunk06_keep (B06 m c) main_arg12 (by decide)).trans (w06_arg12 m c)

theorem w07_arg13 : B07 m c (no_index (Proc.devRef .tc main_arg13)) = m ((c.tc : Thread nD τ).loc main_arg13) :=
  (chunk06_keep (B06 m c) main_arg13 (by decide)).trans (w06_arg13 m c)

theorem w07_arg14 : B07 m c (no_index (Proc.devRef .tc main_arg14)) = m ((c.tc : Thread nD τ).loc main_arg14) :=
  (chunk06_keep (B06 m c) main_arg14 (by decide)).trans (w06_arg14 m c)

theorem w07_arg15 : B07 m c (no_index (Proc.devRef .tc main_arg15)) = m ((c.tc : Thread nD τ).loc main_arg15) :=
  (chunk06_keep (B06 m c) main_arg15 (by decide)).trans (w06_arg15 m c)

theorem w07_v1 : B07 m c (no_index (Proc.devRef .tc main_v1)) = ReadP.val_main_v1 (F := F) (m ((c.tc : Thread nD τ).loc main_arg1)) :=
  (chunk06_keep (B06 m c) main_v1 (by decide)).trans (w06_v1 m c)

theorem w07_v3 : B07 m c (no_index (Proc.devRef .tc main_v3)) = ReadP.val_main_v3 (F := F) (m ((c.tc : Thread nD τ).loc main_arg1)) :=
  (chunk06_keep (B06 m c) main_v3 (by decide)).trans (w06_v3 m c)

theorem w07_v4 : B07 m c (no_index (Proc.devRef .tc main_v4)) = ReadP.val_main_v4 (F := F) (m ((c.tc : Thread nD τ).loc main_arg2)) :=
  (chunk06_keep (B06 m c) main_v4 (by decide)).trans (w06_v4 m c)

theorem w07_v6 : B07 m c (no_index (Proc.devRef .tc main_v6)) = ReadP.val_main_v6 (F := F) (m ((c.tc : Thread nD τ).loc main_arg2)) :=
  (chunk06_keep (B06 m c) main_v6 (by decide)).trans (w06_v6 m c)

theorem w07_v40 : B07 m c (no_index (Proc.devRef .tc main_v40)) = ReadP.val_main_v40 (F := F) (m ((c.tc : Thread nD τ).loc main_arg1)) (m ((c.tc : Thread nD τ).loc main_arg2)) :=
  (chunk06_keep (B06 m c) main_v40 (by decide)).trans (w06_v40 m c)

theorem w07_v41 : B07 m c (no_index (Proc.devRef .tc main_v41)) = ReadP.val_main_v41 (F := F) (m ((c.tc : Thread nD τ).loc main_arg1)) (m ((c.tc : Thread nD τ).loc main_arg2)) :=
  (chunk06_keep (B06 m c) main_v41 (by decide)).trans (w06_v41 m c)

theorem w07_v75 : B07 m c (no_index (Proc.devRef .tc main_v75)) = ReadP.val_main_v75 (F := F) (m ((c.tc : Thread nD τ).loc main_arg1)) (m ((c.tc : Thread nD τ).loc main_arg2)) :=
  (chunk06_keep (B06 m c) main_v75 (by decide)).trans (w06_v75 m c)

theorem w07_v76 : B07 m c (no_index (Proc.devRef .tc main_v76)) = ReadP.val_main_v76 (F := F) (m ((c.tc : Thread nD τ).loc main_arg1)) (m ((c.tc : Thread nD τ).loc main_arg2)) :=
  (chunk06_keep (B06 m c) main_v76 (by decide)).trans (w06_v76 m c)

theorem w07_v94 : B07 m c (no_index (Proc.devRef .tc main_v94)) = ReadP.val_main_v94 (F := F) (m ((c.tc : Thread nD τ).loc main_arg1)) (m ((c.tc : Thread nD τ).loc main_arg2)) :=
  s06_v94 (B06 m c) (m ((c.tc : Thread nD τ).loc main_arg1)) (m ((c.tc : Thread nD τ).loc main_arg2)) (w06_v88 m c)

theorem w07_v102 : B07 m c (no_index (Proc.devRef .tc main_v102)) = ReadP.val_main_v102 (F := F) (m ((c.tc : Thread nD τ).loc main_arg1)) (m ((c.tc : Thread nD τ).loc main_arg2)) :=
  s06_v102 (B06 m c) (m ((c.tc : Thread nD τ).loc main_arg1)) (m ((c.tc : Thread nD τ).loc main_arg2)) (w06_v1 m c) (w06_v85 m c) (w06_v88 m c)

/-! ## After list 7 -/

theorem w08_arg0 : B08 m c (no_index (Proc.devRef .tc main_arg0)) = m ((c.tc : Thread nD τ).loc main_arg0) :=
  (chunk07_keep (B07 m c) main_arg0 (by decide)).trans (w07_arg0 m c)

theorem w08_arg1 : B08 m c (no_index (Proc.devRef .tc main_arg1)) = m ((c.tc : Thread nD τ).loc main_arg1) :=
  (chunk07_keep (B07 m c) main_arg1 (by decide)).trans (w07_arg1 m c)

theorem w08_arg2 : B08 m c (no_index (Proc.devRef .tc main_arg2)) = m ((c.tc : Thread nD τ).loc main_arg2) :=
  (chunk07_keep (B07 m c) main_arg2 (by decide)).trans (w07_arg2 m c)

theorem w08_arg3 : B08 m c (no_index (Proc.devRef .tc main_arg3)) = m ((c.tc : Thread nD τ).loc main_arg3) :=
  (chunk07_keep (B07 m c) main_arg3 (by decide)).trans (w07_arg3 m c)

theorem w08_arg4 : B08 m c (no_index (Proc.devRef .tc main_arg4)) = m ((c.tc : Thread nD τ).loc main_arg4) :=
  (chunk07_keep (B07 m c) main_arg4 (by decide)).trans (w07_arg4 m c)

theorem w08_arg5 : B08 m c (no_index (Proc.devRef .tc main_arg5)) = m ((c.tc : Thread nD τ).loc main_arg5) :=
  (chunk07_keep (B07 m c) main_arg5 (by decide)).trans (w07_arg5 m c)

theorem w08_arg6 : B08 m c (no_index (Proc.devRef .tc main_arg6)) = m ((c.tc : Thread nD τ).loc main_arg6) :=
  (chunk07_keep (B07 m c) main_arg6 (by decide)).trans (w07_arg6 m c)

theorem w08_arg7 : B08 m c (no_index (Proc.devRef .tc main_arg7)) = m ((c.tc : Thread nD τ).loc main_arg7) :=
  (chunk07_keep (B07 m c) main_arg7 (by decide)).trans (w07_arg7 m c)

theorem w08_arg8 : B08 m c (no_index (Proc.devRef .tc main_arg8)) = m ((c.tc : Thread nD τ).loc main_arg8) :=
  (chunk07_keep (B07 m c) main_arg8 (by decide)).trans (w07_arg8 m c)

theorem w08_arg9 : B08 m c (no_index (Proc.devRef .tc main_arg9)) = m ((c.tc : Thread nD τ).loc main_arg9) :=
  (chunk07_keep (B07 m c) main_arg9 (by decide)).trans (w07_arg9 m c)

theorem w08_arg10 : B08 m c (no_index (Proc.devRef .tc main_arg10)) = m ((c.tc : Thread nD τ).loc main_arg10) :=
  (chunk07_keep (B07 m c) main_arg10 (by decide)).trans (w07_arg10 m c)

theorem w08_arg11 : B08 m c (no_index (Proc.devRef .tc main_arg11)) = m ((c.tc : Thread nD τ).loc main_arg11) :=
  (chunk07_keep (B07 m c) main_arg11 (by decide)).trans (w07_arg11 m c)

theorem w08_arg12 : B08 m c (no_index (Proc.devRef .tc main_arg12)) = m ((c.tc : Thread nD τ).loc main_arg12) :=
  (chunk07_keep (B07 m c) main_arg12 (by decide)).trans (w07_arg12 m c)

theorem w08_arg13 : B08 m c (no_index (Proc.devRef .tc main_arg13)) = m ((c.tc : Thread nD τ).loc main_arg13) :=
  (chunk07_keep (B07 m c) main_arg13 (by decide)).trans (w07_arg13 m c)

theorem w08_arg14 : B08 m c (no_index (Proc.devRef .tc main_arg14)) = m ((c.tc : Thread nD τ).loc main_arg14) :=
  (chunk07_keep (B07 m c) main_arg14 (by decide)).trans (w07_arg14 m c)

theorem w08_arg15 : B08 m c (no_index (Proc.devRef .tc main_arg15)) = m ((c.tc : Thread nD τ).loc main_arg15) :=
  (chunk07_keep (B07 m c) main_arg15 (by decide)).trans (w07_arg15 m c)

theorem w08_v1 : B08 m c (no_index (Proc.devRef .tc main_v1)) = ReadP.val_main_v1 (F := F) (m ((c.tc : Thread nD τ).loc main_arg1)) :=
  (chunk07_keep (B07 m c) main_v1 (by decide)).trans (w07_v1 m c)

theorem w08_v3 : B08 m c (no_index (Proc.devRef .tc main_v3)) = ReadP.val_main_v3 (F := F) (m ((c.tc : Thread nD τ).loc main_arg1)) :=
  (chunk07_keep (B07 m c) main_v3 (by decide)).trans (w07_v3 m c)

theorem w08_v4 : B08 m c (no_index (Proc.devRef .tc main_v4)) = ReadP.val_main_v4 (F := F) (m ((c.tc : Thread nD τ).loc main_arg2)) :=
  (chunk07_keep (B07 m c) main_v4 (by decide)).trans (w07_v4 m c)

theorem w08_v6 : B08 m c (no_index (Proc.devRef .tc main_v6)) = ReadP.val_main_v6 (F := F) (m ((c.tc : Thread nD τ).loc main_arg2)) :=
  (chunk07_keep (B07 m c) main_v6 (by decide)).trans (w07_v6 m c)

theorem w08_v40 : B08 m c (no_index (Proc.devRef .tc main_v40)) = ReadP.val_main_v40 (F := F) (m ((c.tc : Thread nD τ).loc main_arg1)) (m ((c.tc : Thread nD τ).loc main_arg2)) :=
  (chunk07_keep (B07 m c) main_v40 (by decide)).trans (w07_v40 m c)

theorem w08_v41 : B08 m c (no_index (Proc.devRef .tc main_v41)) = ReadP.val_main_v41 (F := F) (m ((c.tc : Thread nD τ).loc main_arg1)) (m ((c.tc : Thread nD τ).loc main_arg2)) :=
  (chunk07_keep (B07 m c) main_v41 (by decide)).trans (w07_v41 m c)

theorem w08_v75 : B08 m c (no_index (Proc.devRef .tc main_v75)) = ReadP.val_main_v75 (F := F) (m ((c.tc : Thread nD τ).loc main_arg1)) (m ((c.tc : Thread nD τ).loc main_arg2)) :=
  (chunk07_keep (B07 m c) main_v75 (by decide)).trans (w07_v75 m c)

theorem w08_v76 : B08 m c (no_index (Proc.devRef .tc main_v76)) = ReadP.val_main_v76 (F := F) (m ((c.tc : Thread nD τ).loc main_arg1)) (m ((c.tc : Thread nD τ).loc main_arg2)) :=
  (chunk07_keep (B07 m c) main_v76 (by decide)).trans (w07_v76 m c)

theorem w08_v110 : B08 m c (no_index (Proc.devRef .tc main_v110)) = ReadP.val_main_v110 (F := F) (m ((c.tc : Thread nD τ).loc main_arg1)) (m ((c.tc : Thread nD τ).loc main_arg2)) :=
  s07_v110 (B07 m c) (m ((c.tc : Thread nD τ).loc main_arg1)) (m ((c.tc : Thread nD τ).loc main_arg2)) (w07_v3 m c) (w07_v94 m c) (w07_v102 m c)

theorem w08_v111 : B08 m c (no_index (Proc.devRef .tc main_v111)) = ReadP.val_main_v111 (F := F) (m ((c.tc : Thread nD τ).loc main_arg1)) (m ((c.tc : Thread nD τ).loc main_arg2)) :=
  s07_v111 (B07 m c) (m ((c.tc : Thread nD τ).loc main_arg1)) (m ((c.tc : Thread nD τ).loc main_arg2)) (w07_v94 m c)

theorem w08_v116 : B08 m c (no_index (Proc.devRef .tc main_v116)) = ReadP.val_main_v116 (F := F) (m ((c.tc : Thread nD τ).loc main_arg1)) :=
  s07_v116 (B07 m c) (m ((c.tc : Thread nD τ).loc main_arg1)) (w07_v3 m c)

/-! ## After list 8 -/

theorem w09_arg0 : B09 m c (no_index (Proc.devRef .tc main_arg0)) = m ((c.tc : Thread nD τ).loc main_arg0) :=
  (chunk08_keep (B08 m c) main_arg0 (by decide)).trans (w08_arg0 m c)

theorem w09_arg1 : B09 m c (no_index (Proc.devRef .tc main_arg1)) = m ((c.tc : Thread nD τ).loc main_arg1) :=
  (chunk08_keep (B08 m c) main_arg1 (by decide)).trans (w08_arg1 m c)

theorem w09_arg2 : B09 m c (no_index (Proc.devRef .tc main_arg2)) = m ((c.tc : Thread nD τ).loc main_arg2) :=
  (chunk08_keep (B08 m c) main_arg2 (by decide)).trans (w08_arg2 m c)

theorem w09_arg3 : B09 m c (no_index (Proc.devRef .tc main_arg3)) = m ((c.tc : Thread nD τ).loc main_arg3) :=
  (chunk08_keep (B08 m c) main_arg3 (by decide)).trans (w08_arg3 m c)

theorem w09_arg4 : B09 m c (no_index (Proc.devRef .tc main_arg4)) = m ((c.tc : Thread nD τ).loc main_arg4) :=
  (chunk08_keep (B08 m c) main_arg4 (by decide)).trans (w08_arg4 m c)

theorem w09_arg5 : B09 m c (no_index (Proc.devRef .tc main_arg5)) = m ((c.tc : Thread nD τ).loc main_arg5) :=
  (chunk08_keep (B08 m c) main_arg5 (by decide)).trans (w08_arg5 m c)

theorem w09_arg6 : B09 m c (no_index (Proc.devRef .tc main_arg6)) = m ((c.tc : Thread nD τ).loc main_arg6) :=
  (chunk08_keep (B08 m c) main_arg6 (by decide)).trans (w08_arg6 m c)

theorem w09_arg7 : B09 m c (no_index (Proc.devRef .tc main_arg7)) = m ((c.tc : Thread nD τ).loc main_arg7) :=
  (chunk08_keep (B08 m c) main_arg7 (by decide)).trans (w08_arg7 m c)

theorem w09_arg8 : B09 m c (no_index (Proc.devRef .tc main_arg8)) = m ((c.tc : Thread nD τ).loc main_arg8) :=
  (chunk08_keep (B08 m c) main_arg8 (by decide)).trans (w08_arg8 m c)

theorem w09_arg9 : B09 m c (no_index (Proc.devRef .tc main_arg9)) = m ((c.tc : Thread nD τ).loc main_arg9) :=
  (chunk08_keep (B08 m c) main_arg9 (by decide)).trans (w08_arg9 m c)

theorem w09_arg10 : B09 m c (no_index (Proc.devRef .tc main_arg10)) = m ((c.tc : Thread nD τ).loc main_arg10) :=
  (chunk08_keep (B08 m c) main_arg10 (by decide)).trans (w08_arg10 m c)

theorem w09_arg11 : B09 m c (no_index (Proc.devRef .tc main_arg11)) = m ((c.tc : Thread nD τ).loc main_arg11) :=
  (chunk08_keep (B08 m c) main_arg11 (by decide)).trans (w08_arg11 m c)

theorem w09_arg12 : B09 m c (no_index (Proc.devRef .tc main_arg12)) = m ((c.tc : Thread nD τ).loc main_arg12) :=
  (chunk08_keep (B08 m c) main_arg12 (by decide)).trans (w08_arg12 m c)

theorem w09_arg13 : B09 m c (no_index (Proc.devRef .tc main_arg13)) = m ((c.tc : Thread nD τ).loc main_arg13) :=
  (chunk08_keep (B08 m c) main_arg13 (by decide)).trans (w08_arg13 m c)

theorem w09_arg14 : B09 m c (no_index (Proc.devRef .tc main_arg14)) = m ((c.tc : Thread nD τ).loc main_arg14) :=
  (chunk08_keep (B08 m c) main_arg14 (by decide)).trans (w08_arg14 m c)

theorem w09_arg15 : B09 m c (no_index (Proc.devRef .tc main_arg15)) = m ((c.tc : Thread nD τ).loc main_arg15) :=
  (chunk08_keep (B08 m c) main_arg15 (by decide)).trans (w08_arg15 m c)

theorem w09_v1 : B09 m c (no_index (Proc.devRef .tc main_v1)) = ReadP.val_main_v1 (F := F) (m ((c.tc : Thread nD τ).loc main_arg1)) :=
  (chunk08_keep (B08 m c) main_v1 (by decide)).trans (w08_v1 m c)

theorem w09_v3 : B09 m c (no_index (Proc.devRef .tc main_v3)) = ReadP.val_main_v3 (F := F) (m ((c.tc : Thread nD τ).loc main_arg1)) :=
  (chunk08_keep (B08 m c) main_v3 (by decide)).trans (w08_v3 m c)

theorem w09_v4 : B09 m c (no_index (Proc.devRef .tc main_v4)) = ReadP.val_main_v4 (F := F) (m ((c.tc : Thread nD τ).loc main_arg2)) :=
  (chunk08_keep (B08 m c) main_v4 (by decide)).trans (w08_v4 m c)

theorem w09_v6 : B09 m c (no_index (Proc.devRef .tc main_v6)) = ReadP.val_main_v6 (F := F) (m ((c.tc : Thread nD τ).loc main_arg2)) :=
  (chunk08_keep (B08 m c) main_v6 (by decide)).trans (w08_v6 m c)

theorem w09_v40 : B09 m c (no_index (Proc.devRef .tc main_v40)) = ReadP.val_main_v40 (F := F) (m ((c.tc : Thread nD τ).loc main_arg1)) (m ((c.tc : Thread nD τ).loc main_arg2)) :=
  (chunk08_keep (B08 m c) main_v40 (by decide)).trans (w08_v40 m c)

theorem w09_v41 : B09 m c (no_index (Proc.devRef .tc main_v41)) = ReadP.val_main_v41 (F := F) (m ((c.tc : Thread nD τ).loc main_arg1)) (m ((c.tc : Thread nD τ).loc main_arg2)) :=
  (chunk08_keep (B08 m c) main_v41 (by decide)).trans (w08_v41 m c)

theorem w09_v75 : B09 m c (no_index (Proc.devRef .tc main_v75)) = ReadP.val_main_v75 (F := F) (m ((c.tc : Thread nD τ).loc main_arg1)) (m ((c.tc : Thread nD τ).loc main_arg2)) :=
  (chunk08_keep (B08 m c) main_v75 (by decide)).trans (w08_v75 m c)

theorem w09_v76 : B09 m c (no_index (Proc.devRef .tc main_v76)) = ReadP.val_main_v76 (F := F) (m ((c.tc : Thread nD τ).loc main_arg1)) (m ((c.tc : Thread nD τ).loc main_arg2)) :=
  (chunk08_keep (B08 m c) main_v76 (by decide)).trans (w08_v76 m c)

theorem w09_v110 : B09 m c (no_index (Proc.devRef .tc main_v110)) = ReadP.val_main_v110 (F := F) (m ((c.tc : Thread nD τ).loc main_arg1)) (m ((c.tc : Thread nD τ).loc main_arg2)) :=
  (chunk08_keep (B08 m c) main_v110 (by decide)).trans (w08_v110 m c)

theorem w09_v111 : B09 m c (no_index (Proc.devRef .tc main_v111)) = ReadP.val_main_v111 (F := F) (m ((c.tc : Thread nD τ).loc main_arg1)) (m ((c.tc : Thread nD τ).loc main_arg2)) :=
  (chunk08_keep (B08 m c) main_v111 (by decide)).trans (w08_v111 m c)

theorem w09_v120 : B09 m c (no_index (Proc.devRef .tc main_v120)) = ReadP.val_main_v120 (F := F) (m ((c.tc : Thread nD τ).loc main_arg1)) (m ((c.tc : Thread nD τ).loc main_arg2)) :=
  s08_v120 (B08 m c) (m ((c.tc : Thread nD τ).loc main_arg1)) (m ((c.tc : Thread nD τ).loc main_arg2)) (w08_v1 m c) (w08_v3 m c) (w08_v6 m c) (w08_v116 m c)

theorem w09_v129 : B09 m c (no_index (Proc.devRef .tc main_v129)) = ReadP.val_main_v129 (F := F) (m ((c.tc : Thread nD τ).loc main_arg1)) (m ((c.tc : Thread nD τ).loc main_arg2)) :=
  s08_v129 (B08 m c) (m ((c.tc : Thread nD τ).loc main_arg1)) (m ((c.tc : Thread nD τ).loc main_arg2)) (w08_v1 m c) (w08_v3 m c) (w08_v6 m c) (w08_v116 m c)

/-! ## After list 9 -/

theorem w10_arg0 : B10 m c (no_index (Proc.devRef .tc main_arg0)) = m ((c.tc : Thread nD τ).loc main_arg0) :=
  (chunk09_keep (B09 m c) main_arg0 (by decide)).trans (w09_arg0 m c)

theorem w10_arg1 : B10 m c (no_index (Proc.devRef .tc main_arg1)) = m ((c.tc : Thread nD τ).loc main_arg1) :=
  (chunk09_keep (B09 m c) main_arg1 (by decide)).trans (w09_arg1 m c)

theorem w10_arg2 : B10 m c (no_index (Proc.devRef .tc main_arg2)) = m ((c.tc : Thread nD τ).loc main_arg2) :=
  (chunk09_keep (B09 m c) main_arg2 (by decide)).trans (w09_arg2 m c)

theorem w10_arg3 : B10 m c (no_index (Proc.devRef .tc main_arg3)) = m ((c.tc : Thread nD τ).loc main_arg3) :=
  (chunk09_keep (B09 m c) main_arg3 (by decide)).trans (w09_arg3 m c)

theorem w10_arg4 : B10 m c (no_index (Proc.devRef .tc main_arg4)) = m ((c.tc : Thread nD τ).loc main_arg4) :=
  (chunk09_keep (B09 m c) main_arg4 (by decide)).trans (w09_arg4 m c)

theorem w10_arg5 : B10 m c (no_index (Proc.devRef .tc main_arg5)) = m ((c.tc : Thread nD τ).loc main_arg5) :=
  (chunk09_keep (B09 m c) main_arg5 (by decide)).trans (w09_arg5 m c)

theorem w10_arg6 : B10 m c (no_index (Proc.devRef .tc main_arg6)) = m ((c.tc : Thread nD τ).loc main_arg6) :=
  (chunk09_keep (B09 m c) main_arg6 (by decide)).trans (w09_arg6 m c)

theorem w10_arg7 : B10 m c (no_index (Proc.devRef .tc main_arg7)) = m ((c.tc : Thread nD τ).loc main_arg7) :=
  (chunk09_keep (B09 m c) main_arg7 (by decide)).trans (w09_arg7 m c)

theorem w10_arg8 : B10 m c (no_index (Proc.devRef .tc main_arg8)) = m ((c.tc : Thread nD τ).loc main_arg8) :=
  (chunk09_keep (B09 m c) main_arg8 (by decide)).trans (w09_arg8 m c)

theorem w10_arg9 : B10 m c (no_index (Proc.devRef .tc main_arg9)) = m ((c.tc : Thread nD τ).loc main_arg9) :=
  (chunk09_keep (B09 m c) main_arg9 (by decide)).trans (w09_arg9 m c)

theorem w10_arg10 : B10 m c (no_index (Proc.devRef .tc main_arg10)) = m ((c.tc : Thread nD τ).loc main_arg10) :=
  (chunk09_keep (B09 m c) main_arg10 (by decide)).trans (w09_arg10 m c)

theorem w10_arg11 : B10 m c (no_index (Proc.devRef .tc main_arg11)) = m ((c.tc : Thread nD τ).loc main_arg11) :=
  (chunk09_keep (B09 m c) main_arg11 (by decide)).trans (w09_arg11 m c)

theorem w10_arg12 : B10 m c (no_index (Proc.devRef .tc main_arg12)) = m ((c.tc : Thread nD τ).loc main_arg12) :=
  (chunk09_keep (B09 m c) main_arg12 (by decide)).trans (w09_arg12 m c)

theorem w10_arg13 : B10 m c (no_index (Proc.devRef .tc main_arg13)) = m ((c.tc : Thread nD τ).loc main_arg13) :=
  (chunk09_keep (B09 m c) main_arg13 (by decide)).trans (w09_arg13 m c)

theorem w10_arg14 : B10 m c (no_index (Proc.devRef .tc main_arg14)) = m ((c.tc : Thread nD τ).loc main_arg14) :=
  (chunk09_keep (B09 m c) main_arg14 (by decide)).trans (w09_arg14 m c)

theorem w10_arg15 : B10 m c (no_index (Proc.devRef .tc main_arg15)) = m ((c.tc : Thread nD τ).loc main_arg15) :=
  (chunk09_keep (B09 m c) main_arg15 (by decide)).trans (w09_arg15 m c)

theorem w10_v1 : B10 m c (no_index (Proc.devRef .tc main_v1)) = ReadP.val_main_v1 (F := F) (m ((c.tc : Thread nD τ).loc main_arg1)) :=
  (chunk09_keep (B09 m c) main_v1 (by decide)).trans (w09_v1 m c)

theorem w10_v3 : B10 m c (no_index (Proc.devRef .tc main_v3)) = ReadP.val_main_v3 (F := F) (m ((c.tc : Thread nD τ).loc main_arg1)) :=
  (chunk09_keep (B09 m c) main_v3 (by decide)).trans (w09_v3 m c)

theorem w10_v4 : B10 m c (no_index (Proc.devRef .tc main_v4)) = ReadP.val_main_v4 (F := F) (m ((c.tc : Thread nD τ).loc main_arg2)) :=
  (chunk09_keep (B09 m c) main_v4 (by decide)).trans (w09_v4 m c)

theorem w10_v6 : B10 m c (no_index (Proc.devRef .tc main_v6)) = ReadP.val_main_v6 (F := F) (m ((c.tc : Thread nD τ).loc main_arg2)) :=
  (chunk09_keep (B09 m c) main_v6 (by decide)).trans (w09_v6 m c)

theorem w10_v40 : B10 m c (no_index (Proc.devRef .tc main_v40)) = ReadP.val_main_v40 (F := F) (m ((c.tc : Thread nD τ).loc main_arg1)) (m ((c.tc : Thread nD τ).loc main_arg2)) :=
  (chunk09_keep (B09 m c) main_v40 (by decide)).trans (w09_v40 m c)

theorem w10_v41 : B10 m c (no_index (Proc.devRef .tc main_v41)) = ReadP.val_main_v41 (F := F) (m ((c.tc : Thread nD τ).loc main_arg1)) (m ((c.tc : Thread nD τ).loc main_arg2)) :=
  (chunk09_keep (B09 m c) main_v41 (by decide)).trans (w09_v41 m c)

theorem w10_v75 : B10 m c (no_index (Proc.devRef .tc main_v75)) = ReadP.val_main_v75 (F := F) (m ((c.tc : Thread nD τ).loc main_arg1)) (m ((c.tc : Thread nD τ).loc main_arg2)) :=
  (chunk09_keep (B09 m c) main_v75 (by decide)).trans (w09_v75 m c)

theorem w10_v76 : B10 m c (no_index (Proc.devRef .tc main_v76)) = ReadP.val_main_v76 (F := F) (m ((c.tc : Thread nD τ).loc main_arg1)) (m ((c.tc : Thread nD τ).loc main_arg2)) :=
  (chunk09_keep (B09 m c) main_v76 (by decide)).trans (w09_v76 m c)

theorem w10_v110 : B10 m c (no_index (Proc.devRef .tc main_v110)) = ReadP.val_main_v110 (F := F) (m ((c.tc : Thread nD τ).loc main_arg1)) (m ((c.tc : Thread nD τ).loc main_arg2)) :=
  (chunk09_keep (B09 m c) main_v110 (by decide)).trans (w09_v110 m c)

theorem w10_v111 : B10 m c (no_index (Proc.devRef .tc main_v111)) = ReadP.val_main_v111 (F := F) (m ((c.tc : Thread nD τ).loc main_arg1)) (m ((c.tc : Thread nD τ).loc main_arg2)) :=
  (chunk09_keep (B09 m c) main_v111 (by decide)).trans (w09_v111 m c)

theorem w10_v129 : B10 m c (no_index (Proc.devRef .tc main_v129)) = ReadP.val_main_v129 (F := F) (m ((c.tc : Thread nD τ).loc main_arg1)) (m ((c.tc : Thread nD τ).loc main_arg2)) :=
  (chunk09_keep (B09 m c) main_v129 (by decide)).trans (w09_v129 m c)

theorem w10_v145 : B10 m c (no_index (Proc.devRef .tc main_v145)) = ReadP.val_main_v145 (F := F) (m ((c.tc : Thread nD τ).loc main_arg1)) (m ((c.tc : Thread nD τ).loc main_arg2)) :=
  s09_v145 (B09 m c) (m ((c.tc : Thread nD τ).loc main_arg1)) (m ((c.tc : Thread nD τ).loc main_arg2)) (w09_v1 m c) (w09_v3 m c) (w09_v120 m c) (w09_v129 m c)

/-! ## After list 10 -/

theorem w11_arg0 : B11 m c (no_index (Proc.devRef .tc main_arg0)) = m ((c.tc : Thread nD τ).loc main_arg0) :=
  (chunk10_keep (B10 m c) main_arg0 (by decide)).trans (w10_arg0 m c)

theorem w11_arg1 : B11 m c (no_index (Proc.devRef .tc main_arg1)) = m ((c.tc : Thread nD τ).loc main_arg1) :=
  (chunk10_keep (B10 m c) main_arg1 (by decide)).trans (w10_arg1 m c)

theorem w11_arg2 : B11 m c (no_index (Proc.devRef .tc main_arg2)) = m ((c.tc : Thread nD τ).loc main_arg2) :=
  (chunk10_keep (B10 m c) main_arg2 (by decide)).trans (w10_arg2 m c)

theorem w11_arg3 : B11 m c (no_index (Proc.devRef .tc main_arg3)) = m ((c.tc : Thread nD τ).loc main_arg3) :=
  (chunk10_keep (B10 m c) main_arg3 (by decide)).trans (w10_arg3 m c)

theorem w11_arg4 : B11 m c (no_index (Proc.devRef .tc main_arg4)) = m ((c.tc : Thread nD τ).loc main_arg4) :=
  (chunk10_keep (B10 m c) main_arg4 (by decide)).trans (w10_arg4 m c)

theorem w11_arg5 : B11 m c (no_index (Proc.devRef .tc main_arg5)) = m ((c.tc : Thread nD τ).loc main_arg5) :=
  (chunk10_keep (B10 m c) main_arg5 (by decide)).trans (w10_arg5 m c)

theorem w11_arg6 : B11 m c (no_index (Proc.devRef .tc main_arg6)) = m ((c.tc : Thread nD τ).loc main_arg6) :=
  (chunk10_keep (B10 m c) main_arg6 (by decide)).trans (w10_arg6 m c)

theorem w11_arg7 : B11 m c (no_index (Proc.devRef .tc main_arg7)) = m ((c.tc : Thread nD τ).loc main_arg7) :=
  (chunk10_keep (B10 m c) main_arg7 (by decide)).trans (w10_arg7 m c)

theorem w11_arg8 : B11 m c (no_index (Proc.devRef .tc main_arg8)) = m ((c.tc : Thread nD τ).loc main_arg8) :=
  (chunk10_keep (B10 m c) main_arg8 (by decide)).trans (w10_arg8 m c)

theorem w11_arg9 : B11 m c (no_index (Proc.devRef .tc main_arg9)) = m ((c.tc : Thread nD τ).loc main_arg9) :=
  (chunk10_keep (B10 m c) main_arg9 (by decide)).trans (w10_arg9 m c)

theorem w11_arg10 : B11 m c (no_index (Proc.devRef .tc main_arg10)) = m ((c.tc : Thread nD τ).loc main_arg10) :=
  (chunk10_keep (B10 m c) main_arg10 (by decide)).trans (w10_arg10 m c)

theorem w11_arg11 : B11 m c (no_index (Proc.devRef .tc main_arg11)) = m ((c.tc : Thread nD τ).loc main_arg11) :=
  (chunk10_keep (B10 m c) main_arg11 (by decide)).trans (w10_arg11 m c)

theorem w11_arg12 : B11 m c (no_index (Proc.devRef .tc main_arg12)) = m ((c.tc : Thread nD τ).loc main_arg12) :=
  (chunk10_keep (B10 m c) main_arg12 (by decide)).trans (w10_arg12 m c)

theorem w11_arg13 : B11 m c (no_index (Proc.devRef .tc main_arg13)) = m ((c.tc : Thread nD τ).loc main_arg13) :=
  (chunk10_keep (B10 m c) main_arg13 (by decide)).trans (w10_arg13 m c)

theorem w11_arg14 : B11 m c (no_index (Proc.devRef .tc main_arg14)) = m ((c.tc : Thread nD τ).loc main_arg14) :=
  (chunk10_keep (B10 m c) main_arg14 (by decide)).trans (w10_arg14 m c)

theorem w11_arg15 : B11 m c (no_index (Proc.devRef .tc main_arg15)) = m ((c.tc : Thread nD τ).loc main_arg15) :=
  (chunk10_keep (B10 m c) main_arg15 (by decide)).trans (w10_arg15 m c)

theorem w11_v1 : B11 m c (no_index (Proc.devRef .tc main_v1)) = ReadP.val_main_v1 (F := F) (m ((c.tc : Thread nD τ).loc main_arg1)) :=
  (chunk10_keep (B10 m c) main_v1 (by decide)).trans (w10_v1 m c)

theorem w11_v3 : B11 m c (no_index (Proc.devRef .tc main_v3)) = ReadP.val_main_v3 (F := F) (m ((c.tc : Thread nD τ).loc main_arg1)) :=
  (chunk10_keep (B10 m c) main_v3 (by decide)).trans (w10_v3 m c)

theorem w11_v4 : B11 m c (no_index (Proc.devRef .tc main_v4)) = ReadP.val_main_v4 (F := F) (m ((c.tc : Thread nD τ).loc main_arg2)) :=
  (chunk10_keep (B10 m c) main_v4 (by decide)).trans (w10_v4 m c)

theorem w11_v6 : B11 m c (no_index (Proc.devRef .tc main_v6)) = ReadP.val_main_v6 (F := F) (m ((c.tc : Thread nD τ).loc main_arg2)) :=
  (chunk10_keep (B10 m c) main_v6 (by decide)).trans (w10_v6 m c)

theorem w11_v75 : B11 m c (no_index (Proc.devRef .tc main_v75)) = ReadP.val_main_v75 (F := F) (m ((c.tc : Thread nD τ).loc main_arg1)) (m ((c.tc : Thread nD τ).loc main_arg2)) :=
  (chunk10_keep (B10 m c) main_v75 (by decide)).trans (w10_v75 m c)

theorem w11_v76 : B11 m c (no_index (Proc.devRef .tc main_v76)) = ReadP.val_main_v76 (F := F) (m ((c.tc : Thread nD τ).loc main_arg1)) (m ((c.tc : Thread nD τ).loc main_arg2)) :=
  (chunk10_keep (B10 m c) main_v76 (by decide)).trans (w10_v76 m c)

theorem w11_v110 : B11 m c (no_index (Proc.devRef .tc main_v110)) = ReadP.val_main_v110 (F := F) (m ((c.tc : Thread nD τ).loc main_arg1)) (m ((c.tc : Thread nD τ).loc main_arg2)) :=
  (chunk10_keep (B10 m c) main_v110 (by decide)).trans (w10_v110 m c)

theorem w11_v111 : B11 m c (no_index (Proc.devRef .tc main_v111)) = ReadP.val_main_v111 (F := F) (m ((c.tc : Thread nD τ).loc main_arg1)) (m ((c.tc : Thread nD τ).loc main_arg2)) :=
  (chunk10_keep (B10 m c) main_v111 (by decide)).trans (w10_v111 m c)

theorem w11_v145 : B11 m c (no_index (Proc.devRef .tc main_v145)) = ReadP.val_main_v145 (F := F) (m ((c.tc : Thread nD τ).loc main_arg1)) (m ((c.tc : Thread nD τ).loc main_arg2)) :=
  (chunk10_keep (B10 m c) main_v145 (by decide)).trans (w10_v145 m c)

theorem w11_v146 : B11 m c (no_index (Proc.devRef .tc main_v146)) = ReadP.val_main_v146 (F := F) (m ((c.tc : Thread nD τ).loc main_arg1)) (m ((c.tc : Thread nD τ).loc main_arg2)) :=
  s10_v146 (B10 m c) (m ((c.tc : Thread nD τ).loc main_arg1)) (m ((c.tc : Thread nD τ).loc main_arg2)) (w10_v129 m c)

theorem w11_v163 : B11 m c (no_index (Proc.devRef .tc main_v163)) = ReadP.val_main_v163 (F := F) (m ((c.tc : Thread nD τ).loc main_arg0)) (m ((c.tc : Thread nD τ).loc main_arg1)) (m ((c.tc : Thread nD τ).loc main_arg2)) :=
  s10_v163 (B10 m c) (m ((c.tc : Thread nD τ).loc main_arg0)) (m ((c.tc : Thread nD τ).loc main_arg1)) (m ((c.tc : Thread nD τ).loc main_arg2)) (w10_arg0 m c) (w10_v1 m c) (w10_v3 m c) (w10_v40 m c) (w10_v41 m c)

/-! ## After list 11 -/

theorem w12_arg0 : B12 m c (no_index (Proc.devRef .tc main_arg0)) = m ((c.tc : Thread nD τ).loc main_arg0) :=
  (chunk11_keep (B11 m c) main_arg0 (by decide)).trans (w11_arg0 m c)

theorem w12_arg1 : B12 m c (no_index (Proc.devRef .tc main_arg1)) = m ((c.tc : Thread nD τ).loc main_arg1) :=
  (chunk11_keep (B11 m c) main_arg1 (by decide)).trans (w11_arg1 m c)

theorem w12_arg2 : B12 m c (no_index (Proc.devRef .tc main_arg2)) = m ((c.tc : Thread nD τ).loc main_arg2) :=
  (chunk11_keep (B11 m c) main_arg2 (by decide)).trans (w11_arg2 m c)

theorem w12_arg3 : B12 m c (no_index (Proc.devRef .tc main_arg3)) = m ((c.tc : Thread nD τ).loc main_arg3) :=
  (chunk11_keep (B11 m c) main_arg3 (by decide)).trans (w11_arg3 m c)

theorem w12_arg4 : B12 m c (no_index (Proc.devRef .tc main_arg4)) = m ((c.tc : Thread nD τ).loc main_arg4) :=
  (chunk11_keep (B11 m c) main_arg4 (by decide)).trans (w11_arg4 m c)

theorem w12_arg5 : B12 m c (no_index (Proc.devRef .tc main_arg5)) = m ((c.tc : Thread nD τ).loc main_arg5) :=
  (chunk11_keep (B11 m c) main_arg5 (by decide)).trans (w11_arg5 m c)

theorem w12_arg6 : B12 m c (no_index (Proc.devRef .tc main_arg6)) = m ((c.tc : Thread nD τ).loc main_arg6) :=
  (chunk11_keep (B11 m c) main_arg6 (by decide)).trans (w11_arg6 m c)

theorem w12_arg7 : B12 m c (no_index (Proc.devRef .tc main_arg7)) = m ((c.tc : Thread nD τ).loc main_arg7) :=
  (chunk11_keep (B11 m c) main_arg7 (by decide)).trans (w11_arg7 m c)

theorem w12_arg8 : B12 m c (no_index (Proc.devRef .tc main_arg8)) = m ((c.tc : Thread nD τ).loc main_arg8) :=
  (chunk11_keep (B11 m c) main_arg8 (by decide)).trans (w11_arg8 m c)

theorem w12_arg9 : B12 m c (no_index (Proc.devRef .tc main_arg9)) = m ((c.tc : Thread nD τ).loc main_arg9) :=
  (chunk11_keep (B11 m c) main_arg9 (by decide)).trans (w11_arg9 m c)

theorem w12_arg10 : B12 m c (no_index (Proc.devRef .tc main_arg10)) = m ((c.tc : Thread nD τ).loc main_arg10) :=
  (chunk11_keep (B11 m c) main_arg10 (by decide)).trans (w11_arg10 m c)

theorem w12_arg11 : B12 m c (no_index (Proc.devRef .tc main_arg11)) = m ((c.tc : Thread nD τ).loc main_arg11) :=
  (chunk11_keep (B11 m c) main_arg11 (by decide)).trans (w11_arg11 m c)

theorem w12_arg12 : B12 m c (no_index (Proc.devRef .tc main_arg12)) = m ((c.tc : Thread nD τ).loc main_arg12) :=
  (chunk11_keep (B11 m c) main_arg12 (by decide)).trans (w11_arg12 m c)

theorem w12_arg13 : B12 m c (no_index (Proc.devRef .tc main_arg13)) = m ((c.tc : Thread nD τ).loc main_arg13) :=
  (chunk11_keep (B11 m c) main_arg13 (by decide)).trans (w11_arg13 m c)

theorem w12_arg14 : B12 m c (no_index (Proc.devRef .tc main_arg14)) = m ((c.tc : Thread nD τ).loc main_arg14) :=
  (chunk11_keep (B11 m c) main_arg14 (by decide)).trans (w11_arg14 m c)

theorem w12_arg15 : B12 m c (no_index (Proc.devRef .tc main_arg15)) = m ((c.tc : Thread nD τ).loc main_arg15) :=
  (chunk11_keep (B11 m c) main_arg15 (by decide)).trans (w11_arg15 m c)

theorem w12_v1 : B12 m c (no_index (Proc.devRef .tc main_v1)) = ReadP.val_main_v1 (F := F) (m ((c.tc : Thread nD τ).loc main_arg1)) :=
  (chunk11_keep (B11 m c) main_v1 (by decide)).trans (w11_v1 m c)

theorem w12_v3 : B12 m c (no_index (Proc.devRef .tc main_v3)) = ReadP.val_main_v3 (F := F) (m ((c.tc : Thread nD τ).loc main_arg1)) :=
  (chunk11_keep (B11 m c) main_v3 (by decide)).trans (w11_v3 m c)

theorem w12_v4 : B12 m c (no_index (Proc.devRef .tc main_v4)) = ReadP.val_main_v4 (F := F) (m ((c.tc : Thread nD τ).loc main_arg2)) :=
  (chunk11_keep (B11 m c) main_v4 (by decide)).trans (w11_v4 m c)

theorem w12_v6 : B12 m c (no_index (Proc.devRef .tc main_v6)) = ReadP.val_main_v6 (F := F) (m ((c.tc : Thread nD τ).loc main_arg2)) :=
  (chunk11_keep (B11 m c) main_v6 (by decide)).trans (w11_v6 m c)

theorem w12_v110 : B12 m c (no_index (Proc.devRef .tc main_v110)) = ReadP.val_main_v110 (F := F) (m ((c.tc : Thread nD τ).loc main_arg1)) (m ((c.tc : Thread nD τ).loc main_arg2)) :=
  (chunk11_keep (B11 m c) main_v110 (by decide)).trans (w11_v110 m c)

theorem w12_v111 : B12 m c (no_index (Proc.devRef .tc main_v111)) = ReadP.val_main_v111 (F := F) (m ((c.tc : Thread nD τ).loc main_arg1)) (m ((c.tc : Thread nD τ).loc main_arg2)) :=
  (chunk11_keep (B11 m c) main_v111 (by decide)).trans (w11_v111 m c)

theorem w12_v145 : B12 m c (no_index (Proc.devRef .tc main_v145)) = ReadP.val_main_v145 (F := F) (m ((c.tc : Thread nD τ).loc main_arg1)) (m ((c.tc : Thread nD τ).loc main_arg2)) :=
  (chunk11_keep (B11 m c) main_v145 (by decide)).trans (w11_v145 m c)

theorem w12_v146 : B12 m c (no_index (Proc.devRef .tc main_v146)) = ReadP.val_main_v146 (F := F) (m ((c.tc : Thread nD τ).loc main_arg1)) (m ((c.tc : Thread nD τ).loc main_arg2)) :=
  (chunk11_keep (B11 m c) main_v146 (by decide)).trans (w11_v146 m c)

theorem w12_v187 : B12 m c (no_index (Proc.devRef .tc main_v187)) = ReadP.val_main_v187 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  s11_v187 (B11 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (w11_arg0 m c) (w11_arg3 m c) (w11_arg4 m c) (w11_arg5 m c) (w11_arg6 m c) (w11_v1 m c) (w11_v3 m c) (w11_v75 m c) (w11_v76 m c) (w11_v163 m c)

/-! ## After list 12 -/

theorem w13_arg0 : B13 m c (no_index (Proc.devRef .tc main_arg0)) = m ((c.tc : Thread nD τ).loc main_arg0) :=
  (chunk12_keep (B12 m c) main_arg0 (by decide)).trans (w12_arg0 m c)

theorem w13_arg1 : B13 m c (no_index (Proc.devRef .tc main_arg1)) = m ((c.tc : Thread nD τ).loc main_arg1) :=
  (chunk12_keep (B12 m c) main_arg1 (by decide)).trans (w12_arg1 m c)

theorem w13_arg2 : B13 m c (no_index (Proc.devRef .tc main_arg2)) = m ((c.tc : Thread nD τ).loc main_arg2) :=
  (chunk12_keep (B12 m c) main_arg2 (by decide)).trans (w12_arg2 m c)

theorem w13_arg3 : B13 m c (no_index (Proc.devRef .tc main_arg3)) = m ((c.tc : Thread nD τ).loc main_arg3) :=
  (chunk12_keep (B12 m c) main_arg3 (by decide)).trans (w12_arg3 m c)

theorem w13_arg4 : B13 m c (no_index (Proc.devRef .tc main_arg4)) = m ((c.tc : Thread nD τ).loc main_arg4) :=
  (chunk12_keep (B12 m c) main_arg4 (by decide)).trans (w12_arg4 m c)

theorem w13_arg5 : B13 m c (no_index (Proc.devRef .tc main_arg5)) = m ((c.tc : Thread nD τ).loc main_arg5) :=
  (chunk12_keep (B12 m c) main_arg5 (by decide)).trans (w12_arg5 m c)

theorem w13_arg6 : B13 m c (no_index (Proc.devRef .tc main_arg6)) = m ((c.tc : Thread nD τ).loc main_arg6) :=
  (chunk12_keep (B12 m c) main_arg6 (by decide)).trans (w12_arg6 m c)

theorem w13_arg7 : B13 m c (no_index (Proc.devRef .tc main_arg7)) = m ((c.tc : Thread nD τ).loc main_arg7) :=
  (chunk12_keep (B12 m c) main_arg7 (by decide)).trans (w12_arg7 m c)

theorem w13_arg8 : B13 m c (no_index (Proc.devRef .tc main_arg8)) = m ((c.tc : Thread nD τ).loc main_arg8) :=
  (chunk12_keep (B12 m c) main_arg8 (by decide)).trans (w12_arg8 m c)

theorem w13_arg9 : B13 m c (no_index (Proc.devRef .tc main_arg9)) = m ((c.tc : Thread nD τ).loc main_arg9) :=
  (chunk12_keep (B12 m c) main_arg9 (by decide)).trans (w12_arg9 m c)

theorem w13_arg10 : B13 m c (no_index (Proc.devRef .tc main_arg10)) = m ((c.tc : Thread nD τ).loc main_arg10) :=
  (chunk12_keep (B12 m c) main_arg10 (by decide)).trans (w12_arg10 m c)

theorem w13_arg11 : B13 m c (no_index (Proc.devRef .tc main_arg11)) = m ((c.tc : Thread nD τ).loc main_arg11) :=
  (chunk12_keep (B12 m c) main_arg11 (by decide)).trans (w12_arg11 m c)

theorem w13_arg12 : B13 m c (no_index (Proc.devRef .tc main_arg12)) = m ((c.tc : Thread nD τ).loc main_arg12) :=
  (chunk12_keep (B12 m c) main_arg12 (by decide)).trans (w12_arg12 m c)

theorem w13_arg13 : B13 m c (no_index (Proc.devRef .tc main_arg13)) = m ((c.tc : Thread nD τ).loc main_arg13) :=
  (chunk12_keep (B12 m c) main_arg13 (by decide)).trans (w12_arg13 m c)

theorem w13_arg14 : B13 m c (no_index (Proc.devRef .tc main_arg14)) = m ((c.tc : Thread nD τ).loc main_arg14) :=
  (chunk12_keep (B12 m c) main_arg14 (by decide)).trans (w12_arg14 m c)

theorem w13_arg15 : B13 m c (no_index (Proc.devRef .tc main_arg15)) = m ((c.tc : Thread nD τ).loc main_arg15) :=
  (chunk12_keep (B12 m c) main_arg15 (by decide)).trans (w12_arg15 m c)

theorem w13_v1 : B13 m c (no_index (Proc.devRef .tc main_v1)) = ReadP.val_main_v1 (F := F) (m ((c.tc : Thread nD τ).loc main_arg1)) :=
  (chunk12_keep (B12 m c) main_v1 (by decide)).trans (w12_v1 m c)

theorem w13_v3 : B13 m c (no_index (Proc.devRef .tc main_v3)) = ReadP.val_main_v3 (F := F) (m ((c.tc : Thread nD τ).loc main_arg1)) :=
  (chunk12_keep (B12 m c) main_v3 (by decide)).trans (w12_v3 m c)

theorem w13_v4 : B13 m c (no_index (Proc.devRef .tc main_v4)) = ReadP.val_main_v4 (F := F) (m ((c.tc : Thread nD τ).loc main_arg2)) :=
  (chunk12_keep (B12 m c) main_v4 (by decide)).trans (w12_v4 m c)

theorem w13_v6 : B13 m c (no_index (Proc.devRef .tc main_v6)) = ReadP.val_main_v6 (F := F) (m ((c.tc : Thread nD τ).loc main_arg2)) :=
  (chunk12_keep (B12 m c) main_v6 (by decide)).trans (w12_v6 m c)

theorem w13_v145 : B13 m c (no_index (Proc.devRef .tc main_v145)) = ReadP.val_main_v145 (F := F) (m ((c.tc : Thread nD τ).loc main_arg1)) (m ((c.tc : Thread nD τ).loc main_arg2)) :=
  (chunk12_keep (B12 m c) main_v145 (by decide)).trans (w12_v145 m c)

theorem w13_v146 : B13 m c (no_index (Proc.devRef .tc main_v146)) = ReadP.val_main_v146 (F := F) (m ((c.tc : Thread nD τ).loc main_arg1)) (m ((c.tc : Thread nD τ).loc main_arg2)) :=
  (chunk12_keep (B12 m c) main_v146 (by decide)).trans (w12_v146 m c)

theorem w13_v187 : B13 m c (no_index (Proc.devRef .tc main_v187)) = ReadP.val_main_v187 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (chunk12_keep (B12 m c) main_v187 (by decide)).trans (w12_v187 m c)

theorem w13_v204 : B13 m c (no_index (Proc.devRef .tc main_v204)) = ReadP.val_main_v204 (F := F) (m ((c.tc : Thread nD τ).loc main_arg0)) (m ((c.tc : Thread nD τ).loc main_arg1)) (m ((c.tc : Thread nD τ).loc main_arg2)) :=
  s12_v204 (B12 m c) (m ((c.tc : Thread nD τ).loc main_arg0)) (m ((c.tc : Thread nD τ).loc main_arg1)) (m ((c.tc : Thread nD τ).loc main_arg2)) (w12_arg0 m c) (w12_v1 m c) (w12_v3 m c) (w12_v110 m c) (w12_v111 m c)

/-! ## After list 13 -/

theorem w14_arg0 : B14 m c (no_index (Proc.devRef .tc main_arg0)) = m ((c.tc : Thread nD τ).loc main_arg0) :=
  (chunk13_keep (B13 m c) main_arg0 (by decide)).trans (w13_arg0 m c)

theorem w14_arg1 : B14 m c (no_index (Proc.devRef .tc main_arg1)) = m ((c.tc : Thread nD τ).loc main_arg1) :=
  (chunk13_keep (B13 m c) main_arg1 (by decide)).trans (w13_arg1 m c)

theorem w14_arg2 : B14 m c (no_index (Proc.devRef .tc main_arg2)) = m ((c.tc : Thread nD τ).loc main_arg2) :=
  (chunk13_keep (B13 m c) main_arg2 (by decide)).trans (w13_arg2 m c)

theorem w14_arg3 : B14 m c (no_index (Proc.devRef .tc main_arg3)) = m ((c.tc : Thread nD τ).loc main_arg3) :=
  (chunk13_keep (B13 m c) main_arg3 (by decide)).trans (w13_arg3 m c)

theorem w14_arg4 : B14 m c (no_index (Proc.devRef .tc main_arg4)) = m ((c.tc : Thread nD τ).loc main_arg4) :=
  (chunk13_keep (B13 m c) main_arg4 (by decide)).trans (w13_arg4 m c)

theorem w14_arg5 : B14 m c (no_index (Proc.devRef .tc main_arg5)) = m ((c.tc : Thread nD τ).loc main_arg5) :=
  (chunk13_keep (B13 m c) main_arg5 (by decide)).trans (w13_arg5 m c)

theorem w14_arg6 : B14 m c (no_index (Proc.devRef .tc main_arg6)) = m ((c.tc : Thread nD τ).loc main_arg6) :=
  (chunk13_keep (B13 m c) main_arg6 (by decide)).trans (w13_arg6 m c)

theorem w14_arg7 : B14 m c (no_index (Proc.devRef .tc main_arg7)) = m ((c.tc : Thread nD τ).loc main_arg7) :=
  (chunk13_keep (B13 m c) main_arg7 (by decide)).trans (w13_arg7 m c)

theorem w14_arg8 : B14 m c (no_index (Proc.devRef .tc main_arg8)) = m ((c.tc : Thread nD τ).loc main_arg8) :=
  (chunk13_keep (B13 m c) main_arg8 (by decide)).trans (w13_arg8 m c)

theorem w14_arg9 : B14 m c (no_index (Proc.devRef .tc main_arg9)) = m ((c.tc : Thread nD τ).loc main_arg9) :=
  (chunk13_keep (B13 m c) main_arg9 (by decide)).trans (w13_arg9 m c)

theorem w14_arg10 : B14 m c (no_index (Proc.devRef .tc main_arg10)) = m ((c.tc : Thread nD τ).loc main_arg10) :=
  (chunk13_keep (B13 m c) main_arg10 (by decide)).trans (w13_arg10 m c)

theorem w14_arg11 : B14 m c (no_index (Proc.devRef .tc main_arg11)) = m ((c.tc : Thread nD τ).loc main_arg11) :=
  (chunk13_keep (B13 m c) main_arg11 (by decide)).trans (w13_arg11 m c)

theorem w14_arg12 : B14 m c (no_index (Proc.devRef .tc main_arg12)) = m ((c.tc : Thread nD τ).loc main_arg12) :=
  (chunk13_keep (B13 m c) main_arg12 (by decide)).trans (w13_arg12 m c)

theorem w14_arg13 : B14 m c (no_index (Proc.devRef .tc main_arg13)) = m ((c.tc : Thread nD τ).loc main_arg13) :=
  (chunk13_keep (B13 m c) main_arg13 (by decide)).trans (w13_arg13 m c)

theorem w14_arg14 : B14 m c (no_index (Proc.devRef .tc main_arg14)) = m ((c.tc : Thread nD τ).loc main_arg14) :=
  (chunk13_keep (B13 m c) main_arg14 (by decide)).trans (w13_arg14 m c)

theorem w14_arg15 : B14 m c (no_index (Proc.devRef .tc main_arg15)) = m ((c.tc : Thread nD τ).loc main_arg15) :=
  (chunk13_keep (B13 m c) main_arg15 (by decide)).trans (w13_arg15 m c)

theorem w14_v4 : B14 m c (no_index (Proc.devRef .tc main_v4)) = ReadP.val_main_v4 (F := F) (m ((c.tc : Thread nD τ).loc main_arg2)) :=
  (chunk13_keep (B13 m c) main_v4 (by decide)).trans (w13_v4 m c)

theorem w14_v6 : B14 m c (no_index (Proc.devRef .tc main_v6)) = ReadP.val_main_v6 (F := F) (m ((c.tc : Thread nD τ).loc main_arg2)) :=
  (chunk13_keep (B13 m c) main_v6 (by decide)).trans (w13_v6 m c)

theorem w14_v187 : B14 m c (no_index (Proc.devRef .tc main_v187)) = ReadP.val_main_v187 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (chunk13_keep (B13 m c) main_v187 (by decide)).trans (w13_v187 m c)

theorem w14_v228 : B14 m c (no_index (Proc.devRef .tc main_v228)) = ReadP.val_main_v228 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) :=
  s13_v228 (B13 m c) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (w13_arg0 m c) (w13_arg7 m c) (w13_arg8 m c) (w13_arg9 m c) (w13_arg10 m c) (w13_v1 m c) (w13_v3 m c) (w13_v145 m c) (w13_v146 m c) (w13_v204 m c)

/-! ## After list 14 -/

theorem w15_arg0 : B15 m c (no_index (Proc.devRef .tc main_arg0)) = m ((c.tc : Thread nD τ).loc main_arg0) :=
  (chunk14_keep (B14 m c) main_arg0 (by decide)).trans (w14_arg0 m c)

theorem w15_arg1 : B15 m c (no_index (Proc.devRef .tc main_arg1)) = m ((c.tc : Thread nD τ).loc main_arg1) :=
  (chunk14_keep (B14 m c) main_arg1 (by decide)).trans (w14_arg1 m c)

theorem w15_arg2 : B15 m c (no_index (Proc.devRef .tc main_arg2)) = m ((c.tc : Thread nD τ).loc main_arg2) :=
  (chunk14_keep (B14 m c) main_arg2 (by decide)).trans (w14_arg2 m c)

theorem w15_arg3 : B15 m c (no_index (Proc.devRef .tc main_arg3)) = m ((c.tc : Thread nD τ).loc main_arg3) :=
  (chunk14_keep (B14 m c) main_arg3 (by decide)).trans (w14_arg3 m c)

theorem w15_arg4 : B15 m c (no_index (Proc.devRef .tc main_arg4)) = m ((c.tc : Thread nD τ).loc main_arg4) :=
  (chunk14_keep (B14 m c) main_arg4 (by decide)).trans (w14_arg4 m c)

theorem w15_arg5 : B15 m c (no_index (Proc.devRef .tc main_arg5)) = m ((c.tc : Thread nD τ).loc main_arg5) :=
  (chunk14_keep (B14 m c) main_arg5 (by decide)).trans (w14_arg5 m c)

theorem w15_arg6 : B15 m c (no_index (Proc.devRef .tc main_arg6)) = m ((c.tc : Thread nD τ).loc main_arg6) :=
  (chunk14_keep (B14 m c) main_arg6 (by decide)).trans (w14_arg6 m c)

theorem w15_arg7 : B15 m c (no_index (Proc.devRef .tc main_arg7)) = m ((c.tc : Thread nD τ).loc main_arg7) :=
  (chunk14_keep (B14 m c) main_arg7 (by decide)).trans (w14_arg7 m c)

theorem w15_arg8 : B15 m c (no_index (Proc.devRef .tc main_arg8)) = m ((c.tc : Thread nD τ).loc main_arg8) :=
  (chunk14_keep (B14 m c) main_arg8 (by decide)).trans (w14_arg8 m c)

theorem w15_arg9 : B15 m c (no_index (Proc.devRef .tc main_arg9)) = m ((c.tc : Thread nD τ).loc main_arg9) :=
  (chunk14_keep (B14 m c) main_arg9 (by decide)).trans (w14_arg9 m c)

theorem w15_arg10 : B15 m c (no_index (Proc.devRef .tc main_arg10)) = m ((c.tc : Thread nD τ).loc main_arg10) :=
  (chunk14_keep (B14 m c) main_arg10 (by decide)).trans (w14_arg10 m c)

theorem w15_arg11 : B15 m c (no_index (Proc.devRef .tc main_arg11)) = m ((c.tc : Thread nD τ).loc main_arg11) :=
  (chunk14_keep (B14 m c) main_arg11 (by decide)).trans (w14_arg11 m c)

theorem w15_arg12 : B15 m c (no_index (Proc.devRef .tc main_arg12)) = m ((c.tc : Thread nD τ).loc main_arg12) :=
  (chunk14_keep (B14 m c) main_arg12 (by decide)).trans (w14_arg12 m c)

theorem w15_arg13 : B15 m c (no_index (Proc.devRef .tc main_arg13)) = m ((c.tc : Thread nD τ).loc main_arg13) :=
  (chunk14_keep (B14 m c) main_arg13 (by decide)).trans (w14_arg13 m c)

theorem w15_arg14 : B15 m c (no_index (Proc.devRef .tc main_arg14)) = m ((c.tc : Thread nD τ).loc main_arg14) :=
  (chunk14_keep (B14 m c) main_arg14 (by decide)).trans (w14_arg14 m c)

theorem w15_arg15 : B15 m c (no_index (Proc.devRef .tc main_arg15)) = m ((c.tc : Thread nD τ).loc main_arg15) :=
  (chunk14_keep (B14 m c) main_arg15 (by decide)).trans (w14_arg15 m c)

theorem w15_v4 : B15 m c (no_index (Proc.devRef .tc main_v4)) = ReadP.val_main_v4 (F := F) (m ((c.tc : Thread nD τ).loc main_arg2)) :=
  (chunk14_keep (B14 m c) main_v4 (by decide)).trans (w14_v4 m c)

theorem w15_v6 : B15 m c (no_index (Proc.devRef .tc main_v6)) = ReadP.val_main_v6 (F := F) (m ((c.tc : Thread nD τ).loc main_arg2)) :=
  (chunk14_keep (B14 m c) main_v6 (by decide)).trans (w14_v6 m c)

theorem w15_v187 : B15 m c (no_index (Proc.devRef .tc main_v187)) = ReadP.val_main_v187 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (chunk14_keep (B14 m c) main_v187 (by decide)).trans (w14_v187 m c)

theorem w15_v228 : B15 m c (no_index (Proc.devRef .tc main_v228)) = ReadP.val_main_v228 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) :=
  (chunk14_keep (B14 m c) main_v228 (by decide)).trans (w14_v228 m c)

theorem w15_v229 : B15 m c (no_index (Proc.devRef .tc main_v229)) = ReadP.val_main_v229 (F := F) (m ((c.tc : Thread nD τ).loc main_arg0)) (m ((c.tc : Thread nD τ).loc main_arg11)) :=
  s14_v229 (B14 m c) (m ((c.tc : Thread nD τ).loc main_arg0)) (m ((c.tc : Thread nD τ).loc main_arg11)) (w14_arg0 m c) (w14_arg11 m c)

theorem w15_v241 : B15 m c (no_index (Proc.devRef .tc main_v241)) = ReadP.val_main_v241 (F := F) (m ((c.tc : Thread nD τ).loc main_arg12)) :=
  s14_v241 (B14 m c) (m ((c.tc : Thread nD τ).loc main_arg12)) (w14_arg12 m c)

theorem w15_v243 : B15 m c (no_index (Proc.devRef .tc main_v243)) = ReadP.val_main_v243 (F := F) (m ((c.tc : Thread nD τ).loc main_arg12)) :=
  s14_v243 (B14 m c) (m ((c.tc : Thread nD τ).loc main_arg12)) (w14_arg12 m c)

/-! ## After list 15 -/

theorem w16_arg0 : B16 m c (no_index (Proc.devRef .tc main_arg0)) = m ((c.tc : Thread nD τ).loc main_arg0) :=
  (chunk15_keep (B15 m c) main_arg0 (by decide)).trans (w15_arg0 m c)

theorem w16_arg1 : B16 m c (no_index (Proc.devRef .tc main_arg1)) = m ((c.tc : Thread nD τ).loc main_arg1) :=
  (chunk15_keep (B15 m c) main_arg1 (by decide)).trans (w15_arg1 m c)

theorem w16_arg2 : B16 m c (no_index (Proc.devRef .tc main_arg2)) = m ((c.tc : Thread nD τ).loc main_arg2) :=
  (chunk15_keep (B15 m c) main_arg2 (by decide)).trans (w15_arg2 m c)

theorem w16_arg3 : B16 m c (no_index (Proc.devRef .tc main_arg3)) = m ((c.tc : Thread nD τ).loc main_arg3) :=
  (chunk15_keep (B15 m c) main_arg3 (by decide)).trans (w15_arg3 m c)

theorem w16_arg4 : B16 m c (no_index (Proc.devRef .tc main_arg4)) = m ((c.tc : Thread nD τ).loc main_arg4) :=
  (chunk15_keep (B15 m c) main_arg4 (by decide)).trans (w15_arg4 m c)

theorem w16_arg5 : B16 m c (no_index (Proc.devRef .tc main_arg5)) = m ((c.tc : Thread nD τ).loc main_arg5) :=
  (chunk15_keep (B15 m c) main_arg5 (by decide)).trans (w15_arg5 m c)

theorem w16_arg6 : B16 m c (no_index (Proc.devRef .tc main_arg6)) = m ((c.tc : Thread nD τ).loc main_arg6) :=
  (chunk15_keep (B15 m c) main_arg6 (by decide)).trans (w15_arg6 m c)

theorem w16_arg7 : B16 m c (no_index (Proc.devRef .tc main_arg7)) = m ((c.tc : Thread nD τ).loc main_arg7) :=
  (chunk15_keep (B15 m c) main_arg7 (by decide)).trans (w15_arg7 m c)

theorem w16_arg8 : B16 m c (no_index (Proc.devRef .tc main_arg8)) = m ((c.tc : Thread nD τ).loc main_arg8) :=
  (chunk15_keep (B15 m c) main_arg8 (by decide)).trans (w15_arg8 m c)

theorem w16_arg9 : B16 m c (no_index (Proc.devRef .tc main_arg9)) = m ((c.tc : Thread nD τ).loc main_arg9) :=
  (chunk15_keep (B15 m c) main_arg9 (by decide)).trans (w15_arg9 m c)

theorem w16_arg10 : B16 m c (no_index (Proc.devRef .tc main_arg10)) = m ((c.tc : Thread nD τ).loc main_arg10) :=
  (chunk15_keep (B15 m c) main_arg10 (by decide)).trans (w15_arg10 m c)

theorem w16_arg11 : B16 m c (no_index (Proc.devRef .tc main_arg11)) = m ((c.tc : Thread nD τ).loc main_arg11) :=
  (chunk15_keep (B15 m c) main_arg11 (by decide)).trans (w15_arg11 m c)

theorem w16_arg12 : B16 m c (no_index (Proc.devRef .tc main_arg12)) = m ((c.tc : Thread nD τ).loc main_arg12) :=
  (chunk15_keep (B15 m c) main_arg12 (by decide)).trans (w15_arg12 m c)

theorem w16_arg13 : B16 m c (no_index (Proc.devRef .tc main_arg13)) = m ((c.tc : Thread nD τ).loc main_arg13) :=
  (chunk15_keep (B15 m c) main_arg13 (by decide)).trans (w15_arg13 m c)

theorem w16_arg14 : B16 m c (no_index (Proc.devRef .tc main_arg14)) = m ((c.tc : Thread nD τ).loc main_arg14) :=
  (chunk15_keep (B15 m c) main_arg14 (by decide)).trans (w15_arg14 m c)

theorem w16_arg15 : B16 m c (no_index (Proc.devRef .tc main_arg15)) = m ((c.tc : Thread nD τ).loc main_arg15) :=
  (chunk15_keep (B15 m c) main_arg15 (by decide)).trans (w15_arg15 m c)

theorem w16_v268 : B16 m c (no_index (Proc.devRef .tc main_v268)) = ReadP.val_main_v268 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) :=
  s15_v268 (B15 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (w15_arg13 m c) (w15_v4 m c) (w15_v6 m c) (w15_v187 m c) (w15_v229 m c) (w15_v241 m c) (w15_v243 m c)

theorem w16_v270 : B16 m c (no_index (Proc.devRef .tc main_v270)) = ReadP.val_main_v270 (F := F) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) :=
  s15_v270 (B15 m c) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (w15_arg13 m c) (w15_v228 m c)

/-! ## After list 16 -/

theorem w17_arg0 : B17 m c (no_index (Proc.devRef .tc main_arg0)) = m ((c.tc : Thread nD τ).loc main_arg0) :=
  (chunk16_keep (B16 m c) main_arg0 (by decide)).trans (w16_arg0 m c)

theorem w17_arg1 : B17 m c (no_index (Proc.devRef .tc main_arg1)) = m ((c.tc : Thread nD τ).loc main_arg1) :=
  (chunk16_keep (B16 m c) main_arg1 (by decide)).trans (w16_arg1 m c)

theorem w17_arg2 : B17 m c (no_index (Proc.devRef .tc main_arg2)) = m ((c.tc : Thread nD τ).loc main_arg2) :=
  (chunk16_keep (B16 m c) main_arg2 (by decide)).trans (w16_arg2 m c)

theorem w17_arg3 : B17 m c (no_index (Proc.devRef .tc main_arg3)) = m ((c.tc : Thread nD τ).loc main_arg3) :=
  (chunk16_keep (B16 m c) main_arg3 (by decide)).trans (w16_arg3 m c)

theorem w17_arg4 : B17 m c (no_index (Proc.devRef .tc main_arg4)) = m ((c.tc : Thread nD τ).loc main_arg4) :=
  (chunk16_keep (B16 m c) main_arg4 (by decide)).trans (w16_arg4 m c)

theorem w17_arg5 : B17 m c (no_index (Proc.devRef .tc main_arg5)) = m ((c.tc : Thread nD τ).loc main_arg5) :=
  (chunk16_keep (B16 m c) main_arg5 (by decide)).trans (w16_arg5 m c)

theorem w17_arg6 : B17 m c (no_index (Proc.devRef .tc main_arg6)) = m ((c.tc : Thread nD τ).loc main_arg6) :=
  (chunk16_keep (B16 m c) main_arg6 (by decide)).trans (w16_arg6 m c)

theorem w17_arg7 : B17 m c (no_index (Proc.devRef .tc main_arg7)) = m ((c.tc : Thread nD τ).loc main_arg7) :=
  (chunk16_keep (B16 m c) main_arg7 (by decide)).trans (w16_arg7 m c)

theorem w17_arg8 : B17 m c (no_index (Proc.devRef .tc main_arg8)) = m ((c.tc : Thread nD τ).loc main_arg8) :=
  (chunk16_keep (B16 m c) main_arg8 (by decide)).trans (w16_arg8 m c)

theorem w17_arg9 : B17 m c (no_index (Proc.devRef .tc main_arg9)) = m ((c.tc : Thread nD τ).loc main_arg9) :=
  (chunk16_keep (B16 m c) main_arg9 (by decide)).trans (w16_arg9 m c)

theorem w17_arg10 : B17 m c (no_index (Proc.devRef .tc main_arg10)) = m ((c.tc : Thread nD τ).loc main_arg10) :=
  (chunk16_keep (B16 m c) main_arg10 (by decide)).trans (w16_arg10 m c)

theorem w17_arg11 : B17 m c (no_index (Proc.devRef .tc main_arg11)) = m ((c.tc : Thread nD τ).loc main_arg11) :=
  (chunk16_keep (B16 m c) main_arg11 (by decide)).trans (w16_arg11 m c)

theorem w17_arg12 : B17 m c (no_index (Proc.devRef .tc main_arg12)) = m ((c.tc : Thread nD τ).loc main_arg12) :=
  (chunk16_keep (B16 m c) main_arg12 (by decide)).trans (w16_arg12 m c)

theorem w17_arg13 : B17 m c (no_index (Proc.devRef .tc main_arg13)) = m ((c.tc : Thread nD τ).loc main_arg13) :=
  (chunk16_keep (B16 m c) main_arg13 (by decide)).trans (w16_arg13 m c)

theorem w17_arg14 : B17 m c (no_index (Proc.devRef .tc main_arg14)) = m ((c.tc : Thread nD τ).loc main_arg14) :=
  (chunk16_keep (B16 m c) main_arg14 (by decide)).trans (w16_arg14 m c)

theorem w17_arg15 : B17 m c (no_index (Proc.devRef .tc main_arg15)) = m ((c.tc : Thread nD τ).loc main_arg15) :=
  (chunk16_keep (B16 m c) main_arg15 (by decide)).trans (w16_arg15 m c)

theorem w17_v276 : B17 m c (no_index (Proc.devRef .tc main_v276)) = ReadP.val_main_v276 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  s16_v276 (B16 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (w16_arg14 m c) (w16_arg15 m c) (w16_v268 m c) (w16_v270 m c)

end Boundaries

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v276) = ReadP.val_main_v276 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v276).trans ((congrFun (after_ops m c) _).trans (w17_v276 m c)),
      (h c main_arg0).trans ((congrFun (after_ops m c) _).trans (w17_arg0 m c)),
      (h c main_arg1).trans ((congrFun (after_ops m c) _).trans (w17_arg1 m c)),
      (h c main_arg2).trans ((congrFun (after_ops m c) _).trans (w17_arg2 m c)),
      (h c main_arg3).trans ((congrFun (after_ops m c) _).trans (w17_arg3 m c)),
      (h c main_arg4).trans ((congrFun (after_ops m c) _).trans (w17_arg4 m c)),
      (h c main_arg5).trans ((congrFun (after_ops m c) _).trans (w17_arg5 m c)),
      (h c main_arg6).trans ((congrFun (after_ops m c) _).trans (w17_arg6 m c)),
      (h c main_arg7).trans ((congrFun (after_ops m c) _).trans (w17_arg7 m c)),
      (h c main_arg8).trans ((congrFun (after_ops m c) _).trans (w17_arg8 m c)),
      (h c main_arg9).trans ((congrFun (after_ops m c) _).trans (w17_arg9 m c)),
      (h c main_arg10).trans ((congrFun (after_ops m c) _).trans (w17_arg10 m c)),
      (h c main_arg11).trans ((congrFun (after_ops m c) _).trans (w17_arg11 m c)),
      (h c main_arg12).trans ((congrFun (after_ops m c) _).trans (w17_arg12 m c)),
      (h c main_arg13).trans ((congrFun (after_ops m c) _).trans (w17_arg13 m c)),
      (h c main_arg14).trans ((congrFun (after_ops m c) _).trans (w17_arg14 m c)),
      (h c main_arg15).trans ((congrFun (after_ops m c) _).trans (w17_arg15 m c))⟩)
    (run_seq scopedRefs_eq scopedSems_eq defs main (fun _ => ops) main_eq (fun _ => ops_sub) m ρ (fun _ => ops_fresh))

end Cert.ReferenceIdeal.Staged

end
-- ==== Proof.FoldPrefix.lean ====
/-
  The host operations before the first region, boundary by boundary.

  Both programs begin with the same computation on the graph: the row and column indices of the edges, the node mask
  and its complement as reals, and for each of the four normalisations (the mask or its complement, taken at the
  target or at the source of an edge) the off-diagonal edge weights `d[row] · v · d[col]` and the diagonal weights
  `d · d`, where `v` is the masked edge indicator with self-loops zeroed, `deg = segment-sum v + 1` and
  `d = deg^(-1/2)` where `deg > 0`, else `0`.  The kernel's host code spells these operations exactly as the
  reference does.  So after each stretch of host operations every buffer that a later operation reads holds the
  reference's stage of the same number: a buffer the stretch writes holds the stage's one operation applied to the
  previous boundary's values, a buffer it does not write keeps its value.
-/
import proofs.«169779_j77360950935705_2_alg».proof.Proof.Gen.KernelIdeal.Frame
import proofs.«169779_j77360950935705_2_alg».proof.Proof.RefRead

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- One host stretch evaluated at a buffer: the operations' results, outermost first, and a buffer the stretch does not
    write left as it was. -/
macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

section Stretches

variable (V : Valuation τ sig (Elt Ideal)) (x1 : (⟨Cert.ReferenceIdeal.S2x1600000, .i32⟩ : BufTy).Contents (Elt Ideal)) (x2 : (⟨Cert.ReferenceIdeal.S100000, .i32⟩ : BufTy).Contents (Elt Ideal))

/-! ## Stretch 0 (`hostOps0`) -/

theorem s0_v1
    (h_arg1 : V (no_index (Proc.devRef .tc main_arg1)) = x1)
    (h_arg2 : V (no_index (Proc.devRef .tc main_arg2)) = x2) :
    StableHlo.after hostOps0 V (Proc.devRef .tc main_v1) = Cert.ReferenceIdeal.ReadP.val_main_v1 x1 := by
  stretch_simp [hostOps0, h_arg1, h_arg2]
  try rfl

theorem s0_v3
    (h_arg1 : V (no_index (Proc.devRef .tc main_arg1)) = x1)
    (h_arg2 : V (no_index (Proc.devRef .tc main_arg2)) = x2) :
    StableHlo.after hostOps0 V (Proc.devRef .tc main_v3) = Cert.ReferenceIdeal.ReadP.val_main_v3 x1 := by
  stretch_simp [hostOps0, h_arg1, h_arg2]
  try rfl

theorem s0_v4
    (h_arg1 : V (no_index (Proc.devRef .tc main_arg1)) = x1)
    (h_arg2 : V (no_index (Proc.devRef .tc main_arg2)) = x2) :
    StableHlo.after hostOps0 V (Proc.devRef .tc main_v4) = Cert.ReferenceIdeal.ReadP.val_main_v4 x2 := by
  stretch_simp [hostOps0, h_arg1, h_arg2]
  try rfl

theorem s0_v6
    (h_arg1 : V (no_index (Proc.devRef .tc main_arg1)) = x1)
    (h_arg2 : V (no_index (Proc.devRef .tc main_arg2)) = x2) :
    StableHlo.after hostOps0 V (Proc.devRef .tc main_v6) = Cert.ReferenceIdeal.ReadP.val_main_v6 x2 := by
  stretch_simp [hostOps0, h_arg1, h_arg2]
  try rfl

theorem s0_cst_1
    (h_arg1 : V (no_index (Proc.devRef .tc main_arg1)) = x1)
    (h_arg2 : V (no_index (Proc.devRef .tc main_arg2)) = x2) :
    StableHlo.after hostOps0 V (Proc.devRef .tc main_cst_1) = Cert.ReferenceIdeal.ReadP.val_main_cst_1 := by
  stretch_simp [hostOps0, h_arg1, h_arg2]
  try rfl

theorem s0_v14
    (h_arg1 : V (no_index (Proc.devRef .tc main_arg1)) = x1)
    (h_arg2 : V (no_index (Proc.devRef .tc main_arg2)) = x2) :
    StableHlo.after hostOps0 V (Proc.devRef .tc main_v14) = Cert.ReferenceIdeal.ReadP.val_main_v14 x1 := by
  stretch_simp [hostOps0, h_arg1, h_arg2]
  try rfl

theorem s0_v13
    (h_arg1 : V (no_index (Proc.devRef .tc main_arg1)) = x1)
    (h_arg2 : V (no_index (Proc.devRef .tc main_arg2)) = x2) :
    StableHlo.after hostOps0 V (Proc.devRef .tc main_v13) = Cert.ReferenceIdeal.ReadP.val_main_v13 x1 x2 := by
  stretch_simp [hostOps0, h_arg1, h_arg2]
  try rfl

/-! ## Stretch 1 (`hostOps0_1`) -/

theorem s1_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_1 : V (no_index (Proc.devRef .tc main_cst_1)) = Cert.ReferenceIdeal.ReadP.val_main_cst_1)
    (h_v14 : V (no_index (Proc.devRef .tc main_v14)) = Cert.ReferenceIdeal.ReadP.val_main_v14 x1)
    (h_v13 : V (no_index (Proc.devRef .tc main_v13)) = Cert.ReferenceIdeal.ReadP.val_main_v13 x1 x2) :
    StableHlo.after hostOps0_1 V (Proc.devRef .tc main_v1) = Cert.ReferenceIdeal.ReadP.val_main_v1 x1 := by
  stretch_simp [hostOps0_1, h_v1, h_v3, h_v4, h_v6, h_cst_1, h_v14, h_v13]
  try rfl

theorem s1_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_1 : V (no_index (Proc.devRef .tc main_cst_1)) = Cert.ReferenceIdeal.ReadP.val_main_cst_1)
    (h_v14 : V (no_index (Proc.devRef .tc main_v14)) = Cert.ReferenceIdeal.ReadP.val_main_v14 x1)
    (h_v13 : V (no_index (Proc.devRef .tc main_v13)) = Cert.ReferenceIdeal.ReadP.val_main_v13 x1 x2) :
    StableHlo.after hostOps0_1 V (Proc.devRef .tc main_v3) = Cert.ReferenceIdeal.ReadP.val_main_v3 x1 := by
  stretch_simp [hostOps0_1, h_v1, h_v3, h_v4, h_v6, h_cst_1, h_v14, h_v13]
  try rfl

theorem s1_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_1 : V (no_index (Proc.devRef .tc main_cst_1)) = Cert.ReferenceIdeal.ReadP.val_main_cst_1)
    (h_v14 : V (no_index (Proc.devRef .tc main_v14)) = Cert.ReferenceIdeal.ReadP.val_main_v14 x1)
    (h_v13 : V (no_index (Proc.devRef .tc main_v13)) = Cert.ReferenceIdeal.ReadP.val_main_v13 x1 x2) :
    StableHlo.after hostOps0_1 V (Proc.devRef .tc main_v4) = Cert.ReferenceIdeal.ReadP.val_main_v4 x2 := by
  stretch_simp [hostOps0_1, h_v1, h_v3, h_v4, h_v6, h_cst_1, h_v14, h_v13]
  try rfl

theorem s1_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_1 : V (no_index (Proc.devRef .tc main_cst_1)) = Cert.ReferenceIdeal.ReadP.val_main_cst_1)
    (h_v14 : V (no_index (Proc.devRef .tc main_v14)) = Cert.ReferenceIdeal.ReadP.val_main_v14 x1)
    (h_v13 : V (no_index (Proc.devRef .tc main_v13)) = Cert.ReferenceIdeal.ReadP.val_main_v13 x1 x2) :
    StableHlo.after hostOps0_1 V (Proc.devRef .tc main_v6) = Cert.ReferenceIdeal.ReadP.val_main_v6 x2 := by
  stretch_simp [hostOps0_1, h_v1, h_v3, h_v4, h_v6, h_cst_1, h_v14, h_v13]
  try rfl

theorem s1_v15
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_1 : V (no_index (Proc.devRef .tc main_cst_1)) = Cert.ReferenceIdeal.ReadP.val_main_cst_1)
    (h_v14 : V (no_index (Proc.devRef .tc main_v14)) = Cert.ReferenceIdeal.ReadP.val_main_v14 x1)
    (h_v13 : V (no_index (Proc.devRef .tc main_v13)) = Cert.ReferenceIdeal.ReadP.val_main_v13 x1 x2) :
    StableHlo.after hostOps0_1 V (Proc.devRef .tc main_v15) = Cert.ReferenceIdeal.ReadP.val_main_v15 x1 x2 := by
  stretch_simp [hostOps0_1, h_v1, h_v3, h_v4, h_v6, h_cst_1, h_v14, h_v13]
  try rfl

/-! ## Stretch 2 (`hostOps0_2`) -/

theorem s2_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v1) = Cert.ReferenceIdeal.ReadP.val_main_v1 x1 := by
  stretch_simp [hostOps0_2, h_v1, h_v3, h_v4, h_v6, h_v15]
  try rfl

theorem s2_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v3) = Cert.ReferenceIdeal.ReadP.val_main_v3 x1 := by
  stretch_simp [hostOps0_2, h_v1, h_v3, h_v4, h_v6, h_v15]
  try rfl

theorem s2_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v4) = Cert.ReferenceIdeal.ReadP.val_main_v4 x2 := by
  stretch_simp [hostOps0_2, h_v1, h_v3, h_v4, h_v6, h_v15]
  try rfl

theorem s2_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v6) = Cert.ReferenceIdeal.ReadP.val_main_v6 x2 := by
  stretch_simp [hostOps0_2, h_v1, h_v3, h_v4, h_v6, h_v15]
  try rfl

theorem s2_cst_5
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_cst_5) = Cert.ReferenceIdeal.ReadP.val_main_cst_5 := by
  stretch_simp [hostOps0_2, h_v1, h_v3, h_v4, h_v6, h_v15]
  try rfl

theorem s2_v22
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v22) = Cert.ReferenceIdeal.ReadP.val_main_v22 x1 x2 := by
  stretch_simp [hostOps0_2, h_v1, h_v3, h_v4, h_v6, h_v15]
  try rfl

theorem s2_v23
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v23) = Cert.ReferenceIdeal.ReadP.val_main_v23 x1 x2 := by
  stretch_simp [hostOps0_2, h_v1, h_v3, h_v4, h_v6, h_v15]
  try rfl

theorem s2_v15
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v15 : V (no_index (Proc.devRef .tc main_v15)) = Cert.ReferenceIdeal.ReadP.val_main_v15 x1 x2) :
    StableHlo.after hostOps0_2 V (Proc.devRef .tc main_v15) = Cert.ReferenceIdeal.ReadP.val_main_v15 x1 x2 := by
  stretch_simp [hostOps0_2, h_v1, h_v3, h_v4, h_v6, h_v15]
  try rfl

/-! ## Stretch 3 (`hostOps0_3`) -/

theorem s3_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_5 : V (no_index (Proc.devRef .tc main_cst_5)) = Cert.ReferenceIdeal.ReadP.val_main_cst_5)
    (h_v22 : V (no_index (Proc.devRef .tc main_v22)) = Cert.ReferenceIdeal.ReadP.val_main_v22 x1 x2)
    (h_v23 : V (no_index (Proc.devRef .tc main_v23)) = Cert.ReferenceIdeal.ReadP.val_main_v23 x1 x2)
    (h_v15 : V (no_index (Proc.devRef .tc main_v15)) = Cert.ReferenceIdeal.ReadP.val_main_v15 x1 x2) :
    StableHlo.after hostOps0_3 V (Proc.devRef .tc main_v1) = Cert.ReferenceIdeal.ReadP.val_main_v1 x1 := by
  stretch_simp [hostOps0_3, h_v1, h_v3, h_v4, h_v6, h_cst_5, h_v22, h_v23, h_v15]
  try rfl

theorem s3_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_5 : V (no_index (Proc.devRef .tc main_cst_5)) = Cert.ReferenceIdeal.ReadP.val_main_cst_5)
    (h_v22 : V (no_index (Proc.devRef .tc main_v22)) = Cert.ReferenceIdeal.ReadP.val_main_v22 x1 x2)
    (h_v23 : V (no_index (Proc.devRef .tc main_v23)) = Cert.ReferenceIdeal.ReadP.val_main_v23 x1 x2)
    (h_v15 : V (no_index (Proc.devRef .tc main_v15)) = Cert.ReferenceIdeal.ReadP.val_main_v15 x1 x2) :
    StableHlo.after hostOps0_3 V (Proc.devRef .tc main_v3) = Cert.ReferenceIdeal.ReadP.val_main_v3 x1 := by
  stretch_simp [hostOps0_3, h_v1, h_v3, h_v4, h_v6, h_cst_5, h_v22, h_v23, h_v15]
  try rfl

theorem s3_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_5 : V (no_index (Proc.devRef .tc main_cst_5)) = Cert.ReferenceIdeal.ReadP.val_main_cst_5)
    (h_v22 : V (no_index (Proc.devRef .tc main_v22)) = Cert.ReferenceIdeal.ReadP.val_main_v22 x1 x2)
    (h_v23 : V (no_index (Proc.devRef .tc main_v23)) = Cert.ReferenceIdeal.ReadP.val_main_v23 x1 x2)
    (h_v15 : V (no_index (Proc.devRef .tc main_v15)) = Cert.ReferenceIdeal.ReadP.val_main_v15 x1 x2) :
    StableHlo.after hostOps0_3 V (Proc.devRef .tc main_v4) = Cert.ReferenceIdeal.ReadP.val_main_v4 x2 := by
  stretch_simp [hostOps0_3, h_v1, h_v3, h_v4, h_v6, h_cst_5, h_v22, h_v23, h_v15]
  try rfl

theorem s3_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_5 : V (no_index (Proc.devRef .tc main_cst_5)) = Cert.ReferenceIdeal.ReadP.val_main_cst_5)
    (h_v22 : V (no_index (Proc.devRef .tc main_v22)) = Cert.ReferenceIdeal.ReadP.val_main_v22 x1 x2)
    (h_v23 : V (no_index (Proc.devRef .tc main_v23)) = Cert.ReferenceIdeal.ReadP.val_main_v23 x1 x2)
    (h_v15 : V (no_index (Proc.devRef .tc main_v15)) = Cert.ReferenceIdeal.ReadP.val_main_v15 x1 x2) :
    StableHlo.after hostOps0_3 V (Proc.devRef .tc main_v6) = Cert.ReferenceIdeal.ReadP.val_main_v6 x2 := by
  stretch_simp [hostOps0_3, h_v1, h_v3, h_v4, h_v6, h_cst_5, h_v22, h_v23, h_v15]
  try rfl

/-- the outlined selection, over the buffers' own contents -/
theorem s3_v24_raw : StableHlo.after hostOps0_3 V (Proc.devRef .tc main_v24) = select (V (Proc.devRef .tc main_v22)) (V (Proc.devRef .tc main_v23)) (broadcastInDim S100000 ![] bcast_S_S100000 (id (V (Proc.devRef .tc main_cst_5)))) := by
  stretch_simp [hostOps0_3]
  try rfl

/-- the same selection of the reference's stages is the reference's next stage -/
theorem s3_v24_cmp : (select (Cert.ReferenceIdeal.ReadP.val_main_v22 x1 x2) (Cert.ReferenceIdeal.ReadP.val_main_v23 x1 x2) (broadcastInDim S100000 ![] bcast_S_S100000 (id (Cert.ReferenceIdeal.ReadP.val_main_cst_5 (F := Ideal)))) : (⟨S100000, .f32⟩ : BufTy).Contents (Elt Ideal)) = Cert.ReferenceIdeal.ReadP.val_main_v24 x1 x2 := by
  rfl

theorem s3_v24
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_5 : V (no_index (Proc.devRef .tc main_cst_5)) = Cert.ReferenceIdeal.ReadP.val_main_cst_5)
    (h_v22 : V (no_index (Proc.devRef .tc main_v22)) = Cert.ReferenceIdeal.ReadP.val_main_v22 x1 x2)
    (h_v23 : V (no_index (Proc.devRef .tc main_v23)) = Cert.ReferenceIdeal.ReadP.val_main_v23 x1 x2)
    (h_v15 : V (no_index (Proc.devRef .tc main_v15)) = Cert.ReferenceIdeal.ReadP.val_main_v15 x1 x2) :
    StableHlo.after hostOps0_3 V (Proc.devRef .tc main_v24) = Cert.ReferenceIdeal.ReadP.val_main_v24 x1 x2 := by
  rw [s3_v24_raw V, h_v22, h_v23, h_cst_5]
  exact s3_v24_cmp x1 x2

theorem s3_v15
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_5 : V (no_index (Proc.devRef .tc main_cst_5)) = Cert.ReferenceIdeal.ReadP.val_main_cst_5)
    (h_v22 : V (no_index (Proc.devRef .tc main_v22)) = Cert.ReferenceIdeal.ReadP.val_main_v22 x1 x2)
    (h_v23 : V (no_index (Proc.devRef .tc main_v23)) = Cert.ReferenceIdeal.ReadP.val_main_v23 x1 x2)
    (h_v15 : V (no_index (Proc.devRef .tc main_v15)) = Cert.ReferenceIdeal.ReadP.val_main_v15 x1 x2) :
    StableHlo.after hostOps0_3 V (Proc.devRef .tc main_v15) = Cert.ReferenceIdeal.ReadP.val_main_v15 x1 x2 := by
  stretch_simp [hostOps0_3, h_v1, h_v3, h_v4, h_v6, h_cst_5, h_v22, h_v23, h_v15]
  try rfl

/-! ## Stretch 4 (`hostOps0_4`) -/

theorem s4_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v1) = Cert.ReferenceIdeal.ReadP.val_main_v1 x1 := by
  stretch_simp [hostOps0_4, h_v1, h_v3, h_v4, h_v6, h_v24, h_v15]
  try rfl

theorem s4_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v3) = Cert.ReferenceIdeal.ReadP.val_main_v3 x1 := by
  stretch_simp [hostOps0_4, h_v1, h_v3, h_v4, h_v6, h_v24, h_v15]
  try rfl

theorem s4_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v4) = Cert.ReferenceIdeal.ReadP.val_main_v4 x2 := by
  stretch_simp [hostOps0_4, h_v1, h_v3, h_v4, h_v6, h_v24, h_v15]
  try rfl

theorem s4_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v6) = Cert.ReferenceIdeal.ReadP.val_main_v6 x2 := by
  stretch_simp [hostOps0_4, h_v1, h_v3, h_v4, h_v6, h_v24, h_v15]
  try rfl

theorem s4_cst_12
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_cst_12) = Cert.ReferenceIdeal.ReadP.val_main_cst_12 := by
  stretch_simp [hostOps0_4, h_v1, h_v3, h_v4, h_v6, h_v24, h_v15]
  try rfl

theorem s4_v49
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v49) = Cert.ReferenceIdeal.ReadP.val_main_v49 x1 := by
  stretch_simp [hostOps0_4, h_v1, h_v3, h_v4, h_v6, h_v24, h_v15]
  try rfl

theorem s4_v48
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v48) = Cert.ReferenceIdeal.ReadP.val_main_v48 x1 x2 := by
  stretch_simp [hostOps0_4, h_v1, h_v3, h_v4, h_v6, h_v24, h_v15]
  try rfl

theorem s4_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v40) = Cert.ReferenceIdeal.ReadP.val_main_v40 x1 x2 := by
  stretch_simp [hostOps0_4, h_v1, h_v3, h_v4, h_v6, h_v24, h_v15]
  try rfl

theorem s4_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v24 : V (no_index (Proc.devRef .tc main_v24)) = Cert.ReferenceIdeal.ReadP.val_main_v24 x1 x2)
    (h_v15 : V (no_index (Proc.devRef .tc main_v15)) = Cert.ReferenceIdeal.ReadP.val_main_v15 x1 x2) :
    StableHlo.after hostOps0_4 V (Proc.devRef .tc main_v41) = Cert.ReferenceIdeal.ReadP.val_main_v41 x1 x2 := by
  stretch_simp [hostOps0_4, h_v1, h_v3, h_v4, h_v6, h_v24, h_v15]
  try rfl

/-! ## Stretch 5 (`hostOps0_5`) -/

theorem s5_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v1) = Cert.ReferenceIdeal.ReadP.val_main_v1 x1 := by
  stretch_simp [hostOps0_5, h_v1, h_v3, h_v4, h_v6, h_cst_12, h_v49, h_v48, h_v40, h_v41]
  try rfl

theorem s5_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v3) = Cert.ReferenceIdeal.ReadP.val_main_v3 x1 := by
  stretch_simp [hostOps0_5, h_v1, h_v3, h_v4, h_v6, h_cst_12, h_v49, h_v48, h_v40, h_v41]
  try rfl

theorem s5_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v4) = Cert.ReferenceIdeal.ReadP.val_main_v4 x2 := by
  stretch_simp [hostOps0_5, h_v1, h_v3, h_v4, h_v6, h_cst_12, h_v49, h_v48, h_v40, h_v41]
  try rfl

theorem s5_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v6) = Cert.ReferenceIdeal.ReadP.val_main_v6 x2 := by
  stretch_simp [hostOps0_5, h_v1, h_v3, h_v4, h_v6, h_cst_12, h_v49, h_v48, h_v40, h_v41]
  try rfl

theorem s5_v50
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v50) = Cert.ReferenceIdeal.ReadP.val_main_v50 x1 x2 := by
  stretch_simp [hostOps0_5, h_v1, h_v3, h_v4, h_v6, h_cst_12, h_v49, h_v48, h_v40, h_v41]
  try rfl

theorem s5_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v40) = Cert.ReferenceIdeal.ReadP.val_main_v40 x1 x2 := by
  stretch_simp [hostOps0_5, h_v1, h_v3, h_v4, h_v6, h_cst_12, h_v49, h_v48, h_v40, h_v41]
  try rfl

theorem s5_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_12 : V (no_index (Proc.devRef .tc main_cst_12)) = Cert.ReferenceIdeal.ReadP.val_main_cst_12)
    (h_v49 : V (no_index (Proc.devRef .tc main_v49)) = Cert.ReferenceIdeal.ReadP.val_main_v49 x1)
    (h_v48 : V (no_index (Proc.devRef .tc main_v48)) = Cert.ReferenceIdeal.ReadP.val_main_v48 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_5 V (Proc.devRef .tc main_v41) = Cert.ReferenceIdeal.ReadP.val_main_v41 x1 x2 := by
  stretch_simp [hostOps0_5, h_v1, h_v3, h_v4, h_v6, h_cst_12, h_v49, h_v48, h_v40, h_v41]
  try rfl

/-! ## Stretch 6 (`hostOps0_6`) -/

theorem s6_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v1) = Cert.ReferenceIdeal.ReadP.val_main_v1 x1 := by
  stretch_simp [hostOps0_6, h_v1, h_v3, h_v4, h_v6, h_v50, h_v40, h_v41]
  try rfl

theorem s6_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v3) = Cert.ReferenceIdeal.ReadP.val_main_v3 x1 := by
  stretch_simp [hostOps0_6, h_v1, h_v3, h_v4, h_v6, h_v50, h_v40, h_v41]
  try rfl

theorem s6_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v4) = Cert.ReferenceIdeal.ReadP.val_main_v4 x2 := by
  stretch_simp [hostOps0_6, h_v1, h_v3, h_v4, h_v6, h_v50, h_v40, h_v41]
  try rfl

theorem s6_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v6) = Cert.ReferenceIdeal.ReadP.val_main_v6 x2 := by
  stretch_simp [hostOps0_6, h_v1, h_v3, h_v4, h_v6, h_v50, h_v40, h_v41]
  try rfl

theorem s6_cst_16
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_cst_16) = Cert.ReferenceIdeal.ReadP.val_main_cst_16 := by
  stretch_simp [hostOps0_6, h_v1, h_v3, h_v4, h_v6, h_v50, h_v40, h_v41]
  try rfl

theorem s6_v57
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v57) = Cert.ReferenceIdeal.ReadP.val_main_v57 x1 x2 := by
  stretch_simp [hostOps0_6, h_v1, h_v3, h_v4, h_v6, h_v50, h_v40, h_v41]
  try rfl

theorem s6_v58
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v58) = Cert.ReferenceIdeal.ReadP.val_main_v58 x1 x2 := by
  stretch_simp [hostOps0_6, h_v1, h_v3, h_v4, h_v6, h_v50, h_v40, h_v41]
  try rfl

theorem s6_v50
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v50) = Cert.ReferenceIdeal.ReadP.val_main_v50 x1 x2 := by
  stretch_simp [hostOps0_6, h_v1, h_v3, h_v4, h_v6, h_v50, h_v40, h_v41]
  try rfl

theorem s6_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v40) = Cert.ReferenceIdeal.ReadP.val_main_v40 x1 x2 := by
  stretch_simp [hostOps0_6, h_v1, h_v3, h_v4, h_v6, h_v50, h_v40, h_v41]
  try rfl

theorem s6_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_6 V (Proc.devRef .tc main_v41) = Cert.ReferenceIdeal.ReadP.val_main_v41 x1 x2 := by
  stretch_simp [hostOps0_6, h_v1, h_v3, h_v4, h_v6, h_v50, h_v40, h_v41]
  try rfl

/-! ## Stretch 7 (`hostOps0_7`) -/

theorem s7_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v1) = Cert.ReferenceIdeal.ReadP.val_main_v1 x1 := by
  stretch_simp [hostOps0_7, h_v1, h_v3, h_v4, h_v6, h_cst_16, h_v57, h_v58, h_v50, h_v40, h_v41]
  try rfl

theorem s7_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v3) = Cert.ReferenceIdeal.ReadP.val_main_v3 x1 := by
  stretch_simp [hostOps0_7, h_v1, h_v3, h_v4, h_v6, h_cst_16, h_v57, h_v58, h_v50, h_v40, h_v41]
  try rfl

theorem s7_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v4) = Cert.ReferenceIdeal.ReadP.val_main_v4 x2 := by
  stretch_simp [hostOps0_7, h_v1, h_v3, h_v4, h_v6, h_cst_16, h_v57, h_v58, h_v50, h_v40, h_v41]
  try rfl

theorem s7_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v6) = Cert.ReferenceIdeal.ReadP.val_main_v6 x2 := by
  stretch_simp [hostOps0_7, h_v1, h_v3, h_v4, h_v6, h_cst_16, h_v57, h_v58, h_v50, h_v40, h_v41]
  try rfl

/-- the outlined selection, over the buffers' own contents -/
theorem s7_v59_raw : StableHlo.after hostOps0_7 V (Proc.devRef .tc main_v59) = select (V (Proc.devRef .tc main_v57)) (V (Proc.devRef .tc main_v58)) (broadcastInDim S100000 ![] bcast_S_S100000 (id (V (Proc.devRef .tc main_cst_16)))) := by
  stretch_simp [hostOps0_7]
  try rfl

/-- the same selection of the reference's stages is the reference's next stage -/
theorem s7_v59_cmp : (select (Cert.ReferenceIdeal.ReadP.val_main_v57 x1 x2) (Cert.ReferenceIdeal.ReadP.val_main_v58 x1 x2) (broadcastInDim S100000 ![] bcast_S_S100000 (id (Cert.ReferenceIdeal.ReadP.val_main_cst_16 (F := Ideal)))) : (⟨S100000, .f32⟩ : BufTy).Contents (Elt Ideal)) = Cert.ReferenceIdeal.ReadP.val_main_v59 x1 x2 := by
  rfl

theorem s7_v59
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v59) = Cert.ReferenceIdeal.ReadP.val_main_v59 x1 x2 := by
  rw [s7_v59_raw V, h_v57, h_v58, h_cst_16]
  exact s7_v59_cmp x1 x2

theorem s7_v50
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v50) = Cert.ReferenceIdeal.ReadP.val_main_v50 x1 x2 := by
  stretch_simp [hostOps0_7, h_v1, h_v3, h_v4, h_v6, h_cst_16, h_v57, h_v58, h_v50, h_v40, h_v41]
  try rfl

theorem s7_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v40) = Cert.ReferenceIdeal.ReadP.val_main_v40 x1 x2 := by
  stretch_simp [hostOps0_7, h_v1, h_v3, h_v4, h_v6, h_cst_16, h_v57, h_v58, h_v50, h_v40, h_v41]
  try rfl

theorem s7_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_cst_16 : V (no_index (Proc.devRef .tc main_cst_16)) = Cert.ReferenceIdeal.ReadP.val_main_cst_16)
    (h_v57 : V (no_index (Proc.devRef .tc main_v57)) = Cert.ReferenceIdeal.ReadP.val_main_v57 x1 x2)
    (h_v58 : V (no_index (Proc.devRef .tc main_v58)) = Cert.ReferenceIdeal.ReadP.val_main_v58 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_7 V (Proc.devRef .tc main_v41) = Cert.ReferenceIdeal.ReadP.val_main_v41 x1 x2 := by
  stretch_simp [hostOps0_7, h_v1, h_v3, h_v4, h_v6, h_cst_16, h_v57, h_v58, h_v50, h_v40, h_v41]
  try rfl

/-! ## Stretch 8 (`hostOps0_8`) -/

theorem s8_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v1) = Cert.ReferenceIdeal.ReadP.val_main_v1 x1 := by
  stretch_simp [hostOps0_8, h_v1, h_v3, h_v4, h_v6, h_v59, h_v50, h_v40, h_v41]
  try rfl

theorem s8_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v3) = Cert.ReferenceIdeal.ReadP.val_main_v3 x1 := by
  stretch_simp [hostOps0_8, h_v1, h_v3, h_v4, h_v6, h_v59, h_v50, h_v40, h_v41]
  try rfl

theorem s8_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v4) = Cert.ReferenceIdeal.ReadP.val_main_v4 x2 := by
  stretch_simp [hostOps0_8, h_v1, h_v3, h_v4, h_v6, h_v59, h_v50, h_v40, h_v41]
  try rfl

theorem s8_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v6) = Cert.ReferenceIdeal.ReadP.val_main_v6 x2 := by
  stretch_simp [hostOps0_8, h_v1, h_v3, h_v4, h_v6, h_v59, h_v50, h_v40, h_v41]
  try rfl

theorem s8_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v75) = Cert.ReferenceIdeal.ReadP.val_main_v75 x1 x2 := by
  stretch_simp [hostOps0_8, h_v1, h_v3, h_v4, h_v6, h_v59, h_v50, h_v40, h_v41]
  try rfl

theorem s8_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v76) = Cert.ReferenceIdeal.ReadP.val_main_v76 x1 x2 := by
  stretch_simp [hostOps0_8, h_v1, h_v3, h_v4, h_v6, h_v59, h_v50, h_v40, h_v41]
  try rfl

theorem s8_cst_23
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_cst_23) = Cert.ReferenceIdeal.ReadP.val_main_cst_23 := by
  stretch_simp [hostOps0_8, h_v1, h_v3, h_v4, h_v6, h_v59, h_v50, h_v40, h_v41]
  try rfl

theorem s8_v84
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v84) = Cert.ReferenceIdeal.ReadP.val_main_v84 x1 := by
  stretch_simp [hostOps0_8, h_v1, h_v3, h_v4, h_v6, h_v59, h_v50, h_v40, h_v41]
  try rfl

theorem s8_v83
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v83) = Cert.ReferenceIdeal.ReadP.val_main_v83 x1 x2 := by
  stretch_simp [hostOps0_8, h_v1, h_v3, h_v4, h_v6, h_v59, h_v50, h_v40, h_v41]
  try rfl

theorem s8_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v40) = Cert.ReferenceIdeal.ReadP.val_main_v40 x1 x2 := by
  stretch_simp [hostOps0_8, h_v1, h_v3, h_v4, h_v6, h_v59, h_v50, h_v40, h_v41]
  try rfl

theorem s8_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v59 : V (no_index (Proc.devRef .tc main_v59)) = Cert.ReferenceIdeal.ReadP.val_main_v59 x1 x2)
    (h_v50 : V (no_index (Proc.devRef .tc main_v50)) = Cert.ReferenceIdeal.ReadP.val_main_v50 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_8 V (Proc.devRef .tc main_v41) = Cert.ReferenceIdeal.ReadP.val_main_v41 x1 x2 := by
  stretch_simp [hostOps0_8, h_v1, h_v3, h_v4, h_v6, h_v59, h_v50, h_v40, h_v41]
  try rfl

/-! ## Stretch 9 (`hostOps0_9`) -/

theorem s9_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v1) = Cert.ReferenceIdeal.ReadP.val_main_v1 x1 := by
  stretch_simp [hostOps0_9, h_v1, h_v3, h_v4, h_v6, h_v75, h_v76, h_cst_23, h_v84, h_v83, h_v40, h_v41]
  try rfl

theorem s9_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v3) = Cert.ReferenceIdeal.ReadP.val_main_v3 x1 := by
  stretch_simp [hostOps0_9, h_v1, h_v3, h_v4, h_v6, h_v75, h_v76, h_cst_23, h_v84, h_v83, h_v40, h_v41]
  try rfl

theorem s9_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v4) = Cert.ReferenceIdeal.ReadP.val_main_v4 x2 := by
  stretch_simp [hostOps0_9, h_v1, h_v3, h_v4, h_v6, h_v75, h_v76, h_cst_23, h_v84, h_v83, h_v40, h_v41]
  try rfl

theorem s9_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v6) = Cert.ReferenceIdeal.ReadP.val_main_v6 x2 := by
  stretch_simp [hostOps0_9, h_v1, h_v3, h_v4, h_v6, h_v75, h_v76, h_cst_23, h_v84, h_v83, h_v40, h_v41]
  try rfl

theorem s9_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v75) = Cert.ReferenceIdeal.ReadP.val_main_v75 x1 x2 := by
  stretch_simp [hostOps0_9, h_v1, h_v3, h_v4, h_v6, h_v75, h_v76, h_cst_23, h_v84, h_v83, h_v40, h_v41]
  try rfl

theorem s9_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v76) = Cert.ReferenceIdeal.ReadP.val_main_v76 x1 x2 := by
  stretch_simp [hostOps0_9, h_v1, h_v3, h_v4, h_v6, h_v75, h_v76, h_cst_23, h_v84, h_v83, h_v40, h_v41]
  try rfl

theorem s9_v85
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v85) = Cert.ReferenceIdeal.ReadP.val_main_v85 x1 x2 := by
  stretch_simp [hostOps0_9, h_v1, h_v3, h_v4, h_v6, h_v75, h_v76, h_cst_23, h_v84, h_v83, h_v40, h_v41]
  try rfl

theorem s9_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v40) = Cert.ReferenceIdeal.ReadP.val_main_v40 x1 x2 := by
  stretch_simp [hostOps0_9, h_v1, h_v3, h_v4, h_v6, h_v75, h_v76, h_cst_23, h_v84, h_v83, h_v40, h_v41]
  try rfl

theorem s9_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_23 : V (no_index (Proc.devRef .tc main_cst_23)) = Cert.ReferenceIdeal.ReadP.val_main_cst_23)
    (h_v84 : V (no_index (Proc.devRef .tc main_v84)) = Cert.ReferenceIdeal.ReadP.val_main_v84 x1)
    (h_v83 : V (no_index (Proc.devRef .tc main_v83)) = Cert.ReferenceIdeal.ReadP.val_main_v83 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_9 V (Proc.devRef .tc main_v41) = Cert.ReferenceIdeal.ReadP.val_main_v41 x1 x2 := by
  stretch_simp [hostOps0_9, h_v1, h_v3, h_v4, h_v6, h_v75, h_v76, h_cst_23, h_v84, h_v83, h_v40, h_v41]
  try rfl

/-! ## Stretch 10 (`hostOps0_10`) -/

theorem s10_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v1) = Cert.ReferenceIdeal.ReadP.val_main_v1 x1 := by
  stretch_simp [hostOps0_10, h_v1, h_v3, h_v4, h_v6, h_v75, h_v76, h_v85, h_v40, h_v41]
  try rfl

theorem s10_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v3) = Cert.ReferenceIdeal.ReadP.val_main_v3 x1 := by
  stretch_simp [hostOps0_10, h_v1, h_v3, h_v4, h_v6, h_v75, h_v76, h_v85, h_v40, h_v41]
  try rfl

theorem s10_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v4) = Cert.ReferenceIdeal.ReadP.val_main_v4 x2 := by
  stretch_simp [hostOps0_10, h_v1, h_v3, h_v4, h_v6, h_v75, h_v76, h_v85, h_v40, h_v41]
  try rfl

theorem s10_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v6) = Cert.ReferenceIdeal.ReadP.val_main_v6 x2 := by
  stretch_simp [hostOps0_10, h_v1, h_v3, h_v4, h_v6, h_v75, h_v76, h_v85, h_v40, h_v41]
  try rfl

theorem s10_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v75) = Cert.ReferenceIdeal.ReadP.val_main_v75 x1 x2 := by
  stretch_simp [hostOps0_10, h_v1, h_v3, h_v4, h_v6, h_v75, h_v76, h_v85, h_v40, h_v41]
  try rfl

theorem s10_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v76) = Cert.ReferenceIdeal.ReadP.val_main_v76 x1 x2 := by
  stretch_simp [hostOps0_10, h_v1, h_v3, h_v4, h_v6, h_v75, h_v76, h_v85, h_v40, h_v41]
  try rfl

theorem s10_cst_27
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_cst_27) = Cert.ReferenceIdeal.ReadP.val_main_cst_27 := by
  stretch_simp [hostOps0_10, h_v1, h_v3, h_v4, h_v6, h_v75, h_v76, h_v85, h_v40, h_v41]
  try rfl

theorem s10_v92
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v92) = Cert.ReferenceIdeal.ReadP.val_main_v92 x1 x2 := by
  stretch_simp [hostOps0_10, h_v1, h_v3, h_v4, h_v6, h_v75, h_v76, h_v85, h_v40, h_v41]
  try rfl

theorem s10_v93
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v93) = Cert.ReferenceIdeal.ReadP.val_main_v93 x1 x2 := by
  stretch_simp [hostOps0_10, h_v1, h_v3, h_v4, h_v6, h_v75, h_v76, h_v85, h_v40, h_v41]
  try rfl

theorem s10_v85
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v85) = Cert.ReferenceIdeal.ReadP.val_main_v85 x1 x2 := by
  stretch_simp [hostOps0_10, h_v1, h_v3, h_v4, h_v6, h_v75, h_v76, h_v85, h_v40, h_v41]
  try rfl

theorem s10_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v40) = Cert.ReferenceIdeal.ReadP.val_main_v40 x1 x2 := by
  stretch_simp [hostOps0_10, h_v1, h_v3, h_v4, h_v6, h_v75, h_v76, h_v85, h_v40, h_v41]
  try rfl

theorem s10_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_10 V (Proc.devRef .tc main_v41) = Cert.ReferenceIdeal.ReadP.val_main_v41 x1 x2 := by
  stretch_simp [hostOps0_10, h_v1, h_v3, h_v4, h_v6, h_v75, h_v76, h_v85, h_v40, h_v41]
  try rfl

/-! ## Stretch 11 (`hostOps0_11`) -/

theorem s11_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v1) = Cert.ReferenceIdeal.ReadP.val_main_v1 x1 := by
  stretch_simp [hostOps0_11, h_v1, h_v3, h_v4, h_v6, h_v75, h_v76, h_cst_27, h_v92, h_v93, h_v85, h_v40, h_v41]
  try rfl

theorem s11_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v3) = Cert.ReferenceIdeal.ReadP.val_main_v3 x1 := by
  stretch_simp [hostOps0_11, h_v1, h_v3, h_v4, h_v6, h_v75, h_v76, h_cst_27, h_v92, h_v93, h_v85, h_v40, h_v41]
  try rfl

theorem s11_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v4) = Cert.ReferenceIdeal.ReadP.val_main_v4 x2 := by
  stretch_simp [hostOps0_11, h_v1, h_v3, h_v4, h_v6, h_v75, h_v76, h_cst_27, h_v92, h_v93, h_v85, h_v40, h_v41]
  try rfl

theorem s11_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v6) = Cert.ReferenceIdeal.ReadP.val_main_v6 x2 := by
  stretch_simp [hostOps0_11, h_v1, h_v3, h_v4, h_v6, h_v75, h_v76, h_cst_27, h_v92, h_v93, h_v85, h_v40, h_v41]
  try rfl

theorem s11_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v75) = Cert.ReferenceIdeal.ReadP.val_main_v75 x1 x2 := by
  stretch_simp [hostOps0_11, h_v1, h_v3, h_v4, h_v6, h_v75, h_v76, h_cst_27, h_v92, h_v93, h_v85, h_v40, h_v41]
  try rfl

theorem s11_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v76) = Cert.ReferenceIdeal.ReadP.val_main_v76 x1 x2 := by
  stretch_simp [hostOps0_11, h_v1, h_v3, h_v4, h_v6, h_v75, h_v76, h_cst_27, h_v92, h_v93, h_v85, h_v40, h_v41]
  try rfl

/-- the outlined selection, over the buffers' own contents -/
theorem s11_v94_raw : StableHlo.after hostOps0_11 V (Proc.devRef .tc main_v94) = select (V (Proc.devRef .tc main_v92)) (V (Proc.devRef .tc main_v93)) (broadcastInDim S100000 ![] bcast_S_S100000 (id (V (Proc.devRef .tc main_cst_27)))) := by
  stretch_simp [hostOps0_11]
  try rfl

/-- the same selection of the reference's stages is the reference's next stage -/
theorem s11_v94_cmp : (select (Cert.ReferenceIdeal.ReadP.val_main_v92 x1 x2) (Cert.ReferenceIdeal.ReadP.val_main_v93 x1 x2) (broadcastInDim S100000 ![] bcast_S_S100000 (id (Cert.ReferenceIdeal.ReadP.val_main_cst_27 (F := Ideal)))) : (⟨S100000, .f32⟩ : BufTy).Contents (Elt Ideal)) = Cert.ReferenceIdeal.ReadP.val_main_v94 x1 x2 := by
  rfl

theorem s11_v94
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v94) = Cert.ReferenceIdeal.ReadP.val_main_v94 x1 x2 := by
  rw [s11_v94_raw V, h_v92, h_v93, h_cst_27]
  exact s11_v94_cmp x1 x2

theorem s11_v85
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v85) = Cert.ReferenceIdeal.ReadP.val_main_v85 x1 x2 := by
  stretch_simp [hostOps0_11, h_v1, h_v3, h_v4, h_v6, h_v75, h_v76, h_cst_27, h_v92, h_v93, h_v85, h_v40, h_v41]
  try rfl

theorem s11_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v40) = Cert.ReferenceIdeal.ReadP.val_main_v40 x1 x2 := by
  stretch_simp [hostOps0_11, h_v1, h_v3, h_v4, h_v6, h_v75, h_v76, h_cst_27, h_v92, h_v93, h_v85, h_v40, h_v41]
  try rfl

theorem s11_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_cst_27 : V (no_index (Proc.devRef .tc main_cst_27)) = Cert.ReferenceIdeal.ReadP.val_main_cst_27)
    (h_v92 : V (no_index (Proc.devRef .tc main_v92)) = Cert.ReferenceIdeal.ReadP.val_main_v92 x1 x2)
    (h_v93 : V (no_index (Proc.devRef .tc main_v93)) = Cert.ReferenceIdeal.ReadP.val_main_v93 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_11 V (Proc.devRef .tc main_v41) = Cert.ReferenceIdeal.ReadP.val_main_v41 x1 x2 := by
  stretch_simp [hostOps0_11, h_v1, h_v3, h_v4, h_v6, h_v75, h_v76, h_cst_27, h_v92, h_v93, h_v85, h_v40, h_v41]
  try rfl

/-! ## Stretch 12 (`hostOps0_12`) -/

theorem s12_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v1) = Cert.ReferenceIdeal.ReadP.val_main_v1 x1 := by
  stretch_simp [hostOps0_12, h_v1, h_v3, h_v4, h_v6, h_v75, h_v76, h_v94, h_v85, h_v40, h_v41]
  try rfl

theorem s12_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v3) = Cert.ReferenceIdeal.ReadP.val_main_v3 x1 := by
  stretch_simp [hostOps0_12, h_v1, h_v3, h_v4, h_v6, h_v75, h_v76, h_v94, h_v85, h_v40, h_v41]
  try rfl

theorem s12_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v4) = Cert.ReferenceIdeal.ReadP.val_main_v4 x2 := by
  stretch_simp [hostOps0_12, h_v1, h_v3, h_v4, h_v6, h_v75, h_v76, h_v94, h_v85, h_v40, h_v41]
  try rfl

theorem s12_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v6) = Cert.ReferenceIdeal.ReadP.val_main_v6 x2 := by
  stretch_simp [hostOps0_12, h_v1, h_v3, h_v4, h_v6, h_v75, h_v76, h_v94, h_v85, h_v40, h_v41]
  try rfl

theorem s12_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v75) = Cert.ReferenceIdeal.ReadP.val_main_v75 x1 x2 := by
  stretch_simp [hostOps0_12, h_v1, h_v3, h_v4, h_v6, h_v75, h_v76, h_v94, h_v85, h_v40, h_v41]
  try rfl

theorem s12_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v76) = Cert.ReferenceIdeal.ReadP.val_main_v76 x1 x2 := by
  stretch_simp [hostOps0_12, h_v1, h_v3, h_v4, h_v6, h_v75, h_v76, h_v94, h_v85, h_v40, h_v41]
  try rfl

theorem s12_v111
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v111) = Cert.ReferenceIdeal.ReadP.val_main_v111 x1 x2 := by
  stretch_simp [hostOps0_12, h_v1, h_v3, h_v4, h_v6, h_v75, h_v76, h_v94, h_v85, h_v40, h_v41]
  try rfl

theorem s12_cst_34
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_cst_34) = Cert.ReferenceIdeal.ReadP.val_main_cst_34 := by
  stretch_simp [hostOps0_12, h_v1, h_v3, h_v4, h_v6, h_v75, h_v76, h_v94, h_v85, h_v40, h_v41]
  try rfl

theorem s12_v119
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v119) = Cert.ReferenceIdeal.ReadP.val_main_v119 x1 := by
  stretch_simp [hostOps0_12, h_v1, h_v3, h_v4, h_v6, h_v75, h_v76, h_v94, h_v85, h_v40, h_v41]
  try rfl

theorem s12_v118
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v118) = Cert.ReferenceIdeal.ReadP.val_main_v118 x1 x2 := by
  stretch_simp [hostOps0_12, h_v1, h_v3, h_v4, h_v6, h_v75, h_v76, h_v94, h_v85, h_v40, h_v41]
  try rfl

theorem s12_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v40) = Cert.ReferenceIdeal.ReadP.val_main_v40 x1 x2 := by
  stretch_simp [hostOps0_12, h_v1, h_v3, h_v4, h_v6, h_v75, h_v76, h_v94, h_v85, h_v40, h_v41]
  try rfl

theorem s12_v110
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v110) = Cert.ReferenceIdeal.ReadP.val_main_v110 x1 x2 := by
  stretch_simp [hostOps0_12, h_v1, h_v3, h_v4, h_v6, h_v75, h_v76, h_v94, h_v85, h_v40, h_v41]
  try rfl

theorem s12_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v94 : V (no_index (Proc.devRef .tc main_v94)) = Cert.ReferenceIdeal.ReadP.val_main_v94 x1 x2)
    (h_v85 : V (no_index (Proc.devRef .tc main_v85)) = Cert.ReferenceIdeal.ReadP.val_main_v85 x1 x2)
    (h_v40 : V (no_index (Proc.devRef .tc main_v40)) = Cert.ReferenceIdeal.ReadP.val_main_v40 x1 x2)
    (h_v41 : V (no_index (Proc.devRef .tc main_v41)) = Cert.ReferenceIdeal.ReadP.val_main_v41 x1 x2) :
    StableHlo.after hostOps0_12 V (Proc.devRef .tc main_v41) = Cert.ReferenceIdeal.ReadP.val_main_v41 x1 x2 := by
  stretch_simp [hostOps0_12, h_v1, h_v3, h_v4, h_v6, h_v75, h_v76, h_v94, h_v85, h_v40, h_v41]
  try rfl

/-! ## Stretch 13 (`hostOps0_13`) -/

theorem s13_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v1) = Cert.ReferenceIdeal.ReadP.val_main_v1 x1 := by
  stretch_simp [hostOps0_13, h_v1, h_v3, h_v4, h_v6, h_v75, h_v76, h_v111, h_cst_34, h_v119, h_v118, h_v40, h_v110, h_v41]
  try rfl

theorem s13_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v3) = Cert.ReferenceIdeal.ReadP.val_main_v3 x1 := by
  stretch_simp [hostOps0_13, h_v1, h_v3, h_v4, h_v6, h_v75, h_v76, h_v111, h_cst_34, h_v119, h_v118, h_v40, h_v110, h_v41]
  try rfl

theorem s13_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v4) = Cert.ReferenceIdeal.ReadP.val_main_v4 x2 := by
  stretch_simp [hostOps0_13, h_v1, h_v3, h_v4, h_v6, h_v75, h_v76, h_v111, h_cst_34, h_v119, h_v118, h_v40, h_v110, h_v41]
  try rfl

theorem s13_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v6) = Cert.ReferenceIdeal.ReadP.val_main_v6 x2 := by
  stretch_simp [hostOps0_13, h_v1, h_v3, h_v4, h_v6, h_v75, h_v76, h_v111, h_cst_34, h_v119, h_v118, h_v40, h_v110, h_v41]
  try rfl

theorem s13_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v75) = Cert.ReferenceIdeal.ReadP.val_main_v75 x1 x2 := by
  stretch_simp [hostOps0_13, h_v1, h_v3, h_v4, h_v6, h_v75, h_v76, h_v111, h_cst_34, h_v119, h_v118, h_v40, h_v110, h_v41]
  try rfl

theorem s13_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v76) = Cert.ReferenceIdeal.ReadP.val_main_v76 x1 x2 := by
  stretch_simp [hostOps0_13, h_v1, h_v3, h_v4, h_v6, h_v75, h_v76, h_v111, h_cst_34, h_v119, h_v118, h_v40, h_v110, h_v41]
  try rfl

theorem s13_v111
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v111) = Cert.ReferenceIdeal.ReadP.val_main_v111 x1 x2 := by
  stretch_simp [hostOps0_13, h_v1, h_v3, h_v4, h_v6, h_v75, h_v76, h_v111, h_cst_34, h_v119, h_v118, h_v40, h_v110, h_v41]
  try rfl

theorem s13_v120
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v120) = Cert.ReferenceIdeal.ReadP.val_main_v120 x1 x2 := by
  stretch_simp [hostOps0_13, h_v1, h_v3, h_v4, h_v6, h_v75, h_v76, h_v111, h_cst_34, h_v119, h_v118, h_v40, h_v110, h_v41]
  try rfl

theorem s13_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v40) = Cert.ReferenceIdeal.ReadP.val_main_v40 x1 x2 := by
  stretch_simp [hostOps0_13, h_v1, h_v3, h_v4, h_v6, h_v75, h_v76, h_v111, h_cst_34, h_v119, h_v118, h_v40, h_v110, h_v41]
  try rfl

theorem s13_v110
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v110) = Cert.ReferenceIdeal.ReadP.val_main_v110 x1 x2 := by
  stretch_simp [hostOps0_13, h_v1, h_v3, h_v4, h_v6, h_v75, h_v76, h_v111, h_cst_34, h_v119, h_v118, h_v40, h_v110, h_v41]
  try rfl

theorem s13_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_34 : V (no_index (Proc.devRef .tc main_cst_34)) = Cert.ReferenceIdeal.ReadP.val_main_cst_34)
    (h_v119 : V (no_index (Proc.devRef .tc main_v119)) = Cert.ReferenceIdeal.ReadP.val_main_v119 x1)
    (h_v118 : V (no_index (Proc.devRef .tc main_v118)) = Cert.ReferenceIdeal.ReadP.val_main_v118 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_13 V (Proc.devRef .tc main_v41) = Cert.ReferenceIdeal.ReadP.val_main_v41 x1 x2 := by
  stretch_simp [hostOps0_13, h_v1, h_v3, h_v4, h_v6, h_v75, h_v76, h_v111, h_cst_34, h_v119, h_v118, h_v40, h_v110, h_v41]
  try rfl

/-! ## Stretch 14 (`hostOps0_14`) -/

theorem s14_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v1) = Cert.ReferenceIdeal.ReadP.val_main_v1 x1 := by
  stretch_simp [hostOps0_14, h_v1, h_v3, h_v4, h_v6, h_v75, h_v76, h_v111, h_v120, h_v40, h_v110, h_v41]
  try rfl

theorem s14_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v3) = Cert.ReferenceIdeal.ReadP.val_main_v3 x1 := by
  stretch_simp [hostOps0_14, h_v1, h_v3, h_v4, h_v6, h_v75, h_v76, h_v111, h_v120, h_v40, h_v110, h_v41]
  try rfl

theorem s14_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v4) = Cert.ReferenceIdeal.ReadP.val_main_v4 x2 := by
  stretch_simp [hostOps0_14, h_v1, h_v3, h_v4, h_v6, h_v75, h_v76, h_v111, h_v120, h_v40, h_v110, h_v41]
  try rfl

theorem s14_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v6) = Cert.ReferenceIdeal.ReadP.val_main_v6 x2 := by
  stretch_simp [hostOps0_14, h_v1, h_v3, h_v4, h_v6, h_v75, h_v76, h_v111, h_v120, h_v40, h_v110, h_v41]
  try rfl

theorem s14_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v75) = Cert.ReferenceIdeal.ReadP.val_main_v75 x1 x2 := by
  stretch_simp [hostOps0_14, h_v1, h_v3, h_v4, h_v6, h_v75, h_v76, h_v111, h_v120, h_v40, h_v110, h_v41]
  try rfl

theorem s14_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v76) = Cert.ReferenceIdeal.ReadP.val_main_v76 x1 x2 := by
  stretch_simp [hostOps0_14, h_v1, h_v3, h_v4, h_v6, h_v75, h_v76, h_v111, h_v120, h_v40, h_v110, h_v41]
  try rfl

theorem s14_v111
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v111) = Cert.ReferenceIdeal.ReadP.val_main_v111 x1 x2 := by
  stretch_simp [hostOps0_14, h_v1, h_v3, h_v4, h_v6, h_v75, h_v76, h_v111, h_v120, h_v40, h_v110, h_v41]
  try rfl

theorem s14_cst_38
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_cst_38) = Cert.ReferenceIdeal.ReadP.val_main_cst_38 := by
  stretch_simp [hostOps0_14, h_v1, h_v3, h_v4, h_v6, h_v75, h_v76, h_v111, h_v120, h_v40, h_v110, h_v41]
  try rfl

theorem s14_v127
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v127) = Cert.ReferenceIdeal.ReadP.val_main_v127 x1 x2 := by
  stretch_simp [hostOps0_14, h_v1, h_v3, h_v4, h_v6, h_v75, h_v76, h_v111, h_v120, h_v40, h_v110, h_v41]
  try rfl

theorem s14_v128
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v128) = Cert.ReferenceIdeal.ReadP.val_main_v128 x1 x2 := by
  stretch_simp [hostOps0_14, h_v1, h_v3, h_v4, h_v6, h_v75, h_v76, h_v111, h_v120, h_v40, h_v110, h_v41]
  try rfl

theorem s14_v120
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v120) = Cert.ReferenceIdeal.ReadP.val_main_v120 x1 x2 := by
  stretch_simp [hostOps0_14, h_v1, h_v3, h_v4, h_v6, h_v75, h_v76, h_v111, h_v120, h_v40, h_v110, h_v41]
  try rfl

theorem s14_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v40) = Cert.ReferenceIdeal.ReadP.val_main_v40 x1 x2 := by
  stretch_simp [hostOps0_14, h_v1, h_v3, h_v4, h_v6, h_v75, h_v76, h_v111, h_v120, h_v40, h_v110, h_v41]
  try rfl

theorem s14_v110
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v110) = Cert.ReferenceIdeal.ReadP.val_main_v110 x1 x2 := by
  stretch_simp [hostOps0_14, h_v1, h_v3, h_v4, h_v6, h_v75, h_v76, h_v111, h_v120, h_v40, h_v110, h_v41]
  try rfl

theorem s14_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_14 V (Proc.devRef .tc main_v41) = Cert.ReferenceIdeal.ReadP.val_main_v41 x1 x2 := by
  stretch_simp [hostOps0_14, h_v1, h_v3, h_v4, h_v6, h_v75, h_v76, h_v111, h_v120, h_v40, h_v110, h_v41]
  try rfl

/-! ## Stretch 15 (`hostOps0_15`) -/

theorem s15_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v1) = Cert.ReferenceIdeal.ReadP.val_main_v1 x1 := by
  stretch_simp [hostOps0_15, h_v1, h_v3, h_v4, h_v6, h_v75, h_v76, h_v111, h_cst_38, h_v127, h_v128, h_v120, h_v40, h_v110, h_v41]
  try rfl

theorem s15_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v3) = Cert.ReferenceIdeal.ReadP.val_main_v3 x1 := by
  stretch_simp [hostOps0_15, h_v1, h_v3, h_v4, h_v6, h_v75, h_v76, h_v111, h_cst_38, h_v127, h_v128, h_v120, h_v40, h_v110, h_v41]
  try rfl

theorem s15_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v4) = Cert.ReferenceIdeal.ReadP.val_main_v4 x2 := by
  stretch_simp [hostOps0_15, h_v1, h_v3, h_v4, h_v6, h_v75, h_v76, h_v111, h_cst_38, h_v127, h_v128, h_v120, h_v40, h_v110, h_v41]
  try rfl

theorem s15_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v6) = Cert.ReferenceIdeal.ReadP.val_main_v6 x2 := by
  stretch_simp [hostOps0_15, h_v1, h_v3, h_v4, h_v6, h_v75, h_v76, h_v111, h_cst_38, h_v127, h_v128, h_v120, h_v40, h_v110, h_v41]
  try rfl

theorem s15_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v75) = Cert.ReferenceIdeal.ReadP.val_main_v75 x1 x2 := by
  stretch_simp [hostOps0_15, h_v1, h_v3, h_v4, h_v6, h_v75, h_v76, h_v111, h_cst_38, h_v127, h_v128, h_v120, h_v40, h_v110, h_v41]
  try rfl

theorem s15_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v76) = Cert.ReferenceIdeal.ReadP.val_main_v76 x1 x2 := by
  stretch_simp [hostOps0_15, h_v1, h_v3, h_v4, h_v6, h_v75, h_v76, h_v111, h_cst_38, h_v127, h_v128, h_v120, h_v40, h_v110, h_v41]
  try rfl

theorem s15_v111
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v111) = Cert.ReferenceIdeal.ReadP.val_main_v111 x1 x2 := by
  stretch_simp [hostOps0_15, h_v1, h_v3, h_v4, h_v6, h_v75, h_v76, h_v111, h_cst_38, h_v127, h_v128, h_v120, h_v40, h_v110, h_v41]
  try rfl

/-- the outlined selection, over the buffers' own contents -/
theorem s15_v129_raw : StableHlo.after hostOps0_15 V (Proc.devRef .tc main_v129) = select (V (Proc.devRef .tc main_v127)) (V (Proc.devRef .tc main_v128)) (broadcastInDim S100000 ![] bcast_S_S100000 (id (V (Proc.devRef .tc main_cst_38)))) := by
  stretch_simp [hostOps0_15]
  try rfl

/-- the same selection of the reference's stages is the reference's next stage -/
theorem s15_v129_cmp : (select (Cert.ReferenceIdeal.ReadP.val_main_v127 x1 x2) (Cert.ReferenceIdeal.ReadP.val_main_v128 x1 x2) (broadcastInDim S100000 ![] bcast_S_S100000 (id (Cert.ReferenceIdeal.ReadP.val_main_cst_38 (F := Ideal)))) : (⟨S100000, .f32⟩ : BufTy).Contents (Elt Ideal)) = Cert.ReferenceIdeal.ReadP.val_main_v129 x1 x2 := by
  rfl

theorem s15_v129
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v129) = Cert.ReferenceIdeal.ReadP.val_main_v129 x1 x2 := by
  rw [s15_v129_raw V, h_v127, h_v128, h_cst_38]
  exact s15_v129_cmp x1 x2

theorem s15_v120
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v120) = Cert.ReferenceIdeal.ReadP.val_main_v120 x1 x2 := by
  stretch_simp [hostOps0_15, h_v1, h_v3, h_v4, h_v6, h_v75, h_v76, h_v111, h_cst_38, h_v127, h_v128, h_v120, h_v40, h_v110, h_v41]
  try rfl

theorem s15_v40
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v40) = Cert.ReferenceIdeal.ReadP.val_main_v40 x1 x2 := by
  stretch_simp [hostOps0_15, h_v1, h_v3, h_v4, h_v6, h_v75, h_v76, h_v111, h_cst_38, h_v127, h_v128, h_v120, h_v40, h_v110, h_v41]
  try rfl

theorem s15_v110
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v110) = Cert.ReferenceIdeal.ReadP.val_main_v110 x1 x2 := by
  stretch_simp [hostOps0_15, h_v1, h_v3, h_v4, h_v6, h_v75, h_v76, h_v111, h_cst_38, h_v127, h_v128, h_v120, h_v40, h_v110, h_v41]
  try rfl

theorem s15_v41
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_cst_38 : V (no_index (Proc.devRef .tc main_cst_38)) = Cert.ReferenceIdeal.ReadP.val_main_cst_38)
    (h_v127 : V (no_index (Proc.devRef .tc main_v127)) = Cert.ReferenceIdeal.ReadP.val_main_v127 x1 x2)
    (h_v128 : V (no_index (Proc.devRef .tc main_v128)) = Cert.ReferenceIdeal.ReadP.val_main_v128 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_15 V (Proc.devRef .tc main_v41) = Cert.ReferenceIdeal.ReadP.val_main_v41 x1 x2 := by
  stretch_simp [hostOps0_15, h_v1, h_v3, h_v4, h_v6, h_v75, h_v76, h_v111, h_cst_38, h_v127, h_v128, h_v120, h_v40, h_v110, h_v41]
  try rfl

/-! ## Stretch 16 (`hostOps0_16`) -/

theorem s16_v1
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v1) = Cert.ReferenceIdeal.ReadP.val_main_v1 x1 := by
  stretch_simp [hostOps0_16, h_v1, h_v3, h_v4, h_v6, h_v75, h_v76, h_v111, h_v129, h_v120, h_v40, h_v110, h_v41]
  try rfl

theorem s16_v3
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v3) = Cert.ReferenceIdeal.ReadP.val_main_v3 x1 := by
  stretch_simp [hostOps0_16, h_v1, h_v3, h_v4, h_v6, h_v75, h_v76, h_v111, h_v129, h_v120, h_v40, h_v110, h_v41]
  try rfl

theorem s16_v4
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v4) = Cert.ReferenceIdeal.ReadP.val_main_v4 x2 := by
  stretch_simp [hostOps0_16, h_v1, h_v3, h_v4, h_v6, h_v75, h_v76, h_v111, h_v129, h_v120, h_v40, h_v110, h_v41]
  try rfl

theorem s16_v6
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v6) = Cert.ReferenceIdeal.ReadP.val_main_v6 x2 := by
  stretch_simp [hostOps0_16, h_v1, h_v3, h_v4, h_v6, h_v75, h_v76, h_v111, h_v129, h_v120, h_v40, h_v110, h_v41]
  try rfl

theorem s16_v75
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v75) = Cert.ReferenceIdeal.ReadP.val_main_v75 x1 x2 := by
  stretch_simp [hostOps0_16, h_v1, h_v3, h_v4, h_v6, h_v75, h_v76, h_v111, h_v129, h_v120, h_v40, h_v110, h_v41]
  try rfl

theorem s16_v76
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v76) = Cert.ReferenceIdeal.ReadP.val_main_v76 x1 x2 := by
  stretch_simp [hostOps0_16, h_v1, h_v3, h_v4, h_v6, h_v75, h_v76, h_v111, h_v129, h_v120, h_v40, h_v110, h_v41]
  try rfl

theorem s16_v111
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v111) = Cert.ReferenceIdeal.ReadP.val_main_v111 x1 x2 := by
  stretch_simp [hostOps0_16, h_v1, h_v3, h_v4, h_v6, h_v75, h_v76, h_v111, h_v129, h_v120, h_v40, h_v110, h_v41]
  try rfl

theorem s16_v145
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v145) = Cert.ReferenceIdeal.ReadP.val_main_v145 x1 x2 := by
  stretch_simp [hostOps0_16, h_v1, h_v3, h_v4, h_v6, h_v75, h_v76, h_v111, h_v129, h_v120, h_v40, h_v110, h_v41]
  try rfl

theorem s16_v146
    (h_v1 : V (no_index (Proc.devRef .tc main_v1)) = Cert.ReferenceIdeal.ReadP.val_main_v1 x1)
    (h_v3 : V (no_index (Proc.devRef .tc main_v3)) = Cert.ReferenceIdeal.ReadP.val_main_v3 x1)
    (h_v4 : V (no_index (Proc.devRef .tc main_v4)) = Cert.ReferenceIdeal.ReadP.val_main_v4 x2)
    (h_v6 : V (no_index (Proc.devRef .tc main_v6)) = Cert.ReferenceIdeal.ReadP.val_main_v6 x2)
    (h_v75 : V (no_index (Proc.devRef .tc main_v75)) = Cert.ReferenceIdeal.ReadP.val_main_v75 x1 x2)
    (h_v76 : V (no_index (Proc.devRef .tc main_v76)) = Cert.ReferenceIdeal.ReadP.val_main_v76 x1 x2)
    (h_v111 : V (no_index (Proc.devRef .tc main_v111)) = Cert.ReferenceIdeal.ReadP.val_main_v111 x1 x2)
    (h_v129 : V (no_index (Proc.devRef .tc main_v129)) = Cert.ReferenceIdeal.ReadP.val_main_v129 x1 x2)
    (h_v120 : V (no_index (Proc.devRef .tc main_v120)) = Cert.ReferenceIdeal.ReadP.val_main_v120 x1 x2)
    (h_v40 : V (no_index (Proc.devRef .tc main_v40)) = Cert.ReferenceIdeal.ReadP.val_main_v40 x1 x2)
    (h_v110 : V (no_index (Proc.devRef .tc main_v110)) = Cert.ReferenceIdeal.ReadP.val_main_v110 x1 x2)
    (h_v41 : V (no_index (Proc.devRef .tc main_v41)) = Cert.ReferenceIdeal.ReadP.val_main_v41 x1 x2) :
    StableHlo.after hostOps0_16 V (Proc.devRef .tc main_v146) = Cert.ReferenceIdeal.ReadP.val_main_v146 x1 x2 := by
  stretch_simp [hostOps0_16, h_v1, h_v3, h_v4, h_v6, h_v75, h_v76, h_v111, h_v129, h_v120, h_v40, h_v110, h_v41]
  try rfl

end Stretches

/-! ## The boundaries -/

theorem w1_v1 : W1 m ρ c (no_index (Proc.devRef .tc main_v1)) = Cert.ReferenceIdeal.ReadP.val_main_v1 (m ((c : Thread nD τ).loc main_arg1)) :=
  s0_v1 (W0 m ρ c) (m ((c : Thread nD τ).loc main_arg1)) (m ((c : Thread nD τ).loc main_arg2)) rfl rfl

theorem w1_v3 : W1 m ρ c (no_index (Proc.devRef .tc main_v3)) = Cert.ReferenceIdeal.ReadP.val_main_v3 (m ((c : Thread nD τ).loc main_arg1)) :=
  s0_v3 (W0 m ρ c) (m ((c : Thread nD τ).loc main_arg1)) (m ((c : Thread nD τ).loc main_arg2)) rfl rfl

theorem w1_v4 : W1 m ρ c (no_index (Proc.devRef .tc main_v4)) = Cert.ReferenceIdeal.ReadP.val_main_v4 (m ((c : Thread nD τ).loc main_arg2)) :=
  s0_v4 (W0 m ρ c) (m ((c : Thread nD τ).loc main_arg1)) (m ((c : Thread nD τ).loc main_arg2)) rfl rfl

theorem w1_v6 : W1 m ρ c (no_index (Proc.devRef .tc main_v6)) = Cert.ReferenceIdeal.ReadP.val_main_v6 (m ((c : Thread nD τ).loc main_arg2)) :=
  s0_v6 (W0 m ρ c) (m ((c : Thread nD τ).loc main_arg1)) (m ((c : Thread nD τ).loc main_arg2)) rfl rfl

theorem w1_cst_1 : W1 m ρ c (no_index (Proc.devRef .tc main_cst_1)) = Cert.ReferenceIdeal.ReadP.val_main_cst_1 :=
  s0_cst_1 (W0 m ρ c) (m ((c : Thread nD τ).loc main_arg1)) (m ((c : Thread nD τ).loc main_arg2)) rfl rfl

theorem w1_v14 : W1 m ρ c (no_index (Proc.devRef .tc main_v14)) = Cert.ReferenceIdeal.ReadP.val_main_v14 (m ((c : Thread nD τ).loc main_arg1)) :=
  s0_v14 (W0 m ρ c) (m ((c : Thread nD τ).loc main_arg1)) (m ((c : Thread nD τ).loc main_arg2)) rfl rfl

theorem w1_v13 : W1 m ρ c (no_index (Proc.devRef .tc main_v13)) = Cert.ReferenceIdeal.ReadP.val_main_v13 (m ((c : Thread nD τ).loc main_arg1)) (m ((c : Thread nD τ).loc main_arg2)) :=
  s0_v13 (W0 m ρ c) (m ((c : Thread nD τ).loc main_arg1)) (m ((c : Thread nD τ).loc main_arg2)) rfl rfl

theorem w2_v1 : W2 m ρ c (no_index (Proc.devRef .tc main_v1)) = Cert.ReferenceIdeal.ReadP.val_main_v1 (m ((c : Thread nD τ).loc main_arg1)) :=
  s1_v1 (W1 m ρ c) (m ((c : Thread nD τ).loc main_arg1)) (m ((c : Thread nD τ).loc main_arg2)) (w1_v1 m ρ c) (w1_v3 m ρ c) (w1_v4 m ρ c) (w1_v6 m ρ c) (w1_cst_1 m ρ c) (w1_v14 m ρ c) (w1_v13 m ρ c)

theorem w2_v3 : W2 m ρ c (no_index (Proc.devRef .tc main_v3)) = Cert.ReferenceIdeal.ReadP.val_main_v3 (m ((c : Thread nD τ).loc main_arg1)) :=
  s1_v3 (W1 m ρ c) (m ((c : Thread nD τ).loc main_arg1)) (m ((c : Thread nD τ).loc main_arg2)) (w1_v1 m ρ c) (w1_v3 m ρ c) (w1_v4 m ρ c) (w1_v6 m ρ c) (w1_cst_1 m ρ c) (w1_v14 m ρ c) (w1_v13 m ρ c)

theorem w2_v4 : W2 m ρ c (no_index (Proc.devRef .tc main_v4)) = Cert.ReferenceIdeal.ReadP.val_main_v4 (m ((c : Thread nD τ).loc main_arg2)) :=
  s1_v4 (W1 m ρ c) (m ((c : Thread nD τ).loc main_arg1)) (m ((c : Thread nD τ).loc main_arg2)) (w1_v1 m ρ c) (w1_v3 m ρ c) (w1_v4 m ρ c) (w1_v6 m ρ c) (w1_cst_1 m ρ c) (w1_v14 m ρ c) (w1_v13 m ρ c)

theorem w2_v6 : W2 m ρ c (no_index (Proc.devRef .tc main_v6)) = Cert.ReferenceIdeal.ReadP.val_main_v6 (m ((c : Thread nD τ).loc main_arg2)) :=
  s1_v6 (W1 m ρ c) (m ((c : Thread nD τ).loc main_arg1)) (m ((c : Thread nD τ).loc main_arg2)) (w1_v1 m ρ c) (w1_v3 m ρ c) (w1_v4 m ρ c) (w1_v6 m ρ c) (w1_cst_1 m ρ c) (w1_v14 m ρ c) (w1_v13 m ρ c)

theorem w2_v15 : W2 m ρ c (no_index (Proc.devRef .tc main_v15)) = Cert.ReferenceIdeal.ReadP.val_main_v15 (m ((c : Thread nD τ).loc main_arg1)) (m ((c : Thread nD τ).loc main_arg2)) :=
  s1_v15 (W1 m ρ c) (m ((c : Thread nD τ).loc main_arg1)) (m ((c : Thread nD τ).loc main_arg2)) (w1_v1 m ρ c) (w1_v3 m ρ c) (w1_v4 m ρ c) (w1_v6 m ρ c) (w1_cst_1 m ρ c) (w1_v14 m ρ c) (w1_v13 m ρ c)

theorem w3_v1 : W3 m ρ c (no_index (Proc.devRef .tc main_v1)) = Cert.ReferenceIdeal.ReadP.val_main_v1 (m ((c : Thread nD τ).loc main_arg1)) :=
  s2_v1 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_v3 : W3 m ρ c (no_index (Proc.devRef .tc main_v3)) = Cert.ReferenceIdeal.ReadP.val_main_v3 (m ((c : Thread nD τ).loc main_arg1)) :=
  s2_v3 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_v4 : W3 m ρ c (no_index (Proc.devRef .tc main_v4)) = Cert.ReferenceIdeal.ReadP.val_main_v4 (m ((c : Thread nD τ).loc main_arg2)) :=
  s2_v4 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_v6 : W3 m ρ c (no_index (Proc.devRef .tc main_v6)) = Cert.ReferenceIdeal.ReadP.val_main_v6 (m ((c : Thread nD τ).loc main_arg2)) :=
  s2_v6 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_cst_5 : W3 m ρ c (no_index (Proc.devRef .tc main_cst_5)) = Cert.ReferenceIdeal.ReadP.val_main_cst_5 :=
  s2_cst_5 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_v22 : W3 m ρ c (no_index (Proc.devRef .tc main_v22)) = Cert.ReferenceIdeal.ReadP.val_main_v22 (m ((c : Thread nD τ).loc main_arg1)) (m ((c : Thread nD τ).loc main_arg2)) :=
  s2_v22 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_v23 : W3 m ρ c (no_index (Proc.devRef .tc main_v23)) = Cert.ReferenceIdeal.ReadP.val_main_v23 (m ((c : Thread nD τ).loc main_arg1)) (m ((c : Thread nD τ).loc main_arg2)) :=
  s2_v23 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w3_v15 : W3 m ρ c (no_index (Proc.devRef .tc main_v15)) = Cert.ReferenceIdeal.ReadP.val_main_v15 (m ((c : Thread nD τ).loc main_arg1)) (m ((c : Thread nD τ).loc main_arg2)) :=
  s2_v15 (W2 m ρ c) (m ((c : Thread nD τ).loc main_arg1)) (m ((c : Thread nD τ).loc main_arg2)) (w2_v1 m ρ c) (w2_v3 m ρ c) (w2_v4 m ρ c) (w2_v6 m ρ c) (w2_v15 m ρ c)

theorem w4_v1 : W4 m ρ c (no_index (Proc.devRef .tc main_v1)) = Cert.ReferenceIdeal.ReadP.val_main_v1 (m ((c : Thread nD τ).loc main_arg1)) :=
  s3_v1 (W3 m ρ c) (m ((c : Thread nD τ).loc main_arg1)) (m ((c : Thread nD τ).loc main_arg2)) (w3_v1 m ρ c) (w3_v3 m ρ c) (w3_v4 m ρ c) (w3_v6 m ρ c) (w3_cst_5 m ρ c) (w3_v22 m ρ c) (w3_v23 m ρ c) (w3_v15 m ρ c)

theorem w4_v3 : W4 m ρ c (no_index (Proc.devRef .tc main_v3)) = Cert.ReferenceIdeal.ReadP.val_main_v3 (m ((c : Thread nD τ).loc main_arg1)) :=
  s3_v3 (W3 m ρ c) (m ((c : Thread nD τ).loc main_arg1)) (m ((c : Thread nD τ).loc main_arg2)) (w3_v1 m ρ c) (w3_v3 m ρ c) (w3_v4 m ρ c) (w3_v6 m ρ c) (w3_cst_5 m ρ c) (w3_v22 m ρ c) (w3_v23 m ρ c) (w3_v15 m ρ c)

theorem w4_v4 : W4 m ρ c (no_index (Proc.devRef .tc main_v4)) = Cert.ReferenceIdeal.ReadP.val_main_v4 (m ((c : Thread nD τ).loc main_arg2)) :=
  s3_v4 (W3 m ρ c) (m ((c : Thread nD τ).loc main_arg1)) (m ((c : Thread nD τ).loc main_arg2)) (w3_v1 m ρ c) (w3_v3 m ρ c) (w3_v4 m ρ c) (w3_v6 m ρ c) (w3_cst_5 m ρ c) (w3_v22 m ρ c) (w3_v23 m ρ c) (w3_v15 m ρ c)

theorem w4_v6 : W4 m ρ c (no_index (Proc.devRef .tc main_v6)) = Cert.ReferenceIdeal.ReadP.val_main_v6 (m ((c : Thread nD τ).loc main_arg2)) :=
  s3_v6 (W3 m ρ c) (m ((c : Thread nD τ).loc main_arg1)) (m ((c : Thread nD τ).loc main_arg2)) (w3_v1 m ρ c) (w3_v3 m ρ c) (w3_v4 m ρ c) (w3_v6 m ρ c) (w3_cst_5 m ρ c) (w3_v22 m ρ c) (w3_v23 m ρ c) (w3_v15 m ρ c)

theorem w4_v24 : W4 m ρ c (no_index (Proc.devRef .tc main_v24)) = Cert.ReferenceIdeal.ReadP.val_main_v24 (m ((c : Thread nD τ).loc main_arg1)) (m ((c : Thread nD τ).loc main_arg2)) :=
  s3_v24 (W3 m ρ c) (m ((c : Thread nD τ).loc main_arg1)) (m ((c : Thread nD τ).loc main_arg2)) (w3_v1 m ρ c) (w3_v3 m ρ c) (w3_v4 m ρ c) (w3_v6 m ρ c) (w3_cst_5 m ρ c) (w3_v22 m ρ c) (w3_v23 m ρ c) (w3_v15 m ρ c)

theorem w4_v15 : W4 m ρ c (no_index (Proc.devRef .tc main_v15)) = Cert.ReferenceIdeal.ReadP.val_main_v15 (m ((c : Thread nD τ).loc main_arg1)) (m ((c : Thread nD τ).loc main_arg2)) :=
  s3_v15 (W3 m ρ c) (m ((c : Thread nD τ).loc main_arg1)) (m ((c : Thread nD τ).loc main_arg2)) (w3_v1 m ρ c) (w3_v3 m ρ c) (w3_v4 m ρ c) (w3_v6 m ρ c) (w3_cst_5 m ρ c) (w3_v22 m ρ c) (w3_v23 m ρ c) (w3_v15 m ρ c)

theorem w5_v1 : W5 m ρ c (no_index (Proc.devRef .tc main_v1)) = Cert.ReferenceIdeal.ReadP.val_main_v1 (m ((c : Thread nD τ).loc main_arg1)) :=
  s4_v1 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v3 : W5 m ρ c (no_index (Proc.devRef .tc main_v3)) = Cert.ReferenceIdeal.ReadP.val_main_v3 (m ((c : Thread nD τ).loc main_arg1)) :=
  s4_v3 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v4 : W5 m ρ c (no_index (Proc.devRef .tc main_v4)) = Cert.ReferenceIdeal.ReadP.val_main_v4 (m ((c : Thread nD τ).loc main_arg2)) :=
  s4_v4 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v6 : W5 m ρ c (no_index (Proc.devRef .tc main_v6)) = Cert.ReferenceIdeal.ReadP.val_main_v6 (m ((c : Thread nD τ).loc main_arg2)) :=
  s4_v6 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_cst_12 : W5 m ρ c (no_index (Proc.devRef .tc main_cst_12)) = Cert.ReferenceIdeal.ReadP.val_main_cst_12 :=
  s4_cst_12 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v49 : W5 m ρ c (no_index (Proc.devRef .tc main_v49)) = Cert.ReferenceIdeal.ReadP.val_main_v49 (m ((c : Thread nD τ).loc main_arg1)) :=
  s4_v49 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v48 : W5 m ρ c (no_index (Proc.devRef .tc main_v48)) = Cert.ReferenceIdeal.ReadP.val_main_v48 (m ((c : Thread nD τ).loc main_arg1)) (m ((c : Thread nD τ).loc main_arg2)) :=
  s4_v48 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v40 : W5 m ρ c (no_index (Proc.devRef .tc main_v40)) = Cert.ReferenceIdeal.ReadP.val_main_v40 (m ((c : Thread nD τ).loc main_arg1)) (m ((c : Thread nD τ).loc main_arg2)) :=
  s4_v40 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w5_v41 : W5 m ρ c (no_index (Proc.devRef .tc main_v41)) = Cert.ReferenceIdeal.ReadP.val_main_v41 (m ((c : Thread nD τ).loc main_arg1)) (m ((c : Thread nD τ).loc main_arg2)) :=
  s4_v41 (W4 m ρ c) (m ((c : Thread nD τ).loc main_arg1)) (m ((c : Thread nD τ).loc main_arg2)) (w4_v1 m ρ c) (w4_v3 m ρ c) (w4_v4 m ρ c) (w4_v6 m ρ c) (w4_v24 m ρ c) (w4_v15 m ρ c)

theorem w6_v1 : W6 m ρ c (no_index (Proc.devRef .tc main_v1)) = Cert.ReferenceIdeal.ReadP.val_main_v1 (m ((c : Thread nD τ).loc main_arg1)) :=
  s5_v1 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w6_v3 : W6 m ρ c (no_index (Proc.devRef .tc main_v3)) = Cert.ReferenceIdeal.ReadP.val_main_v3 (m ((c : Thread nD τ).loc main_arg1)) :=
  s5_v3 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w6_v4 : W6 m ρ c (no_index (Proc.devRef .tc main_v4)) = Cert.ReferenceIdeal.ReadP.val_main_v4 (m ((c : Thread nD τ).loc main_arg2)) :=
  s5_v4 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w6_v6 : W6 m ρ c (no_index (Proc.devRef .tc main_v6)) = Cert.ReferenceIdeal.ReadP.val_main_v6 (m ((c : Thread nD τ).loc main_arg2)) :=
  s5_v6 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w6_v50 : W6 m ρ c (no_index (Proc.devRef .tc main_v50)) = Cert.ReferenceIdeal.ReadP.val_main_v50 (m ((c : Thread nD τ).loc main_arg1)) (m ((c : Thread nD τ).loc main_arg2)) :=
  s5_v50 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w6_v40 : W6 m ρ c (no_index (Proc.devRef .tc main_v40)) = Cert.ReferenceIdeal.ReadP.val_main_v40 (m ((c : Thread nD τ).loc main_arg1)) (m ((c : Thread nD τ).loc main_arg2)) :=
  s5_v40 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w6_v41 : W6 m ρ c (no_index (Proc.devRef .tc main_v41)) = Cert.ReferenceIdeal.ReadP.val_main_v41 (m ((c : Thread nD τ).loc main_arg1)) (m ((c : Thread nD τ).loc main_arg2)) :=
  s5_v41 (W5 m ρ c) (m ((c : Thread nD τ).loc main_arg1)) (m ((c : Thread nD τ).loc main_arg2)) (w5_v1 m ρ c) (w5_v3 m ρ c) (w5_v4 m ρ c) (w5_v6 m ρ c) (w5_cst_12 m ρ c) (w5_v49 m ρ c) (w5_v48 m ρ c) (w5_v40 m ρ c) (w5_v41 m ρ c)

theorem w7_v1 : W7 m ρ c (no_index (Proc.devRef .tc main_v1)) = Cert.ReferenceIdeal.ReadP.val_main_v1 (m ((c : Thread nD τ).loc main_arg1)) :=
  s6_v1 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v3 : W7 m ρ c (no_index (Proc.devRef .tc main_v3)) = Cert.ReferenceIdeal.ReadP.val_main_v3 (m ((c : Thread nD τ).loc main_arg1)) :=
  s6_v3 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v4 : W7 m ρ c (no_index (Proc.devRef .tc main_v4)) = Cert.ReferenceIdeal.ReadP.val_main_v4 (m ((c : Thread nD τ).loc main_arg2)) :=
  s6_v4 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v6 : W7 m ρ c (no_index (Proc.devRef .tc main_v6)) = Cert.ReferenceIdeal.ReadP.val_main_v6 (m ((c : Thread nD τ).loc main_arg2)) :=
  s6_v6 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_cst_16 : W7 m ρ c (no_index (Proc.devRef .tc main_cst_16)) = Cert.ReferenceIdeal.ReadP.val_main_cst_16 :=
  s6_cst_16 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v57 : W7 m ρ c (no_index (Proc.devRef .tc main_v57)) = Cert.ReferenceIdeal.ReadP.val_main_v57 (m ((c : Thread nD τ).loc main_arg1)) (m ((c : Thread nD τ).loc main_arg2)) :=
  s6_v57 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v58 : W7 m ρ c (no_index (Proc.devRef .tc main_v58)) = Cert.ReferenceIdeal.ReadP.val_main_v58 (m ((c : Thread nD τ).loc main_arg1)) (m ((c : Thread nD τ).loc main_arg2)) :=
  s6_v58 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v50 : W7 m ρ c (no_index (Proc.devRef .tc main_v50)) = Cert.ReferenceIdeal.ReadP.val_main_v50 (m ((c : Thread nD τ).loc main_arg1)) (m ((c : Thread nD τ).loc main_arg2)) :=
  s6_v50 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v40 : W7 m ρ c (no_index (Proc.devRef .tc main_v40)) = Cert.ReferenceIdeal.ReadP.val_main_v40 (m ((c : Thread nD τ).loc main_arg1)) (m ((c : Thread nD τ).loc main_arg2)) :=
  s6_v40 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w7_v41 : W7 m ρ c (no_index (Proc.devRef .tc main_v41)) = Cert.ReferenceIdeal.ReadP.val_main_v41 (m ((c : Thread nD τ).loc main_arg1)) (m ((c : Thread nD τ).loc main_arg2)) :=
  s6_v41 (W6 m ρ c) (m ((c : Thread nD τ).loc main_arg1)) (m ((c : Thread nD τ).loc main_arg2)) (w6_v1 m ρ c) (w6_v3 m ρ c) (w6_v4 m ρ c) (w6_v6 m ρ c) (w6_v50 m ρ c) (w6_v40 m ρ c) (w6_v41 m ρ c)

theorem w8_v1 : W8 m ρ c (no_index (Proc.devRef .tc main_v1)) = Cert.ReferenceIdeal.ReadP.val_main_v1 (m ((c : Thread nD τ).loc main_arg1)) :=
  s7_v1 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v3 : W8 m ρ c (no_index (Proc.devRef .tc main_v3)) = Cert.ReferenceIdeal.ReadP.val_main_v3 (m ((c : Thread nD τ).loc main_arg1)) :=
  s7_v3 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v4 : W8 m ρ c (no_index (Proc.devRef .tc main_v4)) = Cert.ReferenceIdeal.ReadP.val_main_v4 (m ((c : Thread nD τ).loc main_arg2)) :=
  s7_v4 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v6 : W8 m ρ c (no_index (Proc.devRef .tc main_v6)) = Cert.ReferenceIdeal.ReadP.val_main_v6 (m ((c : Thread nD τ).loc main_arg2)) :=
  s7_v6 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v59 : W8 m ρ c (no_index (Proc.devRef .tc main_v59)) = Cert.ReferenceIdeal.ReadP.val_main_v59 (m ((c : Thread nD τ).loc main_arg1)) (m ((c : Thread nD τ).loc main_arg2)) :=
  s7_v59 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v50 : W8 m ρ c (no_index (Proc.devRef .tc main_v50)) = Cert.ReferenceIdeal.ReadP.val_main_v50 (m ((c : Thread nD τ).loc main_arg1)) (m ((c : Thread nD τ).loc main_arg2)) :=
  s7_v50 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v40 : W8 m ρ c (no_index (Proc.devRef .tc main_v40)) = Cert.ReferenceIdeal.ReadP.val_main_v40 (m ((c : Thread nD τ).loc main_arg1)) (m ((c : Thread nD τ).loc main_arg2)) :=
  s7_v40 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w8_v41 : W8 m ρ c (no_index (Proc.devRef .tc main_v41)) = Cert.ReferenceIdeal.ReadP.val_main_v41 (m ((c : Thread nD τ).loc main_arg1)) (m ((c : Thread nD τ).loc main_arg2)) :=
  s7_v41 (W7 m ρ c) (m ((c : Thread nD τ).loc main_arg1)) (m ((c : Thread nD τ).loc main_arg2)) (w7_v1 m ρ c) (w7_v3 m ρ c) (w7_v4 m ρ c) (w7_v6 m ρ c) (w7_cst_16 m ρ c) (w7_v57 m ρ c) (w7_v58 m ρ c) (w7_v50 m ρ c) (w7_v40 m ρ c) (w7_v41 m ρ c)

theorem w9_v1 : W9 m ρ c (no_index (Proc.devRef .tc main_v1)) = Cert.ReferenceIdeal.ReadP.val_main_v1 (m ((c : Thread nD τ).loc main_arg1)) :=
  s8_v1 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v3 : W9 m ρ c (no_index (Proc.devRef .tc main_v3)) = Cert.ReferenceIdeal.ReadP.val_main_v3 (m ((c : Thread nD τ).loc main_arg1)) :=
  s8_v3 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v4 : W9 m ρ c (no_index (Proc.devRef .tc main_v4)) = Cert.ReferenceIdeal.ReadP.val_main_v4 (m ((c : Thread nD τ).loc main_arg2)) :=
  s8_v4 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v6 : W9 m ρ c (no_index (Proc.devRef .tc main_v6)) = Cert.ReferenceIdeal.ReadP.val_main_v6 (m ((c : Thread nD τ).loc main_arg2)) :=
  s8_v6 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v75 : W9 m ρ c (no_index (Proc.devRef .tc main_v75)) = Cert.ReferenceIdeal.ReadP.val_main_v75 (m ((c : Thread nD τ).loc main_arg1)) (m ((c : Thread nD τ).loc main_arg2)) :=
  s8_v75 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v76 : W9 m ρ c (no_index (Proc.devRef .tc main_v76)) = Cert.ReferenceIdeal.ReadP.val_main_v76 (m ((c : Thread nD τ).loc main_arg1)) (m ((c : Thread nD τ).loc main_arg2)) :=
  s8_v76 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_cst_23 : W9 m ρ c (no_index (Proc.devRef .tc main_cst_23)) = Cert.ReferenceIdeal.ReadP.val_main_cst_23 :=
  s8_cst_23 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v84 : W9 m ρ c (no_index (Proc.devRef .tc main_v84)) = Cert.ReferenceIdeal.ReadP.val_main_v84 (m ((c : Thread nD τ).loc main_arg1)) :=
  s8_v84 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v83 : W9 m ρ c (no_index (Proc.devRef .tc main_v83)) = Cert.ReferenceIdeal.ReadP.val_main_v83 (m ((c : Thread nD τ).loc main_arg1)) (m ((c : Thread nD τ).loc main_arg2)) :=
  s8_v83 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v40 : W9 m ρ c (no_index (Proc.devRef .tc main_v40)) = Cert.ReferenceIdeal.ReadP.val_main_v40 (m ((c : Thread nD τ).loc main_arg1)) (m ((c : Thread nD τ).loc main_arg2)) :=
  s8_v40 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w9_v41 : W9 m ρ c (no_index (Proc.devRef .tc main_v41)) = Cert.ReferenceIdeal.ReadP.val_main_v41 (m ((c : Thread nD τ).loc main_arg1)) (m ((c : Thread nD τ).loc main_arg2)) :=
  s8_v41 (W8 m ρ c) (m ((c : Thread nD τ).loc main_arg1)) (m ((c : Thread nD τ).loc main_arg2)) (w8_v1 m ρ c) (w8_v3 m ρ c) (w8_v4 m ρ c) (w8_v6 m ρ c) (w8_v59 m ρ c) (w8_v50 m ρ c) (w8_v40 m ρ c) (w8_v41 m ρ c)

theorem w10_v1 : W10 m ρ c (no_index (Proc.devRef .tc main_v1)) = Cert.ReferenceIdeal.ReadP.val_main_v1 (m ((c : Thread nD τ).loc main_arg1)) :=
  s9_v1 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v3 : W10 m ρ c (no_index (Proc.devRef .tc main_v3)) = Cert.ReferenceIdeal.ReadP.val_main_v3 (m ((c : Thread nD τ).loc main_arg1)) :=
  s9_v3 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v4 : W10 m ρ c (no_index (Proc.devRef .tc main_v4)) = Cert.ReferenceIdeal.ReadP.val_main_v4 (m ((c : Thread nD τ).loc main_arg2)) :=
  s9_v4 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v6 : W10 m ρ c (no_index (Proc.devRef .tc main_v6)) = Cert.ReferenceIdeal.ReadP.val_main_v6 (m ((c : Thread nD τ).loc main_arg2)) :=
  s9_v6 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v75 : W10 m ρ c (no_index (Proc.devRef .tc main_v75)) = Cert.ReferenceIdeal.ReadP.val_main_v75 (m ((c : Thread nD τ).loc main_arg1)) (m ((c : Thread nD τ).loc main_arg2)) :=
  s9_v75 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v76 : W10 m ρ c (no_index (Proc.devRef .tc main_v76)) = Cert.ReferenceIdeal.ReadP.val_main_v76 (m ((c : Thread nD τ).loc main_arg1)) (m ((c : Thread nD τ).loc main_arg2)) :=
  s9_v76 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v85 : W10 m ρ c (no_index (Proc.devRef .tc main_v85)) = Cert.ReferenceIdeal.ReadP.val_main_v85 (m ((c : Thread nD τ).loc main_arg1)) (m ((c : Thread nD τ).loc main_arg2)) :=
  s9_v85 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v40 : W10 m ρ c (no_index (Proc.devRef .tc main_v40)) = Cert.ReferenceIdeal.ReadP.val_main_v40 (m ((c : Thread nD τ).loc main_arg1)) (m ((c : Thread nD τ).loc main_arg2)) :=
  s9_v40 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w10_v41 : W10 m ρ c (no_index (Proc.devRef .tc main_v41)) = Cert.ReferenceIdeal.ReadP.val_main_v41 (m ((c : Thread nD τ).loc main_arg1)) (m ((c : Thread nD τ).loc main_arg2)) :=
  s9_v41 (W9 m ρ c) (m ((c : Thread nD τ).loc main_arg1)) (m ((c : Thread nD τ).loc main_arg2)) (w9_v1 m ρ c) (w9_v3 m ρ c) (w9_v4 m ρ c) (w9_v6 m ρ c) (w9_v75 m ρ c) (w9_v76 m ρ c) (w9_cst_23 m ρ c) (w9_v84 m ρ c) (w9_v83 m ρ c) (w9_v40 m ρ c) (w9_v41 m ρ c)

theorem w11_v1 : W11 m ρ c (no_index (Proc.devRef .tc main_v1)) = Cert.ReferenceIdeal.ReadP.val_main_v1 (m ((c : Thread nD τ).loc main_arg1)) :=
  s10_v1 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v3 : W11 m ρ c (no_index (Proc.devRef .tc main_v3)) = Cert.ReferenceIdeal.ReadP.val_main_v3 (m ((c : Thread nD τ).loc main_arg1)) :=
  s10_v3 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v4 : W11 m ρ c (no_index (Proc.devRef .tc main_v4)) = Cert.ReferenceIdeal.ReadP.val_main_v4 (m ((c : Thread nD τ).loc main_arg2)) :=
  s10_v4 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v6 : W11 m ρ c (no_index (Proc.devRef .tc main_v6)) = Cert.ReferenceIdeal.ReadP.val_main_v6 (m ((c : Thread nD τ).loc main_arg2)) :=
  s10_v6 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v75 : W11 m ρ c (no_index (Proc.devRef .tc main_v75)) = Cert.ReferenceIdeal.ReadP.val_main_v75 (m ((c : Thread nD τ).loc main_arg1)) (m ((c : Thread nD τ).loc main_arg2)) :=
  s10_v75 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v76 : W11 m ρ c (no_index (Proc.devRef .tc main_v76)) = Cert.ReferenceIdeal.ReadP.val_main_v76 (m ((c : Thread nD τ).loc main_arg1)) (m ((c : Thread nD τ).loc main_arg2)) :=
  s10_v76 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_cst_27 : W11 m ρ c (no_index (Proc.devRef .tc main_cst_27)) = Cert.ReferenceIdeal.ReadP.val_main_cst_27 :=
  s10_cst_27 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v92 : W11 m ρ c (no_index (Proc.devRef .tc main_v92)) = Cert.ReferenceIdeal.ReadP.val_main_v92 (m ((c : Thread nD τ).loc main_arg1)) (m ((c : Thread nD τ).loc main_arg2)) :=
  s10_v92 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v93 : W11 m ρ c (no_index (Proc.devRef .tc main_v93)) = Cert.ReferenceIdeal.ReadP.val_main_v93 (m ((c : Thread nD τ).loc main_arg1)) (m ((c : Thread nD τ).loc main_arg2)) :=
  s10_v93 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v85 : W11 m ρ c (no_index (Proc.devRef .tc main_v85)) = Cert.ReferenceIdeal.ReadP.val_main_v85 (m ((c : Thread nD τ).loc main_arg1)) (m ((c : Thread nD τ).loc main_arg2)) :=
  s10_v85 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v40 : W11 m ρ c (no_index (Proc.devRef .tc main_v40)) = Cert.ReferenceIdeal.ReadP.val_main_v40 (m ((c : Thread nD τ).loc main_arg1)) (m ((c : Thread nD τ).loc main_arg2)) :=
  s10_v40 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w11_v41 : W11 m ρ c (no_index (Proc.devRef .tc main_v41)) = Cert.ReferenceIdeal.ReadP.val_main_v41 (m ((c : Thread nD τ).loc main_arg1)) (m ((c : Thread nD τ).loc main_arg2)) :=
  s10_v41 (W10 m ρ c) (m ((c : Thread nD τ).loc main_arg1)) (m ((c : Thread nD τ).loc main_arg2)) (w10_v1 m ρ c) (w10_v3 m ρ c) (w10_v4 m ρ c) (w10_v6 m ρ c) (w10_v75 m ρ c) (w10_v76 m ρ c) (w10_v85 m ρ c) (w10_v40 m ρ c) (w10_v41 m ρ c)

theorem w12_v1 : W12 m ρ c (no_index (Proc.devRef .tc main_v1)) = Cert.ReferenceIdeal.ReadP.val_main_v1 (m ((c : Thread nD τ).loc main_arg1)) :=
  s11_v1 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v3 : W12 m ρ c (no_index (Proc.devRef .tc main_v3)) = Cert.ReferenceIdeal.ReadP.val_main_v3 (m ((c : Thread nD τ).loc main_arg1)) :=
  s11_v3 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v4 : W12 m ρ c (no_index (Proc.devRef .tc main_v4)) = Cert.ReferenceIdeal.ReadP.val_main_v4 (m ((c : Thread nD τ).loc main_arg2)) :=
  s11_v4 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v6 : W12 m ρ c (no_index (Proc.devRef .tc main_v6)) = Cert.ReferenceIdeal.ReadP.val_main_v6 (m ((c : Thread nD τ).loc main_arg2)) :=
  s11_v6 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v75 : W12 m ρ c (no_index (Proc.devRef .tc main_v75)) = Cert.ReferenceIdeal.ReadP.val_main_v75 (m ((c : Thread nD τ).loc main_arg1)) (m ((c : Thread nD τ).loc main_arg2)) :=
  s11_v75 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v76 : W12 m ρ c (no_index (Proc.devRef .tc main_v76)) = Cert.ReferenceIdeal.ReadP.val_main_v76 (m ((c : Thread nD τ).loc main_arg1)) (m ((c : Thread nD τ).loc main_arg2)) :=
  s11_v76 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v94 : W12 m ρ c (no_index (Proc.devRef .tc main_v94)) = Cert.ReferenceIdeal.ReadP.val_main_v94 (m ((c : Thread nD τ).loc main_arg1)) (m ((c : Thread nD τ).loc main_arg2)) :=
  s11_v94 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v85 : W12 m ρ c (no_index (Proc.devRef .tc main_v85)) = Cert.ReferenceIdeal.ReadP.val_main_v85 (m ((c : Thread nD τ).loc main_arg1)) (m ((c : Thread nD τ).loc main_arg2)) :=
  s11_v85 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v40 : W12 m ρ c (no_index (Proc.devRef .tc main_v40)) = Cert.ReferenceIdeal.ReadP.val_main_v40 (m ((c : Thread nD τ).loc main_arg1)) (m ((c : Thread nD τ).loc main_arg2)) :=
  s11_v40 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w12_v41 : W12 m ρ c (no_index (Proc.devRef .tc main_v41)) = Cert.ReferenceIdeal.ReadP.val_main_v41 (m ((c : Thread nD τ).loc main_arg1)) (m ((c : Thread nD τ).loc main_arg2)) :=
  s11_v41 (W11 m ρ c) (m ((c : Thread nD τ).loc main_arg1)) (m ((c : Thread nD τ).loc main_arg2)) (w11_v1 m ρ c) (w11_v3 m ρ c) (w11_v4 m ρ c) (w11_v6 m ρ c) (w11_v75 m ρ c) (w11_v76 m ρ c) (w11_cst_27 m ρ c) (w11_v92 m ρ c) (w11_v93 m ρ c) (w11_v85 m ρ c) (w11_v40 m ρ c) (w11_v41 m ρ c)

theorem w13_v1 : W13 m ρ c (no_index (Proc.devRef .tc main_v1)) = Cert.ReferenceIdeal.ReadP.val_main_v1 (m ((c : Thread nD τ).loc main_arg1)) :=
  s12_v1 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v3 : W13 m ρ c (no_index (Proc.devRef .tc main_v3)) = Cert.ReferenceIdeal.ReadP.val_main_v3 (m ((c : Thread nD τ).loc main_arg1)) :=
  s12_v3 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v4 : W13 m ρ c (no_index (Proc.devRef .tc main_v4)) = Cert.ReferenceIdeal.ReadP.val_main_v4 (m ((c : Thread nD τ).loc main_arg2)) :=
  s12_v4 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v6 : W13 m ρ c (no_index (Proc.devRef .tc main_v6)) = Cert.ReferenceIdeal.ReadP.val_main_v6 (m ((c : Thread nD τ).loc main_arg2)) :=
  s12_v6 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v75 : W13 m ρ c (no_index (Proc.devRef .tc main_v75)) = Cert.ReferenceIdeal.ReadP.val_main_v75 (m ((c : Thread nD τ).loc main_arg1)) (m ((c : Thread nD τ).loc main_arg2)) :=
  s12_v75 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v76 : W13 m ρ c (no_index (Proc.devRef .tc main_v76)) = Cert.ReferenceIdeal.ReadP.val_main_v76 (m ((c : Thread nD τ).loc main_arg1)) (m ((c : Thread nD τ).loc main_arg2)) :=
  s12_v76 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v111 : W13 m ρ c (no_index (Proc.devRef .tc main_v111)) = Cert.ReferenceIdeal.ReadP.val_main_v111 (m ((c : Thread nD τ).loc main_arg1)) (m ((c : Thread nD τ).loc main_arg2)) :=
  s12_v111 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_cst_34 : W13 m ρ c (no_index (Proc.devRef .tc main_cst_34)) = Cert.ReferenceIdeal.ReadP.val_main_cst_34 :=
  s12_cst_34 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v119 : W13 m ρ c (no_index (Proc.devRef .tc main_v119)) = Cert.ReferenceIdeal.ReadP.val_main_v119 (m ((c : Thread nD τ).loc main_arg1)) :=
  s12_v119 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v118 : W13 m ρ c (no_index (Proc.devRef .tc main_v118)) = Cert.ReferenceIdeal.ReadP.val_main_v118 (m ((c : Thread nD τ).loc main_arg1)) (m ((c : Thread nD τ).loc main_arg2)) :=
  s12_v118 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v40 : W13 m ρ c (no_index (Proc.devRef .tc main_v40)) = Cert.ReferenceIdeal.ReadP.val_main_v40 (m ((c : Thread nD τ).loc main_arg1)) (m ((c : Thread nD τ).loc main_arg2)) :=
  s12_v40 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v110 : W13 m ρ c (no_index (Proc.devRef .tc main_v110)) = Cert.ReferenceIdeal.ReadP.val_main_v110 (m ((c : Thread nD τ).loc main_arg1)) (m ((c : Thread nD τ).loc main_arg2)) :=
  s12_v110 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w13_v41 : W13 m ρ c (no_index (Proc.devRef .tc main_v41)) = Cert.ReferenceIdeal.ReadP.val_main_v41 (m ((c : Thread nD τ).loc main_arg1)) (m ((c : Thread nD τ).loc main_arg2)) :=
  s12_v41 (W12 m ρ c) (m ((c : Thread nD τ).loc main_arg1)) (m ((c : Thread nD τ).loc main_arg2)) (w12_v1 m ρ c) (w12_v3 m ρ c) (w12_v4 m ρ c) (w12_v6 m ρ c) (w12_v75 m ρ c) (w12_v76 m ρ c) (w12_v94 m ρ c) (w12_v85 m ρ c) (w12_v40 m ρ c) (w12_v41 m ρ c)

theorem w14_v1 : W14 m ρ c (no_index (Proc.devRef .tc main_v1)) = Cert.ReferenceIdeal.ReadP.val_main_v1 (m ((c : Thread nD τ).loc main_arg1)) :=
  s13_v1 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v3 : W14 m ρ c (no_index (Proc.devRef .tc main_v3)) = Cert.ReferenceIdeal.ReadP.val_main_v3 (m ((c : Thread nD τ).loc main_arg1)) :=
  s13_v3 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v4 : W14 m ρ c (no_index (Proc.devRef .tc main_v4)) = Cert.ReferenceIdeal.ReadP.val_main_v4 (m ((c : Thread nD τ).loc main_arg2)) :=
  s13_v4 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v6 : W14 m ρ c (no_index (Proc.devRef .tc main_v6)) = Cert.ReferenceIdeal.ReadP.val_main_v6 (m ((c : Thread nD τ).loc main_arg2)) :=
  s13_v6 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v75 : W14 m ρ c (no_index (Proc.devRef .tc main_v75)) = Cert.ReferenceIdeal.ReadP.val_main_v75 (m ((c : Thread nD τ).loc main_arg1)) (m ((c : Thread nD τ).loc main_arg2)) :=
  s13_v75 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v76 : W14 m ρ c (no_index (Proc.devRef .tc main_v76)) = Cert.ReferenceIdeal.ReadP.val_main_v76 (m ((c : Thread nD τ).loc main_arg1)) (m ((c : Thread nD τ).loc main_arg2)) :=
  s13_v76 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v111 : W14 m ρ c (no_index (Proc.devRef .tc main_v111)) = Cert.ReferenceIdeal.ReadP.val_main_v111 (m ((c : Thread nD τ).loc main_arg1)) (m ((c : Thread nD τ).loc main_arg2)) :=
  s13_v111 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v120 : W14 m ρ c (no_index (Proc.devRef .tc main_v120)) = Cert.ReferenceIdeal.ReadP.val_main_v120 (m ((c : Thread nD τ).loc main_arg1)) (m ((c : Thread nD τ).loc main_arg2)) :=
  s13_v120 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v40 : W14 m ρ c (no_index (Proc.devRef .tc main_v40)) = Cert.ReferenceIdeal.ReadP.val_main_v40 (m ((c : Thread nD τ).loc main_arg1)) (m ((c : Thread nD τ).loc main_arg2)) :=
  s13_v40 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v110 : W14 m ρ c (no_index (Proc.devRef .tc main_v110)) = Cert.ReferenceIdeal.ReadP.val_main_v110 (m ((c : Thread nD τ).loc main_arg1)) (m ((c : Thread nD τ).loc main_arg2)) :=
  s13_v110 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w14_v41 : W14 m ρ c (no_index (Proc.devRef .tc main_v41)) = Cert.ReferenceIdeal.ReadP.val_main_v41 (m ((c : Thread nD τ).loc main_arg1)) (m ((c : Thread nD τ).loc main_arg2)) :=
  s13_v41 (W13 m ρ c) (m ((c : Thread nD τ).loc main_arg1)) (m ((c : Thread nD τ).loc main_arg2)) (w13_v1 m ρ c) (w13_v3 m ρ c) (w13_v4 m ρ c) (w13_v6 m ρ c) (w13_v75 m ρ c) (w13_v76 m ρ c) (w13_v111 m ρ c) (w13_cst_34 m ρ c) (w13_v119 m ρ c) (w13_v118 m ρ c) (w13_v40 m ρ c) (w13_v110 m ρ c) (w13_v41 m ρ c)

theorem w15_v1 : W15 m ρ c (no_index (Proc.devRef .tc main_v1)) = Cert.ReferenceIdeal.ReadP.val_main_v1 (m ((c : Thread nD τ).loc main_arg1)) :=
  s14_v1 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v3 : W15 m ρ c (no_index (Proc.devRef .tc main_v3)) = Cert.ReferenceIdeal.ReadP.val_main_v3 (m ((c : Thread nD τ).loc main_arg1)) :=
  s14_v3 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v4 : W15 m ρ c (no_index (Proc.devRef .tc main_v4)) = Cert.ReferenceIdeal.ReadP.val_main_v4 (m ((c : Thread nD τ).loc main_arg2)) :=
  s14_v4 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v6 : W15 m ρ c (no_index (Proc.devRef .tc main_v6)) = Cert.ReferenceIdeal.ReadP.val_main_v6 (m ((c : Thread nD τ).loc main_arg2)) :=
  s14_v6 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v75 : W15 m ρ c (no_index (Proc.devRef .tc main_v75)) = Cert.ReferenceIdeal.ReadP.val_main_v75 (m ((c : Thread nD τ).loc main_arg1)) (m ((c : Thread nD τ).loc main_arg2)) :=
  s14_v75 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v76 : W15 m ρ c (no_index (Proc.devRef .tc main_v76)) = Cert.ReferenceIdeal.ReadP.val_main_v76 (m ((c : Thread nD τ).loc main_arg1)) (m ((c : Thread nD τ).loc main_arg2)) :=
  s14_v76 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v111 : W15 m ρ c (no_index (Proc.devRef .tc main_v111)) = Cert.ReferenceIdeal.ReadP.val_main_v111 (m ((c : Thread nD τ).loc main_arg1)) (m ((c : Thread nD τ).loc main_arg2)) :=
  s14_v111 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_cst_38 : W15 m ρ c (no_index (Proc.devRef .tc main_cst_38)) = Cert.ReferenceIdeal.ReadP.val_main_cst_38 :=
  s14_cst_38 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v127 : W15 m ρ c (no_index (Proc.devRef .tc main_v127)) = Cert.ReferenceIdeal.ReadP.val_main_v127 (m ((c : Thread nD τ).loc main_arg1)) (m ((c : Thread nD τ).loc main_arg2)) :=
  s14_v127 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v128 : W15 m ρ c (no_index (Proc.devRef .tc main_v128)) = Cert.ReferenceIdeal.ReadP.val_main_v128 (m ((c : Thread nD τ).loc main_arg1)) (m ((c : Thread nD τ).loc main_arg2)) :=
  s14_v128 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v120 : W15 m ρ c (no_index (Proc.devRef .tc main_v120)) = Cert.ReferenceIdeal.ReadP.val_main_v120 (m ((c : Thread nD τ).loc main_arg1)) (m ((c : Thread nD τ).loc main_arg2)) :=
  s14_v120 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v40 : W15 m ρ c (no_index (Proc.devRef .tc main_v40)) = Cert.ReferenceIdeal.ReadP.val_main_v40 (m ((c : Thread nD τ).loc main_arg1)) (m ((c : Thread nD τ).loc main_arg2)) :=
  s14_v40 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v110 : W15 m ρ c (no_index (Proc.devRef .tc main_v110)) = Cert.ReferenceIdeal.ReadP.val_main_v110 (m ((c : Thread nD τ).loc main_arg1)) (m ((c : Thread nD τ).loc main_arg2)) :=
  s14_v110 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w15_v41 : W15 m ρ c (no_index (Proc.devRef .tc main_v41)) = Cert.ReferenceIdeal.ReadP.val_main_v41 (m ((c : Thread nD τ).loc main_arg1)) (m ((c : Thread nD τ).loc main_arg2)) :=
  s14_v41 (W14 m ρ c) (m ((c : Thread nD τ).loc main_arg1)) (m ((c : Thread nD τ).loc main_arg2)) (w14_v1 m ρ c) (w14_v3 m ρ c) (w14_v4 m ρ c) (w14_v6 m ρ c) (w14_v75 m ρ c) (w14_v76 m ρ c) (w14_v111 m ρ c) (w14_v120 m ρ c) (w14_v40 m ρ c) (w14_v110 m ρ c) (w14_v41 m ρ c)

theorem w16_v1 : W16 m ρ c (no_index (Proc.devRef .tc main_v1)) = Cert.ReferenceIdeal.ReadP.val_main_v1 (m ((c : Thread nD τ).loc main_arg1)) :=
  s15_v1 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v3 : W16 m ρ c (no_index (Proc.devRef .tc main_v3)) = Cert.ReferenceIdeal.ReadP.val_main_v3 (m ((c : Thread nD τ).loc main_arg1)) :=
  s15_v3 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v4 : W16 m ρ c (no_index (Proc.devRef .tc main_v4)) = Cert.ReferenceIdeal.ReadP.val_main_v4 (m ((c : Thread nD τ).loc main_arg2)) :=
  s15_v4 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v6 : W16 m ρ c (no_index (Proc.devRef .tc main_v6)) = Cert.ReferenceIdeal.ReadP.val_main_v6 (m ((c : Thread nD τ).loc main_arg2)) :=
  s15_v6 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v75 : W16 m ρ c (no_index (Proc.devRef .tc main_v75)) = Cert.ReferenceIdeal.ReadP.val_main_v75 (m ((c : Thread nD τ).loc main_arg1)) (m ((c : Thread nD τ).loc main_arg2)) :=
  s15_v75 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v76 : W16 m ρ c (no_index (Proc.devRef .tc main_v76)) = Cert.ReferenceIdeal.ReadP.val_main_v76 (m ((c : Thread nD τ).loc main_arg1)) (m ((c : Thread nD τ).loc main_arg2)) :=
  s15_v76 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v111 : W16 m ρ c (no_index (Proc.devRef .tc main_v111)) = Cert.ReferenceIdeal.ReadP.val_main_v111 (m ((c : Thread nD τ).loc main_arg1)) (m ((c : Thread nD τ).loc main_arg2)) :=
  s15_v111 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v129 : W16 m ρ c (no_index (Proc.devRef .tc main_v129)) = Cert.ReferenceIdeal.ReadP.val_main_v129 (m ((c : Thread nD τ).loc main_arg1)) (m ((c : Thread nD τ).loc main_arg2)) :=
  s15_v129 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v120 : W16 m ρ c (no_index (Proc.devRef .tc main_v120)) = Cert.ReferenceIdeal.ReadP.val_main_v120 (m ((c : Thread nD τ).loc main_arg1)) (m ((c : Thread nD τ).loc main_arg2)) :=
  s15_v120 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v40 : W16 m ρ c (no_index (Proc.devRef .tc main_v40)) = Cert.ReferenceIdeal.ReadP.val_main_v40 (m ((c : Thread nD τ).loc main_arg1)) (m ((c : Thread nD τ).loc main_arg2)) :=
  s15_v40 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v110 : W16 m ρ c (no_index (Proc.devRef .tc main_v110)) = Cert.ReferenceIdeal.ReadP.val_main_v110 (m ((c : Thread nD τ).loc main_arg1)) (m ((c : Thread nD τ).loc main_arg2)) :=
  s15_v110 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w16_v41 : W16 m ρ c (no_index (Proc.devRef .tc main_v41)) = Cert.ReferenceIdeal.ReadP.val_main_v41 (m ((c : Thread nD τ).loc main_arg1)) (m ((c : Thread nD τ).loc main_arg2)) :=
  s15_v41 (W15 m ρ c) (m ((c : Thread nD τ).loc main_arg1)) (m ((c : Thread nD τ).loc main_arg2)) (w15_v1 m ρ c) (w15_v3 m ρ c) (w15_v4 m ρ c) (w15_v6 m ρ c) (w15_v75 m ρ c) (w15_v76 m ρ c) (w15_v111 m ρ c) (w15_cst_38 m ρ c) (w15_v127 m ρ c) (w15_v128 m ρ c) (w15_v120 m ρ c) (w15_v40 m ρ c) (w15_v110 m ρ c) (w15_v41 m ρ c)

theorem w17_v1 : W17 m ρ c (no_index (Proc.devRef .tc main_v1)) = Cert.ReferenceIdeal.ReadP.val_main_v1 (m ((c : Thread nD τ).loc main_arg1)) :=
  s16_v1 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v3 : W17 m ρ c (no_index (Proc.devRef .tc main_v3)) = Cert.ReferenceIdeal.ReadP.val_main_v3 (m ((c : Thread nD τ).loc main_arg1)) :=
  s16_v3 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v4 : W17 m ρ c (no_index (Proc.devRef .tc main_v4)) = Cert.ReferenceIdeal.ReadP.val_main_v4 (m ((c : Thread nD τ).loc main_arg2)) :=
  s16_v4 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v6 : W17 m ρ c (no_index (Proc.devRef .tc main_v6)) = Cert.ReferenceIdeal.ReadP.val_main_v6 (m ((c : Thread nD τ).loc main_arg2)) :=
  s16_v6 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v75 : W17 m ρ c (no_index (Proc.devRef .tc main_v75)) = Cert.ReferenceIdeal.ReadP.val_main_v75 (m ((c : Thread nD τ).loc main_arg1)) (m ((c : Thread nD τ).loc main_arg2)) :=
  s16_v75 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v76 : W17 m ρ c (no_index (Proc.devRef .tc main_v76)) = Cert.ReferenceIdeal.ReadP.val_main_v76 (m ((c : Thread nD τ).loc main_arg1)) (m ((c : Thread nD τ).loc main_arg2)) :=
  s16_v76 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v111 : W17 m ρ c (no_index (Proc.devRef .tc main_v111)) = Cert.ReferenceIdeal.ReadP.val_main_v111 (m ((c : Thread nD τ).loc main_arg1)) (m ((c : Thread nD τ).loc main_arg2)) :=
  s16_v111 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v145 : W17 m ρ c (no_index (Proc.devRef .tc main_v145)) = Cert.ReferenceIdeal.ReadP.val_main_v145 (m ((c : Thread nD τ).loc main_arg1)) (m ((c : Thread nD τ).loc main_arg2)) :=
  s16_v145 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

theorem w17_v146 : W17 m ρ c (no_index (Proc.devRef .tc main_v146)) = Cert.ReferenceIdeal.ReadP.val_main_v146 (m ((c : Thread nD τ).loc main_arg1)) (m ((c : Thread nD τ).loc main_arg2)) :=
  s16_v146 (W16 m ρ c) (m ((c : Thread nD τ).loc main_arg1)) (m ((c : Thread nD τ).loc main_arg2)) (w16_v1 m ρ c) (w16_v3 m ρ c) (w16_v4 m ρ c) (w16_v6 m ρ c) (w16_v75 m ρ c) (w16_v76 m ρ c) (w16_v111 m ρ c) (w16_v129 m ρ c) (w16_v120 m ρ c) (w16_v40 m ρ c) (w16_v110 m ρ c) (w16_v41 m ρ c)

end Cert.KernelIdeal.Fold

end
-- ==== Proof.FoldArgs.lean ====
/-
  The argument buffers before the first region.

  No host operation writes an argument buffer, so at every boundary before the first region an argument buffer holds
  the launch memory.
-/
import proofs.«169779_j77360950935705_2_alg».proof.Proof.Gen.KernelIdeal.Frame
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Unfold the boundaries down to the launch memory and evaluate every host operation at the buffer asked for. -/
macro "args_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

set_option maxHeartbeats 2000000 in
/-- the node features, before the last stretch -/
theorem w16_arg0 : W16 m ρ c (no_index (Proc.devRef .tc main_arg0)) = m ((c : Thread nD τ).loc main_arg0) := by
  args_simp [W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
  try rfl

set_option maxHeartbeats 2000000 in
/-- argument 0 -/
theorem w17_arg0 : W17 m ρ c (no_index (Proc.devRef .tc main_arg0)) = m ((c : Thread nD τ).loc main_arg0) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 3 -/
theorem w17_arg3 : W17 m ρ c (no_index (Proc.devRef .tc main_arg3)) = m ((c : Thread nD τ).loc main_arg3) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 4 -/
theorem w17_arg4 : W17 m ρ c (no_index (Proc.devRef .tc main_arg4)) = m ((c : Thread nD τ).loc main_arg4) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 5 -/
theorem w17_arg5 : W17 m ρ c (no_index (Proc.devRef .tc main_arg5)) = m ((c : Thread nD τ).loc main_arg5) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 6 -/
theorem w17_arg6 : W17 m ρ c (no_index (Proc.devRef .tc main_arg6)) = m ((c : Thread nD τ).loc main_arg6) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 7 -/
theorem w17_arg7 : W17 m ρ c (no_index (Proc.devRef .tc main_arg7)) = m ((c : Thread nD τ).loc main_arg7) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 8 -/
theorem w17_arg8 : W17 m ρ c (no_index (Proc.devRef .tc main_arg8)) = m ((c : Thread nD τ).loc main_arg8) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 9 -/
theorem w17_arg9 : W17 m ρ c (no_index (Proc.devRef .tc main_arg9)) = m ((c : Thread nD τ).loc main_arg9) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 10 -/
theorem w17_arg10 : W17 m ρ c (no_index (Proc.devRef .tc main_arg10)) = m ((c : Thread nD τ).loc main_arg10) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 11 -/
theorem w17_arg11 : W17 m ρ c (no_index (Proc.devRef .tc main_arg11)) = m ((c : Thread nD τ).loc main_arg11) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 12 -/
theorem w17_arg12 : W17 m ρ c (no_index (Proc.devRef .tc main_arg12)) = m ((c : Thread nD τ).loc main_arg12) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 13 -/
theorem w17_arg13 : W17 m ρ c (no_index (Proc.devRef .tc main_arg13)) = m ((c : Thread nD τ).loc main_arg13) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 14 -/
theorem w17_arg14 : W17 m ρ c (no_index (Proc.devRef .tc main_arg14)) = m ((c : Thread nD τ).loc main_arg14) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

set_option maxHeartbeats 2000000 in
/-- argument 15 -/
theorem w17_arg15 : W17 m ρ c (no_index (Proc.devRef .tc main_arg15)) = m ((c : Thread nD τ).loc main_arg15) := by
  args_simp [W17, W16, W15, W14, W13, W12, W11, W10, W9, W8, W7, W6, W5, W4, W3, W2, W1, W0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  try rfl

end Cert.KernelIdeal.Fold

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.FoldAgg1.lean ====
/-
  The host operations that prepare the first layer's two aggregations.

  The last host stretch before the first region gathers the rows of the input features at the edges' source nodes,
  scales them by the two edge-weight vectors (the mask's and its complement's), lays the two scaled arrays side by
  side, adds every edge's row to its target node's row (starting from zeros), and cuts the result back into its two
  halves.  Adding rows acts on each column on its own, so each half is the sum the reference forms from that half
  alone; and on the extended reals the narrowing of the features before the gather and the widening after it are
  the identity.  The third buffer is the mask's diagonal weights as a column.
-/
import proofs.«169779_j77360950935705_2_alg».proof.Proof.Gen.KernelIdeal.Frame
import proofs.«169779_j77360950935705_2_alg».proof.Proof.RefRead
import proofs.«169779_j77360950935705_2_alg».proof.Proof.LibColumns

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! The stretch over any buffer contents before it: what it reads of them is given by the hypotheses. -/

set_option maxHeartbeats 4000000 in
/-- The first half of the scattered sum is the reference's sum of the rows scaled by the mask's edge weights. -/
theorem agg1_v166_of (V : Valuation τ sig (Elt Ideal))
    (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S100000, .i32⟩ : BufTy).Contents (Elt Ideal))
    (h40 : V (Proc.devRef .tc main_v40) = Cert.ReferenceIdeal.ReadP.val_main_v40 x1 x2)
    (h110 : V (Proc.devRef .tc main_v110) = Cert.ReferenceIdeal.ReadP.val_main_v110 x1 x2)
    (h1 : V (Proc.devRef .tc main_v1) = Cert.ReferenceIdeal.ReadP.val_main_v1 x1)
    (h3 : V (Proc.devRef .tc main_v3) = Cert.ReferenceIdeal.ReadP.val_main_v3 x1)
    (h0 : V (Proc.devRef .tc main_arg0) = x0) :
    StableHlo.after hostOps0_16 V (Proc.devRef .tc main_v166) = Cert.ReferenceIdeal.ReadP.val_main_v159 x0 x1 x2 := by
  have h40' : V (no_index (Proc.devRef .tc main_v40)) = _ := h40
  have h110' : V (no_index (Proc.devRef .tc main_v110)) = _ := h110
  have h1' : V (no_index (Proc.devRef .tc main_v1)) = _ := h1
  have h3' : V (no_index (Proc.devRef .tc main_v3)) = _ := h3
  have h0' : V (no_index (Proc.devRef .tc main_arg0)) = _ := h0
  simp (disch := decide) only [hostOps0_16, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', h40', h110', h1', h3', h0']
  refine (Cert.LibColumns.slice_scatterAdd_concat_left scatter_S100000x128_S1600000x1_S1600000x128_1_0_0_1_wf
    Cert.ReferenceIdeal.Facts₀.scatter_S100000x64_S1600000x1_S1600000x64_1_0_0_1_wf _ _ _ _ _ _).trans ?_
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', h40', h110', h1', h3', h0']
  rw [Cert.LibColumns.extractStridedSlice_broadcastInDim_scalar _ _ _ _ _ Cert.ReferenceIdeal.Facts₀.bcast_S_S100000x64,
    Cert.LibColumns.extf_gather_truncf]
  rfl

set_option maxHeartbeats 4000000 in
/-- The second half is the reference's sum of the rows scaled by the complement's edge weights. -/
theorem agg1_v167_of (V : Valuation τ sig (Elt Ideal))
    (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S100000, .i32⟩ : BufTy).Contents (Elt Ideal))
    (h40 : V (Proc.devRef .tc main_v40) = Cert.ReferenceIdeal.ReadP.val_main_v40 x1 x2)
    (h110 : V (Proc.devRef .tc main_v110) = Cert.ReferenceIdeal.ReadP.val_main_v110 x1 x2)
    (h1 : V (Proc.devRef .tc main_v1) = Cert.ReferenceIdeal.ReadP.val_main_v1 x1)
    (h3 : V (Proc.devRef .tc main_v3) = Cert.ReferenceIdeal.ReadP.val_main_v3 x1)
    (h0 : V (Proc.devRef .tc main_arg0) = x0) :
    StableHlo.after hostOps0_16 V (Proc.devRef .tc main_v167) = Cert.ReferenceIdeal.ReadP.val_main_v200 x0 x1 x2 := by
  have h40' : V (no_index (Proc.devRef .tc main_v40)) = _ := h40
  have h110' : V (no_index (Proc.devRef .tc main_v110)) = _ := h110
  have h1' : V (no_index (Proc.devRef .tc main_v1)) = _ := h1
  have h3' : V (no_index (Proc.devRef .tc main_v3)) = _ := h3
  have h0' : V (no_index (Proc.devRef .tc main_arg0)) = _ := h0
  simp (disch := decide) only [hostOps0_16, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', h40', h110', h1', h3', h0']
  refine (Cert.LibColumns.slice_scatterAdd_concat_right scatter_S100000x128_S1600000x1_S1600000x128_1_0_0_1_wf
    Cert.ReferenceIdeal.Facts₀.scatter_S100000x64_S1600000x1_S1600000x64_1_0_0_1_wf _ _ _ _ _ _).trans ?_
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', h40', h110', h1', h3', h0']
  rw [Cert.LibColumns.extractStridedSlice_broadcastInDim_scalar _ _ _ _ _ Cert.ReferenceIdeal.Facts₀.bcast_S_S100000x64,
    Cert.LibColumns.extf_gather_truncf]
  rfl

set_option maxHeartbeats 4000000 in
/-- The mask's diagonal weights as a column. -/
theorem agg1_v168_of (V : Valuation τ sig (Elt Ideal))
    (x1 : (⟨Cert.ReferenceIdeal.S2x1600000, .i32⟩ : BufTy).Contents (Elt Ideal))
    (x2 : (⟨Cert.ReferenceIdeal.S100000, .i32⟩ : BufTy).Contents (Elt Ideal))
    (h41 : V (Proc.devRef .tc main_v41) = Cert.ReferenceIdeal.ReadP.val_main_v41 x1 x2) :
    StableHlo.after hostOps0_16 V (Proc.devRef .tc main_v168) = Cert.ReferenceIdeal.ReadP.val_main_v160 x1 x2 := by
  have h41' : V (no_index (Proc.devRef .tc main_v41)) = _ := h41
  simp (disch := decide) only [hostOps0_16, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', h41']
  rfl

/-! The same at the boundary before the first region. -/

section AtBoundary
variable (x0 : (⟨Cert.ReferenceIdeal.S100000x64, .f32⟩ : BufTy).Contents (Elt Ideal))
  (x1 : (⟨Cert.ReferenceIdeal.S2x1600000, .i32⟩ : BufTy).Contents (Elt Ideal))
  (x2 : (⟨Cert.ReferenceIdeal.S100000, .i32⟩ : BufTy).Contents (Elt Ideal))

/-- The first half of the scattered sum, at the first region's entry. -/
theorem agg1_v166
    (h40 : W16 m ρ c (Proc.devRef .tc main_v40) = Cert.ReferenceIdeal.ReadP.val_main_v40 x1 x2)
    (h110 : W16 m ρ c (Proc.devRef .tc main_v110) = Cert.ReferenceIdeal.ReadP.val_main_v110 x1 x2)
    (h1 : W16 m ρ c (Proc.devRef .tc main_v1) = Cert.ReferenceIdeal.ReadP.val_main_v1 x1)
    (h3 : W16 m ρ c (Proc.devRef .tc main_v3) = Cert.ReferenceIdeal.ReadP.val_main_v3 x1)
    (h0 : W16 m ρ c (Proc.devRef .tc main_arg0) = x0) :
    W17 m ρ c (Proc.devRef .tc main_v166) = Cert.ReferenceIdeal.ReadP.val_main_v159 x0 x1 x2 :=
  agg1_v166_of (W16 m ρ c) x0 x1 x2 h40 h110 h1 h3 h0

/-- The second half of the scattered sum, at the first region's entry. -/
theorem agg1_v167
    (h40 : W16 m ρ c (Proc.devRef .tc main_v40) = Cert.ReferenceIdeal.ReadP.val_main_v40 x1 x2)
    (h110 : W16 m ρ c (Proc.devRef .tc main_v110) = Cert.ReferenceIdeal.ReadP.val_main_v110 x1 x2)
    (h1 : W16 m ρ c (Proc.devRef .tc main_v1) = Cert.ReferenceIdeal.ReadP.val_main_v1 x1)
    (h3 : W16 m ρ c (Proc.devRef .tc main_v3) = Cert.ReferenceIdeal.ReadP.val_main_v3 x1)
    (h0 : W16 m ρ c (Proc.devRef .tc main_arg0) = x0) :
    W17 m ρ c (Proc.devRef .tc main_v167) = Cert.ReferenceIdeal.ReadP.val_main_v200 x0 x1 x2 :=
  agg1_v167_of (W16 m ρ c) x0 x1 x2 h40 h110 h1 h3 h0

/-- The mask's diagonal weights as a column, at the first region's entry. -/
theorem agg1_v168
    (h41 : W16 m ρ c (Proc.devRef .tc main_v41) = Cert.ReferenceIdeal.ReadP.val_main_v41 x1 x2) :
    W17 m ρ c (Proc.devRef .tc main_v168) = Cert.ReferenceIdeal.ReadP.val_main_v160 x1 x2 :=
  agg1_v168_of (W16 m ρ c) x1 x2 h41

end AtBoundary

end Cert.KernelIdeal.Fold

end
-- ==== Proof.FoldAgg2.lean ====
/-
  The host operations between the second and the third region: the neighbourhood sums of the two middle layers.

  The kernel's program aggregates the two layer outputs `h` and `h′` in one pass.  It lays them side by side as one
  array of 128 columns, reads for every edge the row of that array at the edge's source node (the source index brought
  into range by adding the number of nodes to a negative one), multiplies the left 64 columns by one family of edge
  weights and the right 64 columns by the other, lays the two products side by side again, adds every edge's row into
  the row of its target node, starting from zero, and cuts the result back into its left and right halves.  Gathering
  rows and scatter-adding rows act on each column on its own, and the passage through the narrower float format is the
  identity on the extended reals; so each half is the reference's neighbourhood sum of its own layer, operation for
  operation.  The third buffer is a family of diagonal weights written as a column.
-/
import proofs.«169779_j77360950935705_2_alg».proof.Proof.Gen.KernelIdeal.Frame
import proofs.«169779_j77360950935705_2_alg».proof.Proof.RefRead
import proofs.«169779_j77360950935705_2_alg».proof.Proof.LibColumns

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Two arrays laid side by side along an axis, the two arrays as separate arguments. -/
def agg2Pair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem agg2Pair_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = agg2Pair t a s₁ s₂ h x₁ x₂ := rfl

/-- Evaluate every host operation of this stretch at the buffer asked for. -/
macro "agg2_simp" "[" hs:Lean.Parser.Tactic.simpLemma,* "]" : tactic =>
  `(tactic| simp (disch := decide) only [W21, hostOps2, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', agg2Pair_eq, $hs,*])

set_option maxHeartbeats 4000000 in
/-- The left half: the neighbourhood sum of the layer whose input is `h`. -/
theorem w21_v194
    (x0 : (⟨Cert.ReferenceIdeal.S100000x64, .f32⟩ : BufTy).Contents (Elt Ideal))
    (x1 : (⟨Cert.ReferenceIdeal.S2x1600000, .i32⟩ : BufTy).Contents (Elt Ideal)) (x2 : (⟨Cert.ReferenceIdeal.S100000, .i32⟩ : BufTy).Contents (Elt Ideal))
    (x3 x4 x7 x8 : (⟨Cert.ReferenceIdeal.S64x64, .f32⟩ : BufTy).Contents (Elt Ideal))
    (h169 : W20 m ρ c (Proc.devRef .tc main_v169) = Cert.ReferenceIdeal.ReadP.val_main_v167 x0 x1 x2 x3 x4)
    (h171 : W20 m ρ c (Proc.devRef .tc main_v171) = Cert.ReferenceIdeal.ReadP.val_main_v208 x0 x1 x2 x7 x8)
    (h1 : W20 m ρ c (Proc.devRef .tc main_v1) = Cert.ReferenceIdeal.ReadP.val_main_v1 x1)
    (h3 : W20 m ρ c (Proc.devRef .tc main_v3) = Cert.ReferenceIdeal.ReadP.val_main_v3 x1)
    (h75 : W20 m ρ c (Proc.devRef .tc main_v75) = Cert.ReferenceIdeal.ReadP.val_main_v75 x1 x2)
    (h145 : W20 m ρ c (Proc.devRef .tc main_v145) = Cert.ReferenceIdeal.ReadP.val_main_v145 x1 x2) :
    W21 m ρ c (Proc.devRef .tc main_v194) = Cert.ReferenceIdeal.ReadP.val_main_v180 x0 x1 x2 x3 x4 := by
  have h169' : W20 m ρ c (no_index (Proc.devRef .tc main_v169)) = _ := h169
  have h171' : W20 m ρ c (no_index (Proc.devRef .tc main_v171)) = _ := h171
  have h1' : W20 m ρ c (no_index (Proc.devRef .tc main_v1)) = _ := h1
  have h3' : W20 m ρ c (no_index (Proc.devRef .tc main_v3)) = _ := h3
  have h75' : W20 m ρ c (no_index (Proc.devRef .tc main_v75)) = _ := h75
  have h145' : W20 m ρ c (no_index (Proc.devRef .tc main_v145)) = _ := h145
  agg2_simp [h169', h171', h1', h3', h75', h145']
  unfold agg2Pair
  refine (Cert.LibColumns.slice_scatterAdd_concat_left _ Cert.ReferenceIdeal.Gen.scatter_S100000x64_S1600000x1_S1600000x64_1_0_0_1_wf _ _ _ _ _ _).trans ?_
  rw [Cert.LibColumns.extractStridedSlice_broadcastInDim_scalar _ _ _ _ _ Cert.ReferenceIdeal.Gen.bcast_S_S100000x64,
    Cert.LibColumns.extf_gather_truncf]
  erw [Cert.LibColumns.slice_gather_concat_left (by norm_num) _ Cert.ReferenceIdeal.Gen.gather_S100000x64_S1600000x1_S1600000x64_1_0_n_n_0_1_164_wf]
  unfold Cert.ReferenceIdeal.ReadP.val_main_v180 Cert.ReferenceIdeal.ReadP.val_main_v178 Cert.ReferenceIdeal.ReadP.val_main_v179 Cert.ReferenceIdeal.ReadP.val_main_v177 Cert.ReferenceIdeal.ReadP.val_main_v176 Cert.ReferenceIdeal.ReadP.val_main_v168 Cert.ReferenceIdeal.ReadP.val_main_v175 Cert.ReferenceIdeal.ReadP.val_main_v174 Cert.ReferenceIdeal.ReadP.val_main_v173 Cert.ReferenceIdeal.ReadP.val_main_v170 Cert.ReferenceIdeal.ReadP.val_main_v172 Cert.ReferenceIdeal.ReadP.val_main_v169 Cert.ReferenceIdeal.ReadP.val_main_v171 Cert.ReferenceIdeal.ReadP.val_main_c_46 Cert.ReferenceIdeal.ReadP.val_main_c_47 Cert.ReferenceIdeal.ReadP.val_main_cst_48
  rfl

set_option maxHeartbeats 4000000 in
/-- The right half: the neighbourhood sum of the layer whose input is `h′`. -/
theorem w21_v195
    (x0 : (⟨Cert.ReferenceIdeal.S100000x64, .f32⟩ : BufTy).Contents (Elt Ideal))
    (x1 : (⟨Cert.ReferenceIdeal.S2x1600000, .i32⟩ : BufTy).Contents (Elt Ideal)) (x2 : (⟨Cert.ReferenceIdeal.S100000, .i32⟩ : BufTy).Contents (Elt Ideal))
    (x3 x4 x7 x8 : (⟨Cert.ReferenceIdeal.S64x64, .f32⟩ : BufTy).Contents (Elt Ideal))
    (h169 : W20 m ρ c (Proc.devRef .tc main_v169) = Cert.ReferenceIdeal.ReadP.val_main_v167 x0 x1 x2 x3 x4)
    (h171 : W20 m ρ c (Proc.devRef .tc main_v171) = Cert.ReferenceIdeal.ReadP.val_main_v208 x0 x1 x2 x7 x8)
    (h1 : W20 m ρ c (Proc.devRef .tc main_v1) = Cert.ReferenceIdeal.ReadP.val_main_v1 x1)
    (h3 : W20 m ρ c (Proc.devRef .tc main_v3) = Cert.ReferenceIdeal.ReadP.val_main_v3 x1)
    (h75 : W20 m ρ c (Proc.devRef .tc main_v75) = Cert.ReferenceIdeal.ReadP.val_main_v75 x1 x2)
    (h145 : W20 m ρ c (Proc.devRef .tc main_v145) = Cert.ReferenceIdeal.ReadP.val_main_v145 x1 x2) :
    W21 m ρ c (Proc.devRef .tc main_v195) = Cert.ReferenceIdeal.ReadP.val_main_v221 x0 x1 x2 x7 x8 := by
  have h169' : W20 m ρ c (no_index (Proc.devRef .tc main_v169)) = _ := h169
  have h171' : W20 m ρ c (no_index (Proc.devRef .tc main_v171)) = _ := h171
  have h1' : W20 m ρ c (no_index (Proc.devRef .tc main_v1)) = _ := h1
  have h3' : W20 m ρ c (no_index (Proc.devRef .tc main_v3)) = _ := h3
  have h75' : W20 m ρ c (no_index (Proc.devRef .tc main_v75)) = _ := h75
  have h145' : W20 m ρ c (no_index (Proc.devRef .tc main_v145)) = _ := h145
  agg2_simp [h169', h171', h1', h3', h75', h145']
  unfold agg2Pair
  refine (Cert.LibColumns.slice_scatterAdd_concat_right _ Cert.ReferenceIdeal.Gen.scatter_S100000x64_S1600000x1_S1600000x64_1_0_0_1_wf _ _ _ _ _ _).trans ?_
  rw [Cert.LibColumns.extractStridedSlice_broadcastInDim_scalar _ _ _ _ _ Cert.ReferenceIdeal.Gen.bcast_S_S100000x64,
    Cert.LibColumns.extf_gather_truncf]
  erw [Cert.LibColumns.slice_gather_concat_right (by norm_num) _ Cert.ReferenceIdeal.Gen.gather_S100000x64_S1600000x1_S1600000x64_1_0_n_n_0_1_164_wf]
  unfold Cert.ReferenceIdeal.ReadP.val_main_v221 Cert.ReferenceIdeal.ReadP.val_main_v219 Cert.ReferenceIdeal.ReadP.val_main_v220 Cert.ReferenceIdeal.ReadP.val_main_v218 Cert.ReferenceIdeal.ReadP.val_main_v217 Cert.ReferenceIdeal.ReadP.val_main_v209 Cert.ReferenceIdeal.ReadP.val_main_v216 Cert.ReferenceIdeal.ReadP.val_main_v215 Cert.ReferenceIdeal.ReadP.val_main_v214 Cert.ReferenceIdeal.ReadP.val_main_v211 Cert.ReferenceIdeal.ReadP.val_main_v213 Cert.ReferenceIdeal.ReadP.val_main_v210 Cert.ReferenceIdeal.ReadP.val_main_v212 Cert.ReferenceIdeal.ReadP.val_main_c_52 Cert.ReferenceIdeal.ReadP.val_main_c_53 Cert.ReferenceIdeal.ReadP.val_main_cst_54
  rfl

set_option maxHeartbeats 4000000 in
/-- The diagonal weights of the layer whose input is `h`, as a column. -/
theorem w21_v196
    (x1 : (⟨Cert.ReferenceIdeal.S2x1600000, .i32⟩ : BufTy).Contents (Elt Ideal)) (x2 : (⟨Cert.ReferenceIdeal.S100000, .i32⟩ : BufTy).Contents (Elt Ideal))
    (h76 : W20 m ρ c (Proc.devRef .tc main_v76) = Cert.ReferenceIdeal.ReadP.val_main_v76 x1 x2) :
    W21 m ρ c (Proc.devRef .tc main_v196) = Cert.ReferenceIdeal.ReadP.val_main_v181 x1 x2 := by
  have h76' : W20 m ρ c (no_index (Proc.devRef .tc main_v76)) = _ := h76
  agg2_simp [h76']
  rfl

end Cert.KernelIdeal.Fold

end
-- ==== Proof.FoldTail.lean ====
/-
  The host operations between the last two regions, read at the buffers the gated head consumes.

  Both programs compute, on the host, the two-element softmax of each of the two gate vectors `a` and `b`,
      s (v) = exp (v − max v) / ∑ exp (v − max v),
  the mixing column `lamx = s(a)[0] · mask + s(b)[0] · (1 − mask)` as a `100000 × 1` array, and the two scalar gates
  `s(a)[1]`, `s(b)[1]`.  The kernel's host code spells these operations exactly as the reference does, so each buffer
  holds, operation for operation, the reference's stage.  Two spellings differ at the very end: the kernel reshapes each
  scalar gate to a `1 × 1` array (its one entry is the scalar), and reshapes the bias vector to a `1 × 40` row where the
  reference broadcasts it along a new leading axis of extent one (entry `(0, q)` of either is entry `q` of the vector).
-/
import proofs.«169779_j77360950935705_2_alg».proof.Proof.Gen.KernelIdeal.Frame
import proofs.«169779_j77360950935705_2_alg».proof.Proof.RefRead

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Evaluate every host operation of the stretch at the buffer asked for. -/
macro "tail_simp" "[" hs:Lean.Parser.Tactic.simpLemma,* "]" : tactic =>
  `(tactic| simp (disch := decide) only [W25, hostOps4, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $hs,*])

set_option maxHeartbeats 4000000 in
/-- the mixing column -/
theorem tail_lamx (x2 : (⟨Cert.ReferenceIdeal.S100000, .i32⟩ : BufTy).Contents (Elt Ideal)) (x12 : (⟨Cert.ReferenceIdeal.S2, .f32⟩ : BufTy).Contents (Elt Ideal)) (x13 : (⟨Cert.ReferenceIdeal.S2, .f32⟩ : BufTy).Contents (Elt Ideal))
    (h12 : W24 m ρ c (Proc.devRef .tc main_arg12) = x12) (h13 : W24 m ρ c (Proc.devRef .tc main_arg13) = x13)
    (h4 : W24 m ρ c (Proc.devRef .tc main_v4) = Cert.ReferenceIdeal.ReadP.val_main_v4 x2)
    (h6 : W24 m ρ c (Proc.devRef .tc main_v6) = Cert.ReferenceIdeal.ReadP.val_main_v6 x2) :
    W25 m ρ c (Proc.devRef .tc main_v235) = Cert.ReferenceIdeal.ReadP.val_main_v263 x2 x12 x13 := by
  have h12' : W24 m ρ c (no_index (Proc.devRef .tc main_arg12)) = x12 := h12
  have h13' : W24 m ρ c (no_index (Proc.devRef .tc main_arg13)) = x13 := h13
  have h4' : W24 m ρ c (no_index (Proc.devRef .tc main_v4)) = Cert.ReferenceIdeal.ReadP.val_main_v4 x2 := h4
  have h6' : W24 m ρ c (no_index (Proc.devRef .tc main_v6)) = Cert.ReferenceIdeal.ReadP.val_main_v6 x2 := h6
  tail_simp [h12', h13', h4', h6']
  rfl

/-- A one-entry array cut from a scalar holds the scalar. -/
theorem shapeCast_scalar_apply {α : Type} (t : Shape) (v : (⟨0, ![]⟩ : Shape).Idx → α) (h : (⟨0, ![]⟩ : Shape).ShapeCasts t) (j : t.Idx) :
    shapeCast t v h j = v ValueIdx.ix0 := by
  unfold shapeCast
  exact congrArg v (ValueIdx.eq_ix0 _)

set_option maxHeartbeats 4000000 in
/-- the first branch's gate -/
theorem tail_laml (x12 : (⟨Cert.ReferenceIdeal.S2, .f32⟩ : BufTy).Contents (Elt Ideal)) (h12 : W24 m ρ c (Proc.devRef .tc main_arg12) = x12) :
    (W25 m ρ c (Proc.devRef .tc main_v233)) (ValueIdx.ix2 (0 : Fin 1) (0 : Fin 1)) = Cert.ReferenceIdeal.ReadP.val_main_v243 x12 ValueIdx.ix0 := by
  have h12' : W24 m ρ c (no_index (Proc.devRef .tc main_arg12)) = x12 := h12
  tail_simp [h12']
  exact shapeCast_scalar_apply _ _ _ _

set_option maxHeartbeats 4000000 in
/-- the second branch's gate -/
theorem tail_lamh (x13 : (⟨Cert.ReferenceIdeal.S2, .f32⟩ : BufTy).Contents (Elt Ideal)) (h13 : W24 m ρ c (Proc.devRef .tc main_arg13) = x13) :
    (W25 m ρ c (Proc.devRef .tc main_v234)) (ValueIdx.ix2 (0 : Fin 1) (0 : Fin 1)) = Cert.ReferenceIdeal.ReadP.val_main_v257 x13 ValueIdx.ix0 := by
  have h13' : W24 m ρ c (no_index (Proc.devRef .tc main_arg13)) = x13 := h13
  tail_simp [h13']
  exact shapeCast_scalar_apply _ _ _ _

set_option maxHeartbeats 4000000 in
/-- the bias as a row -/
theorem tail_linb (x15 : (⟨Cert.ReferenceIdeal.S40, .f32⟩ : BufTy).Contents (Elt Ideal)) (h15 : W24 m ρ c (Proc.devRef .tc main_arg15) = x15) :
    W25 m ρ c (Proc.devRef .tc main_v236) = Cert.ReferenceIdeal.ReadP.val_main_v274 x15 := by
  have h15' : W24 m ρ c (no_index (Proc.devRef .tc main_arg15)) = x15 := h15
  tail_simp [h15']
  funext i
  rw [Cert.ReferenceIdeal.ReadP.val_main_v274_apply]
  refine shapeCast_apply x15 _ i (Cert.ReferenceIdeal.ReadP.idx_main_v274 i) ?_
  refine (Shape.rowMajor_val_one _).trans (Eq.trans ?_ (Shape.rowMajor_val_two (d := ![1, 40]) i).symm)
  have h0 : (i 0).val < 1 := (i 0).isLt
  show (i 1).val = (i 0).val * 40 + (i 1).val
  omega

end Cert.KernelIdeal.Fold

end
-- ==== Proof.Spec.lean ====
/-
  The dense stages of the network as functions of whole arrays, read index by index on the extended reals.

  A node row is `n : Fin 100000`, a channel `q : Fin 64` (`Fin 40` for the classifier).

  * One SAGE layer.  With `agg` the neighbourhood sum, `diag` the per-node self-loop weight (a column), `x` the layer's
    input and `Wl`, `Wr` the two weight matrices, the layer's output at `(n, q)` is
        ∑ k, (agg (n,k) + diag (n,0) · x (n,k)) · Wl (k,q)  +  ∑ k, x (n,k) · Wr (k,q),
    followed by `max · 0` when the layer has a rectifier.
  * The gated head.  With `xm = x · WX`, the mixing column `lamx`, the two scalar gates `laml`, `lamh` and the two
    branch outputs `xl`, `xh`, the hidden value at `(n, k)` is
        max (lamx (n,0) · xm (n,k) + laml · xl (n,k) + lamh · xh (n,k)) 0,
    and the result at `(n, q)` is its product with `linW` plus the bias `linb (0, q)`.
-/
import Idealize.ShloMosaic.PureOps.Ideal
import Idealize.ShloMosaic.Lib.ValueIdx

noncomputable section

namespace Cert.Spec

open Idealize.ShloMosaic Idealize.ShloMosaic.ValueIdx

/-- node features, `100000 × 64` -/
abbrev Snf : Shape := ⟨2, ![100000, 64]⟩
/-- a per-node column, `100000 × 1` -/
abbrev Sn1 : Shape := ⟨2, ![100000, 1]⟩
/-- a square weight, `64 × 64` -/
abbrev Sff : Shape := ⟨2, ![64, 64]⟩
/-- the classifier's weight, `64 × 40` -/
abbrev Sfc : Shape := ⟨2, ![64, 40]⟩
/-- the classifier's bias as a row, `1 × 40` -/
abbrev S1c : Shape := ⟨2, ![1, 40]⟩
/-- the result, `100000 × 40` -/
abbrev Snc : Shape := ⟨2, ![100000, 40]⟩

/-- One SAGE layer at node `n`, channel `q`, before the optional rectifier. -/
def sagePre (agg : Snf.Idx → EReal) (diag : Sn1.Idx → EReal) (x : Snf.Idx → EReal) (Wl Wr : Sff.Idx → EReal)
    (n : Fin 100000) (q : Fin 64) : EReal :=
  (∑ k : Fin 64, (agg (ix2 n k) + diag (ix2 n (0 : Fin 1)) * x (ix2 n k)) * Wl (ix2 k q))
    + ∑ k : Fin 64, x (ix2 n k) * Wr (ix2 k q)

/-- One SAGE layer at node `n`, channel `q`. -/
def sageAt (relu : Bool) (agg : Snf.Idx → EReal) (diag : Sn1.Idx → EReal) (x : Snf.Idx → EReal) (Wl Wr : Sff.Idx → EReal)
    (n : Fin 100000) (q : Fin 64) : EReal :=
  if relu then max (sagePre agg diag x Wl Wr n q) 0 else sagePre agg diag x Wl Wr n q

/-- One SAGE layer as a whole array. -/
def sageG (relu : Bool) (agg : Snf.Idx → EReal) (diag : Sn1.Idx → EReal) (x : Snf.Idx → EReal) (Wl Wr : Sff.Idx → EReal) :
    Snf.Idx → EReal :=
  fun i => sageAt relu agg diag x Wl Wr (i 0) (i 1)

/-- The gated head's hidden value at node `n`, channel `k`. -/
def hidAt (x : Snf.Idx → EReal) (WX : Sff.Idx → EReal) (lamx : Sn1.Idx → EReal) (xl xh : Snf.Idx → EReal) (laml lamh : EReal)
    (n : Fin 100000) (k : Fin 64) : EReal :=
  max (lamx (ix2 n (0 : Fin 1)) * (∑ j : Fin 64, x (ix2 n j) * WX (ix2 j k)) + laml * xl (ix2 n k) + lamh * xh (ix2 n k)) 0

/-- The gated head and the classifier at node `n`, class `q`. -/
def finalAt (x : Snf.Idx → EReal) (WX : Sff.Idx → EReal) (lamx : Sn1.Idx → EReal) (xl xh : Snf.Idx → EReal) (laml lamh : EReal)
    (linW : Sfc.Idx → EReal) (linb : S1c.Idx → EReal) (n : Fin 100000) (q : Fin 40) : EReal :=
  (∑ k : Fin 64, hidAt x WX lamx xl xh laml lamh n k * linW (ix2 k q)) + linb (ix2 (0 : Fin 1) q)

/-- The gated head and the classifier as a whole array. -/
def finalG (x : Snf.Idx → EReal) (WX : Sff.Idx → EReal) (lamx : Sn1.Idx → EReal) (xl xh : Snf.Idx → EReal) (laml lamh : EReal)
    (linW : Sfc.Idx → EReal) (linb : S1c.Idx → EReal) : Snc.Idx → EReal :=
  fun i => finalAt x WX lamx xl xh laml lamh linW linb (i 0) (i 1)

end Cert.Spec

end
-- ==== Proof.SagePayload.lean ====
/-
  The SAGE layer's block computation, read at an index.

  One grid point holds a block of 5000 rows.  With `x`, `d`, `a` the point's blocks of the layer's input, of the
  self-loop column and of the neighbourhood sum, and `wl`, `wr` the two weights, the value the body stores at row `p`,
  channel `q` of the block is
      ∑ k, (a (p,k) + d (p,0) · x (p,k)) · wl (k,q)  +  ∑ k, x (p,k) · wr (k,q),
  followed by `max · 0` in the two layers that have a rectifier.  On the extended reals the roundings to the
  narrower float type before each product are the identity, and each block product into a zero accumulator is the
  plain sum over the contracted axis.
-/
import proofs.«169779_j77360950935705_2_alg».proof.Proof.Gen.KernelIdeal.Skeleton
import proofs.«169779_j77360950935705_2_alg».proof.Proof.Spec
import Idealize.ShloMosaic.Lib.Pipeline.Value
import Idealize.ShloMosaic.Lib.ValueIdx
import Idealize.ShloMosaic.PureOps.Ideal.Laws

noncomputable section

namespace Cert.KernelIdeal.SagePayload

open Cert.KernelIdeal Cert.KernelIdeal.Gen Idealize.ShloMosaic Idealize.ShloMosaic.ValueIdx

/-- The block's value at row `p`, channel `q`, before the optional rectifier. -/
def blkPre (x : S5000x64.Idx → EReal) (d : S5000x1.Idx → EReal) (a : S5000x64.Idx → EReal) (wl wr : S64x64.Idx → EReal)
    (p : Fin 5000) (q : Fin 64) : EReal :=
  (∑ k : Fin 64, (a (ix2 p k) + d (ix2 p (0 : Fin 1)) * x (ix2 p k)) * wl (ix2 k q))
    + ∑ k : Fin 64, x (ix2 p k) * wr (ix2 k q)

/-- The left operand's row at output index `j` is `j`'s row. -/
theorem lhs_row (j : S5000x64.Idx) (c : dot_S5000x64_S64x64_S5000x64_1_0_0_1_n_n.contr.Idx) :
    (dot_S5000x64_S64x64_S5000x64_1_0_0_1_n_n.lhsIdx j c 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left operand's column is the contracted index. -/
theorem lhs_col (j : S5000x64.Idx) (c : dot_S5000x64_S64x64_S5000x64_1_0_0_1_n_n.contr.Idx) :
    (dot_S5000x64_S64x64_S5000x64_1_0_0_1_n_n.lhsIdx j c 1).val = (c ⟨0, by decide⟩).val :=
  dot_S5000x64_S64x64_S5000x64_1_0_0_1_n_n.lhsIdx_val_of_single rfl j c

/-- The right operand's row is the contracted index. -/
theorem rhs_row (j : S5000x64.Idx) (c : dot_S5000x64_S64x64_S5000x64_1_0_0_1_n_n.contr.Idx) :
    (dot_S5000x64_S64x64_S5000x64_1_0_0_1_n_n.rhsIdx j c 0).val = (c ⟨0, by decide⟩).val :=
  dot_S5000x64_S64x64_S5000x64_1_0_0_1_n_n.rhsIdx_val_of_single rfl j c

/-- The right operand's column at output index `j` is `j`'s column. -/
theorem rhs_col (j : S5000x64.Idx) (c : dot_S5000x64_S64x64_S5000x64_1_0_0_1_n_n.contr.Idx) :
    (dot_S5000x64_S64x64_S5000x64_1_0_0_1_n_n.rhsIdx j c 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000×64 by 64×64 block product into the zero accumulator, at `(p, q)`: the sum over the contracted axis. -/
theorem matmul_at (lhs : FVec Ideal S5000x64 .bf16) (rhs : FVec Ideal S64x64 .bf16) (p : Fin 5000) (q : Fin 64) :
    FloatOps.matmul dot_S5000x64_S64x64_S5000x64_1_0_0_1_n_n none lhs rhs (constant (F := Ideal) S5000x64 .f32 0x00000000#32) (ix2 p q)
      = ∑ k : Fin 64, lhs (ix2 p k) * rhs (ix2 k q) := by
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The self-loop column broadcast along the channels, at `(p, q)`: the column's entry of row `p`. -/
theorem column_at (d : S5000x1.Idx → EReal) (p : Fin 5000) (q : Fin 64) :
    broadcastTo S5000x64 d broadcasts_S5000x1_S5000x64 (ix2 p q) = d (ix2 p (0 : Fin 1)) := by
  refine broadcastTo_apply d _ (ix2 p q) (ix2 p (0 : Fin 1)) fun a => ?_
  match a with
  | ⟨0, _⟩ => rfl
  | ⟨1, _⟩ => rfl

/-- The body's stored value of the first layer (with rectifier) at `(p, q)`. -/
theorem pay0_at (v0 : Vec Ideal S5000x64 .f32) (v1 : Vec Ideal S5000x1 .f32) (v5 : Vec Ideal S5000x64 .f32) (v9 v11 : Vec Ideal S64x64 .f32)
    (p : Fin 5000) (q : Fin 64) :
    k0_pay1 v0 v1 v5 v9 v11 (ix2 p q) = max (blkPre v0 v1 v5 v9 v11 p q) 0 := by
  unfold k0_pay1 blkPre
  simp only [shapeCast_self, matmul]
  rw [maximumf_apply, addf_apply, matmul_at, matmul_at, broadcast_apply]
  simp only [truncf_apply, addf_apply, mulf_apply, column_at]
  rw [Ideal.ofBits_def, Ideal.ofBits_zero_f32]

/-- The body's stored value of the second layer (with rectifier) at `(p, q)`. -/
theorem pay1_at (v0 : Vec Ideal S5000x64 .f32) (v1 : Vec Ideal S5000x1 .f32) (v5 : Vec Ideal S5000x64 .f32) (v9 v11 : Vec Ideal S64x64 .f32)
    (p : Fin 5000) (q : Fin 64) :
    k1_pay1 v0 v1 v5 v9 v11 (ix2 p q) = max (blkPre v0 v1 v5 v9 v11 p q) 0 := by
  unfold k1_pay1 blkPre
  simp only [shapeCast_self, matmul]
  rw [maximumf_apply, addf_apply, matmul_at, matmul_at, broadcast_apply]
  simp only [truncf_apply, addf_apply, mulf_apply, column_at]
  rw [Ideal.ofBits_def, Ideal.ofBits_zero_f32]

/-- The body's stored value of the third layer (no rectifier) at `(p, q)`. -/
theorem pay2_at (v0 : Vec Ideal S5000x64 .f32) (v2 : Vec Ideal S5000x1 .f32) (v6 : Vec Ideal S5000x64 .f32) (v10 v12 : Vec Ideal S64x64 .f32)
    (p : Fin 5000) (q : Fin 64) :
    k2_pay1 v0 v2 v6 v10 v12 (ix2 p q) = blkPre v0 v2 v6 v10 v12 p q := by
  unfold k2_pay1 blkPre
  simp only [shapeCast_self, matmul]
  rw [addf_apply, matmul_at, matmul_at]
  simp only [truncf_apply, addf_apply, mulf_apply, column_at]

/-- The body's stored value of the fourth layer (no rectifier) at `(p, q)`. -/
theorem pay3_at (v0 : Vec Ideal S5000x64 .f32) (v2 : Vec Ideal S5000x1 .f32) (v6 : Vec Ideal S5000x64 .f32) (v10 v12 : Vec Ideal S64x64 .f32)
    (p : Fin 5000) (q : Fin 64) :
    k3_pay1 v0 v2 v6 v10 v12 (ix2 p q) = blkPre v0 v2 v6 v10 v12 p q := by
  unfold k3_pay1 blkPre
  simp only [shapeCast_self, matmul]
  rw [addf_apply, matmul_at, matmul_at]
  simp only [truncf_apply, addf_apply, mulf_apply, column_at]

/-! ## A block against the whole arrays

The block of grid point number `r` holds rows `r · 5000 … r · 5000 + 4999` of the per-node arrays; the weights are read
whole.  Stated over variables: the blocks `x`, `d`, `a`, `wl`, `wr` are related to the arrays `X`, `D`, `A`, `Wl`, `Wr`
by hypotheses on coordinates. -/

/-- A block's value at its row `p` is the layer's value at the array's row `n = r · 5000 + p`. -/
theorem blkPre_eq (A : Cert.Spec.Snf.Idx → EReal) (D : Cert.Spec.Sn1.Idx → EReal) (X : Cert.Spec.Snf.Idx → EReal)
    (Wl Wr : Cert.Spec.Sff.Idx → EReal)
    (x : S5000x64.Idx → EReal) (d : S5000x1.Idx → EReal) (a : S5000x64.Idx → EReal) (wl wr : S64x64.Idx → EReal) (r : ℕ)
    (ha : ∀ (y : S5000x64.Idx) (i : Cert.Spec.Snf.Idx), (i 0).val = r * 5000 + (y 0).val → (i 1).val = (y 1).val → a y = A i)
    (hd : ∀ (y : S5000x1.Idx) (i : Cert.Spec.Sn1.Idx), (i 0).val = r * 5000 + (y 0).val → (i 1).val = (y 1).val → d y = D i)
    (hx : ∀ (y : S5000x64.Idx) (i : Cert.Spec.Snf.Idx), (i 0).val = r * 5000 + (y 0).val → (i 1).val = (y 1).val → x y = X i)
    (hwl : wl = Wl) (hwr : wr = Wr)
    (p : Fin 5000) (q : Fin 64) (n : Fin 100000) (hn : n.val = r * 5000 + p.val) :
    blkPre x d a wl wr p q = Cert.Spec.sagePre A D X Wl Wr n q := by
  subst hwl hwr
  unfold blkPre Cert.Spec.sagePre
  refine congrArg₂ (· + ·) (Finset.sum_congr rfl fun k _ => ?_) (Finset.sum_congr rfl fun k _ => ?_)
  · rw [ha (ix2 p k) (ix2 n k) hn rfl, hd (ix2 p (0 : Fin 1)) (ix2 n (0 : Fin 1)) hn rfl, hx (ix2 p k) (ix2 n k) hn rfl]
  · rw [hx (ix2 p k) (ix2 n k) hn rfl]

/-- The first layer's stored block is its block of the layer's whole-array function. -/
theorem pay0_blk (A : Cert.Spec.Snf.Idx → EReal) (D : Cert.Spec.Sn1.Idx → EReal) (X : Cert.Spec.Snf.Idx → EReal)
    (Wl Wr : Cert.Spec.Sff.Idx → EReal)
    (x : Vec Ideal S5000x64 .f32) (d : Vec Ideal S5000x1 .f32) (a : Vec Ideal S5000x64 .f32) (wl wr : Vec Ideal S64x64 .f32) (r : ℕ)
    (ha : ∀ (y : S5000x64.Idx) (i : Cert.Spec.Snf.Idx), (i 0).val = r * 5000 + (y 0).val → (i 1).val = (y 1).val → a y = A i)
    (hd : ∀ (y : S5000x1.Idx) (i : Cert.Spec.Sn1.Idx), (i 0).val = r * 5000 + (y 0).val → (i 1).val = (y 1).val → d y = D i)
    (hx : ∀ (y : S5000x64.Idx) (i : Cert.Spec.Snf.Idx), (i 0).val = r * 5000 + (y 0).val → (i 1).val = (y 1).val → x y = X i)
    (hwl : wl = Wl) (hwr : wr = Wr)
    (j : S5000x64.Idx) (i : Cert.Spec.Snf.Idx) (hi0 : (i 0).val = r * 5000 + (j 0).val) (hi1 : (i 1).val = (j 1).val) :
    k0_pay1 x d a wl wr j = Cert.Spec.sageG true A D X Wl Wr i := by
  obtain ⟨p, q, rfl⟩ : ∃ (p : Fin 5000) (q : Fin 64), j = ix2 p q := ⟨j 0, j 1, eq_ix2 j⟩
  have hq : i 1 = q := Fin.ext hi1
  rw [pay0_at, blkPre_eq A D X Wl Wr x d a wl wr r ha hd hx hwl hwr p q (i 0) hi0]
  unfold Cert.Spec.sageG Cert.Spec.sageAt
  rw [if_pos rfl, hq]

/-- The second layer's stored block is its block of the layer's whole-array function. -/
theorem pay1_blk (A : Cert.Spec.Snf.Idx → EReal) (D : Cert.Spec.Sn1.Idx → EReal) (X : Cert.Spec.Snf.Idx → EReal)
    (Wl Wr : Cert.Spec.Sff.Idx → EReal)
    (x : Vec Ideal S5000x64 .f32) (d : Vec Ideal S5000x1 .f32) (a : Vec Ideal S5000x64 .f32) (wl wr : Vec Ideal S64x64 .f32) (r : ℕ)
    (ha : ∀ (y : S5000x64.Idx) (i : Cert.Spec.Snf.Idx), (i 0).val = r * 5000 + (y 0).val → (i 1).val = (y 1).val → a y = A i)
    (hd : ∀ (y : S5000x1.Idx) (i : Cert.Spec.Sn1.Idx), (i 0).val = r * 5000 + (y 0).val → (i 1).val = (y 1).val → d y = D i)
    (hx : ∀ (y : S5000x64.Idx) (i : Cert.Spec.Snf.Idx), (i 0).val = r * 5000 + (y 0).val → (i 1).val = (y 1).val → x y = X i)
    (hwl : wl = Wl) (hwr : wr = Wr)
    (j : S5000x64.Idx) (i : Cert.Spec.Snf.Idx) (hi0 : (i 0).val = r * 5000 + (j 0).val) (hi1 : (i 1).val = (j 1).val) :
    k1_pay1 x d a wl wr j = Cert.Spec.sageG true A D X Wl Wr i := by
  obtain ⟨p, q, rfl⟩ : ∃ (p : Fin 5000) (q : Fin 64), j = ix2 p q := ⟨j 0, j 1, eq_ix2 j⟩
  have hq : i 1 = q := Fin.ext hi1
  rw [pay1_at, blkPre_eq A D X Wl Wr x d a wl wr r ha hd hx hwl hwr p q (i 0) hi0]
  unfold Cert.Spec.sageG Cert.Spec.sageAt
  rw [if_pos rfl, hq]

/-- The third layer's stored block is its block of the layer's whole-array function. -/
theorem pay2_blk (A : Cert.Spec.Snf.Idx → EReal) (D : Cert.Spec.Sn1.Idx → EReal) (X : Cert.Spec.Snf.Idx → EReal)
    (Wl Wr : Cert.Spec.Sff.Idx → EReal)
    (x : Vec Ideal S5000x64 .f32) (d : Vec Ideal S5000x1 .f32) (a : Vec Ideal S5000x64 .f32) (wl wr : Vec Ideal S64x64 .f32) (r : ℕ)
    (ha : ∀ (y : S5000x64.Idx) (i : Cert.Spec.Snf.Idx), (i 0).val = r * 5000 + (y 0).val → (i 1).val = (y 1).val → a y = A i)
    (hd : ∀ (y : S5000x1.Idx) (i : Cert.Spec.Sn1.Idx), (i 0).val = r * 5000 + (y 0).val → (i 1).val = (y 1).val → d y = D i)
    (hx : ∀ (y : S5000x64.Idx) (i : Cert.Spec.Snf.Idx), (i 0).val = r * 5000 + (y 0).val → (i 1).val = (y 1).val → x y = X i)
    (hwl : wl = Wl) (hwr : wr = Wr)
    (j : S5000x64.Idx) (i : Cert.Spec.Snf.Idx) (hi0 : (i 0).val = r * 5000 + (j 0).val) (hi1 : (i 1).val = (j 1).val) :
    k2_pay1 x d a wl wr j = Cert.Spec.sageG false A D X Wl Wr i := by
  obtain ⟨p, q, rfl⟩ : ∃ (p : Fin 5000) (q : Fin 64), j = ix2 p q := ⟨j 0, j 1, eq_ix2 j⟩
  have hq : i 1 = q := Fin.ext hi1
  rw [pay2_at, blkPre_eq A D X Wl Wr x d a wl wr r ha hd hx hwl hwr p q (i 0) hi0]
  unfold Cert.Spec.sageG Cert.Spec.sageAt
  rw [if_neg Bool.false_ne_true, hq]

/-- The fourth layer's stored block is its block of the layer's whole-array function. -/
theorem pay3_blk (A : Cert.Spec.Snf.Idx → EReal) (D : Cert.Spec.Sn1.Idx → EReal) (X : Cert.Spec.Snf.Idx → EReal)
    (Wl Wr : Cert.Spec.Sff.Idx → EReal)
    (x : Vec Ideal S5000x64 .f32) (d : Vec Ideal S5000x1 .f32) (a : Vec Ideal S5000x64 .f32) (wl wr : Vec Ideal S64x64 .f32) (r : ℕ)
    (ha : ∀ (y : S5000x64.Idx) (i : Cert.Spec.Snf.Idx), (i 0).val = r * 5000 + (y 0).val → (i 1).val = (y 1).val → a y = A i)
    (hd : ∀ (y : S5000x1.Idx) (i : Cert.Spec.Sn1.Idx), (i 0).val = r * 5000 + (y 0).val → (i 1).val = (y 1).val → d y = D i)
    (hx : ∀ (y : S5000x64.Idx) (i : Cert.Spec.Snf.Idx), (i 0).val = r * 5000 + (y 0).val → (i 1).val = (y 1).val → x y = X i)
    (hwl : wl = Wl) (hwr : wr = Wr)
    (j : S5000x64.Idx) (i : Cert.Spec.Snf.Idx) (hi0 : (i 0).val = r * 5000 + (j 0).val) (hi1 : (i 1).val = (j 1).val) :
    k3_pay1 x d a wl wr j = Cert.Spec.sageG false A D X Wl Wr i := by
  obtain ⟨p, q, rfl⟩ : ∃ (p : Fin 5000) (q : Fin 64), j = ix2 p q := ⟨j 0, j 1, eq_ix2 j⟩
  have hq : i 1 = q := Fin.ext hi1
  rw [pay3_at, blkPre_eq A D X Wl Wr x d a wl wr r ha hd hx hwl hwr p q (i 0) hi0]
  unfold Cert.Spec.sageG Cert.Spec.sageAt
  rw [if_neg Bool.false_ne_true, hq]

/-- The zero offsets of a whole-block access, however spelt. -/
theorem hz : (![0, 0] : Fin 2 → Nat) = fun _ => 0 := funext fun a => by fin_cases a <;> rfl

end Cert.KernelIdeal.SagePayload

end
-- ==== Proof.SageRegion0.lean ====
/-
  Region 0 of the program (one SAGE layer with its rectifier), read as one function of the arrays it finds.

  The region's grid has 20 points; point `t` stages rows `5000 t … 5000 t + 4999` of the neighbourhood sum, of the
  self-loop column and of the layer's input, and the two weights whole, and writes back rows `5000 t … 5000 t + 4999`
  of the result.  What a point writes back is its block of the layer's whole-array function of the arrays as the
  region finds them; the twenty blocks cover the result; so the result array ends holding that function.
-/
import proofs.«169779_j77360950935705_2_alg».proof.Proof.Gen.KernelIdeal.Frame
import proofs.«169779_j77360950935705_2_alg».proof.Proof.Spec
import proofs.«169779_j77360950935705_2_alg».proof.Proof.SagePayload
import Idealize.ShloMosaic.Lib.Pipeline.Value

noncomputable section

namespace Cert.KernelIdeal.SageRegion

open Cert.KernelIdeal Cert.KernelIdeal.Gen Cert.KernelIdeal.SagePayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps over the grid: the three per-node windows move with the result's window, whose block index
    is the point's number; the two weights stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's whole-array function of the arrays the region finds. -/
abbrev G0 (c : Dev nD) : S100000x64.Idx → EReal :=
  Cert.Spec.sageG true (V c (Pipeline.arrRef spec0 0)) (V c (Pipeline.arrRef spec0 1)) (V c (Pipeline.arrRef spec0 2))
    (V c (Pipeline.arrRef spec0 3)) (V c (Pipeline.arrRef spec0 4))

/-- What point `t` writes back is block `t` of the layer's function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S5000x1) hz, View.ld_unit_zero (S := S64x64) hz]
  obtain ⟨a0, a1, d0, d1, x0, x1, l0, l1, r0, r1, o0, o1⟩ := idx_facts0 t
  funext j
  show k0_pay1 (iblk0 V c 2 t) (iblk0 V c 1 t) (iblk0 V c 0 t) (iblk0 V c 3 t) (iblk0 V c 4 t) j
    = G0 V c (((cfg0.win 5).blk t).view.emb j)
  refine pay0_blk _ _ _ _ _ _ _ _ _ _ t.val ?_ ?_ ?_ ?_ ?_ j _ ?_ ?_
  · intro y i h0 h1
    show V c (Pipeline.arrRef spec0 0) (((cfg0.win 0).blk t).view.emb y) = V c (Pipeline.arrRef spec0 0) i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · intro y i h0 h1
    show V c (Pipeline.arrRef spec0 1) (((cfg0.win 1).blk t).view.emb y) = V c (Pipeline.arrRef spec0 1) i
    refine congrArg _ (funext fun a => Fin.ext ?_)
    match a with
    | ⟨0, _⟩ => show win0_1.index t (0 : Fin 2) * 5000 + 1 * (y 0).val = (i 0).val; omega
    | ⟨1, _⟩ => show win0_1.index t (1 : Fin 2) * 1 + 1 * (y 1).val = (i 1).val; omega
  · intro y i h0 h1
    show V c (Pipeline.arrRef spec0 2) (((cfg0.win 2).blk t).view.emb y) = V c (Pipeline.arrRef spec0 2) i
    refine congrArg _ (funext fun a => Fin.ext ?_)
    match a with
    | ⟨0, _⟩ => show win0_2.index t (0 : Fin 2) * 5000 + 1 * (y 0).val = (i 0).val; omega
    | ⟨1, _⟩ => show win0_2.index t (1 : Fin 2) * 64 + 1 * (y 1).val = (i 1).val; omega
  · funext y
    show V c (Pipeline.arrRef spec0 3) (((cfg0.win 3).blk t).view.emb y) = V c (Pipeline.arrRef spec0 3) y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  · show win0_5.index t (0 : Fin 2) * 5000 + 1 * (j 0).val = t.val * 5000 + (j 0).val; omega
  · show win0_5.index t (1 : Fin 2) * 64 + 1 * (j 1).val = (j 1).val; omega

/-- An index of the result is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v169).slice (win0_5.rect t)).set ↔ _
  rw [View.set_slice_whole, Rect.mem_set_unit]
  exact Iff.rfl

/-- Row `n` of the result is in the block of point `n / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  obtain ⟨-, -, -, -, -, -, -, -, -, -, o0, o1⟩ := idx_facts0 ⟨(i 0).val / 5000, by rw [hN]; omega⟩
  rw [mem_blk0]
  intro a
  match a with
  | ⟨0, _⟩ =>
    show win0_5.index _ (0 : Fin 2) * 5000 ≤ (i 0).val ∧ (i 0).val < win0_5.index _ (0 : Fin 2) * 5000 + 5000
    rw [o0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [o1]; omega

/-- After the region the result array holds the layer's function of the arrays the region found. -/
theorem arr0 (c : Dev nD) :
    (dat0 V c).arrAt 5 cfg0.N = Cert.Spec.sageG true (V c (Pipeline.arrRef spec0 0)) (V c (Pipeline.arrRef spec0 1))
      (V c (Pipeline.arrRef spec0 2)) (V c (Pipeline.arrRef spec0 3)) (V c (Pipeline.arrRef spec0 4)) :=
  (dat0 V c).arrAt_eq_of_cover 5 (G0 V c) (fun t _ => flushed0 V c t) (cover0)

end Cert.KernelIdeal.SageRegion

end
-- ==== Proof.SageRegion1.lean ====
/-
  Region 1 of the program (one SAGE layer with its rectifier), read as one function of the arrays it finds.

  The region's grid has 20 points; point `t` stages rows `5000 t … 5000 t + 4999` of the neighbourhood sum, of the
  self-loop column and of the layer's input, and the two weights whole, and writes back rows `5000 t … 5000 t + 4999`
  of the result.  What a point writes back is its block of the layer's whole-array function of the arrays as the
  region finds them; the twenty blocks cover the result; so the result array ends holding that function.
-/
import proofs.«169779_j77360950935705_2_alg».proof.Proof.Gen.KernelIdeal.Frame
import proofs.«169779_j77360950935705_2_alg».proof.Proof.Spec
import proofs.«169779_j77360950935705_2_alg».proof.Proof.SagePayload
import Idealize.ShloMosaic.Lib.Pipeline.Value

noncomputable section

namespace Cert.KernelIdeal.SageRegion

open Cert.KernelIdeal Cert.KernelIdeal.Gen Cert.KernelIdeal.SagePayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps over the grid: the three per-node windows move with the result's window, whose block index
    is the point's number; the two weights stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer's whole-array function of the arrays the region finds. -/
abbrev G1 (c : Dev nD) : S100000x64.Idx → EReal :=
  Cert.Spec.sageG true (V c (Pipeline.arrRef spec1 0)) (V c (Pipeline.arrRef spec1 1)) (V c (Pipeline.arrRef spec1 2))
    (V c (Pipeline.arrRef spec1 3)) (V c (Pipeline.arrRef spec1 4))

/-- What point `t` writes back is block `t` of the layer's function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S64x64) hz]
  obtain ⟨a0, a1, d0, d1, x0, x1, l0, l1, r0, r1, o0, o1⟩ := idx_facts1 t
  funext j
  show k1_pay1 (iblk1 V c 2 t) (iblk1 V c 1 t) (iblk1 V c 0 t) (iblk1 V c 3 t) (iblk1 V c 4 t) j
    = G1 V c (((cfg1.win 5).blk t).view.emb j)
  refine pay1_blk _ _ _ _ _ _ _ _ _ _ t.val ?_ ?_ ?_ ?_ ?_ j _ ?_ ?_
  · intro y i h0 h1
    show V c (Pipeline.arrRef spec1 0) (((cfg1.win 0).blk t).view.emb y) = V c (Pipeline.arrRef spec1 0) i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 64 + 1 * (y 1).val = (i 1).val; omega
  · intro y i h0 h1
    show V c (Pipeline.arrRef spec1 1) (((cfg1.win 1).blk t).view.emb y) = V c (Pipeline.arrRef spec1 1) i
    refine congrArg _ (funext fun a => Fin.ext ?_)
    match a with
    | ⟨0, _⟩ => show win1_1.index t (0 : Fin 2) * 5000 + 1 * (y 0).val = (i 0).val; omega
    | ⟨1, _⟩ => show win1_1.index t (1 : Fin 2) * 1 + 1 * (y 1).val = (i 1).val; omega
  · intro y i h0 h1
    show V c (Pipeline.arrRef spec1 2) (((cfg1.win 2).blk t).view.emb y) = V c (Pipeline.arrRef spec1 2) i
    refine congrArg _ (funext fun a => Fin.ext ?_)
    match a with
    | ⟨0, _⟩ => show win1_2.index t (0 : Fin 2) * 5000 + 1 * (y 0).val = (i 0).val; omega
    | ⟨1, _⟩ => show win1_2.index t (1 : Fin 2) * 64 + 1 * (y 1).val = (i 1).val; omega
  · funext y
    show V c (Pipeline.arrRef spec1 3) (((cfg1.win 3).blk t).view.emb y) = V c (Pipeline.arrRef spec1 3) y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c (Pipeline.arrRef spec1 4) (((cfg1.win 4).blk t).view.emb y) = V c (Pipeline.arrRef spec1 4) y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · show win1_5.index t (0 : Fin 2) * 5000 + 1 * (j 0).val = t.val * 5000 + (j 0).val; omega
  · show win1_5.index t (1 : Fin 2) * 64 + 1 * (j 1).val = (j 1).val; omega

/-- An index of the result is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v171).slice (win1_5.rect t)).set ↔ _
  rw [View.set_slice_whole, Rect.mem_set_unit]
  exact Iff.rfl

/-- Row `n` of the result is in the block of point `n / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  obtain ⟨-, -, -, -, -, -, -, -, -, -, o0, o1⟩ := idx_facts1 ⟨(i 0).val / 5000, by rw [hN]; omega⟩
  rw [mem_blk1]
  intro a
  match a with
  | ⟨0, _⟩ =>
    show win1_5.index _ (0 : Fin 2) * 5000 ≤ (i 0).val ∧ (i 0).val < win1_5.index _ (0 : Fin 2) * 5000 + 5000
    rw [o0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [o1]; omega

/-- After the region the result array holds the layer's function of the arrays the region found. -/
theorem arr1 (c : Dev nD) :
    (dat1 V c).arrAt 5 cfg1.N = Cert.Spec.sageG true (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 5 (G1 V c) (fun t _ => flushed1 V c t) (cover1)

end Cert.KernelIdeal.SageRegion

end
-- ==== Proof.SageRegion2.lean ====
/-
  Region 2 of the program (one SAGE layer, no rectifier), read as one function of the arrays it finds.

  The region's grid has 20 points; point `t` stages rows `5000 t … 5000 t + 4999` of the neighbourhood sum, of the
  self-loop column and of the layer's input, and the two weights whole, and writes back rows `5000 t … 5000 t + 4999`
  of the result.  What a point writes back is its block of the layer's whole-array function of the arrays as the
  region finds them; the twenty blocks cover the result; so the result array ends holding that function.
-/
import proofs.«169779_j77360950935705_2_alg».proof.Proof.Gen.KernelIdeal.Frame
import proofs.«169779_j77360950935705_2_alg».proof.Proof.Spec
import proofs.«169779_j77360950935705_2_alg».proof.Proof.SagePayload
import Idealize.ShloMosaic.Lib.Pipeline.Value

noncomputable section

namespace Cert.KernelIdeal.SageRegion

open Cert.KernelIdeal Cert.KernelIdeal.Gen Cert.KernelIdeal.SagePayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps over the grid: the three per-node windows move with the result's window, whose block index
    is the point's number; the two weights stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer's whole-array function of the arrays the region finds. -/
abbrev G2 (c : Dev nD) : S100000x64.Idx → EReal :=
  Cert.Spec.sageG false (V c (Pipeline.arrRef spec2 0)) (V c (Pipeline.arrRef spec2 1)) (V c (Pipeline.arrRef spec2 2))
    (V c (Pipeline.arrRef spec2 3)) (V c (Pipeline.arrRef spec2 4))

/-- What point `t` writes back is block `t` of the layer's function. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S64x64) hz]
  obtain ⟨a0, a1, d0, d1, x0, x1, l0, l1, r0, r1, o0, o1⟩ := idx_facts2 t
  funext j
  show k2_pay1 (iblk2 V c 2 t) (iblk2 V c 1 t) (iblk2 V c 0 t) (iblk2 V c 3 t) (iblk2 V c 4 t) j
    = G2 V c (((cfg2.win 5).blk t).view.emb j)
  refine pay2_blk _ _ _ _ _ _ _ _ _ _ t.val ?_ ?_ ?_ ?_ ?_ j _ ?_ ?_
  · intro y i h0 h1
    show V c (Pipeline.arrRef spec2 0) (((cfg2.win 0).blk t).view.emb y) = V c (Pipeline.arrRef spec2 0) i
    refine congrArg _ (funext fun a => Fin.ext ?_)
    match a with
    | ⟨0, _⟩ => show win2_0.index t (0 : Fin 2) * 5000 + 1 * (y 0).val = (i 0).val; omega
    | ⟨1, _⟩ => show win2_0.index t (1 : Fin 2) * 64 + 1 * (y 1).val = (i 1).val; omega
  · intro y i h0 h1
    show V c (Pipeline.arrRef spec2 1) (((cfg2.win 1).blk t).view.emb y) = V c (Pipeline.arrRef spec2 1) i
    refine congrArg _ (funext fun a => Fin.ext ?_)
    match a with
    | ⟨0, _⟩ => show win2_1.index t (0 : Fin 2) * 5000 + 1 * (y 0).val = (i 0).val; omega
    | ⟨1, _⟩ => show win2_1.index t (1 : Fin 2) * 1 + 1 * (y 1).val = (i 1).val; omega
  · intro y i h0 h1
    show V c (Pipeline.arrRef spec2 2) (((cfg2.win 2).blk t).view.emb y) = V c (Pipeline.arrRef spec2 2) i
    refine congrArg _ (funext fun a => Fin.ext ?_)
    match a with
    | ⟨0, _⟩ => show win2_2.index t (0 : Fin 2) * 5000 + 1 * (y 0).val = (i 0).val; omega
    | ⟨1, _⟩ => show win2_2.index t (1 : Fin 2) * 64 + 1 * (y 1).val = (i 1).val; omega
  · funext y
    show V c (Pipeline.arrRef spec2 3) (((cfg2.win 3).blk t).view.emb y) = V c (Pipeline.arrRef spec2 3) y
    refine congrArg _ (funext fun a => Fin.ext ?_)
    match a with
    | ⟨0, _⟩ => show win2_3.index t (0 : Fin 2) * 64 + 1 * (y 0).val = (y 0).val; omega
    | ⟨1, _⟩ => show win2_3.index t (1 : Fin 2) * 64 + 1 * (y 1).val = (y 1).val; omega
  · funext y
    show V c (Pipeline.arrRef spec2 4) (((cfg2.win 4).blk t).view.emb y) = V c (Pipeline.arrRef spec2 4) y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  · show win2_5.index t (0 : Fin 2) * 5000 + 1 * (j 0).val = t.val * 5000 + (j 0).val; omega
  · show win2_5.index t (1 : Fin 2) * 64 + 1 * (j 1).val = (j 1).val; omega

/-- An index of the result is in point `t`'s block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v197).slice (win2_5.rect t)).set ↔ _
  rw [View.set_slice_whole, Rect.mem_set_unit]
  exact Iff.rfl

/-- Row `n` of the result is in the block of point `n / 5000`. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_5 _, ?_⟩
  obtain ⟨-, -, -, -, -, -, -, -, -, -, o0, o1⟩ := idx_facts2 ⟨(i 0).val / 5000, by rw [hN]; omega⟩
  rw [mem_blk2]
  intro a
  match a with
  | ⟨0, _⟩ =>
    show win2_5.index _ (0 : Fin 2) * 5000 ≤ (i 0).val ∧ (i 0).val < win2_5.index _ (0 : Fin 2) * 5000 + 5000
    rw [o0]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [o1]; omega

/-- After the region the result array holds the layer's function of the arrays the region found. -/
theorem arr2 (c : Dev nD) :
    (dat2 V c).arrAt 5 cfg2.N = Cert.Spec.sageG false (V c (Pipeline.arrRef spec2 0)) (V c (Pipeline.arrRef spec2 1))
      (V c (Pipeline.arrRef spec2 2)) (V c (Pipeline.arrRef spec2 3)) (V c (Pipeline.arrRef spec2 4)) :=
  (dat2 V c).arrAt_eq_of_cover 5 (G2 V c) (fun t _ => flushed2 V c t) (cover2)

end Cert.KernelIdeal.SageRegion

end
-- ==== Proof.SageRegion3.lean ====
/-
  Region 3 of the program (one SAGE layer, no rectifier), read as one function of the arrays it finds.

  The region's grid has 20 points; point `t` stages rows `5000 t … 5000 t + 4999` of the neighbourhood sum, of the
  self-loop column and of the layer's input, and the two weights whole, and writes back rows `5000 t … 5000 t + 4999`
  of the result.  What a point writes back is its block of the layer's whole-array function of the arrays as the
  region finds them; the twenty blocks cover the result; so the result array ends holding that function.
-/
import proofs.«169779_j77360950935705_2_alg».proof.Proof.Gen.KernelIdeal.Frame
import proofs.«169779_j77360950935705_2_alg».proof.Proof.Spec
import proofs.«169779_j77360950935705_2_alg».proof.Proof.SagePayload
import Idealize.ShloMosaic.Lib.Pipeline.Value

noncomputable section

namespace Cert.KernelIdeal.SageRegion

open Cert.KernelIdeal Cert.KernelIdeal.Gen Cert.KernelIdeal.SagePayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The index maps over the grid: the three per-node windows move with the result's window, whose block index
    is the point's number; the two weights stay at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The layer's whole-array function of the arrays the region finds. -/
abbrev G3 (c : Dev nD) : S100000x64.Idx → EReal :=
  Cert.Spec.sageG false (V c (Pipeline.arrRef spec3 0)) (V c (Pipeline.arrRef spec3 1)) (V c (Pipeline.arrRef spec3 2))
    (V c (Pipeline.arrRef spec3 3)) (V c (Pipeline.arrRef spec3 4))

/-- What point `t` writes back is block `t` of the layer's function. -/
theorem flushed3 (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S5000x1) hz, View.ld_unit_zero (S := S64x64) hz]
  obtain ⟨a0, a1, d0, d1, x0, x1, l0, l1, r0, r1, o0, o1⟩ := idx_facts3 t
  funext j
  show k3_pay1 (iblk3 V c 2 t) (iblk3 V c 1 t) (iblk3 V c 0 t) (iblk3 V c 3 t) (iblk3 V c 4 t) j
    = G3 V c (((cfg3.win 5).blk t).view.emb j)
  refine pay3_blk _ _ _ _ _ _ _ _ _ _ t.val ?_ ?_ ?_ ?_ ?_ j _ ?_ ?_
  · intro y i h0 h1
    show V c (Pipeline.arrRef spec3 0) (((cfg3.win 0).blk t).view.emb y) = V c (Pipeline.arrRef spec3 0) i
    refine congrArg _ (funext fun a => Fin.ext ?_)
    match a with
    | ⟨0, _⟩ => show win3_0.index t (0 : Fin 2) * 5000 + 1 * (y 0).val = (i 0).val; omega
    | ⟨1, _⟩ => show win3_0.index t (1 : Fin 2) * 64 + 1 * (y 1).val = (i 1).val; omega
  · intro y i h0 h1
    show V c (Pipeline.arrRef spec3 1) (((cfg3.win 1).blk t).view.emb y) = V c (Pipeline.arrRef spec3 1) i
    refine congrArg _ (funext fun a => Fin.ext ?_)
    match a with
    | ⟨0, _⟩ => show win3_1.index t (0 : Fin 2) * 5000 + 1 * (y 0).val = (i 0).val; omega
    | ⟨1, _⟩ => show win3_1.index t (1 : Fin 2) * 1 + 1 * (y 1).val = (i 1).val; omega
  · intro y i h0 h1
    show V c (Pipeline.arrRef spec3 2) (((cfg3.win 2).blk t).view.emb y) = V c (Pipeline.arrRef spec3 2) i
    refine congrArg _ (funext fun a => Fin.ext ?_)
    match a with
    | ⟨0, _⟩ => show win3_2.index t (0 : Fin 2) * 5000 + 1 * (y 0).val = (i 0).val; omega
    | ⟨1, _⟩ => show win3_2.index t (1 : Fin 2) * 64 + 1 * (y 1).val = (i 1).val; omega
  · funext y
    show V c (Pipeline.arrRef spec3 3) (((cfg3.win 3).blk t).view.emb y) = V c (Pipeline.arrRef spec3 3) y
    refine congrArg _ (funext fun a => Fin.ext ?_)
    match a with
    | ⟨0, _⟩ => show win3_3.index t (0 : Fin 2) * 64 + 1 * (y 0).val = (y 0).val; omega
    | ⟨1, _⟩ => show win3_3.index t (1 : Fin 2) * 64 + 1 * (y 1).val = (y 1).val; omega
  · funext y
    show V c (Pipeline.arrRef spec3 4) (((cfg3.win 4).blk t).view.emb y) = V c (Pipeline.arrRef spec3 4) y
    refine congrArg _ (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  · show win3_5.index t (0 : Fin 2) * 5000 + 1 * (j 0).val = t.val * 5000 + (j 0).val; omega
  · show win3_5.index t (1 : Fin 2) * 64 + 1 * (j 1).val = (j 1).val; omega

/-- An index of the result is in point `t`'s block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v199).slice (win3_5.rect t)).set ↔ _
  rw [View.set_slice_whole, Rect.mem_set_unit]
  exact Iff.rfl

/-- Row `n` of the result is in the block of point `n / 5000`. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_5 _, ?_⟩
  obtain ⟨-, -, -, -, -, -, -, -, -, -, o0, o1⟩ := idx_facts3 ⟨(i 0).val / 5000, by rw [hN]; omega⟩
  rw [mem_blk3]
  intro a
  match a with
  | ⟨0, _⟩ =>
    show win3_5.index _ (0 : Fin 2) * 5000 ≤ (i 0).val ∧ (i 0).val < win3_5.index _ (0 : Fin 2) * 5000 + 5000
    rw [o0]; show (i 0).val / 5000 * 5000 ≤ (i 0).val ∧ (i 0).val < (i 0).val / 5000 * 5000 + 5000; omega
  | ⟨1, _⟩ =>
    show win3_5.index _ (1 : Fin 2) * 64 ≤ (i 1).val ∧ (i 1).val < win3_5.index _ (1 : Fin 2) * 64 + 64
    rw [o1]; omega

/-- After the region the result array holds the layer's function of the arrays the region found. -/
theorem arr3 (c : Dev nD) :
    (dat3 V c).arrAt 5 cfg3.N = Cert.Spec.sageG false (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5 (G3 V c) (fun t _ => flushed3 V c t) (cover3)

end Cert.KernelIdeal.SageRegion

end
-- ==== Proof.SageRef.lean ====
/-
  The reference's four SAGE layers are the layer function of the specification.

  Each layer of the reference computes, from a neighbourhood sum `agg`, a self-loop column `diag`, an input `x` and two
  weights, the array `(agg + diag · x) Wl + x Wr` (the column broadcast along the channels), followed by `max · 0` in the
  first and third layers.  Read at an index, each product is the sum over the contracted axis, and the operands`
  indices are the coordinates `(n, k)`, `(k, q)`, `(n, 0)`.
-/
import proofs.«169779_j77360950935705_2_alg».proof.Proof.RefRead
import proofs.«169779_j77360950935705_2_alg».proof.Proof.Spec

noncomputable section

namespace Cert.ReferenceIdeal.SageRef

open Cert.ReferenceIdeal Cert.ReferenceIdeal.ReadP Idealize.ShloMosaic Idealize.ShloMosaic.ValueIdx

/-! ## The operands` indices by coordinates -/

/-- Row `n`, column `k` of a per-node array, from a function of the axis. -/
theorem nf_eq (i : S100000x64.Idx) (k : Fin 64) (f : S100000x64.Idx)
    (h0 : (f 0).val = (i 0).val) (h1 : (f 1).val = k.val) : f = @ix2 100000 64 (i 0) k :=
  funext fun a => Fin.ext (by
    match a with
    | ⟨0, _⟩ => exact h0
    | ⟨1, _⟩ => exact h1)

/-- Row `k`, column `q` of a weight. -/
theorem ff_eq (i : S100000x64.Idx) (k : Fin 64) (f : S64x64.Idx)
    (h0 : (f 0).val = k.val) (h1 : (f 1).val = (i 1).val) : f = @ix2 64 64 k (i 1) :=
  funext fun a => Fin.ext (by
    match a with
    | ⟨0, _⟩ => exact h0
    | ⟨1, _⟩ => exact h1)

/-- Row `n` of a column. -/
theorem n1_eq (i : S100000x64.Idx) (f : S100000x1.Idx)
    (h0 : (f 0).val = (i 0).val) (h1 : (f 1).val = 0) : f = @ix2 100000 1 (i 0) (0 : Fin 1) :=
  funext fun a => Fin.ext (by
    match a with
    | ⟨0, _⟩ => exact h0
    | ⟨1, _⟩ => exact h1)

/-- The zero the rectifier compares with. -/
theorem zero_word : FloatOps.ofBits (F := Ideal) .f32 0x00000000#32 = 0 := by
  rw [Ideal.ofBits_def, Ideal.ofBits_zero_f32]

/-! ## The four layers -/

/-- The first layer. -/
theorem layer1 (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 x4 : (⟨S64x64, .f32⟩ : BufTy).Contents (Elt Ideal)) :
    val_main_v167 (F := Ideal) x0 x1 x2 x3 x4
      = Cert.Spec.sageG true (val_main_v159 (F := Ideal) x0 x1 x2) (val_main_v160 (F := Ideal) x1 x2) x0 x3 x4 := by
  funext i
  rw [val_main_v167_apply, val_main_v166_apply, val_main_v164_apply, val_main_v165_apply, val_main_call8_v0_apply,
    val_main_call8_cst_apply, zero_word]
  unfold Cert.Spec.sageG Cert.Spec.sageAt Cert.Spec.sagePre
  rw [if_pos rfl]
  refine congrArg₂ max (congrArg₂ (· + ·) (Finset.sum_congr rfl fun k _ => ?_) (Finset.sum_congr rfl fun k _ => ?_)) rfl
  · rw [val_main_v163_apply, val_main_v162_apply, val_main_v161_apply,
      nf_eq i k (lidx_main_v164 i k) rfl rfl, ff_eq i k (ridx_main_v164 i k) rfl rfl,
      n1_eq i (idx_main_v161 (@ix2 100000 64 (i 0) k)) rfl rfl]
    rfl
  · rw [nf_eq i k (lidx_main_v165 i k) rfl rfl, ff_eq i k (ridx_main_v165 i k) rfl rfl]

/-- The second layer: its input is the first layer's output. -/
theorem layer2 (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x3 x4 x5 x6 : (⟨S64x64, .f32⟩ : BufTy).Contents (Elt Ideal)) :
    val_main_v187 (F := Ideal) x0 x1 x2 x3 x4 x5 x6
      = Cert.Spec.sageG false (val_main_v180 (F := Ideal) x0 x1 x2 x3 x4) (val_main_v181 (F := Ideal) x1 x2)
          (val_main_v167 (F := Ideal) x0 x1 x2 x3 x4) x5 x6 := by
  funext i
  rw [val_main_v187_apply, val_main_v185_apply, val_main_v186_apply]
  unfold Cert.Spec.sageG Cert.Spec.sageAt Cert.Spec.sagePre
  rw [if_neg Bool.false_ne_true]
  refine congrArg₂ (· + ·) (Finset.sum_congr rfl fun k _ => ?_) (Finset.sum_congr rfl fun k _ => ?_)
  · rw [val_main_v184_apply, val_main_v183_apply, val_main_v182_apply,
      nf_eq i k (lidx_main_v185 i k) rfl rfl, ff_eq i k (ridx_main_v185 i k) rfl rfl,
      n1_eq i (idx_main_v182 (@ix2 100000 64 (i 0) k)) rfl rfl]
    rfl
  · rw [nf_eq i k (lidx_main_v186 i k) rfl rfl, ff_eq i k (ridx_main_v186 i k) rfl rfl]

/-- The third layer. -/
theorem layer3 (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x7 x8 : (⟨S64x64, .f32⟩ : BufTy).Contents (Elt Ideal)) :
    val_main_v208 (F := Ideal) x0 x1 x2 x7 x8
      = Cert.Spec.sageG true (val_main_v200 (F := Ideal) x0 x1 x2) (val_main_v201 (F := Ideal) x1 x2) x0 x7 x8 := by
  funext i
  rw [val_main_v208_apply, val_main_v207_apply, val_main_v205_apply, val_main_v206_apply, val_main_call9_v0_apply,
    val_main_call9_cst_apply, zero_word]
  unfold Cert.Spec.sageG Cert.Spec.sageAt Cert.Spec.sagePre
  rw [if_pos rfl]
  refine congrArg₂ max (congrArg₂ (· + ·) (Finset.sum_congr rfl fun k _ => ?_) (Finset.sum_congr rfl fun k _ => ?_)) rfl
  · rw [val_main_v204_apply, val_main_v203_apply, val_main_v202_apply,
      nf_eq i k (lidx_main_v205 i k) rfl rfl, ff_eq i k (ridx_main_v205 i k) rfl rfl,
      n1_eq i (idx_main_v202 (@ix2 100000 64 (i 0) k)) rfl rfl]
    rfl
  · rw [nf_eq i k (lidx_main_v206 i k) rfl rfl, ff_eq i k (ridx_main_v206 i k) rfl rfl]

/-- The fourth layer: its input is the third layer's output. -/
theorem layer4 (x0 : (⟨S100000x64, .f32⟩ : BufTy).Contents (Elt Ideal)) (x1 : (⟨S2x1600000, .i32⟩ : BufTy).Contents (Elt Ideal))
    (x2 : (⟨S100000, .i32⟩ : BufTy).Contents (Elt Ideal)) (x7 x8 x9 x10 : (⟨S64x64, .f32⟩ : BufTy).Contents (Elt Ideal)) :
    val_main_v228 (F := Ideal) x0 x1 x2 x7 x8 x9 x10
      = Cert.Spec.sageG false (val_main_v221 (F := Ideal) x0 x1 x2 x7 x8) (val_main_v222 (F := Ideal) x1 x2)
          (val_main_v208 (F := Ideal) x0 x1 x2 x7 x8) x9 x10 := by
  funext i
  rw [val_main_v228_apply, val_main_v226_apply, val_main_v227_apply]
  unfold Cert.Spec.sageG Cert.Spec.sageAt Cert.Spec.sagePre
  rw [if_neg Bool.false_ne_true]
  refine congrArg₂ (· + ·) (Finset.sum_congr rfl fun k _ => ?_) (Finset.sum_congr rfl fun k _ => ?_)
  · rw [val_main_v225_apply, val_main_v224_apply, val_main_v223_apply,
      nf_eq i k (lidx_main_v226 i k) rfl rfl, ff_eq i k (ridx_main_v226 i k) rfl rfl,
      n1_eq i (idx_main_v223 (@ix2 100000 64 (i 0) k)) rfl rfl]
    rfl
  · rw [nf_eq i k (lidx_main_v227 i k) rfl rfl, ff_eq i k (ridx_main_v227 i k) rfl rfl]

end Cert.ReferenceIdeal.SageRef

end
-- ==== Proof.FinalRegion.lean ====
/-
  The gated head, region by region of the grid.

  The last region runs over 20 points; point `t` reads rows `5000 t … 5000 t + 4999` of the node features `x`, of the
  mixing column `lamx` and of the two branch outputs `xl`, `xh`, the whole of the weights `WX`, `linW`, of the two
  one-entry gates `laml`, `lamh` and of the bias row `linb`, and writes rows `5000 t …` of the result.

  * The body's payload at row `p`, class `q` of a block: with `xm (p, k) = ∑ j, x (p, j) · WX (j, k)`,
        ∑ k, max (lamx (p, 0) · xm (p, k) + laml · xl (p, k) + lamh · xh (p, k)) 0 · linW (k, q)  +  linb (0, q)
    (both products are exact sums at the extended reals, a change of format is the identity).
  * A row-blocked window's block at point `t` is rows `5000 t …` of its array, a whole-array window's block is its
    array; so what point `t` writes back is block `t` of `Spec.finalG` of the arrays as the region finds them.
  * Row `r` of the result lies in the block of point `r / 5000`, and every point writes back: the result array ends
    holding `Spec.finalG` of the arrays as the region finds them.
-/
import proofs.«169779_j77360950935705_2_alg».proof.Proof.Gen.KernelIdeal.Frame
import proofs.«169779_j77360950935705_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.FinalRegion

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The payload at an index -/

theorem lhs1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem rhs1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The first product: row `p` of the input block times column `k` of the square weight. -/
theorem mm1_apply (x0 : FVec Ideal S5000x64 .bf16) (WX : FVec Ideal S64x64 .bf16) (p : Fin 5000) (k : Fin 64) :
    matmul dot_S5000x64_S64x64_S5000x64_1_0_0_1_n_n none x0 WX (constant S5000x64 .f32 0x00000000#32) (ix2 p k)
      = ∑ j : Fin 64, x0 (ix2 p j) * WX (ix2 j k) := by
  simp only [matmul]
  rw [Ideal.matmul_constant_zero_apply, ← Equiv.sum_comp (contrEquiv1 dot_S5000x64_S64x64_S5000x64_1_0_0_1_n_n 64 rfl rfl).symm]
  refine Finset.sum_congr rfl fun j _ => ?_
  have hj := contrEquiv1_symm_val dot_S5000x64_S64x64_S5000x64_1_0_0_1_n_n 64 rfl rfl j
  have el : dot_S5000x64_S64x64_S5000x64_1_0_0_1_n_n.lhsIdx (ix2 p k) ((contrEquiv1 dot_S5000x64_S64x64_S5000x64_1_0_0_1_n_n 64 rfl rfl).symm j) = ix2 p j := funext fun a => Fin.ext (by
    match a with
    | ⟨0, _⟩ => exact lhs1_0 _ _
    | ⟨1, _⟩ => exact (dot_S5000x64_S64x64_S5000x64_1_0_0_1_n_n.lhsIdx_val_of_single rfl _ _).trans hj)
  have er : dot_S5000x64_S64x64_S5000x64_1_0_0_1_n_n.rhsIdx (ix2 p k) ((contrEquiv1 dot_S5000x64_S64x64_S5000x64_1_0_0_1_n_n 64 rfl rfl).symm j) = ix2 j k := funext fun a => Fin.ext (by
    match a with
    | ⟨0, _⟩ => exact (dot_S5000x64_S64x64_S5000x64_1_0_0_1_n_n.rhsIdx_val_of_single rfl _ _).trans hj
    | ⟨1, _⟩ => exact rhs1_1 _ _)
  rw [el, er]

theorem lhs2_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem rhs2_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The second product: row `p` of the hidden block times column `q` of the classifier's weight. -/
theorem mm2_apply (h : FVec Ideal S5000x64 .bf16) (W : FVec Ideal S64x40 .bf16) (p : Fin 5000) (q : Fin 40) :
    matmul dot_S5000x64_S64x40_S5000x40_1_0_0_1_n_n none h W (constant S5000x40 .f32 0x00000000#32) (ix2 p q)
      = ∑ k : Fin 64, h (ix2 p k) * W (ix2 k q) := by
  simp only [matmul]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact lhs2_0 _ _
    | ⟨1, _⟩ => exact (dot_S5000x64_S64x40_S5000x40_1_0_0_1_n_n.lhsIdx_val_of_single rfl _ _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (dot_S5000x64_S64x40_S5000x40_1_0_0_1_n_n.rhsIdx_val_of_single rfl _ _).trans hk
    | ⟨1, _⟩ => exact rhs2_1 _ _)
  rw [el, er]

/-- A column broadcast along the channels reads the column's entry of the row. -/
theorem bcast_col_apply {α : Type} (v : S5000x1.Idx → α) (h : S5000x1.Broadcasts S5000x64) (p : Fin 5000) (k : Fin 64) :
    broadcastTo S5000x64 v h (ix2 p k) = v (ix2 p (0 : Fin 1)) :=
  broadcastTo_apply v h (ix2 p k) (ix2 p (0 : Fin 1)) fun a => by
    match a with
    | ⟨0, _⟩ => rfl
    | ⟨1, _⟩ => rfl

/-- A one-entry array broadcast to the block reads its entry. -/
theorem bcast_one_apply {α : Type} (v : S1x1.Idx → α) (h : S1x1.Broadcasts S5000x64) (p : Fin 5000) (k : Fin 64) :
    broadcastTo S5000x64 v h (ix2 p k) = v (ix2 (0 : Fin 1) (0 : Fin 1)) :=
  broadcastTo_apply v h (ix2 p k) (ix2 (0 : Fin 1) (0 : Fin 1)) fun a => by
    match a with
    | ⟨0, _⟩ => rfl
    | ⟨1, _⟩ => rfl

/-- A row broadcast along the nodes reads the row's entry of the class. -/
theorem bcast_row_apply {α : Type} (v : S1x40.Idx → α) (h : S1x40.Broadcasts S5000x40) (p : Fin 5000) (q : Fin 40) :
    broadcastTo S5000x40 v h (ix2 p q) = v (ix2 (0 : Fin 1) q) :=
  broadcastTo_apply v h (ix2 p q) (ix2 (0 : Fin 1) q) fun a => by
    match a with
    | ⟨0, _⟩ => rfl
    | ⟨1, _⟩ => rfl

/-- The body's payload at row `p`, class `q` of the block. -/
theorem pay_apply (x0 : Vec Ideal S5000x64 .f32) (WX : Vec Ideal S64x64 .f32) (lamx : Vec Ideal S5000x1 .f32)
    (laml lamh : Vec Ideal S1x1 .f32) (xl xh : Vec Ideal S5000x64 .f32) (linW : Vec Ideal S64x40 .f32) (linb : Vec Ideal S1x40 .f32)
    (p : Fin 5000) (q : Fin 40) :
    k4_pay1 (F := Ideal) x0 WX lamx laml lamh xl xh linW linb (ix2 p q)
      = (∑ k : Fin 64, max (lamx (ix2 p (0 : Fin 1)) * (∑ j : Fin 64, x0 (ix2 p j) * WX (ix2 j k))
            + laml (ix2 (0 : Fin 1) (0 : Fin 1)) * xl (ix2 p k) + lamh (ix2 (0 : Fin 1) (0 : Fin 1)) * xh (ix2 p k)) 0 * linW (ix2 k q))
          + linb (ix2 (0 : Fin 1) q) := by
  unfold k4_pay1
  simp only [shapeCast_self]
  rw [addf_apply, mm2_apply, bcast_row_apply]
  refine congrArg (· + linb (ix2 (0 : Fin 1) q)) (Finset.sum_congr rfl fun k _ => ?_)
  rw [truncf_apply, truncf_apply, maximumf_apply, addf_apply, addf_apply, mulf_apply, mulf_apply, mulf_apply,
    bcast_col_apply, bcast_one_apply, bcast_one_apply, mm1_apply, broadcast_apply, Ideal.ofBits_def, Ideal.ofBits_zero_f32]
  simp only [truncf_apply]

/-- The payload of nine blocks that agree, where row `p`, class `q` reads them, with the arrays at node `n` is the
    gated head of the arrays at `(n, q)`. -/
theorem pay_eq_finalAt (A0 : Spec.Snf.Idx → EReal) (A1 : Spec.Sff.Idx → EReal) (A2 : Spec.Sn1.Idx → EReal) (A3 A4 : Spec.Snf.Idx → EReal)
    (A5 A6 : S1x1.Idx → EReal) (A7 : Spec.Sfc.Idx → EReal) (A8 : Spec.S1c.Idx → EReal)
    (b0 : Vec Ideal S5000x64 .f32) (b1 : Vec Ideal S64x64 .f32) (b2 : Vec Ideal S5000x1 .f32) (b3 b4 : Vec Ideal S5000x64 .f32)
    (b5 b6 : Vec Ideal S1x1 .f32) (b7 : Vec Ideal S64x40 .f32) (b8 : Vec Ideal S1x40 .f32)
    (n : Fin 100000) (p : Fin 5000) (q : Fin 40)
    (h0 : ∀ j : Fin 64, b0 (ix2 p j) = A0 (ix2 n j)) (h1 : ∀ (j k : Fin 64), b1 (ix2 j k) = A1 (ix2 j k))
    (h2 : b2 (ix2 p (0 : Fin 1)) = A2 (ix2 n (0 : Fin 1))) (h3 : ∀ k : Fin 64, b3 (ix2 p k) = A3 (ix2 n k))
    (h4 : ∀ k : Fin 64, b4 (ix2 p k) = A4 (ix2 n k)) (h5 : b5 (ix2 (0 : Fin 1) (0 : Fin 1)) = A5 (ix2 (0 : Fin 1) (0 : Fin 1)))
    (h6 : b6 (ix2 (0 : Fin 1) (0 : Fin 1)) = A6 (ix2 (0 : Fin 1) (0 : Fin 1))) (h7 : ∀ k : Fin 64, b7 (ix2 k q) = A7 (ix2 k q))
    (h8 : b8 (ix2 (0 : Fin 1) q) = A8 (ix2 (0 : Fin 1) q)) :
    k4_pay1 (F := Ideal) b0 b1 b2 b5 b6 b3 b4 b7 b8 (ix2 p q)
      = Spec.finalAt A0 A1 A2 A3 A4 (A5 (ix2 (0 : Fin 1) (0 : Fin 1))) (A6 (ix2 (0 : Fin 1) (0 : Fin 1))) A7 A8 n q := by
  rw [pay_apply]
  unfold Spec.finalAt Spec.hidAt
  simp only [h0, h1, h2, h3, h4, h5, h6, h7, h8]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, the whole-array windows at block zero. -/
theorem idx_facts : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0) :=
  (by decide +kernel : ∀ t : Fin grid4.N, _)

/-- The gated head of the arrays the region finds. -/
abbrev G4 (c : Dev nD) : Spec.Snc.Idx → EReal :=
  Spec.finalG (V c (Pipeline.arrRef spec4 0)) (V c (Pipeline.arrRef spec4 1)) (V c (Pipeline.arrRef spec4 2))
    (V c (Pipeline.arrRef spec4 3)) (V c (Pipeline.arrRef spec4 4))
    ((V c (Pipeline.arrRef spec4 5)) (ix2 (0 : Fin 1) (0 : Fin 1))) ((V c (Pipeline.arrRef spec4 6)) (ix2 (0 : Fin 1) (0 : Fin 1)))
    (V c (Pipeline.arrRef spec4 7)) (V c (Pipeline.arrRef spec4 8))

/-- A block of a row-blocked window at point `t` is rows `5000 t …` of its array; a whole-array window's block is its array. -/
theorem blk0 (c : Dev nD) (t : Fin cfg4.N) (p : Fin 5000) (j : Fin 64) (n : Fin 100000) (hn : n.val = t.val * 5000 + p.val) :
    (iblk4 V c 0 t : Vec Ideal S5000x64 .f32) (ix2 p j) = (V c (Pipeline.arrRef spec4 0) : Spec.Snf.Idx → EReal) (ix2 n j) := by
  obtain ⟨e0, e1⟩ := (idx_facts t).1
  unfold iblk4
  rw [View.read_apply]
  show V c (Pipeline.arrRef spec4 0) (((cfg4.win 0).blk t).view.emb (ix2 p j)) = _
  refine congrArg _ (funext fun a => Fin.ext ?_)
  match a with
  | ⟨0, _⟩ => show win4_0.index t (0 : Fin 2) * 5000 + 1 * p.val = n.val; omega
  | ⟨1, _⟩ => show win4_0.index t (1 : Fin 2) * 64 + 1 * j.val = j.val; omega

theorem blk1 (c : Dev nD) (t : Fin cfg4.N) (i : Fin 64) (j : Fin 64) :
    (iblk4 V c 1 t : Vec Ideal S64x64 .f32) (ix2 i j) = (V c (Pipeline.arrRef spec4 1) : S64x64.Idx → EReal) (ix2 i j) := by
  obtain ⟨e0, e1⟩ := (idx_facts t).2.1
  unfold iblk4
  rw [View.read_apply]
  show V c (Pipeline.arrRef spec4 1) (((cfg4.win 1).blk t).view.emb (ix2 i j)) = _
  refine congrArg _ (funext fun a => Fin.ext ?_)
  match a with
  | ⟨0, _⟩ => show win4_1.index t (0 : Fin 2) * 64 + 1 * i.val = i.val; omega
  | ⟨1, _⟩ => show win4_1.index t (1 : Fin 2) * 64 + 1 * j.val = j.val; omega

theorem blk2 (c : Dev nD) (t : Fin cfg4.N) (p : Fin 5000) (j : Fin 1) (n : Fin 100000) (hn : n.val = t.val * 5000 + p.val) :
    (iblk4 V c 2 t : Vec Ideal S5000x1 .f32) (ix2 p j) = (V c (Pipeline.arrRef spec4 2) : Spec.Sn1.Idx → EReal) (ix2 n j) := by
  obtain ⟨e0, e1⟩ := (idx_facts t).2.2.1
  unfold iblk4
  rw [View.read_apply]
  show V c (Pipeline.arrRef spec4 2) (((cfg4.win 2).blk t).view.emb (ix2 p j)) = _
  refine congrArg _ (funext fun a => Fin.ext ?_)
  match a with
  | ⟨0, _⟩ => show win4_2.index t (0 : Fin 2) * 5000 + 1 * p.val = n.val; omega
  | ⟨1, _⟩ => show win4_2.index t (1 : Fin 2) * 1 + 1 * j.val = j.val; omega

theorem blk3 (c : Dev nD) (t : Fin cfg4.N) (p : Fin 5000) (j : Fin 64) (n : Fin 100000) (hn : n.val = t.val * 5000 + p.val) :
    (iblk4 V c 3 t : Vec Ideal S5000x64 .f32) (ix2 p j) = (V c (Pipeline.arrRef spec4 3) : Spec.Snf.Idx → EReal) (ix2 n j) := by
  obtain ⟨e0, e1⟩ := (idx_facts t).2.2.2.1
  unfold iblk4
  rw [View.read_apply]
  show V c (Pipeline.arrRef spec4 3) (((cfg4.win 3).blk t).view.emb (ix2 p j)) = _
  refine congrArg _ (funext fun a => Fin.ext ?_)
  match a with
  | ⟨0, _⟩ => show win4_3.index t (0 : Fin 2) * 5000 + 1 * p.val = n.val; omega
  | ⟨1, _⟩ => show win4_3.index t (1 : Fin 2) * 64 + 1 * j.val = j.val; omega

theorem blk4 (c : Dev nD) (t : Fin cfg4.N) (p : Fin 5000) (j : Fin 64) (n : Fin 100000) (hn : n.val = t.val * 5000 + p.val) :
    (iblk4 V c 4 t : Vec Ideal S5000x64 .f32) (ix2 p j) = (V c (Pipeline.arrRef spec4 4) : Spec.Snf.Idx → EReal) (ix2 n j) := by
  obtain ⟨e0, e1⟩ := (idx_facts t).2.2.2.2.1
  unfold iblk4
  rw [View.read_apply]
  show V c (Pipeline.arrRef spec4 4) (((cfg4.win 4).blk t).view.emb (ix2 p j)) = _
  refine congrArg _ (funext fun a => Fin.ext ?_)
  match a with
  | ⟨0, _⟩ => show win4_4.index t (0 : Fin 2) * 5000 + 1 * p.val = n.val; omega
  | ⟨1, _⟩ => show win4_4.index t (1 : Fin 2) * 64 + 1 * j.val = j.val; omega

theorem blk5 (c : Dev nD) (t : Fin cfg4.N) (i : Fin 1) (j : Fin 1) :
    (iblk4 V c 5 t : Vec Ideal S1x1 .f32) (ix2 i j) = (V c (Pipeline.arrRef spec4 5) : S1x1.Idx → EReal) (ix2 i j) := by
  obtain ⟨e0, e1⟩ := (idx_facts t).2.2.2.2.2.1
  unfold iblk4
  rw [View.read_apply]
  show V c (Pipeline.arrRef spec4 5) (((cfg4.win 5).blk t).view.emb (ix2 i j)) = _
  refine congrArg _ (funext fun a => Fin.ext ?_)
  match a with
  | ⟨0, _⟩ => show win4_5.index t (0 : Fin 2) * 1 + 1 * i.val = i.val; omega
  | ⟨1, _⟩ => show win4_5.index t (1 : Fin 2) * 1 + 1 * j.val = j.val; omega

theorem blk6 (c : Dev nD) (t : Fin cfg4.N) (i : Fin 1) (j : Fin 1) :
    (iblk4 V c 6 t : Vec Ideal S1x1 .f32) (ix2 i j) = (V c (Pipeline.arrRef spec4 6) : S1x1.Idx → EReal) (ix2 i j) := by
  obtain ⟨e0, e1⟩ := (idx_facts t).2.2.2.2.2.2.1
  unfold iblk4
  rw [View.read_apply]
  show V c (Pipeline.arrRef spec4 6) (((cfg4.win 6).blk t).view.emb (ix2 i j)) = _
  refine congrArg _ (funext fun a => Fin.ext ?_)
  match a with
  | ⟨0, _⟩ => show win4_6.index t (0 : Fin 2) * 1 + 1 * i.val = i.val; omega
  | ⟨1, _⟩ => show win4_6.index t (1 : Fin 2) * 1 + 1 * j.val = j.val; omega

theorem blk7 (c : Dev nD) (t : Fin cfg4.N) (i : Fin 64) (j : Fin 40) :
    (iblk4 V c 7 t : Vec Ideal S64x40 .f32) (ix2 i j) = (V c (Pipeline.arrRef spec4 7) : S64x40.Idx → EReal) (ix2 i j) := by
  obtain ⟨e0, e1⟩ := (idx_facts t).2.2.2.2.2.2.2.1
  unfold iblk4
  rw [View.read_apply]
  show V c (Pipeline.arrRef spec4 7) (((cfg4.win 7).blk t).view.emb (ix2 i j)) = _
  refine congrArg _ (funext fun a => Fin.ext ?_)
  match a with
  | ⟨0, _⟩ => show win4_7.index t (0 : Fin 2) * 64 + 1 * i.val = i.val; omega
  | ⟨1, _⟩ => show win4_7.index t (1 : Fin 2) * 40 + 1 * j.val = j.val; omega

theorem blk8 (c : Dev nD) (t : Fin cfg4.N) (i : Fin 1) (j : Fin 40) :
    (iblk4 V c 8 t : Vec Ideal S1x40 .f32) (ix2 i j) = (V c (Pipeline.arrRef spec4 8) : S1x40.Idx → EReal) (ix2 i j) := by
  obtain ⟨e0, e1⟩ := (idx_facts t).2.2.2.2.2.2.2.2.1
  unfold iblk4
  rw [View.read_apply]
  show V c (Pipeline.arrRef spec4 8) (((cfg4.win 8).blk t).view.emb (ix2 i j)) = _
  refine congrArg _ (funext fun a => Fin.ext ?_)
  match a with
  | ⟨0, _⟩ => show win4_8.index t (0 : Fin 2) * 1 + 1 * i.val = i.val; omega
  | ⟨1, _⟩ => show win4_8.index t (1 : Fin 2) * 40 + 1 * j.val = j.val; omega

/-- What point `t` writes back is block `t` of the gated head of the arrays the region finds. -/
theorem flushed_eq (c : Dev nD) (t : Fin cfg4.N) :
    (dat4 V c).flushed 9 t = ((cfg4.win 9).blk t).view.read (Elt Ideal) (G4 V c) := by
  show (cfg4.win 9).cut (grid4.coords t) ((dat4 V c).after 9 t) = _
  rw [after4_9]
  unfold out4_9
  rw [View.canon_unit_zero hz]
  simp only [View.ld_unit_zero (S := S5000x64) hz, View.ld_unit_zero (S := S64x64) hz, View.ld_unit_zero (S := S5000x1) hz,
    View.ld_unit_zero (S := S1x1) hz, View.ld_unit_zero (S := S64x40) hz, View.ld_unit_zero (S := S1x40) hz]
  funext y
  obtain ⟨p, q, rfl⟩ : ∃ (p : Fin 5000) (q : Fin 40), y = ix2 p q := ⟨y 0, y 1, eq_ix2 y⟩
  obtain ⟨e0, e1⟩ := (idx_facts t).2.2.2.2.2.2.2.2.2
  have hN : grid4.N = 20 := N_4
  have ht : t.val < 20 := hN ▸ t.isLt
  have hn : t.val * 5000 + p.val < 100000 := by omega
  have hemb : ((cfg4.win 9).blk t).view.emb (ix2 p q) = (ix2 (⟨t.val * 5000 + p.val, hn⟩ : Fin 100000) q : Spec.Snc.Idx) :=
    funext fun a => Fin.ext (by
      match a with
      | ⟨0, _⟩ => show win4_9.index t (0 : Fin 2) * 5000 + 1 * p.val = t.val * 5000 + p.val; omega
      | ⟨1, _⟩ => show win4_9.index t (1 : Fin 2) * 40 + 1 * q.val = q.val; omega)
  rw [View.read_apply]
  show k4_pay1 (F := Ideal) (iblk4 V c 0 t) (iblk4 V c 1 t) (iblk4 V c 2 t) (iblk4 V c 5 t) (iblk4 V c 6 t) (iblk4 V c 3 t)
      (iblk4 V c 4 t) (iblk4 V c 7 t) (iblk4 V c 8 t) (ix2 p q) = G4 V c (((cfg4.win 9).blk t).view.emb (ix2 p q))
  rw [hemb]
  exact pay_eq_finalAt (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))
    (V c (Pipeline.arrRef spec4 7)) (V c (Pipeline.arrRef spec4 8))
    (iblk4 V c 0 t) (iblk4 V c 1 t) (iblk4 V c 2 t) (iblk4 V c 3 t) (iblk4 V c 4 t) (iblk4 V c 5 t) (iblk4 V c 6 t) (iblk4 V c 7 t) (iblk4 V c 8 t)
    ⟨t.val * 5000 + p.val, hn⟩ p q
    (fun j => blk0 V c t p j ⟨t.val * 5000 + p.val, hn⟩ rfl) (fun j k => blk1 V c t j k)
    (blk2 V c t p 0 ⟨t.val * 5000 + p.val, hn⟩ rfl) (fun k => blk3 V c t p k ⟨t.val * 5000 + p.val, hn⟩ rfl)
    (fun k => blk4 V c t p k ⟨t.val * 5000 + p.val, hn⟩ rfl) (blk5 V c t 0 0) (blk6 V c t 0 0) (fun k => blk7 V c t k q) (blk8 V c t 0 q)

/-- An index of the result is in point `t`'s block iff each coordinate is in the block's range on its axis. -/
theorem mem_blk (t : Fin cfg4.N) (i : Spec.Snc.Idx) :
    i ∈ ((cfg4.win 9).blk t).view.set ↔ ∀ a : Fin 2, win4_9.index t a * S5000x40.size a ≤ (i a).val ∧ (i a).val < win4_9.index t a * S5000x40.size a + S5000x40.size a := by
  show i ∈ ((View.whole main_v237).slice (win4_9.rect t)).set ↔ _
  rw [View.set_slice_whole, Rect.mem_set_unit]
  exact Iff.rfl

/-- Row `r` of the result is in the block of point `r / 5000`, which writes back. -/
theorem cover (i : Spec.Snc.Idx) : ∃ t : Fin cfg4.N, (cfg4.win 9).flush t = true ∧ i ∈ ((cfg4.win 9).blk t).view.set := by
  have hN : grid4.N = 20 := N_4
  have hi0 : (i 0).val < 100000 := (i 0).isLt
  have hi1 : (i 1).val < 40 := (i 1).isLt
  have ht : (i 0).val / 5000 < cfg4.N := by show _ < grid4.N; rw [hN]; omega
  refine ⟨⟨(i 0).val / 5000, ht⟩, flush4_9 _, ?_⟩
  obtain ⟨e0, e1⟩ := (idx_facts ⟨(i 0).val / 5000, ht⟩).2.2.2.2.2.2.2.2.2
  rw [mem_blk]
  intro a
  match a with
  | ⟨0, _⟩ =>
    show win4_9.index ⟨(i 0).val / 5000, ht⟩ (0 : Fin 2) * 5000 ≤ (i 0).val ∧ (i 0).val < win4_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win4_9.index ⟨(i 0).val / 5000, ht⟩ (1 : Fin 2) * 40 ≤ (i 1).val ∧ (i 1).val < win4_9.index ⟨(i 0).val / 5000, ht⟩ (1 : Fin 2) * 40 + 40
    rw [e1]
    omega

/-- The result array after the region's write-backs is the gated head of the arrays the region finds. -/
theorem arr4 (c : Dev nD) :
    (dat4 V c).arrAt 9 cfg4.N = Spec.finalG (V c (Pipeline.arrRef spec4 0)) (V c (Pipeline.arrRef spec4 1)) (V c (Pipeline.arrRef spec4 2))
      (V c (Pipeline.arrRef spec4 3)) (V c (Pipeline.arrRef spec4 4))
      ((V c (Pipeline.arrRef spec4 5)) (ix2 (0 : Fin 1) (0 : Fin 1))) ((V c (Pipeline.arrRef spec4 6)) (ix2 (0 : Fin 1) (0 : Fin 1)))
      (V c (Pipeline.arrRef spec4 7)) (V c (Pipeline.arrRef spec4 8)) :=
  (dat4 V c).arrAt_eq_of_cover 9 (G4 V c) (fun t _ => flushed_eq V c t) cover

end Cert.KernelIdeal.FinalRegion

end
-- ==== Proof.FinalRef.lean ====
/-
  The reference's result is the gated head of its own intermediate arrays.

  The reference forms `xm = x · WX` as a `dot_general`, multiplies it by the mixing column broadcast along the channels,
  adds the two branch outputs each scaled by its scalar gate broadcast to the whole array, takes the maximum with the
  zero array, multiplies by the classifier's weight as a second `dot_general`, and adds the bias row broadcast along
  the nodes.  At the extended reals each `dot_general` read at an index is the exact sum over the contracted axis, so
  the result at `(n, q)` is
      ∑ k, max (lamx (n,0) · (∑ j, x (n,j) · WX (j,k)) + laml · xl (n,k) + lamh · xh (n,k)) 0 · linW (k,q)  +  linb (0,q),
  which is `Spec.finalAt`; the only work is to identify the composed index functions with the coordinates.
-/
import proofs.«169779_j77360950935705_2_alg».proof.Proof.RefRead
import proofs.«169779_j77360950935705_2_alg».proof.Proof.Spec
import Idealize.ShloMosaic.Lib.ValueIdx
import Idealize.ShloMosaic.PureOps.Ideal.Laws

set_option maxRecDepth 16384

noncomputable section

namespace Cert.FinalRef

open Cert.ReferenceIdeal Cert.ReferenceIdeal.ReadP
open Idealize.ShloMosaic Idealize.ShloMosaic.ValueIdx
open scoped BigOperators

/-- The reference's result array is the gated head of the node features, the weight `WX`, its mixing column, its two
    branch outputs, its two scalar gates, the classifier's weight and its bias row. -/
theorem result_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 x4 x5 x6 x7 x8 x9 x10 x11 : (⟨S64x64, .f32⟩ : BufTy).Contents (Elt Ideal)) (x12 x13 : (⟨S2, .f32⟩ : BufTy).Contents (Elt Ideal)) (x14 : (⟨S64x40, .f32⟩ : BufTy).Contents (Elt Ideal)) (x15 : (⟨S40, .f32⟩ : BufTy).Contents (Elt Ideal)) :
    val_main_v276 (F := Ideal) x0 x1 x2 x3 x4 x5 x6 x7 x8 x9 x10 x11 x12 x13 x14 x15
      = Spec.finalG x0 x11 (val_main_v263 (F := Ideal) x2 x12 x13) (val_main_v187 (F := Ideal) x0 x1 x2 x3 x4 x5 x6)
          (val_main_v228 (F := Ideal) x0 x1 x2 x7 x8 x9 x10) (val_main_v243 (F := Ideal) x12 ix0) (val_main_v257 (F := Ideal) x13 ix0)
          x14 (val_main_v274 (F := Ideal) x15) := by
  funext i
  obtain ⟨n, q, rfl⟩ : ∃ (n : Fin 100000) (q : Fin 40), i = ix2 n q := ⟨i 0, i 1, eq_ix2 i⟩
  show _ = Spec.finalAt x0 x11 (val_main_v263 (F := Ideal) x2 x12 x13) (val_main_v187 (F := Ideal) x0 x1 x2 x3 x4 x5 x6)
          (val_main_v228 (F := Ideal) x0 x1 x2 x7 x8 x9 x10) (val_main_v243 (F := Ideal) x12 ix0) (val_main_v257 (F := Ideal) x13 ix0)
          x14 (val_main_v274 (F := Ideal) x15) n q
  unfold Spec.finalAt Spec.hidAt
  have e275 : idx_main_v275 (ix2 n q) = ix2 (0 : Fin 1) q := funext fun a => by
    match a with
    | ⟨0, _⟩ => rfl
    | ⟨1, _⟩ => rfl
  rw [val_main_v276_apply, val_main_v273_apply, val_main_v275_apply, e275]
  simp only [Ideal.addf_def]
  refine congrArg (· + _) (Finset.sum_congr rfl fun k _ => ?_)
  have el : lidx_main_v273 (ix2 n q) k = ix2 n k := funext fun a => by
    match a with
    | ⟨0, _⟩ => rfl
    | ⟨1, _⟩ => rfl
  have er : ridx_main_v273 (ix2 n q) k = ix2 k q := funext fun a => by
    match a with
    | ⟨0, _⟩ => rfl
    | ⟨1, _⟩ => rfl
  have e264 : idx_main_v264 (ix2 n k) = ix2 n (0 : Fin 1) := funext fun a => by
    match a with
    | ⟨0, _⟩ => rfl
    | ⟨1, _⟩ => rfl
  rw [el, er, val_main_v272_apply, val_main_v271_apply, val_main_v268_apply, val_main_v265_apply, val_main_v264_apply, e264,
    val_main_v229_apply, val_main_v267_apply, val_main_v266_apply, val_main_v270_apply, val_main_v269_apply,
    val_main_call10_v0_apply, val_main_call10_cst_apply]
  simp only [Ideal.addf_def, Ideal.mulf_def, Ideal.maximumf_def, Ideal.ofBits_def, Ideal.ofBits_zero_f32]
  have el2 : ∀ j : Fin 64, lidx_main_v229 (ix2 n k) j = ix2 n j := fun j => funext fun a => by
    match a with
    | ⟨0, _⟩ => rfl
    | ⟨1, _⟩ => rfl
  have er2 : ∀ j : Fin 64, ridx_main_v229 (ix2 n k) j = ix2 j k := fun j => funext fun a => by
    match a with
    | ⟨0, _⟩ => rfl
    | ⟨1, _⟩ => rfl
  simp only [el2, er2]

end Cert.FinalRef

end
-- ==== Proof.FoldChain.lean ====
/-
  From the first region's entry to the result.

  At the first region's entry the buffers the later stages read hold the reference's stages (the common prefix, and the
  two neighbourhood sums: a scatter-add of a column-wise concatenation, sliced, is the scatter-add of each half).  Each
  region writes one SAGE layer of its entry arrays into its output array and leaves every other buffer alone; each host
  stretch between two regions writes the next layer's inputs.  So, boundary by boundary, every buffer still to be read
  holds the reference's stage, the four layer outputs included, and the last region writes the gated head of them:
  the reference's result.
-/
import proofs.«169779_j77360950935705_2_alg».proof.Proof.Gen.KernelIdeal.Frame
import proofs.«169779_j77360950935705_2_alg».proof.Proof.RefRead
import proofs.«169779_j77360950935705_2_alg».proof.Proof.FoldPrefix
import proofs.«169779_j77360950935705_2_alg».proof.Proof.FoldArgs
import proofs.«169779_j77360950935705_2_alg».proof.Proof.FoldAgg1
import proofs.«169779_j77360950935705_2_alg».proof.Proof.FoldAgg2
import proofs.«169779_j77360950935705_2_alg».proof.Proof.FoldTail
import proofs.«169779_j77360950935705_2_alg».proof.Proof.SageRegion0
import proofs.«169779_j77360950935705_2_alg».proof.Proof.SageRegion1
import proofs.«169779_j77360950935705_2_alg».proof.Proof.SageRegion2
import proofs.«169779_j77360950935705_2_alg».proof.Proof.SageRegion3
import proofs.«169779_j77360950935705_2_alg».proof.Proof.SageRef
import proofs.«169779_j77360950935705_2_alg».proof.Proof.FinalRegion
import proofs.«169779_j77360950935705_2_alg».proof.Proof.FinalRef

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- One host stretch evaluated at a buffer: the operations' results, outermost first, and a buffer the stretch does not
    write left as it was. -/
macro "stretch_simp" "[" ts:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ts,*])

/-! ## What the short host stretches between the regions leave untouched, over any contents `V` -/

section Stretches
variable (V : Valuation τ sig (Elt Ideal))

theorem keep19_v167 : StableHlo.after hostOps1 V (Proc.devRef .tc main_v167) = V (Proc.devRef .tc main_v167) := by
  stretch_simp [hostOps1]

theorem keep19_arg0 : StableHlo.after hostOps1 V (Proc.devRef .tc main_arg0) = V (Proc.devRef .tc main_arg0) := by
  stretch_simp [hostOps1]

theorem keep19_arg7 : StableHlo.after hostOps1 V (Proc.devRef .tc main_arg7) = V (Proc.devRef .tc main_arg7) := by
  stretch_simp [hostOps1]

theorem keep19_arg8 : StableHlo.after hostOps1 V (Proc.devRef .tc main_arg8) = V (Proc.devRef .tc main_arg8) := by
  stretch_simp [hostOps1]

theorem keep19_v169 : StableHlo.after hostOps1 V (Proc.devRef .tc main_v169) = V (Proc.devRef .tc main_v169) := by
  stretch_simp [hostOps1]

theorem keep19_v1 : StableHlo.after hostOps1 V (Proc.devRef .tc main_v1) = V (Proc.devRef .tc main_v1) := by
  stretch_simp [hostOps1]

theorem keep19_v3 : StableHlo.after hostOps1 V (Proc.devRef .tc main_v3) = V (Proc.devRef .tc main_v3) := by
  stretch_simp [hostOps1]

theorem keep19_v75 : StableHlo.after hostOps1 V (Proc.devRef .tc main_v75) = V (Proc.devRef .tc main_v75) := by
  stretch_simp [hostOps1]

theorem keep19_v145 : StableHlo.after hostOps1 V (Proc.devRef .tc main_v145) = V (Proc.devRef .tc main_v145) := by
  stretch_simp [hostOps1]

theorem keep19_v76 : StableHlo.after hostOps1 V (Proc.devRef .tc main_v76) = V (Proc.devRef .tc main_v76) := by
  stretch_simp [hostOps1]

theorem keep19_arg5 : StableHlo.after hostOps1 V (Proc.devRef .tc main_arg5) = V (Proc.devRef .tc main_arg5) := by
  stretch_simp [hostOps1]

theorem keep19_arg6 : StableHlo.after hostOps1 V (Proc.devRef .tc main_arg6) = V (Proc.devRef .tc main_arg6) := by
  stretch_simp [hostOps1]

theorem keep19_v146 : StableHlo.after hostOps1 V (Proc.devRef .tc main_v146) = V (Proc.devRef .tc main_v146) := by
  stretch_simp [hostOps1]

theorem keep19_arg9 : StableHlo.after hostOps1 V (Proc.devRef .tc main_arg9) = V (Proc.devRef .tc main_arg9) := by
  stretch_simp [hostOps1]

theorem keep19_arg10 : StableHlo.after hostOps1 V (Proc.devRef .tc main_arg10) = V (Proc.devRef .tc main_arg10) := by
  stretch_simp [hostOps1]

theorem keep19_arg12 : StableHlo.after hostOps1 V (Proc.devRef .tc main_arg12) = V (Proc.devRef .tc main_arg12) := by
  stretch_simp [hostOps1]

theorem keep19_arg13 : StableHlo.after hostOps1 V (Proc.devRef .tc main_arg13) = V (Proc.devRef .tc main_arg13) := by
  stretch_simp [hostOps1]

theorem keep19_arg15 : StableHlo.after hostOps1 V (Proc.devRef .tc main_arg15) = V (Proc.devRef .tc main_arg15) := by
  stretch_simp [hostOps1]

theorem keep19_v4 : StableHlo.after hostOps1 V (Proc.devRef .tc main_v4) = V (Proc.devRef .tc main_v4) := by
  stretch_simp [hostOps1]

theorem keep19_v6 : StableHlo.after hostOps1 V (Proc.devRef .tc main_v6) = V (Proc.devRef .tc main_v6) := by
  stretch_simp [hostOps1]

theorem keep19_arg11 : StableHlo.after hostOps1 V (Proc.devRef .tc main_arg11) = V (Proc.devRef .tc main_arg11) := by
  stretch_simp [hostOps1]

theorem keep19_arg14 : StableHlo.after hostOps1 V (Proc.devRef .tc main_arg14) = V (Proc.devRef .tc main_arg14) := by
  stretch_simp [hostOps1]

theorem keep21_v169 : StableHlo.after hostOps2 V (Proc.devRef .tc main_v169) = V (Proc.devRef .tc main_v169) := by
  stretch_simp [hostOps2]

theorem keep21_arg5 : StableHlo.after hostOps2 V (Proc.devRef .tc main_arg5) = V (Proc.devRef .tc main_arg5) := by
  stretch_simp [hostOps2]

theorem keep21_arg6 : StableHlo.after hostOps2 V (Proc.devRef .tc main_arg6) = V (Proc.devRef .tc main_arg6) := by
  stretch_simp [hostOps2]

theorem keep21_v146 : StableHlo.after hostOps2 V (Proc.devRef .tc main_v146) = V (Proc.devRef .tc main_v146) := by
  stretch_simp [hostOps2]

theorem keep21_v171 : StableHlo.after hostOps2 V (Proc.devRef .tc main_v171) = V (Proc.devRef .tc main_v171) := by
  stretch_simp [hostOps2]

theorem keep21_arg9 : StableHlo.after hostOps2 V (Proc.devRef .tc main_arg9) = V (Proc.devRef .tc main_arg9) := by
  stretch_simp [hostOps2]

theorem keep21_arg10 : StableHlo.after hostOps2 V (Proc.devRef .tc main_arg10) = V (Proc.devRef .tc main_arg10) := by
  stretch_simp [hostOps2]

theorem keep21_arg12 : StableHlo.after hostOps2 V (Proc.devRef .tc main_arg12) = V (Proc.devRef .tc main_arg12) := by
  stretch_simp [hostOps2]

theorem keep21_arg13 : StableHlo.after hostOps2 V (Proc.devRef .tc main_arg13) = V (Proc.devRef .tc main_arg13) := by
  stretch_simp [hostOps2]

theorem keep21_arg15 : StableHlo.after hostOps2 V (Proc.devRef .tc main_arg15) = V (Proc.devRef .tc main_arg15) := by
  stretch_simp [hostOps2]

theorem keep21_v4 : StableHlo.after hostOps2 V (Proc.devRef .tc main_v4) = V (Proc.devRef .tc main_v4) := by
  stretch_simp [hostOps2]

theorem keep21_v6 : StableHlo.after hostOps2 V (Proc.devRef .tc main_v6) = V (Proc.devRef .tc main_v6) := by
  stretch_simp [hostOps2]

theorem keep21_arg0 : StableHlo.after hostOps2 V (Proc.devRef .tc main_arg0) = V (Proc.devRef .tc main_arg0) := by
  stretch_simp [hostOps2]

theorem keep21_arg11 : StableHlo.after hostOps2 V (Proc.devRef .tc main_arg11) = V (Proc.devRef .tc main_arg11) := by
  stretch_simp [hostOps2]

theorem keep21_arg14 : StableHlo.after hostOps2 V (Proc.devRef .tc main_arg14) = V (Proc.devRef .tc main_arg14) := by
  stretch_simp [hostOps2]

theorem keep23_v195 : StableHlo.after hostOps3 V (Proc.devRef .tc main_v195) = V (Proc.devRef .tc main_v195) := by
  stretch_simp [hostOps3]

theorem keep23_v171 : StableHlo.after hostOps3 V (Proc.devRef .tc main_v171) = V (Proc.devRef .tc main_v171) := by
  stretch_simp [hostOps3]

theorem keep23_arg9 : StableHlo.after hostOps3 V (Proc.devRef .tc main_arg9) = V (Proc.devRef .tc main_arg9) := by
  stretch_simp [hostOps3]

theorem keep23_arg10 : StableHlo.after hostOps3 V (Proc.devRef .tc main_arg10) = V (Proc.devRef .tc main_arg10) := by
  stretch_simp [hostOps3]

theorem keep23_arg12 : StableHlo.after hostOps3 V (Proc.devRef .tc main_arg12) = V (Proc.devRef .tc main_arg12) := by
  stretch_simp [hostOps3]

theorem keep23_arg13 : StableHlo.after hostOps3 V (Proc.devRef .tc main_arg13) = V (Proc.devRef .tc main_arg13) := by
  stretch_simp [hostOps3]

theorem keep23_arg15 : StableHlo.after hostOps3 V (Proc.devRef .tc main_arg15) = V (Proc.devRef .tc main_arg15) := by
  stretch_simp [hostOps3]

theorem keep23_v4 : StableHlo.after hostOps3 V (Proc.devRef .tc main_v4) = V (Proc.devRef .tc main_v4) := by
  stretch_simp [hostOps3]

theorem keep23_v6 : StableHlo.after hostOps3 V (Proc.devRef .tc main_v6) = V (Proc.devRef .tc main_v6) := by
  stretch_simp [hostOps3]

theorem keep23_arg0 : StableHlo.after hostOps3 V (Proc.devRef .tc main_arg0) = V (Proc.devRef .tc main_arg0) := by
  stretch_simp [hostOps3]

theorem keep23_arg11 : StableHlo.after hostOps3 V (Proc.devRef .tc main_arg11) = V (Proc.devRef .tc main_arg11) := by
  stretch_simp [hostOps3]

theorem keep23_v197 : StableHlo.after hostOps3 V (Proc.devRef .tc main_v197) = V (Proc.devRef .tc main_v197) := by
  stretch_simp [hostOps3]

theorem keep23_arg14 : StableHlo.after hostOps3 V (Proc.devRef .tc main_arg14) = V (Proc.devRef .tc main_arg14) := by
  stretch_simp [hostOps3]

theorem keep25_arg0 : StableHlo.after hostOps4 V (Proc.devRef .tc main_arg0) = V (Proc.devRef .tc main_arg0) := by
  stretch_simp [hostOps4]

theorem keep25_arg11 : StableHlo.after hostOps4 V (Proc.devRef .tc main_arg11) = V (Proc.devRef .tc main_arg11) := by
  stretch_simp [hostOps4]

theorem keep25_v197 : StableHlo.after hostOps4 V (Proc.devRef .tc main_v197) = V (Proc.devRef .tc main_v197) := by
  stretch_simp [hostOps4]

theorem keep25_v199 : StableHlo.after hostOps4 V (Proc.devRef .tc main_v199) = V (Proc.devRef .tc main_v199) := by
  stretch_simp [hostOps4]

theorem keep25_arg14 : StableHlo.after hostOps4 V (Proc.devRef .tc main_arg14) = V (Proc.devRef .tc main_arg14) := by
  stretch_simp [hostOps4]

/-- the third layer's diagonal weights as a column -/
theorem make19_v170 (x1 : (⟨Cert.ReferenceIdeal.S2x1600000, .i32⟩ : BufTy).Contents (Elt Ideal)) (x2 : (⟨Cert.ReferenceIdeal.S100000, .i32⟩ : BufTy).Contents (Elt Ideal)) (h : V (no_index (Proc.devRef .tc main_v111)) = Cert.ReferenceIdeal.ReadP.val_main_v111 x1 x2) :
    StableHlo.after hostOps1 V (Proc.devRef .tc main_v170) = Cert.ReferenceIdeal.ReadP.val_main_v201 x1 x2 := by
  stretch_simp [hostOps1, h]
  try rfl

/-- the fourth layer's diagonal weights as a column -/
theorem make23_v198 (x1 : (⟨Cert.ReferenceIdeal.S2x1600000, .i32⟩ : BufTy).Contents (Elt Ideal)) (x2 : (⟨Cert.ReferenceIdeal.S100000, .i32⟩ : BufTy).Contents (Elt Ideal)) (h : V (no_index (Proc.devRef .tc main_v146)) = Cert.ReferenceIdeal.ReadP.val_main_v146 x1 x2) :
    StableHlo.after hostOps3 V (Proc.devRef .tc main_v198) = Cert.ReferenceIdeal.ReadP.val_main_v222 x1 x2 := by
  stretch_simp [hostOps3, h]
  try rfl

end Stretches

/-! ## The boundaries, from the first region's entry to the last region's -/

theorem c17_v166 : W17 m ρ c (no_index (Proc.devRef .tc main_v166)) = Cert.ReferenceIdeal.ReadP.val_main_v159 (m ((c : Thread nD τ).loc main_arg0)) (m ((c : Thread nD τ).loc main_arg1)) (m ((c : Thread nD τ).loc main_arg2)) :=
  Cert.KernelIdeal.Fold.agg1_v166 m ρ c (m ((c : Thread nD τ).loc main_arg0)) (m ((c : Thread nD τ).loc main_arg1)) (m ((c : Thread nD τ).loc main_arg2)) (Cert.KernelIdeal.Fold.w16_v40 m ρ c) (Cert.KernelIdeal.Fold.w16_v110 m ρ c) (Cert.KernelIdeal.Fold.w16_v1 m ρ c) (Cert.KernelIdeal.Fold.w16_v3 m ρ c) (Cert.KernelIdeal.Fold.w16_arg0 m ρ c)

theorem c17_v168 : W17 m ρ c (no_index (Proc.devRef .tc main_v168)) = Cert.ReferenceIdeal.ReadP.val_main_v160 (m ((c : Thread nD τ).loc main_arg1)) (m ((c : Thread nD τ).loc main_arg2)) :=
  Cert.KernelIdeal.Fold.agg1_v168 m ρ c (m ((c : Thread nD τ).loc main_arg1)) (m ((c : Thread nD τ).loc main_arg2)) (Cert.KernelIdeal.Fold.w16_v41 m ρ c)

theorem c17_arg0 : W17 m ρ c (no_index (Proc.devRef .tc main_arg0)) = (m ((c : Thread nD τ).loc main_arg0)) :=
  Cert.KernelIdeal.Fold.w17_arg0 m ρ c

theorem c17_arg3 : W17 m ρ c (no_index (Proc.devRef .tc main_arg3)) = (m ((c : Thread nD τ).loc main_arg3)) :=
  Cert.KernelIdeal.Fold.w17_arg3 m ρ c

theorem c17_arg4 : W17 m ρ c (no_index (Proc.devRef .tc main_arg4)) = (m ((c : Thread nD τ).loc main_arg4)) :=
  Cert.KernelIdeal.Fold.w17_arg4 m ρ c

theorem c17_v111 : W17 m ρ c (no_index (Proc.devRef .tc main_v111)) = Cert.ReferenceIdeal.ReadP.val_main_v111 (m ((c : Thread nD τ).loc main_arg1)) (m ((c : Thread nD τ).loc main_arg2)) :=
  Cert.KernelIdeal.Fold.w17_v111 m ρ c

theorem c17_v167 : W17 m ρ c (no_index (Proc.devRef .tc main_v167)) = Cert.ReferenceIdeal.ReadP.val_main_v200 (m ((c : Thread nD τ).loc main_arg0)) (m ((c : Thread nD τ).loc main_arg1)) (m ((c : Thread nD τ).loc main_arg2)) :=
  Cert.KernelIdeal.Fold.agg1_v167 m ρ c (m ((c : Thread nD τ).loc main_arg0)) (m ((c : Thread nD τ).loc main_arg1)) (m ((c : Thread nD τ).loc main_arg2)) (Cert.KernelIdeal.Fold.w16_v40 m ρ c) (Cert.KernelIdeal.Fold.w16_v110 m ρ c) (Cert.KernelIdeal.Fold.w16_v1 m ρ c) (Cert.KernelIdeal.Fold.w16_v3 m ρ c) (Cert.KernelIdeal.Fold.w16_arg0 m ρ c)

theorem c17_arg7 : W17 m ρ c (no_index (Proc.devRef .tc main_arg7)) = (m ((c : Thread nD τ).loc main_arg7)) :=
  Cert.KernelIdeal.Fold.w17_arg7 m ρ c

theorem c17_arg8 : W17 m ρ c (no_index (Proc.devRef .tc main_arg8)) = (m ((c : Thread nD τ).loc main_arg8)) :=
  Cert.KernelIdeal.Fold.w17_arg8 m ρ c

theorem c17_v1 : W17 m ρ c (no_index (Proc.devRef .tc main_v1)) = Cert.ReferenceIdeal.ReadP.val_main_v1 (m ((c : Thread nD τ).loc main_arg1)) :=
  Cert.KernelIdeal.Fold.w17_v1 m ρ c

theorem c17_v3 : W17 m ρ c (no_index (Proc.devRef .tc main_v3)) = Cert.ReferenceIdeal.ReadP.val_main_v3 (m ((c : Thread nD τ).loc main_arg1)) :=
  Cert.KernelIdeal.Fold.w17_v3 m ρ c

theorem c17_v75 : W17 m ρ c (no_index (Proc.devRef .tc main_v75)) = Cert.ReferenceIdeal.ReadP.val_main_v75 (m ((c : Thread nD τ).loc main_arg1)) (m ((c : Thread nD τ).loc main_arg2)) :=
  Cert.KernelIdeal.Fold.w17_v75 m ρ c

theorem c17_v145 : W17 m ρ c (no_index (Proc.devRef .tc main_v145)) = Cert.ReferenceIdeal.ReadP.val_main_v145 (m ((c : Thread nD τ).loc main_arg1)) (m ((c : Thread nD τ).loc main_arg2)) :=
  Cert.KernelIdeal.Fold.w17_v145 m ρ c

theorem c17_v76 : W17 m ρ c (no_index (Proc.devRef .tc main_v76)) = Cert.ReferenceIdeal.ReadP.val_main_v76 (m ((c : Thread nD τ).loc main_arg1)) (m ((c : Thread nD τ).loc main_arg2)) :=
  Cert.KernelIdeal.Fold.w17_v76 m ρ c

theorem c17_arg5 : W17 m ρ c (no_index (Proc.devRef .tc main_arg5)) = (m ((c : Thread nD τ).loc main_arg5)) :=
  Cert.KernelIdeal.Fold.w17_arg5 m ρ c

theorem c17_arg6 : W17 m ρ c (no_index (Proc.devRef .tc main_arg6)) = (m ((c : Thread nD τ).loc main_arg6)) :=
  Cert.KernelIdeal.Fold.w17_arg6 m ρ c

theorem c17_v146 : W17 m ρ c (no_index (Proc.devRef .tc main_v146)) = Cert.ReferenceIdeal.ReadP.val_main_v146 (m ((c : Thread nD τ).loc main_arg1)) (m ((c : Thread nD τ).loc main_arg2)) :=
  Cert.KernelIdeal.Fold.w17_v146 m ρ c

theorem c17_arg9 : W17 m ρ c (no_index (Proc.devRef .tc main_arg9)) = (m ((c : Thread nD τ).loc main_arg9)) :=
  Cert.KernelIdeal.Fold.w17_arg9 m ρ c

theorem c17_arg10 : W17 m ρ c (no_index (Proc.devRef .tc main_arg10)) = (m ((c : Thread nD τ).loc main_arg10)) :=
  Cert.KernelIdeal.Fold.w17_arg10 m ρ c

theorem c17_arg12 : W17 m ρ c (no_index (Proc.devRef .tc main_arg12)) = (m ((c : Thread nD τ).loc main_arg12)) :=
  Cert.KernelIdeal.Fold.w17_arg12 m ρ c

theorem c17_arg13 : W17 m ρ c (no_index (Proc.devRef .tc main_arg13)) = (m ((c : Thread nD τ).loc main_arg13)) :=
  Cert.KernelIdeal.Fold.w17_arg13 m ρ c

theorem c17_arg15 : W17 m ρ c (no_index (Proc.devRef .tc main_arg15)) = (m ((c : Thread nD τ).loc main_arg15)) :=
  Cert.KernelIdeal.Fold.w17_arg15 m ρ c

theorem c17_v4 : W17 m ρ c (no_index (Proc.devRef .tc main_v4)) = Cert.ReferenceIdeal.ReadP.val_main_v4 (m ((c : Thread nD τ).loc main_arg2)) :=
  Cert.KernelIdeal.Fold.w17_v4 m ρ c

theorem c17_v6 : W17 m ρ c (no_index (Proc.devRef .tc main_v6)) = Cert.ReferenceIdeal.ReadP.val_main_v6 (m ((c : Thread nD τ).loc main_arg2)) :=
  Cert.KernelIdeal.Fold.w17_v6 m ρ c

theorem c17_arg11 : W17 m ρ c (no_index (Proc.devRef .tc main_arg11)) = (m ((c : Thread nD τ).loc main_arg11)) :=
  Cert.KernelIdeal.Fold.w17_arg11 m ρ c

theorem c17_arg14 : W17 m ρ c (no_index (Proc.devRef .tc main_arg14)) = (m ((c : Thread nD τ).loc main_arg14)) :=
  Cert.KernelIdeal.Fold.w17_arg14 m ρ c

/-! ### Boundary 18 -/

theorem c18_v111 : W18 m ρ c (no_index (Proc.devRef .tc main_v111)) = Cert.ReferenceIdeal.ReadP.val_main_v111 (m ((c : Thread nD τ).loc main_arg1)) (m ((c : Thread nD τ).loc main_arg2)) :=
  (W18_of_ne m ρ c main_v111 (by decide)).trans (c17_v111 m ρ c)

theorem c18_v167 : W18 m ρ c (no_index (Proc.devRef .tc main_v167)) = Cert.ReferenceIdeal.ReadP.val_main_v200 (m ((c : Thread nD τ).loc main_arg0)) (m ((c : Thread nD τ).loc main_arg1)) (m ((c : Thread nD τ).loc main_arg2)) :=
  (W18_of_ne m ρ c main_v167 (by decide)).trans (c17_v167 m ρ c)

theorem c18_arg0 : W18 m ρ c (no_index (Proc.devRef .tc main_arg0)) = (m ((c : Thread nD τ).loc main_arg0)) :=
  ((W18_arr m ρ c 2).trans (((dat0 (V17 m ρ) c).arrAt_in 2 rfl _).trans (A_eq0 (V17 m ρ) c 2))).trans (c17_arg0 m ρ c)

theorem c18_arg7 : W18 m ρ c (no_index (Proc.devRef .tc main_arg7)) = (m ((c : Thread nD τ).loc main_arg7)) :=
  (W18_of_ne m ρ c main_arg7 (by decide)).trans (c17_arg7 m ρ c)

theorem c18_arg8 : W18 m ρ c (no_index (Proc.devRef .tc main_arg8)) = (m ((c : Thread nD τ).loc main_arg8)) :=
  (W18_of_ne m ρ c main_arg8 (by decide)).trans (c17_arg8 m ρ c)

set_option maxHeartbeats 8000000 in
theorem c18_v169 : W18 m ρ c (no_index (Proc.devRef .tc main_v169)) = Cert.ReferenceIdeal.ReadP.val_main_v167 (m ((c : Thread nD τ).loc main_arg0)) (m ((c : Thread nD τ).loc main_arg1)) (m ((c : Thread nD τ).loc main_arg2)) (m ((c : Thread nD τ).loc main_arg3)) (m ((c : Thread nD τ).loc main_arg4)) :=
  by
  refine (W18_arr m ρ c 5).trans ?_
  refine (Cert.KernelIdeal.SageRegion.arr0 (V17 m ρ) c).trans ?_
  refine Eq.trans ?_ (Cert.ReferenceIdeal.SageRef.layer1 (m ((c : Thread nD τ).loc main_arg0)) (m ((c : Thread nD τ).loc main_arg1)) (m ((c : Thread nD τ).loc main_arg2)) (m ((c : Thread nD τ).loc main_arg3)) (m ((c : Thread nD τ).loc main_arg4))).symm
  have e0 : V17 m ρ c (Pipeline.arrRef spec0 0) = Cert.ReferenceIdeal.ReadP.val_main_v159 (m ((c : Thread nD τ).loc main_arg0)) (m ((c : Thread nD τ).loc main_arg1)) (m ((c : Thread nD τ).loc main_arg2)) := c17_v166 m ρ c
  have e1 : V17 m ρ c (Pipeline.arrRef spec0 1) = Cert.ReferenceIdeal.ReadP.val_main_v160 (m ((c : Thread nD τ).loc main_arg1)) (m ((c : Thread nD τ).loc main_arg2)) := c17_v168 m ρ c
  have e2 : V17 m ρ c (Pipeline.arrRef spec0 2) = (m ((c : Thread nD τ).loc main_arg0)) := c17_arg0 m ρ c
  have e3 : V17 m ρ c (Pipeline.arrRef spec0 3) = (m ((c : Thread nD τ).loc main_arg3)) := c17_arg3 m ρ c
  have e4 : V17 m ρ c (Pipeline.arrRef spec0 4) = (m ((c : Thread nD τ).loc main_arg4)) := c17_arg4 m ρ c
  rw [e0, e1, e2, e3, e4]

theorem c18_v1 : W18 m ρ c (no_index (Proc.devRef .tc main_v1)) = Cert.ReferenceIdeal.ReadP.val_main_v1 (m ((c : Thread nD τ).loc main_arg1)) :=
  (W18_of_ne m ρ c main_v1 (by decide)).trans (c17_v1 m ρ c)

theorem c18_v3 : W18 m ρ c (no_index (Proc.devRef .tc main_v3)) = Cert.ReferenceIdeal.ReadP.val_main_v3 (m ((c : Thread nD τ).loc main_arg1)) :=
  (W18_of_ne m ρ c main_v3 (by decide)).trans (c17_v3 m ρ c)

theorem c18_v75 : W18 m ρ c (no_index (Proc.devRef .tc main_v75)) = Cert.ReferenceIdeal.ReadP.val_main_v75 (m ((c : Thread nD τ).loc main_arg1)) (m ((c : Thread nD τ).loc main_arg2)) :=
  (W18_of_ne m ρ c main_v75 (by decide)).trans (c17_v75 m ρ c)

theorem c18_v145 : W18 m ρ c (no_index (Proc.devRef .tc main_v145)) = Cert.ReferenceIdeal.ReadP.val_main_v145 (m ((c : Thread nD τ).loc main_arg1)) (m ((c : Thread nD τ).loc main_arg2)) :=
  (W18_of_ne m ρ c main_v145 (by decide)).trans (c17_v145 m ρ c)

theorem c18_v76 : W18 m ρ c (no_index (Proc.devRef .tc main_v76)) = Cert.ReferenceIdeal.ReadP.val_main_v76 (m ((c : Thread nD τ).loc main_arg1)) (m ((c : Thread nD τ).loc main_arg2)) :=
  (W18_of_ne m ρ c main_v76 (by decide)).trans (c17_v76 m ρ c)

theorem c18_arg5 : W18 m ρ c (no_index (Proc.devRef .tc main_arg5)) = (m ((c : Thread nD τ).loc main_arg5)) :=
  (W18_of_ne m ρ c main_arg5 (by decide)).trans (c17_arg5 m ρ c)

theorem c18_arg6 : W18 m ρ c (no_index (Proc.devRef .tc main_arg6)) = (m ((c : Thread nD τ).loc main_arg6)) :=
  (W18_of_ne m ρ c main_arg6 (by decide)).trans (c17_arg6 m ρ c)

theorem c18_v146 : W18 m ρ c (no_index (Proc.devRef .tc main_v146)) = Cert.ReferenceIdeal.ReadP.val_main_v146 (m ((c : Thread nD τ).loc main_arg1)) (m ((c : Thread nD τ).loc main_arg2)) :=
  (W18_of_ne m ρ c main_v146 (by decide)).trans (c17_v146 m ρ c)

theorem c18_arg9 : W18 m ρ c (no_index (Proc.devRef .tc main_arg9)) = (m ((c : Thread nD τ).loc main_arg9)) :=
  (W18_of_ne m ρ c main_arg9 (by decide)).trans (c17_arg9 m ρ c)

theorem c18_arg10 : W18 m ρ c (no_index (Proc.devRef .tc main_arg10)) = (m ((c : Thread nD τ).loc main_arg10)) :=
  (W18_of_ne m ρ c main_arg10 (by decide)).trans (c17_arg10 m ρ c)

theorem c18_arg12 : W18 m ρ c (no_index (Proc.devRef .tc main_arg12)) = (m ((c : Thread nD τ).loc main_arg12)) :=
  (W18_of_ne m ρ c main_arg12 (by decide)).trans (c17_arg12 m ρ c)

theorem c18_arg13 : W18 m ρ c (no_index (Proc.devRef .tc main_arg13)) = (m ((c : Thread nD τ).loc main_arg13)) :=
  (W18_of_ne m ρ c main_arg13 (by decide)).trans (c17_arg13 m ρ c)

theorem c18_arg15 : W18 m ρ c (no_index (Proc.devRef .tc main_arg15)) = (m ((c : Thread nD τ).loc main_arg15)) :=
  (W18_of_ne m ρ c main_arg15 (by decide)).trans (c17_arg15 m ρ c)

theorem c18_v4 : W18 m ρ c (no_index (Proc.devRef .tc main_v4)) = Cert.ReferenceIdeal.ReadP.val_main_v4 (m ((c : Thread nD τ).loc main_arg2)) :=
  (W18_of_ne m ρ c main_v4 (by decide)).trans (c17_v4 m ρ c)

theorem c18_v6 : W18 m ρ c (no_index (Proc.devRef .tc main_v6)) = Cert.ReferenceIdeal.ReadP.val_main_v6 (m ((c : Thread nD τ).loc main_arg2)) :=
  (W18_of_ne m ρ c main_v6 (by decide)).trans (c17_v6 m ρ c)

theorem c18_arg11 : W18 m ρ c (no_index (Proc.devRef .tc main_arg11)) = (m ((c : Thread nD τ).loc main_arg11)) :=
  (W18_of_ne m ρ c main_arg11 (by decide)).trans (c17_arg11 m ρ c)

theorem c18_arg14 : W18 m ρ c (no_index (Proc.devRef .tc main_arg14)) = (m ((c : Thread nD τ).loc main_arg14)) :=
  (W18_of_ne m ρ c main_arg14 (by decide)).trans (c17_arg14 m ρ c)

/-! ### Boundary 19 -/

theorem c19_v167 : W19 m ρ c (no_index (Proc.devRef .tc main_v167)) = Cert.ReferenceIdeal.ReadP.val_main_v200 (m ((c : Thread nD τ).loc main_arg0)) (m ((c : Thread nD τ).loc main_arg1)) (m ((c : Thread nD τ).loc main_arg2)) :=
  (keep19_v167 (W18 m ρ c)).trans (c18_v167 m ρ c)

theorem c19_v170 : W19 m ρ c (no_index (Proc.devRef .tc main_v170)) = Cert.ReferenceIdeal.ReadP.val_main_v201 (m ((c : Thread nD τ).loc main_arg1)) (m ((c : Thread nD τ).loc main_arg2)) :=
  make19_v170 (W18 m ρ c) (m ((c : Thread nD τ).loc main_arg1)) (m ((c : Thread nD τ).loc main_arg2)) (c18_v111 m ρ c)

theorem c19_arg0 : W19 m ρ c (no_index (Proc.devRef .tc main_arg0)) = (m ((c : Thread nD τ).loc main_arg0)) :=
  (keep19_arg0 (W18 m ρ c)).trans (c18_arg0 m ρ c)

theorem c19_arg7 : W19 m ρ c (no_index (Proc.devRef .tc main_arg7)) = (m ((c : Thread nD τ).loc main_arg7)) :=
  (keep19_arg7 (W18 m ρ c)).trans (c18_arg7 m ρ c)

theorem c19_arg8 : W19 m ρ c (no_index (Proc.devRef .tc main_arg8)) = (m ((c : Thread nD τ).loc main_arg8)) :=
  (keep19_arg8 (W18 m ρ c)).trans (c18_arg8 m ρ c)

theorem c19_v169 : W19 m ρ c (no_index (Proc.devRef .tc main_v169)) = Cert.ReferenceIdeal.ReadP.val_main_v167 (m ((c : Thread nD τ).loc main_arg0)) (m ((c : Thread nD τ).loc main_arg1)) (m ((c : Thread nD τ).loc main_arg2)) (m ((c : Thread nD τ).loc main_arg3)) (m ((c : Thread nD τ).loc main_arg4)) :=
  (keep19_v169 (W18 m ρ c)).trans (c18_v169 m ρ c)

theorem c19_v1 : W19 m ρ c (no_index (Proc.devRef .tc main_v1)) = Cert.ReferenceIdeal.ReadP.val_main_v1 (m ((c : Thread nD τ).loc main_arg1)) :=
  (keep19_v1 (W18 m ρ c)).trans (c18_v1 m ρ c)

theorem c19_v3 : W19 m ρ c (no_index (Proc.devRef .tc main_v3)) = Cert.ReferenceIdeal.ReadP.val_main_v3 (m ((c : Thread nD τ).loc main_arg1)) :=
  (keep19_v3 (W18 m ρ c)).trans (c18_v3 m ρ c)

theorem c19_v75 : W19 m ρ c (no_index (Proc.devRef .tc main_v75)) = Cert.ReferenceIdeal.ReadP.val_main_v75 (m ((c : Thread nD τ).loc main_arg1)) (m ((c : Thread nD τ).loc main_arg2)) :=
  (keep19_v75 (W18 m ρ c)).trans (c18_v75 m ρ c)

theorem c19_v145 : W19 m ρ c (no_index (Proc.devRef .tc main_v145)) = Cert.ReferenceIdeal.ReadP.val_main_v145 (m ((c : Thread nD τ).loc main_arg1)) (m ((c : Thread nD τ).loc main_arg2)) :=
  (keep19_v145 (W18 m ρ c)).trans (c18_v145 m ρ c)

theorem c19_v76 : W19 m ρ c (no_index (Proc.devRef .tc main_v76)) = Cert.ReferenceIdeal.ReadP.val_main_v76 (m ((c : Thread nD τ).loc main_arg1)) (m ((c : Thread nD τ).loc main_arg2)) :=
  (keep19_v76 (W18 m ρ c)).trans (c18_v76 m ρ c)

theorem c19_arg5 : W19 m ρ c (no_index (Proc.devRef .tc main_arg5)) = (m ((c : Thread nD τ).loc main_arg5)) :=
  (keep19_arg5 (W18 m ρ c)).trans (c18_arg5 m ρ c)

theorem c19_arg6 : W19 m ρ c (no_index (Proc.devRef .tc main_arg6)) = (m ((c : Thread nD τ).loc main_arg6)) :=
  (keep19_arg6 (W18 m ρ c)).trans (c18_arg6 m ρ c)

theorem c19_v146 : W19 m ρ c (no_index (Proc.devRef .tc main_v146)) = Cert.ReferenceIdeal.ReadP.val_main_v146 (m ((c : Thread nD τ).loc main_arg1)) (m ((c : Thread nD τ).loc main_arg2)) :=
  (keep19_v146 (W18 m ρ c)).trans (c18_v146 m ρ c)

theorem c19_arg9 : W19 m ρ c (no_index (Proc.devRef .tc main_arg9)) = (m ((c : Thread nD τ).loc main_arg9)) :=
  (keep19_arg9 (W18 m ρ c)).trans (c18_arg9 m ρ c)

theorem c19_arg10 : W19 m ρ c (no_index (Proc.devRef .tc main_arg10)) = (m ((c : Thread nD τ).loc main_arg10)) :=
  (keep19_arg10 (W18 m ρ c)).trans (c18_arg10 m ρ c)

theorem c19_arg12 : W19 m ρ c (no_index (Proc.devRef .tc main_arg12)) = (m ((c : Thread nD τ).loc main_arg12)) :=
  (keep19_arg12 (W18 m ρ c)).trans (c18_arg12 m ρ c)

theorem c19_arg13 : W19 m ρ c (no_index (Proc.devRef .tc main_arg13)) = (m ((c : Thread nD τ).loc main_arg13)) :=
  (keep19_arg13 (W18 m ρ c)).trans (c18_arg13 m ρ c)

theorem c19_arg15 : W19 m ρ c (no_index (Proc.devRef .tc main_arg15)) = (m ((c : Thread nD τ).loc main_arg15)) :=
  (keep19_arg15 (W18 m ρ c)).trans (c18_arg15 m ρ c)

theorem c19_v4 : W19 m ρ c (no_index (Proc.devRef .tc main_v4)) = Cert.ReferenceIdeal.ReadP.val_main_v4 (m ((c : Thread nD τ).loc main_arg2)) :=
  (keep19_v4 (W18 m ρ c)).trans (c18_v4 m ρ c)

theorem c19_v6 : W19 m ρ c (no_index (Proc.devRef .tc main_v6)) = Cert.ReferenceIdeal.ReadP.val_main_v6 (m ((c : Thread nD τ).loc main_arg2)) :=
  (keep19_v6 (W18 m ρ c)).trans (c18_v6 m ρ c)

theorem c19_arg11 : W19 m ρ c (no_index (Proc.devRef .tc main_arg11)) = (m ((c : Thread nD τ).loc main_arg11)) :=
  (keep19_arg11 (W18 m ρ c)).trans (c18_arg11 m ρ c)

theorem c19_arg14 : W19 m ρ c (no_index (Proc.devRef .tc main_arg14)) = (m ((c : Thread nD τ).loc main_arg14)) :=
  (keep19_arg14 (W18 m ρ c)).trans (c18_arg14 m ρ c)

/-! ### Boundary 20 -/

theorem c20_v169 : W20 m ρ c (no_index (Proc.devRef .tc main_v169)) = Cert.ReferenceIdeal.ReadP.val_main_v167 (m ((c : Thread nD τ).loc main_arg0)) (m ((c : Thread nD τ).loc main_arg1)) (m ((c : Thread nD τ).loc main_arg2)) (m ((c : Thread nD τ).loc main_arg3)) (m ((c : Thread nD τ).loc main_arg4)) :=
  (W20_of_ne m ρ c main_v169 (by decide)).trans (c19_v169 m ρ c)

set_option maxHeartbeats 8000000 in
theorem c20_v171 : W20 m ρ c (no_index (Proc.devRef .tc main_v171)) = Cert.ReferenceIdeal.ReadP.val_main_v208 (m ((c : Thread nD τ).loc main_arg0)) (m ((c : Thread nD τ).loc main_arg1)) (m ((c : Thread nD τ).loc main_arg2)) (m ((c : Thread nD τ).loc main_arg7)) (m ((c : Thread nD τ).loc main_arg8)) :=
  by
  refine (W20_arr m ρ c 5).trans ?_
  refine (Cert.KernelIdeal.SageRegion.arr1 (V19 m ρ) c).trans ?_
  refine Eq.trans ?_ (Cert.ReferenceIdeal.SageRef.layer3 (m ((c : Thread nD τ).loc main_arg0)) (m ((c : Thread nD τ).loc main_arg1)) (m ((c : Thread nD τ).loc main_arg2)) (m ((c : Thread nD τ).loc main_arg7)) (m ((c : Thread nD τ).loc main_arg8))).symm
  have e0 : V19 m ρ c (Pipeline.arrRef spec1 0) = Cert.ReferenceIdeal.ReadP.val_main_v200 (m ((c : Thread nD τ).loc main_arg0)) (m ((c : Thread nD τ).loc main_arg1)) (m ((c : Thread nD τ).loc main_arg2)) := c19_v167 m ρ c
  have e1 : V19 m ρ c (Pipeline.arrRef spec1 1) = Cert.ReferenceIdeal.ReadP.val_main_v201 (m ((c : Thread nD τ).loc main_arg1)) (m ((c : Thread nD τ).loc main_arg2)) := c19_v170 m ρ c
  have e2 : V19 m ρ c (Pipeline.arrRef spec1 2) = (m ((c : Thread nD τ).loc main_arg0)) := c19_arg0 m ρ c
  have e3 : V19 m ρ c (Pipeline.arrRef spec1 3) = (m ((c : Thread nD τ).loc main_arg7)) := c19_arg7 m ρ c
  have e4 : V19 m ρ c (Pipeline.arrRef spec1 4) = (m ((c : Thread nD τ).loc main_arg8)) := c19_arg8 m ρ c
  rw [e0, e1, e2, e3, e4]

theorem c20_v1 : W20 m ρ c (no_index (Proc.devRef .tc main_v1)) = Cert.ReferenceIdeal.ReadP.val_main_v1 (m ((c : Thread nD τ).loc main_arg1)) :=
  (W20_of_ne m ρ c main_v1 (by decide)).trans (c19_v1 m ρ c)

theorem c20_v3 : W20 m ρ c (no_index (Proc.devRef .tc main_v3)) = Cert.ReferenceIdeal.ReadP.val_main_v3 (m ((c : Thread nD τ).loc main_arg1)) :=
  (W20_of_ne m ρ c main_v3 (by decide)).trans (c19_v3 m ρ c)

theorem c20_v75 : W20 m ρ c (no_index (Proc.devRef .tc main_v75)) = Cert.ReferenceIdeal.ReadP.val_main_v75 (m ((c : Thread nD τ).loc main_arg1)) (m ((c : Thread nD τ).loc main_arg2)) :=
  (W20_of_ne m ρ c main_v75 (by decide)).trans (c19_v75 m ρ c)

theorem c20_v145 : W20 m ρ c (no_index (Proc.devRef .tc main_v145)) = Cert.ReferenceIdeal.ReadP.val_main_v145 (m ((c : Thread nD τ).loc main_arg1)) (m ((c : Thread nD τ).loc main_arg2)) :=
  (W20_of_ne m ρ c main_v145 (by decide)).trans (c19_v145 m ρ c)

theorem c20_v76 : W20 m ρ c (no_index (Proc.devRef .tc main_v76)) = Cert.ReferenceIdeal.ReadP.val_main_v76 (m ((c : Thread nD τ).loc main_arg1)) (m ((c : Thread nD τ).loc main_arg2)) :=
  (W20_of_ne m ρ c main_v76 (by decide)).trans (c19_v76 m ρ c)

theorem c20_arg5 : W20 m ρ c (no_index (Proc.devRef .tc main_arg5)) = (m ((c : Thread nD τ).loc main_arg5)) :=
  (W20_of_ne m ρ c main_arg5 (by decide)).trans (c19_arg5 m ρ c)

theorem c20_arg6 : W20 m ρ c (no_index (Proc.devRef .tc main_arg6)) = (m ((c : Thread nD τ).loc main_arg6)) :=
  (W20_of_ne m ρ c main_arg6 (by decide)).trans (c19_arg6 m ρ c)

theorem c20_v146 : W20 m ρ c (no_index (Proc.devRef .tc main_v146)) = Cert.ReferenceIdeal.ReadP.val_main_v146 (m ((c : Thread nD τ).loc main_arg1)) (m ((c : Thread nD τ).loc main_arg2)) :=
  (W20_of_ne m ρ c main_v146 (by decide)).trans (c19_v146 m ρ c)

theorem c20_arg9 : W20 m ρ c (no_index (Proc.devRef .tc main_arg9)) = (m ((c : Thread nD τ).loc main_arg9)) :=
  (W20_of_ne m ρ c main_arg9 (by decide)).trans (c19_arg9 m ρ c)

theorem c20_arg10 : W20 m ρ c (no_index (Proc.devRef .tc main_arg10)) = (m ((c : Thread nD τ).loc main_arg10)) :=
  (W20_of_ne m ρ c main_arg10 (by decide)).trans (c19_arg10 m ρ c)

theorem c20_arg12 : W20 m ρ c (no_index (Proc.devRef .tc main_arg12)) = (m ((c : Thread nD τ).loc main_arg12)) :=
  (W20_of_ne m ρ c main_arg12 (by decide)).trans (c19_arg12 m ρ c)

theorem c20_arg13 : W20 m ρ c (no_index (Proc.devRef .tc main_arg13)) = (m ((c : Thread nD τ).loc main_arg13)) :=
  (W20_of_ne m ρ c main_arg13 (by decide)).trans (c19_arg13 m ρ c)

theorem c20_arg15 : W20 m ρ c (no_index (Proc.devRef .tc main_arg15)) = (m ((c : Thread nD τ).loc main_arg15)) :=
  (W20_of_ne m ρ c main_arg15 (by decide)).trans (c19_arg15 m ρ c)

theorem c20_v4 : W20 m ρ c (no_index (Proc.devRef .tc main_v4)) = Cert.ReferenceIdeal.ReadP.val_main_v4 (m ((c : Thread nD τ).loc main_arg2)) :=
  (W20_of_ne m ρ c main_v4 (by decide)).trans (c19_v4 m ρ c)

theorem c20_v6 : W20 m ρ c (no_index (Proc.devRef .tc main_v6)) = Cert.ReferenceIdeal.ReadP.val_main_v6 (m ((c : Thread nD τ).loc main_arg2)) :=
  (W20_of_ne m ρ c main_v6 (by decide)).trans (c19_v6 m ρ c)

theorem c20_arg0 : W20 m ρ c (no_index (Proc.devRef .tc main_arg0)) = (m ((c : Thread nD τ).loc main_arg0)) :=
  ((W20_arr m ρ c 2).trans (((dat1 (V19 m ρ) c).arrAt_in 2 rfl _).trans (A_eq1 (V19 m ρ) c 2))).trans (c19_arg0 m ρ c)

theorem c20_arg11 : W20 m ρ c (no_index (Proc.devRef .tc main_arg11)) = (m ((c : Thread nD τ).loc main_arg11)) :=
  (W20_of_ne m ρ c main_arg11 (by decide)).trans (c19_arg11 m ρ c)

theorem c20_arg14 : W20 m ρ c (no_index (Proc.devRef .tc main_arg14)) = (m ((c : Thread nD τ).loc main_arg14)) :=
  (W20_of_ne m ρ c main_arg14 (by decide)).trans (c19_arg14 m ρ c)

/-! ### Boundary 21 -/

theorem c21_v194 : W21 m ρ c (no_index (Proc.devRef .tc main_v194)) = Cert.ReferenceIdeal.ReadP.val_main_v180 (m ((c : Thread nD τ).loc main_arg0)) (m ((c : Thread nD τ).loc main_arg1)) (m ((c : Thread nD τ).loc main_arg2)) (m ((c : Thread nD τ).loc main_arg3)) (m ((c : Thread nD τ).loc main_arg4)) :=
  Cert.KernelIdeal.Fold.w21_v194 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (c20_v169 m ρ c) (c20_v171 m ρ c) (c20_v1 m ρ c) (c20_v3 m ρ c) (c20_v75 m ρ c) (c20_v145 m ρ c)

theorem c21_v196 : W21 m ρ c (no_index (Proc.devRef .tc main_v196)) = Cert.ReferenceIdeal.ReadP.val_main_v181 (m ((c : Thread nD τ).loc main_arg1)) (m ((c : Thread nD τ).loc main_arg2)) :=
  Cert.KernelIdeal.Fold.w21_v196 m ρ c (m ((c : Thread nD τ).loc main_arg1)) (m ((c : Thread nD τ).loc main_arg2)) (c20_v76 m ρ c)

theorem c21_v169 : W21 m ρ c (no_index (Proc.devRef .tc main_v169)) = Cert.ReferenceIdeal.ReadP.val_main_v167 (m ((c : Thread nD τ).loc main_arg0)) (m ((c : Thread nD τ).loc main_arg1)) (m ((c : Thread nD τ).loc main_arg2)) (m ((c : Thread nD τ).loc main_arg3)) (m ((c : Thread nD τ).loc main_arg4)) :=
  (keep21_v169 (W20 m ρ c)).trans (c20_v169 m ρ c)

theorem c21_arg5 : W21 m ρ c (no_index (Proc.devRef .tc main_arg5)) = (m ((c : Thread nD τ).loc main_arg5)) :=
  (keep21_arg5 (W20 m ρ c)).trans (c20_arg5 m ρ c)

theorem c21_arg6 : W21 m ρ c (no_index (Proc.devRef .tc main_arg6)) = (m ((c : Thread nD τ).loc main_arg6)) :=
  (keep21_arg6 (W20 m ρ c)).trans (c20_arg6 m ρ c)

theorem c21_v146 : W21 m ρ c (no_index (Proc.devRef .tc main_v146)) = Cert.ReferenceIdeal.ReadP.val_main_v146 (m ((c : Thread nD τ).loc main_arg1)) (m ((c : Thread nD τ).loc main_arg2)) :=
  (keep21_v146 (W20 m ρ c)).trans (c20_v146 m ρ c)

theorem c21_v195 : W21 m ρ c (no_index (Proc.devRef .tc main_v195)) = Cert.ReferenceIdeal.ReadP.val_main_v221 (m ((c : Thread nD τ).loc main_arg0)) (m ((c : Thread nD τ).loc main_arg1)) (m ((c : Thread nD τ).loc main_arg2)) (m ((c : Thread nD τ).loc main_arg7)) (m ((c : Thread nD τ).loc main_arg8)) :=
  Cert.KernelIdeal.Fold.w21_v195 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (c20_v169 m ρ c) (c20_v171 m ρ c) (c20_v1 m ρ c) (c20_v3 m ρ c) (c20_v75 m ρ c) (c20_v145 m ρ c)

theorem c21_v171 : W21 m ρ c (no_index (Proc.devRef .tc main_v171)) = Cert.ReferenceIdeal.ReadP.val_main_v208 (m ((c : Thread nD τ).loc main_arg0)) (m ((c : Thread nD τ).loc main_arg1)) (m ((c : Thread nD τ).loc main_arg2)) (m ((c : Thread nD τ).loc main_arg7)) (m ((c : Thread nD τ).loc main_arg8)) :=
  (keep21_v171 (W20 m ρ c)).trans (c20_v171 m ρ c)

theorem c21_arg9 : W21 m ρ c (no_index (Proc.devRef .tc main_arg9)) = (m ((c : Thread nD τ).loc main_arg9)) :=
  (keep21_arg9 (W20 m ρ c)).trans (c20_arg9 m ρ c)

theorem c21_arg10 : W21 m ρ c (no_index (Proc.devRef .tc main_arg10)) = (m ((c : Thread nD τ).loc main_arg10)) :=
  (keep21_arg10 (W20 m ρ c)).trans (c20_arg10 m ρ c)

theorem c21_arg12 : W21 m ρ c (no_index (Proc.devRef .tc main_arg12)) = (m ((c : Thread nD τ).loc main_arg12)) :=
  (keep21_arg12 (W20 m ρ c)).trans (c20_arg12 m ρ c)

theorem c21_arg13 : W21 m ρ c (no_index (Proc.devRef .tc main_arg13)) = (m ((c : Thread nD τ).loc main_arg13)) :=
  (keep21_arg13 (W20 m ρ c)).trans (c20_arg13 m ρ c)

theorem c21_arg15 : W21 m ρ c (no_index (Proc.devRef .tc main_arg15)) = (m ((c : Thread nD τ).loc main_arg15)) :=
  (keep21_arg15 (W20 m ρ c)).trans (c20_arg15 m ρ c)

theorem c21_v4 : W21 m ρ c (no_index (Proc.devRef .tc main_v4)) = Cert.ReferenceIdeal.ReadP.val_main_v4 (m ((c : Thread nD τ).loc main_arg2)) :=
  (keep21_v4 (W20 m ρ c)).trans (c20_v4 m ρ c)

theorem c21_v6 : W21 m ρ c (no_index (Proc.devRef .tc main_v6)) = Cert.ReferenceIdeal.ReadP.val_main_v6 (m ((c : Thread nD τ).loc main_arg2)) :=
  (keep21_v6 (W20 m ρ c)).trans (c20_v6 m ρ c)

theorem c21_arg0 : W21 m ρ c (no_index (Proc.devRef .tc main_arg0)) = (m ((c : Thread nD τ).loc main_arg0)) :=
  (keep21_arg0 (W20 m ρ c)).trans (c20_arg0 m ρ c)

theorem c21_arg11 : W21 m ρ c (no_index (Proc.devRef .tc main_arg11)) = (m ((c : Thread nD τ).loc main_arg11)) :=
  (keep21_arg11 (W20 m ρ c)).trans (c20_arg11 m ρ c)

theorem c21_arg14 : W21 m ρ c (no_index (Proc.devRef .tc main_arg14)) = (m ((c : Thread nD τ).loc main_arg14)) :=
  (keep21_arg14 (W20 m ρ c)).trans (c20_arg14 m ρ c)

/-! ### Boundary 22 -/

theorem c22_v146 : W22 m ρ c (no_index (Proc.devRef .tc main_v146)) = Cert.ReferenceIdeal.ReadP.val_main_v146 (m ((c : Thread nD τ).loc main_arg1)) (m ((c : Thread nD τ).loc main_arg2)) :=
  (W22_of_ne m ρ c main_v146 (by decide)).trans (c21_v146 m ρ c)

theorem c22_v195 : W22 m ρ c (no_index (Proc.devRef .tc main_v195)) = Cert.ReferenceIdeal.ReadP.val_main_v221 (m ((c : Thread nD τ).loc main_arg0)) (m ((c : Thread nD τ).loc main_arg1)) (m ((c : Thread nD τ).loc main_arg2)) (m ((c : Thread nD τ).loc main_arg7)) (m ((c : Thread nD τ).loc main_arg8)) :=
  (W22_of_ne m ρ c main_v195 (by decide)).trans (c21_v195 m ρ c)

theorem c22_v171 : W22 m ρ c (no_index (Proc.devRef .tc main_v171)) = Cert.ReferenceIdeal.ReadP.val_main_v208 (m ((c : Thread nD τ).loc main_arg0)) (m ((c : Thread nD τ).loc main_arg1)) (m ((c : Thread nD τ).loc main_arg2)) (m ((c : Thread nD τ).loc main_arg7)) (m ((c : Thread nD τ).loc main_arg8)) :=
  (W22_of_ne m ρ c main_v171 (by decide)).trans (c21_v171 m ρ c)

theorem c22_arg9 : W22 m ρ c (no_index (Proc.devRef .tc main_arg9)) = (m ((c : Thread nD τ).loc main_arg9)) :=
  (W22_of_ne m ρ c main_arg9 (by decide)).trans (c21_arg9 m ρ c)

theorem c22_arg10 : W22 m ρ c (no_index (Proc.devRef .tc main_arg10)) = (m ((c : Thread nD τ).loc main_arg10)) :=
  (W22_of_ne m ρ c main_arg10 (by decide)).trans (c21_arg10 m ρ c)

theorem c22_arg12 : W22 m ρ c (no_index (Proc.devRef .tc main_arg12)) = (m ((c : Thread nD τ).loc main_arg12)) :=
  (W22_of_ne m ρ c main_arg12 (by decide)).trans (c21_arg12 m ρ c)

theorem c22_arg13 : W22 m ρ c (no_index (Proc.devRef .tc main_arg13)) = (m ((c : Thread nD τ).loc main_arg13)) :=
  (W22_of_ne m ρ c main_arg13 (by decide)).trans (c21_arg13 m ρ c)

theorem c22_arg15 : W22 m ρ c (no_index (Proc.devRef .tc main_arg15)) = (m ((c : Thread nD τ).loc main_arg15)) :=
  (W22_of_ne m ρ c main_arg15 (by decide)).trans (c21_arg15 m ρ c)

theorem c22_v4 : W22 m ρ c (no_index (Proc.devRef .tc main_v4)) = Cert.ReferenceIdeal.ReadP.val_main_v4 (m ((c : Thread nD τ).loc main_arg2)) :=
  (W22_of_ne m ρ c main_v4 (by decide)).trans (c21_v4 m ρ c)

theorem c22_v6 : W22 m ρ c (no_index (Proc.devRef .tc main_v6)) = Cert.ReferenceIdeal.ReadP.val_main_v6 (m ((c : Thread nD τ).loc main_arg2)) :=
  (W22_of_ne m ρ c main_v6 (by decide)).trans (c21_v6 m ρ c)

theorem c22_arg0 : W22 m ρ c (no_index (Proc.devRef .tc main_arg0)) = (m ((c : Thread nD τ).loc main_arg0)) :=
  (W22_of_ne m ρ c main_arg0 (by decide)).trans (c21_arg0 m ρ c)

theorem c22_arg11 : W22 m ρ c (no_index (Proc.devRef .tc main_arg11)) = (m ((c : Thread nD τ).loc main_arg11)) :=
  (W22_of_ne m ρ c main_arg11 (by decide)).trans (c21_arg11 m ρ c)

theorem c22_v197 : W22 m ρ c (no_index (Proc.devRef .tc main_v197)) = Cert.ReferenceIdeal.ReadP.val_main_v187 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  by
  refine (W22_arr m ρ c 5).trans ?_
  refine (Cert.KernelIdeal.SageRegion.arr2 (V21 m ρ) c).trans ?_
  refine Eq.trans ?_ (Cert.ReferenceIdeal.SageRef.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm
  have e0 : V21 m ρ c (Pipeline.arrRef spec2 0) = Cert.ReferenceIdeal.ReadP.val_main_v180 (m ((c : Thread nD τ).loc main_arg0)) (m ((c : Thread nD τ).loc main_arg1)) (m ((c : Thread nD τ).loc main_arg2)) (m ((c : Thread nD τ).loc main_arg3)) (m ((c : Thread nD τ).loc main_arg4)) := c21_v194 m ρ c
  have e1 : V21 m ρ c (Pipeline.arrRef spec2 1) = Cert.ReferenceIdeal.ReadP.val_main_v181 (m ((c : Thread nD τ).loc main_arg1)) (m ((c : Thread nD τ).loc main_arg2)) := c21_v196 m ρ c
  have e2 : V21 m ρ c (Pipeline.arrRef spec2 2) = Cert.ReferenceIdeal.ReadP.val_main_v167 (m ((c : Thread nD τ).loc main_arg0)) (m ((c : Thread nD τ).loc main_arg1)) (m ((c : Thread nD τ).loc main_arg2)) (m ((c : Thread nD τ).loc main_arg3)) (m ((c : Thread nD τ).loc main_arg4)) := c21_v169 m ρ c
  have e3 : V21 m ρ c (Pipeline.arrRef spec2 3) = (m ((c : Thread nD τ).loc main_arg5)) := c21_arg5 m ρ c
  have e4 : V21 m ρ c (Pipeline.arrRef spec2 4) = (m ((c : Thread nD τ).loc main_arg6)) := c21_arg6 m ρ c
  rw [e0, e1, e2, e3, e4]

theorem c22_arg14 : W22 m ρ c (no_index (Proc.devRef .tc main_arg14)) = (m ((c : Thread nD τ).loc main_arg14)) :=
  (W22_of_ne m ρ c main_arg14 (by decide)).trans (c21_arg14 m ρ c)

/-! ### Boundary 23 -/

theorem c23_v195 : W23 m ρ c (no_index (Proc.devRef .tc main_v195)) = Cert.ReferenceIdeal.ReadP.val_main_v221 (m ((c : Thread nD τ).loc main_arg0)) (m ((c : Thread nD τ).loc main_arg1)) (m ((c : Thread nD τ).loc main_arg2)) (m ((c : Thread nD τ).loc main_arg7)) (m ((c : Thread nD τ).loc main_arg8)) :=
  Cert.KernelIdeal.Fold.w21_v195 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (c20_v169 m ρ c) (c20_v171 m ρ c) (c20_v1 m ρ c) (c20_v3 m ρ c) (c20_v75 m ρ c) (c20_v145 m ρ c)

theorem c23_v198 : W23 m ρ c (no_index (Proc.devRef .tc main_v198)) = Cert.ReferenceIdeal.ReadP.val_main_v222 (m ((c : Thread nD τ).loc main_arg1)) (m ((c : Thread nD τ).loc main_arg2)) :=
  make23_v198 (W22 m ρ c) (m ((c : Thread nD τ).loc main_arg1)) (m ((c : Thread nD τ).loc main_arg2)) (c22_v146 m ρ c)

theorem c23_v171 : W23 m ρ c (no_index (Proc.devRef .tc main_v171)) = Cert.ReferenceIdeal.ReadP.val_main_v208 (m ((c : Thread nD τ).loc main_arg0)) (m ((c : Thread nD τ).loc main_arg1)) (m ((c : Thread nD τ).loc main_arg2)) (m ((c : Thread nD τ).loc main_arg7)) (m ((c : Thread nD τ).loc main_arg8)) :=
  (keep23_v171 (W22 m ρ c)).trans (c22_v171 m ρ c)

theorem c23_arg9 : W23 m ρ c (no_index (Proc.devRef .tc main_arg9)) = (m ((c : Thread nD τ).loc main_arg9)) :=
  (keep23_arg9 (W22 m ρ c)).trans (c22_arg9 m ρ c)

theorem c23_arg10 : W23 m ρ c (no_index (Proc.devRef .tc main_arg10)) = (m ((c : Thread nD τ).loc main_arg10)) :=
  (keep23_arg10 (W22 m ρ c)).trans (c22_arg10 m ρ c)

theorem c23_arg12 : W23 m ρ c (no_index (Proc.devRef .tc main_arg12)) = (m ((c : Thread nD τ).loc main_arg12)) :=
  (keep23_arg12 (W22 m ρ c)).trans (c22_arg12 m ρ c)

theorem c23_arg13 : W23 m ρ c (no_index (Proc.devRef .tc main_arg13)) = (m ((c : Thread nD τ).loc main_arg13)) :=
  (keep23_arg13 (W22 m ρ c)).trans (c22_arg13 m ρ c)

theorem c23_arg15 : W23 m ρ c (no_index (Proc.devRef .tc main_arg15)) = (m ((c : Thread nD τ).loc main_arg15)) :=
  (keep23_arg15 (W22 m ρ c)).trans (c22_arg15 m ρ c)

theorem c23_v4 : W23 m ρ c (no_index (Proc.devRef .tc main_v4)) = Cert.ReferenceIdeal.ReadP.val_main_v4 (m ((c : Thread nD τ).loc main_arg2)) :=
  (keep23_v4 (W22 m ρ c)).trans (c22_v4 m ρ c)

theorem c23_v6 : W23 m ρ c (no_index (Proc.devRef .tc main_v6)) = Cert.ReferenceIdeal.ReadP.val_main_v6 (m ((c : Thread nD τ).loc main_arg2)) :=
  (keep23_v6 (W22 m ρ c)).trans (c22_v6 m ρ c)

theorem c23_arg0 : W23 m ρ c (no_index (Proc.devRef .tc main_arg0)) = (m ((c : Thread nD τ).loc main_arg0)) :=
  (keep23_arg0 (W22 m ρ c)).trans (c22_arg0 m ρ c)

theorem c23_arg11 : W23 m ρ c (no_index (Proc.devRef .tc main_arg11)) = (m ((c : Thread nD τ).loc main_arg11)) :=
  (keep23_arg11 (W22 m ρ c)).trans (c22_arg11 m ρ c)

theorem c23_v197 : W23 m ρ c (no_index (Proc.devRef .tc main_v197)) = Cert.ReferenceIdeal.ReadP.val_main_v187 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep23_v197 (W22 m ρ c)).trans (c22_v197 m ρ c)

theorem c23_arg14 : W23 m ρ c (no_index (Proc.devRef .tc main_arg14)) = (m ((c : Thread nD τ).loc main_arg14)) :=
  (keep23_arg14 (W22 m ρ c)).trans (c22_arg14 m ρ c)

/-! ### Boundary 24 -/

theorem c24_arg12 : W24 m ρ c (no_index (Proc.devRef .tc main_arg12)) = (m ((c : Thread nD τ).loc main_arg12)) :=
  (W24_of_ne m ρ c main_arg12 (by decide)).trans (c23_arg12 m ρ c)

theorem c24_arg13 : W24 m ρ c (no_index (Proc.devRef .tc main_arg13)) = (m ((c : Thread nD τ).loc main_arg13)) :=
  (W24_of_ne m ρ c main_arg13 (by decide)).trans (c23_arg13 m ρ c)

theorem c24_arg15 : W24 m ρ c (no_index (Proc.devRef .tc main_arg15)) = (m ((c : Thread nD τ).loc main_arg15)) :=
  (W24_of_ne m ρ c main_arg15 (by decide)).trans (c23_arg15 m ρ c)

theorem c24_v4 : W24 m ρ c (no_index (Proc.devRef .tc main_v4)) = Cert.ReferenceIdeal.ReadP.val_main_v4 (m ((c : Thread nD τ).loc main_arg2)) :=
  (W24_of_ne m ρ c main_v4 (by decide)).trans (c23_v4 m ρ c)

theorem c24_v6 : W24 m ρ c (no_index (Proc.devRef .tc main_v6)) = Cert.ReferenceIdeal.ReadP.val_main_v6 (m ((c : Thread nD τ).loc main_arg2)) :=
  (W24_of_ne m ρ c main_v6 (by decide)).trans (c23_v6 m ρ c)

theorem c24_arg0 : W24 m ρ c (no_index (Proc.devRef .tc main_arg0)) = (m ((c : Thread nD τ).loc main_arg0)) :=
  (W24_of_ne m ρ c main_arg0 (by decide)).trans (c23_arg0 m ρ c)

theorem c24_arg11 : W24 m ρ c (no_index (Proc.devRef .tc main_arg11)) = (m ((c : Thread nD τ).loc main_arg11)) :=
  (W24_of_ne m ρ c main_arg11 (by decide)).trans (c23_arg11 m ρ c)

theorem c24_v197 : W24 m ρ c (no_index (Proc.devRef .tc main_v197)) = Cert.ReferenceIdeal.ReadP.val_main_v187 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W24_of_ne m ρ c main_v197 (by decide)).trans (c23_v197 m ρ c)

theorem c24_v199 : W24 m ρ c (no_index (Proc.devRef .tc main_v199)) = Cert.ReferenceIdeal.ReadP.val_main_v228 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) :=
  by
  refine (W24_arr m ρ c 5).trans ?_
  refine (Cert.KernelIdeal.SageRegion.arr3 (V23 m ρ) c).trans ?_
  refine Eq.trans ?_ (Cert.ReferenceIdeal.SageRef.layer4 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10))).symm
  have e0 : V23 m ρ c (Pipeline.arrRef spec3 0) = Cert.ReferenceIdeal.ReadP.val_main_v221 (m ((c : Thread nD τ).loc main_arg0)) (m ((c : Thread nD τ).loc main_arg1)) (m ((c : Thread nD τ).loc main_arg2)) (m ((c : Thread nD τ).loc main_arg7)) (m ((c : Thread nD τ).loc main_arg8)) := c23_v195 m ρ c
  have e1 : V23 m ρ c (Pipeline.arrRef spec3 1) = Cert.ReferenceIdeal.ReadP.val_main_v222 (m ((c : Thread nD τ).loc main_arg1)) (m ((c : Thread nD τ).loc main_arg2)) := c23_v198 m ρ c
  have e2 : V23 m ρ c (Pipeline.arrRef spec3 2) = Cert.ReferenceIdeal.ReadP.val_main_v208 (m ((c : Thread nD τ).loc main_arg0)) (m ((c : Thread nD τ).loc main_arg1)) (m ((c : Thread nD τ).loc main_arg2)) (m ((c : Thread nD τ).loc main_arg7)) (m ((c : Thread nD τ).loc main_arg8)) := c23_v171 m ρ c
  have e3 : V23 m ρ c (Pipeline.arrRef spec3 3) = (m ((c : Thread nD τ).loc main_arg9)) := c23_arg9 m ρ c
  have e4 : V23 m ρ c (Pipeline.arrRef spec3 4) = (m ((c : Thread nD τ).loc main_arg10)) := c23_arg10 m ρ c
  rw [e0, e1, e2, e3, e4]

theorem c24_arg14 : W24 m ρ c (no_index (Proc.devRef .tc main_arg14)) = (m ((c : Thread nD τ).loc main_arg14)) :=
  (W24_of_ne m ρ c main_arg14 (by decide)).trans (c23_arg14 m ρ c)

/-! ### Boundary 25 -/

theorem c25_arg0 : W25 m ρ c (no_index (Proc.devRef .tc main_arg0)) = (m ((c : Thread nD τ).loc main_arg0)) :=
  (keep25_arg0 (W24 m ρ c)).trans (c24_arg0 m ρ c)

theorem c25_arg11 : W25 m ρ c (no_index (Proc.devRef .tc main_arg11)) = (m ((c : Thread nD τ).loc main_arg11)) :=
  (keep25_arg11 (W24 m ρ c)).trans (c24_arg11 m ρ c)

theorem c25_v235 : W25 m ρ c (no_index (Proc.devRef .tc main_v235)) = Cert.ReferenceIdeal.ReadP.val_main_v263 (m ((c : Thread nD τ).loc main_arg2)) (m ((c : Thread nD τ).loc main_arg12)) (m ((c : Thread nD τ).loc main_arg13)) :=
  Cert.KernelIdeal.Fold.tail_lamx m ρ c (m ((c : Thread nD τ).loc main_arg2)) (m ((c : Thread nD τ).loc main_arg12)) (m ((c : Thread nD τ).loc main_arg13)) (c24_arg12 m ρ c) (c24_arg13 m ρ c) (c24_v4 m ρ c) (c24_v6 m ρ c)

theorem c25_v197 : W25 m ρ c (no_index (Proc.devRef .tc main_v197)) = Cert.ReferenceIdeal.ReadP.val_main_v187 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep25_v197 (W24 m ρ c)).trans (c24_v197 m ρ c)

theorem c25_v199 : W25 m ρ c (no_index (Proc.devRef .tc main_v199)) = Cert.ReferenceIdeal.ReadP.val_main_v228 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) :=
  (keep25_v199 (W24 m ρ c)).trans (c24_v199 m ρ c)

theorem c25_arg14 : W25 m ρ c (no_index (Proc.devRef .tc main_arg14)) = (m ((c : Thread nD τ).loc main_arg14)) :=
  (keep25_arg14 (W24 m ρ c)).trans (c24_arg14 m ρ c)

theorem c25_v236 : W25 m ρ c (no_index (Proc.devRef .tc main_v236)) = Cert.ReferenceIdeal.ReadP.val_main_v274 (m ((c : Thread nD τ).loc main_arg15)) :=
  Cert.KernelIdeal.Fold.tail_linb m ρ c (m ((c : Thread nD τ).loc main_arg15)) (c24_arg15 m ρ c)

/-! ### The result -/

set_option maxHeartbeats 8000000 in
/-- The result buffer after the last region is the reference's last stage of the launch arguments. -/
theorem result : W26 m ρ c (Proc.devRef .tc main_v237) = Cert.ReferenceIdeal.ReadP.val_main_v276 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W26_arr m ρ c 9).trans ?_
  refine (Cert.KernelIdeal.FinalRegion.arr4 (V25 m ρ) c).trans ?_
  refine Eq.trans ?_ (Cert.FinalRef.result_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).symm
  have e0 : V25 m ρ c (Pipeline.arrRef spec4 0) = (m ((c : Thread nD τ).loc main_arg0)) := c25_arg0 m ρ c
  have e1 : V25 m ρ c (Pipeline.arrRef spec4 1) = (m ((c : Thread nD τ).loc main_arg11)) := c25_arg11 m ρ c
  have e2 : V25 m ρ c (Pipeline.arrRef spec4 2) = Cert.ReferenceIdeal.ReadP.val_main_v263 (m ((c : Thread nD τ).loc main_arg2)) (m ((c : Thread nD τ).loc main_arg12)) (m ((c : Thread nD τ).loc main_arg13)) := c25_v235 m ρ c
  have e3 : V25 m ρ c (Pipeline.arrRef spec4 3) = Cert.ReferenceIdeal.ReadP.val_main_v187 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := c25_v197 m ρ c
  have e4 : V25 m ρ c (Pipeline.arrRef spec4 4) = Cert.ReferenceIdeal.ReadP.val_main_v228 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) := c25_v199 m ρ c
  have e7 : V25 m ρ c (Pipeline.arrRef spec4 7) = (m ((c : Thread nD τ).loc main_arg14)) := c25_arg14 m ρ c
  have e8 : V25 m ρ c (Pipeline.arrRef spec4 8) = Cert.ReferenceIdeal.ReadP.val_main_v274 (m ((c : Thread nD τ).loc main_arg15)) := c25_v236 m ρ c
  have e5 : (V25 m ρ c (Pipeline.arrRef spec4 5)) (ValueIdx.ix2 (0 : Fin 1) (0 : Fin 1)) = Cert.ReferenceIdeal.ReadP.val_main_v243 (m ((c : Thread nD τ).loc main_arg12)) ValueIdx.ix0 :=
    Cert.KernelIdeal.Fold.tail_laml m ρ c (m ((c : Thread nD τ).loc main_arg12)) (c24_arg12 m ρ c)
  have e6 : (V25 m ρ c (Pipeline.arrRef spec4 6)) (ValueIdx.ix2 (0 : Fin 1) (0 : Fin 1)) = Cert.ReferenceIdeal.ReadP.val_main_v257 (m ((c : Thread nD τ).loc main_arg13)) ValueIdx.ix0 :=
    Cert.KernelIdeal.Fold.tail_lamh m ρ c (m ((c : Thread nD τ).loc main_arg13)) (c24_arg13 m ρ c)
  rw [e0, e1, e2, e3, e4, e5, e6, e7, e8]

end Cert.KernelIdeal.Chain

end
-- ==== Proof.lean ====
/-
  The certificate of the graph network `NCSAGE`: a Pallas kernel for the dense stages against the plain reference.

  Both programs compute, for 100000 nodes with 64 features and 1600000 edges,
    * four normalised adjacency operators (the node mask or its complement, taken at an edge's target or source:
      edge weights `d[row] · v · d[col]`, diagonal `d · d`, `d = (segment-sum v + 1)^(-1/2)`),
    * two branches of two SAGE layers each, a layer being
          out = (A_hat x) Wl + x Wr,   A_hat x = segment-sum (w[:, None] · x[col]) + diag[:, None] · x,
      the first layer of a branch followed by `max · 0`,
    * a gated head: `max (lamx · (x WX) + laml · xl + lamh · xh) 0`, multiplied by the classifier's weight, plus its bias,
      with the gates two two-element softmaxes.
  The reference does all of it with host operations.  The kernel keeps the sparse part (gathers and segment sums) on the
  host — gathering once for the two branches by concatenating their columns, and slicing the sum back — and runs the
  five dense stages as pipelined regions over blocks of 5000 rows, with the matrix products taken through a narrower
  float format.  On the extended reals a change of float format is the identity, a scatter-add of a column-wise
  concatenation sliced back is the scatter-add of each half, a row gather of a concatenation sliced back is the row
  gather of each half, and each region's blocks tile the function of whole arrays it computes; every other operation is
  the same in both programs, in the same order.  So the kernel's result buffer holds, stage for stage, what the
  reference's holds: the claims' common value is the reference's last stage of the launch arguments.

  The three frames: the kernel's two are its generated frame certificate; the reference's is its run with the result
  dropped.  No operation was rewritten by the idealization, so `preserves` asks nothing.
-/
import proofs.«169779_j77360950935705_2_alg».proof.Defs
import proofs.«169779_j77360950935705_2_alg».proof.Proof.Gen.Kernel
import proofs.«169779_j77360950935705_2_alg».proof.Proof.Gen.Kernel.Frame
import proofs.«169779_j77360950935705_2_alg».proof.Proof.Gen.KernelIdeal
import proofs.«169779_j77360950935705_2_alg».proof.Proof.Gen.KernelIdeal.Frame
import proofs.«169779_j77360950935705_2_alg».proof.Proof.Gen.ReferenceIdeal
import proofs.«169779_j77360950935705_2_alg».proof.Proof.Gen.Pre_finite_inputs
import proofs.«169779_j77360950935705_2_alg».proof.Proof.KernelRun
import proofs.«169779_j77360950935705_2_alg».proof.Proof.RefRunStaged
import proofs.«169779_j77360950935705_2_alg».proof.Proof.RefRead
import proofs.«169779_j77360950935705_2_alg».proof.Proof.FoldChain
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Staged.run m ρ)

theorem preserves : Cert.preserves_Kernel_KernelIdeal := trivial

/-- From memories agreeing on the arguments both programs end with the reference's last stage of the kernel's
    launch arguments in their result buffers. -/
theorem algebraic : Cert.algebraic_KernelIdeal_ReferenceIdeal := by
  intro m ρ m' ρ' _ hagree
  refine ⟨fun c => Cert.ReferenceIdeal.ReadP.val_main_v276 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result m ρ c), (h c).2⟩)
      (Cert.KernelIdeal.RunValue.run_result (F := Ideal) m ρ)
  · refine (θ_run Cert.ReferenceIdeal.defs _ _).mono (fun r h c => ⟨?_, (h c).2⟩)
      (Cert.ReferenceIdeal.Staged.run m' ρ')
    obtain ⟨a0, a1, a2, a3, a4, a5, a6, a7, a8, a9, a10, a11, a12, a13, a14, a15⟩ := hagree c
    rw [(h c).1, a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
